-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v223)) (v1 : (c : Dev Cert.KernelIdeal.nD) → Buf (Elt Ideal) ((c.tc : Thread Cert.KernelIdeal.nD Cert.KernelIdeal.τ).loc Cert.KernelIdeal.main_v226)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v223) = v0 c
          ∧ r.2.mem ((c.tc : Thread Cert.KernelIdeal.nD Cert.KernelIdeal.τ).loc Cert.KernelIdeal.main_v226) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v329) = v0 c
          ∧ r.2.mem ((c.tc : Thread Cert.ReferenceIdeal.nD Cert.ReferenceIdeal.τ).loc Cert.ReferenceIdeal.main_v339) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x16 : Shape := ⟨2, ![20000, 16]⟩
abbrev S160000x8 : Shape := ⟨2, ![160000, 8]⟩
abbrev S160000 : Shape := ⟨1, ![160000]⟩
abbrev S16x128 : Shape := ⟨2, ![16, 128]⟩
abbrev S128 : Shape := ⟨1, ![128]⟩
abbrev S128x128 : Shape := ⟨2, ![128, 128]⟩
abbrev S8x128 : Shape := ⟨2, ![8, 128]⟩
abbrev S5x384x128 : Shape := ⟨3, ![5, 384, 128]⟩
abbrev S5x128 : Shape := ⟨2, ![5, 128]⟩
abbrev S5x128x128 : Shape := ⟨3, ![5, 128, 128]⟩
abbrev S128x3 : Shape := ⟨2, ![128, 3]⟩
abbrev S3 : Shape := ⟨1, ![3]⟩
abbrev S128x1 : Shape := ⟨2, ![128, 1]⟩
abbrev S1 : Shape := ⟨1, ![1]⟩
abbrev S_ : Shape := ⟨0, ![]⟩

class Facts : Prop where
  bcast_S_S20000x16 : S_.BroadcastsInDim S20000x16 (![] : Fin 0 → Fin S20000x16.rank)
  reducesTo_S20000x16_S_d0_1 : S20000x16.ReducesTo [0, 1] S_
  h_S_ : 0 < S_.numel
  bcast_S_S160000x8 : S_.BroadcastsInDim S160000x8 (![] : Fin 0 → Fin S160000x8.rank)
  reducesTo_S160000x8_S_d0_1 : S160000x8.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S8x128 : S_.BroadcastsInDim S8x128 (![] : Fin 0 → Fin S8x128.rank)
  reducesTo_S8x128_S_d0_1 : S8x128.ReducesTo [0, 1] S_
  bcast_S_S5x384x128 : S_.BroadcastsInDim S5x384x128 (![] : Fin 0 → Fin S5x384x128.rank)
  reducesTo_S5x384x128_S_d0_1_2 : S5x384x128.ReducesTo [0, 1, 2] S_
  bcast_S_S5x128 : S_.BroadcastsInDim S5x128 (![] : Fin 0 → Fin S5x128.rank)
  reducesTo_S5x128_S_d0_1 : S5x128.ReducesTo [0, 1] S_
  bcast_S_S5x128x128 : S_.BroadcastsInDim S5x128x128 (![] : Fin 0 → Fin S5x128x128.rank)
  reducesTo_S5x128x128_S_d0_1_2 : S5x128x128.ReducesTo [0, 1, 2] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg27 : FVec F S1 .f32) (main_v118 : IVec S_ 1) (main_v119 : FVec F S128x1 .f32) : IVec S_ 1 :=
  let main_cst_46 : FVec F S_ .f32 := constant S_ .f32 0x7F800000#32
  let main_v120 : FVec F S128x1 .f32 := broadcastInDim S128x1 ![] bcast_S_S128x1 main_cst_46
  let main_v121 : IVec S128x1 1 := cmpf .olt main_v119 main_v120
  let main_c_47 : IVec S_ 1 := constantI S_ 1 1#1
  let main_v122 : IVec S_ 1 := (fun x v => Host.reduce IntOp.andi x v reducesTo_S128x1_S_d0_1 h_S_) main_v121 main_c_47
  let main_v123 : IVec S_ 1 := andi main_v118 main_v122
  let main_v124 : FVec F S1 .f32 := Host.absf main_arg27
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  main_v128

def fn_part6 {F : FTy → Type} [FloatOps F] (main_arg23 : FVec F S3 .f32) (main_arg24 : FVec F S128x128 .f32) (main_arg25 : FVec F S128 .f32) (main_arg26 : FVec F S128x1 .f32) (main_arg27 : FVec F S1 .f32) (main_v98 : IVec S_ 1) (main_v101 : IVec S128x3 1) (main_c_39 : IVec S_ 1) : IVec S_ 1 :=
  let main_v102 : IVec S_ 1 := (fun x v => Host.reduce IntOp.andi x v reducesTo_S128x3_S_d0_1 h_S_) main_v101 main_c_39
  let main_v103 : IVec S_ 1 := andi main_v98 main_v102
  let main_v104 : FVec F S3 .f32 := Host.absf main_arg23
  let main_cst_40 : FVec F S_ .f32 := constant S_ .f32 0x7F800000#32
  let main_v105 : FVec F S3 .f32 := broadcastInDim S3 ![] bcast_S_S3 main_cst_40
  let main_v106 : IVec S3 1 := cmpf .olt main_v104 main_v105
  let main_c_41 : IVec S_ 1 := constantI S_ 1 1#1
  let main_v107 : IVec S_ 1 := (fun x v => Host.reduce IntOp.andi x v reducesTo_S3_S_d0 h_S_) main_v106 main_c_41
  let main_v108 : IVec S_ 1 := andi main_v103 main_v107
  let main_v109 : FVec F S128x128 .f32 := Host.absf main_arg24
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x1 .f32 := Host.absf main_arg26
  fn_part7 (F := F) main_arg27 main_v118 main_v119

def fn_part5 {F : FTy → Type} [FloatOps F] (main_arg20 : FVec F S128x128 .f32) (main_arg21 : FVec F S128 .f32) (main_arg22 : FVec F S128x3 .f32) (main_arg23 : FVec F S3 .f32) (main_arg24 : FVec F S128x128 .f32) (main_arg25 : FVec F S128 .f32) (main_arg26 : FVec F S128x1 .f32) (main_arg27 : FVec F S1 .f32) (main_v83 : IVec S_ 1) (main_v84 : FVec F S5x128 .f32) (main_cst_32 : FVec F S_ .f32) : IVec S_ 1 :=
  let main_v85 : FVec F S5x128 .f32 := broadcastInDim S5x128 ![] bcast_S_S5x128 main_cst_32
  let main_v86 : IVec S5x128 1 := cmpf .olt main_v84 main_v85
  let main_c_33 : IVec S_ 1 := constantI S_ 1 1#1
  let main_v87 : IVec S_ 1 := (fun x v => Host.reduce IntOp.andi x v reducesTo_S5x128_S_d0_1 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x3 .f32 := Host.absf main_arg22
  let main_cst_38 : FVec F S_ .f32 := constant S_ .f32 0x7F800000#32
  let main_v100 : FVec F S128x3 .f32 := broadcastInDim S128x3 ![] bcast_S_S128x3 main_cst_38
  let main_v101 : IVec S128x3 1 := cmpf .olt main_v99 main_v100
  let main_c_39 : IVec S_ 1 := constantI S_ 1 1#1
  fn_part6 (F := F) main_arg23 main_arg24 main_arg25 main_arg26 main_arg27 main_v98 main_v101 main_c_39

def fn_part4 {F : FTy → Type} [FloatOps F] (main_arg16 : FVec F S5x384x128 .f32) (main_arg17 : FVec F S5x128 .f32) (main_arg18 : FVec F S5x128x128 .f32) (main_arg19 : FVec F S5x128 .f32) (main_arg20 : FVec F S128x128 .f32) (main_arg21 : FVec F S128 .f32) (main_arg22 : FVec F S128x3 .f32) (main_arg23 : FVec F S3 .f32) (main_arg24 : FVec F S128x128 .f32) (main_arg25 : FVec F S128 .f32) (main_arg26 : FVec F S128x1 .f32) (main_arg27 : FVec F S1 .f32) (main_v63 : IVec S_ 1) (main_v67 : IVec S_ 1) : IVec S_ 1 :=
  let main_v68 : IVec S_ 1 := andi main_v63 main_v67
  let main_v69 : FVec F S5x384x128 .f32 := Host.absf main_arg16
  let main_cst_26 : FVec F S_ .f32 := constant S_ .f32 0x7F800000#32
  let main_v70 : FVec F S5x384x128 .f32 := broadcastInDim S5x384x128 ![] bcast_S_S5x384x128 main_cst_26
  let main_v71 : IVec S5x384x128 1 := cmpf .olt main_v69 main_v70
  let main_c_27 : IVec S_ 1 := constantI S_ 1 1#1
  let main_v72 : IVec S_ 1 := (fun x v => Host.reduce IntOp.andi x v reducesTo_S5x384x128_S_d0_1_2 h_S_) main_v71 main_c_27
  let main_v73 : IVec S_ 1 := andi main_v68 main_v72
  let main_v74 : FVec F S5x128 .f32 := Host.absf main_arg17
  let main_cst_28 : FVec F S_ .f32 := constant S_ .f32 0x7F800000#32
  let main_v75 : FVec F S5x128 .f32 := broadcastInDim S5x128 ![] bcast_S_S5x128 main_cst_28
  let main_v76 : IVec S5x128 1 := cmpf .olt main_v74 main_v75
  let main_c_29 : IVec S_ 1 := constantI S_ 1 1#1
  let main_v77 : IVec S_ 1 := (fun x v => Host.reduce IntOp.andi x v reducesTo_S5x128_S_d0_1 h_S_) main_v76 main_c_29
  let main_v78 : IVec S_ 1 := andi main_v73 main_v77
  let main_v79 : FVec F S5x128x128 .f32 := Host.absf main_arg18
  let main_cst_30 : FVec F S_ .f32 := constant S_ .f32 0x7F800000#32
  let main_v80 : FVec F S5x128x128 .f32 := broadcastInDim S5x128x128 ![] bcast_S_S5x128x128 main_cst_30
  let main_v81 : IVec S5x128x128 1 := cmpf .olt main_v79 main_v80
  let main_c_31 : IVec S_ 1 := constantI S_ 1 1#1
  let main_v82 : IVec S_ 1 := (fun x v => Host.reduce IntOp.andi x v reducesTo_S5x128x128_S_d0_1_2 h_S_) main_v81 main_c_31
  let main_v83 : IVec S_ 1 := andi main_v78 main_v82
  let main_v84 : FVec F S5x128 .f32 := Host.absf main_arg19
  let main_cst_32 : FVec F S_ .f32 := constant S_ .f32 0x7F800000#32
  fn_part5 (F := F) main_arg20 main_arg21 main_arg22 main_arg23 main_arg24 main_arg25 main_arg26 main_arg27 main_v83 main_v84 main_cst_32

def fn_part3 {F : FTy → Type} [FloatOps F] (main_arg13 : FVec F S5x128 .f32) (main_arg14 : FVec F S5x128x128 .f32) (main_arg15 : FVec F S5x128 .f32) (main_arg16 : FVec F S5x384x128 .f32) (main_arg17 : FVec F S5x128 .f32) (main_arg18 : FVec F S5x128x128 .f32) (main_arg19 : FVec F S5x128 .f32) (main_arg20 : FVec F S128x128 .f32) (main_arg21 : FVec F S128 .f32) (main_arg22 : FVec F S128x3 .f32) (main_arg23 : FVec F S3 .f32) (main_arg24 : FVec F S128x128 .f32) (main_arg25 : FVec F S128 .f32) (main_arg26 : FVec F S128x1 .f32) (main_arg27 : FVec F S1 .f32) (main_v48 : IVec S_ 1) (main_v49 : FVec F S5x384x128 .f32) (main_v50 : FVec F S5x384x128 .f32) : IVec S_ 1 :=
  let main_v51 : IVec S5x384x128 1 := cmpf .olt main_v49 main_v50
  let main_c_19 : IVec S_ 1 := constantI S_ 1 1#1
  let main_v52 : IVec S_ 1 := (fun x v => Host.reduce IntOp.andi x v reducesTo_S5x384x128_S_d0_1_2 h_S_) main_v51 main_c_19
  let main_v53 : IVec S_ 1 := andi main_v48 main_v52
  let main_v54 : FVec F S5x128 .f32 := Host.absf main_arg13
  let main_cst_20 : FVec F S_ .f32 := constant S_ .f32 0x7F800000#32
  let main_v55 : FVec F S5x128 .f32 := broadcastInDim S5x128 ![] bcast_S_S5x128 main_cst_20
  let main_v56 : IVec S5x128 1 := cmpf .olt main_v54 main_v55
  let main_c_21 : IVec S_ 1 := constantI S_ 1 1#1
  let main_v57 : IVec S_ 1 := (fun x v => Host.reduce IntOp.andi x v reducesTo_S5x128_S_d0_1 h_S_) main_v56 main_c_21
  let main_v58 : IVec S_ 1 := andi main_v53 main_v57
  let main_v59 : FVec F S5x128x128 .f32 := Host.absf main_arg14
  let main_cst_22 : FVec F S_ .f32 := constant S_ .f32 0x7F800000#32
  let main_v60 : FVec F S5x128x128 .f32 := broadcastInDim S5x128x128 ![] bcast_S_S5x128x128 main_cst_22
  let main_v61 : IVec S5x128x128 1 := cmpf .olt main_v59 main_v60
  let main_c_23 : IVec S_ 1 := constantI S_ 1 1#1
  let main_v62 : IVec S_ 1 := (fun x v => Host.reduce IntOp.andi x v reducesTo_S5x128x128_S_d0_1_2 h_S_) main_v61 main_c_23
  let main_v63 : IVec S_ 1 := andi main_v58 main_v62
  let main_v64 : FVec F S5x128 .f32 := Host.absf main_arg15
  let main_cst_24 : FVec F S_ .f32 := constant S_ .f32 0x7F800000#32
  let main_v65 : FVec F S5x128 .f32 := broadcastInDim S5x128 ![] bcast_S_S5x128 main_cst_24
  let main_v66 : IVec S5x128 1 := cmpf .olt main_v64 main_v65
  let main_c_25 : IVec S_ 1 := constantI S_ 1 1#1
  let main_v67 : IVec S_ 1 := (fun x v => Host.reduce IntOp.andi x v reducesTo_S5x128_S_d0_1 h_S_) main_v66 main_c_25
  fn_part4 (F := F) main_arg16 main_arg17 main_arg18 main_arg19 main_arg20 main_arg21 main_arg22 main_arg23 main_arg24 main_arg25 main_arg26 main_arg27 main_v63 main_v67

def fn_part2 {F : FTy → Type} [FloatOps F] (main_arg9 : FVec F S128 .f32) (main_arg10 : FVec F S128x128 .f32) (main_arg11 : FVec F S128 .f32) (main_arg12 : FVec F S5x384x128 .f32) (main_arg13 : FVec F S5x128 .f32) (main_arg14 : FVec F S5x128x128 .f32) (main_arg15 : FVec F S5x128 .f32) (main_arg16 : FVec F S5x384x128 .f32) (main_arg17 : FVec F S5x128 .f32) (main_arg18 : FVec F S5x128x128 .f32) (main_arg19 : FVec F S5x128 .f32) (main_arg20 : FVec F S128x128 .f32) (main_arg21 : FVec F S128 .f32) (main_arg22 : FVec F S128x3 .f32) (main_arg23 : FVec F S3 .f32) (main_arg24 : FVec F S128x128 .f32) (main_arg25 : FVec F S128 .f32) (main_arg26 : FVec F S128x1 .f32) (main_arg27 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S5x384x128 .f32 := Host.absf main_arg12
  let main_cst_18 : FVec F S_ .f32 := constant S_ .f32 0x7F800000#32
  let main_v50 : FVec F S5x384x128 .f32 := broadcastInDim S5x384x128 ![] bcast_S_S5x384x128 main_cst_18
  fn_part3 (F := F) main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg6 : FVec F S128x128 .f32) (main_arg7 : FVec F S128 .f32) (main_arg8 : FVec F S8x128 .f32) (main_arg9 : FVec F S128 .f32) (main_arg10 : FVec F S128x128 .f32) (main_arg11 : FVec F S128 .f32) (main_arg12 : FVec F S5x384x128 .f32) (main_arg13 : FVec F S5x128 .f32) (main_arg14 : FVec F S5x128x128 .f32) (main_arg15 : FVec F S5x128 .f32) (main_arg16 : FVec F S5x384x128 .f32) (main_arg17 : FVec F S5x128 .f32) (main_arg18 : FVec F S5x128x128 .f32) (main_arg19 : FVec F S5x128 .f32) (main_arg20 : FVec F S128x128 .f32) (main_arg21 : FVec F S128 .f32) (main_arg22 : FVec F S128x3 .f32) (main_arg23 : FVec F S3 .f32) (main_arg24 : FVec F S128x128 .f32) (main_arg25 : FVec F S128 .f32) (main_arg26 : FVec F S128x1 .f32) (main_arg27 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S8x128 .f32 := Host.absf main_arg8
  let main_cst_10 : FVec F S_ .f32 := constant S_ .f32 0x7F800000#32
  let main_v30 : FVec F S8x128 .f32 := broadcastInDim S8x128 ![] bcast_S_S8x128 main_cst_10
  let main_v31 : IVec S8x128 1 := cmpf .olt main_v29 main_v30
  let main_c_11 : IVec S_ 1 := constantI S_ 1 1#1
  let main_v32 : IVec S_ 1 := (fun x v => Host.reduce IntOp.andi x v reducesTo_S8x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S20000x16 .f32) (main_arg1 : FVec F S160000x8 .f32) (main_arg2 : IVec S160000 32) (main_arg3 : IVec S160000 32) (main_arg4 : FVec F S16x128 .f32) (main_arg5 : FVec F S128 .f32) (main_arg6 : FVec F S128x128 .f32) (main_arg7 : FVec F S128 .f32) (main_arg8 : FVec F S8x128 .f32) (main_arg9 : FVec F S128 .f32) (main_arg10 : FVec F S128x128 .f32) (main_arg11 : FVec F S128 .f32) (main_arg12 : FVec F S5x384x128 .f32) (main_arg13 : FVec F S5x128 .f32) (main_arg14 : FVec F S5x128x128 .f32) (main_arg15 : FVec F S5x128 .f32) (main_arg16 : FVec F S5x384x128 .f32) (main_arg17 : FVec F S5x128 .f32) (main_arg18 : FVec F S5x128x128 .f32) (main_arg19 : FVec F S5x128 .f32) (main_arg20 : FVec F S128x128 .f32) (main_arg21 : FVec F S128 .f32) (main_arg22 : FVec F S128x3 .f32) (main_arg23 : FVec F S3 .f32) (main_arg24 : FVec F S128x128 .f32) (main_arg25 : FVec F S128 .f32) (main_arg26 : FVec F S128x1 .f32) (main_arg27 : FVec F S1 .f32) : IVec S_ 1 :=
  let main_v0 : FVec F S20000x16 .f32 := Host.absf main_arg0
  let main_cst : FVec F S_ .f32 := constant S_ .f32 0x7F800000#32
  let main_v1 : FVec F S20000x16 .f32 := broadcastInDim S20000x16 ![] bcast_S_S20000x16 main_cst
  let main_v2 : IVec S20000x16 1 := cmpf .olt main_v0 main_v1
  let main_c : IVec S_ 1 := constantI S_ 1 1#1
  let main_v3 : IVec S_ 1 := (fun x v => Host.reduce IntOp.andi x v reducesTo_S20000x16_S_d0_1 h_S_) main_v2 main_c
  let main_v4 : FVec F S160000x8 .f32 := Host.absf main_arg1
  let main_cst_0 : FVec F S_ .f32 := constant S_ .f32 0x7F800000#32
  let main_v5 : FVec F S160000x8 .f32 := broadcastInDim S160000x8 ![] bcast_S_S160000x8 main_cst_0
  let main_v6 : IVec S160000x8 1 := cmpf .olt main_v4 main_v5
  let main_c_1 : IVec S_ 1 := constantI S_ 1 1#1
  let main_v7 : IVec S_ 1 := (fun x v => Host.reduce IntOp.andi x v reducesTo_S160000x8_S_d0_1 h_S_) main_v6 main_c_1
  let main_v8 : IVec S_ 1 := andi main_v3 main_v7
  let main_v9 : FVec F S16x128 .f32 := Host.absf main_arg4
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S20000x16 : Shape := ⟨2, ![20000, 16]⟩
abbrev S160000x8 : Shape := ⟨2, ![160000, 8]⟩
abbrev S160000 : Shape := ⟨1, ![160000]⟩
abbrev S16x128 : Shape := ⟨2, ![16, 128]⟩
abbrev S128 : Shape := ⟨1, ![128]⟩
abbrev S128x128 : Shape := ⟨2, ![128, 128]⟩
abbrev S8x128 : Shape := ⟨2, ![8, 128]⟩
abbrev S5x384x128 : Shape := ⟨3, ![5, 384, 128]⟩
abbrev S5x128 : Shape := ⟨2, ![5, 128]⟩
abbrev S5x128x128 : Shape := ⟨3, ![5, 128, 128]⟩
abbrev S128x3 : Shape := ⟨2, ![128, 3]⟩
abbrev S3 : Shape := ⟨1, ![3]⟩
abbrev S128x1 : Shape := ⟨2, ![128, 1]⟩
abbrev S1 : Shape := ⟨1, ![1]⟩
abbrev S1x128 : Shape := ⟨2, ![1, 128]⟩
abbrev S20000x128 : Shape := ⟨2, ![20000, 128]⟩
abbrev S2000x16 : Shape := ⟨2, ![2000, 16]⟩
abbrev S2000x128 : Shape := ⟨2, ![2000, 128]⟩
abbrev S160000x128 : Shape := ⟨2, ![160000, 128]⟩
abbrev S4000x8 : Shape := ⟨2, ![4000, 8]⟩
abbrev S4000x128 : Shape := ⟨2, ![4000, 128]⟩
abbrev S_ : Shape := ⟨0, ![]⟩
abbrev S160000x1 : Shape := ⟨2, ![160000, 1]⟩
abbrev S1x384x128 : Shape := ⟨3, ![1, 384, 128]⟩
abbrev S384x128 : Shape := ⟨2, ![384, 128]⟩
abbrev S1x128x128 : Shape := ⟨3, ![1, 128, 128]⟩
abbrev S1x3 : Shape := ⟨2, ![1, 3]⟩
abbrev S20000x3 : Shape := ⟨2, ![20000, 3]⟩
abbrev S2000x3 : Shape := ⟨2, ![2000, 3]⟩
abbrev S1x1 : Shape := ⟨2, ![1, 1]⟩
abbrev S4000x1 : Shape := ⟨2, ![4000, 1]⟩

abbrev nBuf : Space → Nat
  | .hbm => 290
  | .vmem => 162
  | .smem => 0
  | _ => 0

abbrev hbmTy0_0 (i : Nat) : BufTy := match i % 128 with
  | 0 => ⟨S20000x16, .f32⟩
  | 1 => ⟨S160000x8, .f32⟩
  | 2 => ⟨S160000, .i32⟩
  | 3 => ⟨S160000, .i32⟩
  | 4 => ⟨S16x128, .f32⟩
  | 5 => ⟨S128, .f32⟩
  | 6 => ⟨S128x128, .f32⟩
  | 7 => ⟨S128, .f32⟩
  | 8 => ⟨S8x128, .f32⟩
  | 9 => ⟨S128, .f32⟩
  | 10 => ⟨S128x128, .f32⟩
  | 11 => ⟨S128, .f32⟩
  | 12 => ⟨S5x384x128, .f32⟩
  | 13 => ⟨S5x128, .f32⟩
  | 14 => ⟨S5x128x128, .f32⟩
  | 15 => ⟨S5x128, .f32⟩
  | 16 => ⟨S5x384x128, .f32⟩
  | 17 => ⟨S5x128, .f32⟩
  | 18 => ⟨S5x128x128, .f32⟩
  | 19 => ⟨S5x128, .f32⟩
  | 20 => ⟨S128x128, .f32⟩
  | 21 => ⟨S128, .f32⟩
  | 22 => ⟨S128x3, .f32⟩
  | 23 => ⟨S3, .f32⟩
  | 24 => ⟨S128x128, .f32⟩
  | 25 => ⟨S128, .f32⟩
  | 26 => ⟨S128x1, .f32⟩
  | 27 => ⟨S1, .f32⟩
  | 28 => ⟨S1x128, .f32⟩
  | 29 => ⟨S1x128, .f32⟩
  | 30 => ⟨S20000x128, .f32⟩
  | 31 => ⟨S1x128, .f32⟩
  | 32 => ⟨S1x128, .f32⟩
  | 33 => ⟨S160000x128, .f32⟩
  | 34 => ⟨S20000x128, .bf16⟩
  | 35 => ⟨S_, .i32⟩
  | 36 => ⟨S160000, .i32⟩
  | 37 => ⟨S160000, .i1⟩
  | 38 => ⟨S_, .i32⟩
  | 39 => ⟨S160000, .i32⟩
  | 40 => ⟨S160000, .i32⟩
  | 41 => ⟨S160000, .i32⟩
  | 42 => ⟨S160000x1, .i32⟩
  | 43 => ⟨S160000x128, .bf16⟩
  | 44 => ⟨S_, .i32⟩
  | 45 => ⟨S160000, .i32⟩
  | 46 => ⟨S160000, .i1⟩
  | 47 => ⟨S_, .i32⟩
  | 48 => ⟨S160000, .i32⟩
  | 49 => ⟨S160000, .i32⟩
  | 50 => ⟨S160000, .i32⟩
  | 51 => ⟨S160000x1, .i32⟩
  | 52 => ⟨S160000x128, .bf16⟩
  | 53 => ⟨S1x384x128, .f32⟩
  | 54 => ⟨S384x128, .f32⟩
  | 55 => ⟨S1x128, .f32⟩
  | 56 => ⟨S128, .f32⟩
  | 57 => ⟨S1x128x128, .f32⟩
  | 58 => ⟨S128x128, .f32⟩
  | 59 => ⟨S1x128, .f32⟩
  | 60 => ⟨S128, .f32⟩
  | 61 => ⟨S1x128, .f32⟩
  | 62 => ⟨S1x128, .f32⟩
  | 63 => ⟨S160000x128, .f32⟩
  | 64 => ⟨S160000x128, .f32⟩
  | 65 => ⟨S_, .f32⟩
  | 66 => ⟨S20000x128, .f32⟩
  | 67 => ⟨S160000x1, .i32⟩
  | 68 => ⟨S20000x128, .f32⟩
  | 69 => ⟨S_, .f32⟩
  | 70 => ⟨S20000x128, .f32⟩
  | 71 => ⟨S160000x1, .i32⟩
  | 72 => ⟨S20000x128, .f32⟩
  | 73 => ⟨S1x384x128, .f32⟩
  | 74 => ⟨S384x128, .f32⟩
  | 75 => ⟨S1x128, .f32⟩
  | 76 => ⟨S128, .f32⟩
  | 77 => ⟨S1x128x128, .f32⟩
  | 78 => ⟨S128x128, .f32⟩
  | 79 => ⟨S1x128, .f32⟩
  | 80 => ⟨S128, .f32⟩
  | 81 => ⟨S1x128, .f32⟩
  | 82 => ⟨S1x128, .f32⟩
  | 83 => ⟨S20000x128, .f32⟩
  | 84 => ⟨S20000x128, .bf16⟩
  | 85 => ⟨S_, .i32⟩
  | 86 => ⟨S160000, .i32⟩
  | 87 => ⟨S160000, .i1⟩
  | 88 => ⟨S_, .i32⟩
  | 89 => ⟨S160000, .i32⟩
  | 90 => ⟨S160000, .i32⟩
  | 91 => ⟨S160000, .i32⟩
  | 92 => ⟨S160000x1, .i32⟩
  | 93 => ⟨S160000x128, .bf16⟩
  | 94 => ⟨S_, .i32⟩
  | 95 => ⟨S160000, .i32⟩
  | 96 => ⟨S160000, .i1⟩
  | 97 => ⟨S_, .i32⟩
  | 98 => ⟨S160000, .i32⟩
  | 99 => ⟨S160000, .i32⟩
  | 100 => ⟨S160000, .i32⟩
  | 101 => ⟨S160000x1, .i32⟩
  | 102 => ⟨S160000x128, .bf16⟩
  | 103 => ⟨S1x384x128, .f32⟩
  | 104 => ⟨S384x128, .f32⟩
  | 105 => ⟨S1x128, .f32⟩
  | 106 => ⟨S128, .f32⟩
  | 107 => ⟨S1x128x128, .f32⟩
  | 108 => ⟨S128x128, .f32⟩
  | 109 => ⟨S1x128, .f32⟩
  | 110 => ⟨S128, .f32⟩
  | 111 => ⟨S1x128, .f32⟩
  | 112 => ⟨S1x128, .f32⟩
  | 113 => ⟨S160000x128, .f32⟩
  | 114 => ⟨S160000x128, .f32⟩
  | 115 => ⟨S_, .f32⟩
  | 116 => ⟨S20000x128, .f32⟩
  | 117 => ⟨S160000x1, .i32⟩
  | 118 => ⟨S20000x128, .f32⟩
  | 119 => ⟨S_, .f32⟩
  | 120 => ⟨S20000x128, .f32⟩
  | 121 => ⟨S160000x1, .i32⟩
  | 122 => ⟨S20000x128, .f32⟩
  | 123 => ⟨S1x384x128, .f32⟩
  | 124 => ⟨S384x128, .f32⟩
  | 125 => ⟨S1x128, .f32⟩
  | 126 => ⟨S128, .f32⟩
  | 127 => ⟨S1x128x128, .f32⟩
  | _ => ⟨S20000x16, .f32⟩

abbrev hbmTy0_1 (i : Nat) : BufTy := match i % 128 with
  | 0 => ⟨S128x128, .f32⟩
  | 1 => ⟨S1x128, .f32⟩
  | 2 => ⟨S128, .f32⟩
  | 3 => ⟨S1x128, .f32⟩
  | 4 => ⟨S1x128, .f32⟩
  | 5 => ⟨S20000x128, .f32⟩
  | 6 => ⟨S20000x128, .bf16⟩
  | 7 => ⟨S_, .i32⟩
  | 8 => ⟨S160000, .i32⟩
  | 9 => ⟨S160000, .i1⟩
  | 10 => ⟨S_, .i32⟩
  | 11 => ⟨S160000, .i32⟩
  | 12 => ⟨S160000, .i32⟩
  | 13 => ⟨S160000, .i32⟩
  | 14 => ⟨S160000x1, .i32⟩
  | 15 => ⟨S160000x128, .bf16⟩
  | 16 => ⟨S_, .i32⟩
  | 17 => ⟨S160000, .i32⟩
  | 18 => ⟨S160000, .i1⟩
  | 19 => ⟨S_, .i32⟩
  | 20 => ⟨S160000, .i32⟩
  | 21 => ⟨S160000, .i32⟩
  | 22 => ⟨S160000, .i32⟩
  | 23 => ⟨S160000x1, .i32⟩
  | 24 => ⟨S160000x128, .bf16⟩
  | 25 => ⟨S1x384x128, .f32⟩
  | 26 => ⟨S384x128, .f32⟩
  | 27 => ⟨S1x128, .f32⟩
  | 28 => ⟨S128, .f32⟩
  | 29 => ⟨S1x128x128, .f32⟩
  | 30 => ⟨S128x128, .f32⟩
  | 31 => ⟨S1x128, .f32⟩
  | 32 => ⟨S128, .f32⟩
  | 33 => ⟨S1x128, .f32⟩
  | 34 => ⟨S1x128, .f32⟩
  | 35 => ⟨S160000x128, .f32⟩
  | 36 => ⟨S160000x128, .f32⟩
  | 37 => ⟨S_, .f32⟩
  | 38 => ⟨S20000x128, .f32⟩
  | 39 => ⟨S160000x1, .i32⟩
  | 40 => ⟨S20000x128, .f32⟩
  | 41 => ⟨S_, .f32⟩
  | 42 => ⟨S20000x128, .f32⟩
  | 43 => ⟨S160000x1, .i32⟩
  | 44 => ⟨S20000x128, .f32⟩
  | 45 => ⟨S1x384x128, .f32⟩
  | 46 => ⟨S384x128, .f32⟩
  | 47 => ⟨S1x128, .f32⟩
  | 48 => ⟨S128, .f32⟩
  | 49 => ⟨S1x128x128, .f32⟩
  | 50 => ⟨S128x128, .f32⟩
  | 51 => ⟨S1x128, .f32⟩
  | 52 => ⟨S128, .f32⟩
  | 53 => ⟨S1x128, .f32⟩
  | 54 => ⟨S1x128, .f32⟩
  | 55 => ⟨S20000x128, .f32⟩
  | 56 => ⟨S20000x128, .bf16⟩
  | 57 => ⟨S_, .i32⟩
  | 58 => ⟨S160000, .i32⟩
  | 59 => ⟨S160000, .i1⟩
  | 60 => ⟨S_, .i32⟩
  | 61 => ⟨S160000, .i32⟩
  | 62 => ⟨S160000, .i32⟩
  | 63 => ⟨S160000, .i32⟩
  | 64 => ⟨S160000x1, .i32⟩
  | 65 => ⟨S160000x128, .bf16⟩
  | 66 => ⟨S_, .i32⟩
  | 67 => ⟨S160000, .i32⟩
  | 68 => ⟨S160000, .i1⟩
  | 69 => ⟨S_, .i32⟩
  | 70 => ⟨S160000, .i32⟩
  | 71 => ⟨S160000, .i32⟩
  | 72 => ⟨S160000, .i32⟩
  | 73 => ⟨S160000x1, .i32⟩
  | 74 => ⟨S160000x128, .bf16⟩
  | 75 => ⟨S1x384x128, .f32⟩
  | 76 => ⟨S384x128, .f32⟩
  | 77 => ⟨S1x128, .f32⟩
  | 78 => ⟨S128, .f32⟩
  | 79 => ⟨S1x128x128, .f32⟩
  | 80 => ⟨S128x128, .f32⟩
  | 81 => ⟨S1x128, .f32⟩
  | 82 => ⟨S128, .f32⟩
  | 83 => ⟨S1x128, .f32⟩
  | 84 => ⟨S1x128, .f32⟩
  | 85 => ⟨S160000x128, .f32⟩
  | 86 => ⟨S160000x128, .f32⟩
  | 87 => ⟨S_, .f32⟩
  | 88 => ⟨S20000x128, .f32⟩
  | 89 => ⟨S160000x1, .i32⟩
  | 90 => ⟨S20000x128, .f32⟩
  | 91 => ⟨S_, .f32⟩
  | 92 => ⟨S20000x128, .f32⟩
  | 93 => ⟨S160000x1, .i32⟩
  | 94 => ⟨S20000x128, .f32⟩
  | 95 => ⟨S1x384x128, .f32⟩
  | 96 => ⟨S384x128, .f32⟩
  | 97 => ⟨S1x128, .f32⟩
  | 98 => ⟨S128, .f32⟩
  | 99 => ⟨S1x128x128, .f32⟩
  | 100 => ⟨S128x128, .f32⟩
  | 101 => ⟨S1x128, .f32⟩
  | 102 => ⟨S128, .f32⟩
  | 103 => ⟨S1x128, .f32⟩
  | 104 => ⟨S1x128, .f32⟩
  | 105 => ⟨S20000x128, .f32⟩
  | 106 => ⟨S20000x128, .bf16⟩
  | 107 => ⟨S_, .i32⟩
  | 108 => ⟨S160000, .i32⟩
  | 109 => ⟨S160000, .i1⟩
  | 110 => ⟨S_, .i32⟩
  | 111 => ⟨S160000, .i32⟩
  | 112 => ⟨S160000, .i32⟩
  | 113 => ⟨S160000, .i32⟩
  | 114 => ⟨S160000x1, .i32⟩
  | 115 => ⟨S160000x128, .bf16⟩
  | 116 => ⟨S_, .i32⟩
  | 117 => ⟨S160000, .i32⟩
  | 118 => ⟨S160000, .i1⟩
  | 119 => ⟨S_, .i32⟩
  | 120 => ⟨S160000, .i32⟩
  | 121 => ⟨S160000, .i32⟩
  | 122 => ⟨S160000, .i32⟩
  | 123 => ⟨S160000x1, .i32⟩
  | 124 => ⟨S160000x128, .bf16⟩
  | 125 => ⟨S1x384x128, .f32⟩
  | 126 => ⟨S384x128, .f32⟩
  | 127 => ⟨S1x128, .f32⟩
  | _ => ⟨S20000x16, .f32⟩

abbrev hbmTy0_2 (i : Nat) : BufTy := match i % 128 with
  | 0 => ⟨S128, .f32⟩
  | 1 => ⟨S1x128x128, .f32⟩
  | 2 => ⟨S128x128, .f32⟩
  | 3 => ⟨S1x128, .f32⟩
  | 4 => ⟨S128, .f32⟩
  | 5 => ⟨S1x128, .f32⟩
  | 6 => ⟨S1x128, .f32⟩
  | 7 => ⟨S160000x128, .f32⟩
  | 8 => ⟨S160000x128, .f32⟩
  | 9 => ⟨S_, .f32⟩
  | 10 => ⟨S20000x128, .f32⟩
  | 11 => ⟨S160000x1, .i32⟩
  | 12 => ⟨S20000x128, .f32⟩
  | 13 => ⟨S_, .f32⟩
  | 14 => ⟨S20000x128, .f32⟩
  | 15 => ⟨S160000x1, .i32⟩
  | 16 => ⟨S20000x128, .f32⟩
  | 17 => ⟨S1x384x128, .f32⟩
  | 18 => ⟨S384x128, .f32⟩
  | 19 => ⟨S1x128, .f32⟩
  | 20 => ⟨S128, .f32⟩
  | 21 => ⟨S1x128x128, .f32⟩
  | 22 => ⟨S128x128, .f32⟩
  | 23 => ⟨S1x128, .f32⟩
  | 24 => ⟨S128, .f32⟩
  | 25 => ⟨S1x128, .f32⟩
  | 26 => ⟨S1x128, .f32⟩
  | 27 => ⟨S20000x128, .f32⟩
  | 28 => ⟨S1x128, .f32⟩
  | 29 => ⟨S1x3, .f32⟩
  | 30 => ⟨S20000x3, .f32⟩
  | 31 => ⟨S1x128, .f32⟩
  | 32 => ⟨S1x1, .f32⟩
  | 33 => ⟨S160000x1, .f32⟩
  | _ => ⟨S20000x16, .f32⟩

abbrev hbmTy (i : Nat) : BufTy := match i / 128 with
  | 0 => hbmTy0_0 i
  | 1 => hbmTy0_1 i
  | 2 => hbmTy0_2 i
  | _ => ⟨S20000x16, .f32⟩

abbrev vmemTy0_0 (i : Nat) : BufTy := match i % 128 with
  | 0 => ⟨S2000x16, .f32⟩
  | 1 => ⟨S2000x16, .f32⟩
  | 2 => ⟨S16x128, .f32⟩
  | 3 => ⟨S1x128, .f32⟩
  | 4 => ⟨S128x128, .f32⟩
  | 5 => ⟨S1x128, .f32⟩
  | 6 => ⟨S2000x128, .f32⟩
  | 7 => ⟨S2000x128, .f32⟩
  | 8 => ⟨S4000x8, .f32⟩
  | 9 => ⟨S4000x8, .f32⟩
  | 10 => ⟨S8x128, .f32⟩
  | 11 => ⟨S1x128, .f32⟩
  | 12 => ⟨S128x128, .f32⟩
  | 13 => ⟨S1x128, .f32⟩
  | 14 => ⟨S4000x128, .f32⟩
  | 15 => ⟨S4000x128, .f32⟩
  | 16 => ⟨S4000x128, .f32⟩
  | 17 => ⟨S4000x128, .f32⟩
  | 18 => ⟨S4000x128, .bf16⟩
  | 19 => ⟨S4000x128, .bf16⟩
  | 20 => ⟨S4000x128, .bf16⟩
  | 21 => ⟨S4000x128, .bf16⟩
  | 22 => ⟨S384x128, .f32⟩
  | 23 => ⟨S1x128, .f32⟩
  | 24 => ⟨S128x128, .f32⟩
  | 25 => ⟨S1x128, .f32⟩
  | 26 => ⟨S4000x128, .f32⟩
  | 27 => ⟨S4000x128, .f32⟩
  | 28 => ⟨S4000x128, .f32⟩
  | 29 => ⟨S4000x128, .f32⟩
  | 30 => ⟨S2000x128, .f32⟩
  | 31 => ⟨S2000x128, .f32⟩
  | 32 => ⟨S2000x128, .f32⟩
  | 33 => ⟨S2000x128, .f32⟩
  | 34 => ⟨S2000x128, .f32⟩
  | 35 => ⟨S2000x128, .f32⟩
  | 36 => ⟨S384x128, .f32⟩
  | 37 => ⟨S1x128, .f32⟩
  | 38 => ⟨S128x128, .f32⟩
  | 39 => ⟨S1x128, .f32⟩
  | 40 => ⟨S2000x128, .f32⟩
  | 41 => ⟨S2000x128, .f32⟩
  | 42 => ⟨S4000x128, .f32⟩
  | 43 => ⟨S4000x128, .f32⟩
  | 44 => ⟨S4000x128, .bf16⟩
  | 45 => ⟨S4000x128, .bf16⟩
  | 46 => ⟨S4000x128, .bf16⟩
  | 47 => ⟨S4000x128, .bf16⟩
  | 48 => ⟨S384x128, .f32⟩
  | 49 => ⟨S1x128, .f32⟩
  | 50 => ⟨S128x128, .f32⟩
  | 51 => ⟨S1x128, .f32⟩
  | 52 => ⟨S4000x128, .f32⟩
  | 53 => ⟨S4000x128, .f32⟩
  | 54 => ⟨S4000x128, .f32⟩
  | 55 => ⟨S4000x128, .f32⟩
  | 56 => ⟨S2000x128, .f32⟩
  | 57 => ⟨S2000x128, .f32⟩
  | 58 => ⟨S2000x128, .f32⟩
  | 59 => ⟨S2000x128, .f32⟩
  | 60 => ⟨S2000x128, .f32⟩
  | 61 => ⟨S2000x128, .f32⟩
  | 62 => ⟨S384x128, .f32⟩
  | 63 => ⟨S1x128, .f32⟩
  | 64 => ⟨S128x128, .f32⟩
  | 65 => ⟨S1x128, .f32⟩
  | 66 => ⟨S2000x128, .f32⟩
  | 67 => ⟨S2000x128, .f32⟩
  | 68 => ⟨S4000x128, .f32⟩
  | 69 => ⟨S4000x128, .f32⟩
  | 70 => ⟨S4000x128, .bf16⟩
  | 71 => ⟨S4000x128, .bf16⟩
  | 72 => ⟨S4000x128, .bf16⟩
  | 73 => ⟨S4000x128, .bf16⟩
  | 74 => ⟨S384x128, .f32⟩
  | 75 => ⟨S1x128, .f32⟩
  | 76 => ⟨S128x128, .f32⟩
  | 77 => ⟨S1x128, .f32⟩
  | 78 => ⟨S4000x128, .f32⟩
  | 79 => ⟨S4000x128, .f32⟩
  | 80 => ⟨S4000x128, .f32⟩
  | 81 => ⟨S4000x128, .f32⟩
  | 82 => ⟨S2000x128, .f32⟩
  | 83 => ⟨S2000x128, .f32⟩
  | 84 => ⟨S2000x128, .f32⟩
  | 85 => ⟨S2000x128, .f32⟩
  | 86 => ⟨S2000x128, .f32⟩
  | 87 => ⟨S2000x128, .f32⟩
  | 88 => ⟨S384x128, .f32⟩
  | 89 => ⟨S1x128, .f32⟩
  | 90 => ⟨S128x128, .f32⟩
  | 91 => ⟨S1x128, .f32⟩
  | 92 => ⟨S2000x128, .f32⟩
  | 93 => ⟨S2000x128, .f32⟩
  | 94 => ⟨S4000x128, .f32⟩
  | 95 => ⟨S4000x128, .f32⟩
  | 96 => ⟨S4000x128, .bf16⟩
  | 97 => ⟨S4000x128, .bf16⟩
  | 98 => ⟨S4000x128, .bf16⟩
  | 99 => ⟨S4000x128, .bf16⟩
  | 100 => ⟨S384x128, .f32⟩
  | 101 => ⟨S1x128, .f32⟩
  | 102 => ⟨S128x128, .f32⟩
  | 103 => ⟨S1x128, .f32⟩
  | 104 => ⟨S4000x128, .f32⟩
  | 105 => ⟨S4000x128, .f32⟩
  | 106 => ⟨S4000x128, .f32⟩
  | 107 => ⟨S4000x128, .f32⟩
  | 108 => ⟨S2000x128, .f32⟩
  | 109 => ⟨S2000x128, .f32⟩
  | 110 => ⟨S2000x128, .f32⟩
  | 111 => ⟨S2000x128, .f32⟩
  | 112 => ⟨S2000x128, .f32⟩
  | 113 => ⟨S2000x128, .f32⟩
  | 114 => ⟨S384x128, .f32⟩
  | 115 => ⟨S1x128, .f32⟩
  | 116 => ⟨S128x128, .f32⟩
  | 117 => ⟨S1x128, .f32⟩
  | 118 => ⟨S2000x128, .f32⟩
  | 119 => ⟨S2000x128, .f32⟩
  | 120 => ⟨S4000x128, .f32⟩
  | 121 => ⟨S4000x128, .f32⟩
  | 122 => ⟨S4000x128, .bf16⟩
  | 123 => ⟨S4000x128, .bf16⟩
  | 124 => ⟨S4000x128, .bf16⟩
  | 125 => ⟨S4000x128, .bf16⟩
  | 126 => ⟨S384x128, .f32⟩
  | 127 => ⟨S1x128, .f32⟩
  | _ => ⟨S20000x16, .f32⟩

abbrev vmemTy0_1 (i : Nat) : BufTy := match i % 128 with
  | 0 => ⟨S128x128, .f32⟩
  | 1 => ⟨S1x128, .f32⟩
  | 2 => ⟨S4000x128, .f32⟩
  | 3 => ⟨S4000x128, .f32⟩
  | 4 => ⟨S4000x128, .f32⟩
  | 5 => ⟨S4000x128, .f32⟩
  | 6 => ⟨S2000x128, .f32⟩
  | 7 => ⟨S2000x128, .f32⟩
  | 8 => ⟨S2000x128, .f32⟩
  | 9 => ⟨S2000x128, .f32⟩
  | 10 => ⟨S2000x128, .f32⟩
  | 11 => ⟨S2000x128, .f32⟩
  | 12 => ⟨S384x128, .f32⟩
  | 13 => ⟨S1x128, .f32⟩
  | 14 => ⟨S128x128, .f32⟩
  | 15 => ⟨S1x128, .f32⟩
  | 16 => ⟨S2000x128, .f32⟩
  | 17 => ⟨S2000x128, .f32⟩
  | 18 => ⟨S2000x128, .f32⟩
  | 19 => ⟨S2000x128, .f32⟩
  | 20 => ⟨S128x128, .f32⟩
  | 21 => ⟨S1x128, .f32⟩
  | 22 => ⟨S128x3, .f32⟩
  | 23 => ⟨S1x3, .f32⟩
  | 24 => ⟨S2000x3, .f32⟩
  | 25 => ⟨S2000x3, .f32⟩
  | 26 => ⟨S4000x128, .f32⟩
  | 27 => ⟨S4000x128, .f32⟩
  | 28 => ⟨S128x128, .f32⟩
  | 29 => ⟨S1x128, .f32⟩
  | 30 => ⟨S128x1, .f32⟩
  | 31 => ⟨S1x1, .f32⟩
  | 32 => ⟨S4000x1, .f32⟩
  | 33 => ⟨S4000x1, .f32⟩
  | _ => ⟨S20000x16, .f32⟩

abbrev vmemTy (i : Nat) : BufTy := match i / 128 with
  | 0 => vmemTy0_0 i
  | 1 => vmemTy0_1 i
  | _ => ⟨S20000x16, .f32⟩

abbrev bufTy : (tb : Table) → Fin (tcTables nBuf tb) → BufTy
  | .hbm, ⟨i, _⟩ => hbmTy i
  | .local _ .vmem, ⟨i, _⟩ => vmemTy i
  | _, _ => ⟨S20000x16, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 162 → Bool
  | ⟨i, _⟩ => dmaSemScopedAt i

abbrev sig : RefSig :=
  ofTc nBuf bufTy 0 162 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c : Ref sig .tc := ⟨.hbm, 35, rfl⟩
abbrev main_v7 : Ref sig .tc := ⟨.hbm, 36, rfl⟩
abbrev main_v8 : Ref sig .tc := ⟨.hbm, 37, rfl⟩
abbrev main_c_0 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_1 : Ref sig .tc := ⟨.hbm, 44, rfl⟩
abbrev main_v14 : Ref sig .tc := ⟨.hbm, 45, rfl⟩
abbrev main_v15 : Ref sig .tc := ⟨.hbm, 46, rfl⟩
abbrev main_c_2 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31_0 : Ref sig .tc := ⟨.hbm, 63, rfl⟩
abbrev main_v31_1 : Ref sig .tc := ⟨.hbm, 64, rfl⟩
abbrev main_cst : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_3 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_4 : Ref sig .tc := ⟨.hbm, 85, rfl⟩
abbrev main_v50 : Ref sig .tc := ⟨.hbm, 86, rfl⟩
abbrev main_v51 : Ref sig .tc := ⟨.hbm, 87, rfl⟩
abbrev main_c_5 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_6 : Ref sig .tc := ⟨.hbm, 94, rfl⟩
abbrev main_v57 : Ref sig .tc := ⟨.hbm, 95, rfl⟩
abbrev main_v58 : Ref sig .tc := ⟨.hbm, 96, rfl⟩
abbrev main_c_7 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74_0 : Ref sig .tc := ⟨.hbm, 113, rfl⟩
abbrev main_v74_1 : Ref sig .tc := ⟨.hbm, 114, rfl⟩
abbrev main_cst_8 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_9 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_c_10 : Ref sig .tc := ⟨.hbm, 135, rfl⟩
abbrev main_v93 : Ref sig .tc := ⟨.hbm, 136, rfl⟩
abbrev main_v94 : Ref sig .tc := ⟨.hbm, 137, rfl⟩
abbrev main_c_11 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_c_12 : Ref sig .tc := ⟨.hbm, 144, rfl⟩
abbrev main_v100 : Ref sig .tc := ⟨.hbm, 145, rfl⟩
abbrev main_v101 : Ref sig .tc := ⟨.hbm, 146, rfl⟩
abbrev main_c_13 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117_0 : Ref sig .tc := ⟨.hbm, 163, rfl⟩
abbrev main_v117_1 : Ref sig .tc := ⟨.hbm, 164, rfl⟩
abbrev main_cst_14 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_15 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_c_16 : Ref sig .tc := ⟨.hbm, 185, rfl⟩
abbrev main_v136 : Ref sig .tc := ⟨.hbm, 186, rfl⟩
abbrev main_v137 : Ref sig .tc := ⟨.hbm, 187, rfl⟩
abbrev main_c_17 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_c_18 : Ref sig .tc := ⟨.hbm, 194, rfl⟩
abbrev main_v143 : Ref sig .tc := ⟨.hbm, 195, rfl⟩
abbrev main_v144 : Ref sig .tc := ⟨.hbm, 196, rfl⟩
abbrev main_c_19 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160_0 : Ref sig .tc := ⟨.hbm, 213, rfl⟩
abbrev main_v160_1 : Ref sig .tc := ⟨.hbm, 214, rfl⟩
abbrev main_cst_20 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_cst_21 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_c_22 : Ref sig .tc := ⟨.hbm, 235, rfl⟩
abbrev main_v179 : Ref sig .tc := ⟨.hbm, 236, rfl⟩
abbrev main_v180 : Ref sig .tc := ⟨.hbm, 237, rfl⟩
abbrev main_c_23 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_c_24 : Ref sig .tc := ⟨.hbm, 244, rfl⟩
abbrev main_v186 : Ref sig .tc := ⟨.hbm, 245, rfl⟩
abbrev main_v187 : Ref sig .tc := ⟨.hbm, 246, rfl⟩
abbrev main_c_25 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203_0 : Ref sig .tc := ⟨.hbm, 263, rfl⟩
abbrev main_v203_1 : Ref sig .tc := ⟨.hbm, 264, rfl⟩
abbrev main_cst_26 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_cst_27 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg2_1 : Ref sig .tc := ⟨.vmem, 47, rfl⟩
abbrev cc4_stg3_0 : Ref sig .tc := ⟨.vmem, 48, rfl⟩
abbrev cc4_stg4_0 : Ref sig .tc := ⟨.vmem, 49, rfl⟩
abbrev cc4_stg5_0 : Ref sig .tc := ⟨.vmem, 50, rfl⟩
abbrev cc4_stg6_0 : Ref sig .tc := ⟨.vmem, 51, rfl⟩
abbrev cc4_stg7_0 : Ref sig .tc := ⟨.vmem, 52, rfl⟩
abbrev cc4_stg7_1 : Ref sig .tc := ⟨.vmem, 53, rfl⟩
abbrev cc4_stg8_0 : Ref sig .tc := ⟨.vmem, 54, rfl⟩
abbrev cc4_stg8_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg2_1 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg6_0 : Ref sig .tc := ⟨.vmem, 65, rfl⟩
abbrev cc5_stg7_0 : Ref sig .tc := ⟨.vmem, 66, rfl⟩
abbrev cc5_stg7_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_stg2_1 : Ref sig .tc := ⟨.vmem, 73, rfl⟩
abbrev cc6_stg3_0 : Ref sig .tc := ⟨.vmem, 74, rfl⟩
abbrev cc6_stg4_0 : Ref sig .tc := ⟨.vmem, 75, rfl⟩
abbrev cc6_stg5_0 : Ref sig .tc := ⟨.vmem, 76, rfl⟩
abbrev cc6_stg6_0 : Ref sig .tc := ⟨.vmem, 77, rfl⟩
abbrev cc6_stg7_0 : Ref sig .tc := ⟨.vmem, 78, rfl⟩
abbrev cc6_stg7_1 : Ref sig .tc := ⟨.vmem, 79, rfl⟩
abbrev cc6_stg8_0 : Ref sig .tc := ⟨.vmem, 80, rfl⟩
abbrev cc6_stg8_1 : Ref sig .tc := ⟨.vmem, 81, rfl⟩
abbrev cc7_stg0_0 : Ref sig .tc := ⟨.vmem, 82, rfl⟩
abbrev cc7_stg0_1 : Ref sig .tc := ⟨.vmem, 83, rfl⟩
abbrev cc7_stg1_0 : Ref sig .tc := ⟨.vmem, 84, rfl⟩
abbrev cc7_stg1_1 : Ref sig .tc := ⟨.vmem, 85, rfl⟩
abbrev cc7_stg2_0 : Ref sig .tc := ⟨.vmem, 86, rfl⟩
abbrev cc7_stg2_1 : Ref sig .tc := ⟨.vmem, 87, rfl⟩
abbrev cc7_stg3_0 : Ref sig .tc := ⟨.vmem, 88, rfl⟩
abbrev cc7_stg4_0 : Ref sig .tc := ⟨.vmem, 89, rfl⟩
abbrev cc7_stg5_0 : Ref sig .tc := ⟨.vmem, 90, rfl⟩
abbrev cc7_stg6_0 : Ref sig .tc := ⟨.vmem, 91, rfl⟩
abbrev cc7_stg7_0 : Ref sig .tc := ⟨.vmem, 92, rfl⟩
abbrev cc7_stg7_1 : Ref sig .tc := ⟨.vmem, 93, rfl⟩
abbrev cc8_stg0_0 : Ref sig .tc := ⟨.vmem, 94, rfl⟩
abbrev cc8_stg0_1 : Ref sig .tc := ⟨.vmem, 95, rfl⟩
abbrev cc8_stg1_0 : Ref sig .tc := ⟨.vmem, 96, rfl⟩
abbrev cc8_stg1_1 : Ref sig .tc := ⟨.vmem, 97, rfl⟩
abbrev cc8_stg2_0 : Ref sig .tc := ⟨.vmem, 98, rfl⟩
abbrev cc8_stg2_1 : Ref sig .tc := ⟨.vmem, 99, rfl⟩
abbrev cc8_stg3_0 : Ref sig .tc := ⟨.vmem, 100, rfl⟩
abbrev cc8_stg4_0 : Ref sig .tc := ⟨.vmem, 101, rfl⟩
abbrev cc8_stg5_0 : Ref sig .tc := ⟨.vmem, 102, rfl⟩
abbrev cc8_stg6_0 : Ref sig .tc := ⟨.vmem, 103, rfl⟩
abbrev cc8_stg7_0 : Ref sig .tc := ⟨.vmem, 104, rfl⟩
abbrev cc8_stg7_1 : Ref sig .tc := ⟨.vmem, 105, rfl⟩
abbrev cc8_stg8_0 : Ref sig .tc := ⟨.vmem, 106, rfl⟩
abbrev cc8_stg8_1 : Ref sig .tc := ⟨.vmem, 107, rfl⟩
abbrev cc9_stg0_0 : Ref sig .tc := ⟨.vmem, 108, rfl⟩
abbrev cc9_stg0_1 : Ref sig .tc := ⟨.vmem, 109, rfl⟩
abbrev cc9_stg1_0 : Ref sig .tc := ⟨.vmem, 110, rfl⟩
abbrev cc9_stg1_1 : Ref sig .tc := ⟨.vmem, 111, rfl⟩
abbrev cc9_stg2_0 : Ref sig .tc := ⟨.vmem, 112, rfl⟩
abbrev cc9_stg2_1 : Ref sig .tc := ⟨.vmem, 113, rfl⟩
abbrev cc9_stg3_0 : Ref sig .tc := ⟨.vmem, 114, rfl⟩
abbrev cc9_stg4_0 : Ref sig .tc := ⟨.vmem, 115, rfl⟩
abbrev cc9_stg5_0 : Ref sig .tc := ⟨.vmem, 116, rfl⟩
abbrev cc9_stg6_0 : Ref sig .tc := ⟨.vmem, 117, rfl⟩
abbrev cc9_stg7_0 : Ref sig .tc := ⟨.vmem, 118, rfl⟩
abbrev cc9_stg7_1 : Ref sig .tc := ⟨.vmem, 119, rfl⟩
abbrev cc10_stg0_0 : Ref sig .tc := ⟨.vmem, 120, rfl⟩
abbrev cc10_stg0_1 : Ref sig .tc := ⟨.vmem, 121, rfl⟩
abbrev cc10_stg1_0 : Ref sig .tc := ⟨.vmem, 122, rfl⟩
abbrev cc10_stg1_1 : Ref sig .tc := ⟨.vmem, 123, rfl⟩
abbrev cc10_stg2_0 : Ref sig .tc := ⟨.vmem, 124, rfl⟩
abbrev cc10_stg2_1 : Ref sig .tc := ⟨.vmem, 125, rfl⟩
abbrev cc10_stg3_0 : Ref sig .tc := ⟨.vmem, 126, rfl⟩
abbrev cc10_stg4_0 : Ref sig .tc := ⟨.vmem, 127, rfl⟩
abbrev cc10_stg5_0 : Ref sig .tc := ⟨.vmem, 128, rfl⟩
abbrev cc10_stg6_0 : Ref sig .tc := ⟨.vmem, 129, rfl⟩
abbrev cc10_stg7_0 : Ref sig .tc := ⟨.vmem, 130, rfl⟩
abbrev cc10_stg7_1 : Ref sig .tc := ⟨.vmem, 131, rfl⟩
abbrev cc10_stg8_0 : Ref sig .tc := ⟨.vmem, 132, rfl⟩
abbrev cc10_stg8_1 : Ref sig .tc := ⟨.vmem, 133, rfl⟩
abbrev cc11_stg0_0 : Ref sig .tc := ⟨.vmem, 134, rfl⟩
abbrev cc11_stg0_1 : Ref sig .tc := ⟨.vmem, 135, rfl⟩
abbrev cc11_stg1_0 : Ref sig .tc := ⟨.vmem, 136, rfl⟩
abbrev cc11_stg1_1 : Ref sig .tc := ⟨.vmem, 137, rfl⟩
abbrev cc11_stg2_0 : Ref sig .tc := ⟨.vmem, 138, rfl⟩
abbrev cc11_stg2_1 : Ref sig .tc := ⟨.vmem, 139, rfl⟩
abbrev cc11_stg3_0 : Ref sig .tc := ⟨.vmem, 140, rfl⟩
abbrev cc11_stg4_0 : Ref sig .tc := ⟨.vmem, 141, rfl⟩
abbrev cc11_stg5_0 : Ref sig .tc := ⟨.vmem, 142, rfl⟩
abbrev cc11_stg6_0 : Ref sig .tc := ⟨.vmem, 143, rfl⟩
abbrev cc11_stg7_0 : Ref sig .tc := ⟨.vmem, 144, rfl⟩
abbrev cc11_stg7_1 : Ref sig .tc := ⟨.vmem, 145, rfl⟩
abbrev cc12_stg0_0 : Ref sig .tc := ⟨.vmem, 146, rfl⟩
abbrev cc12_stg0_1 : Ref sig .tc := ⟨.vmem, 147, rfl⟩
abbrev cc12_stg1_0 : Ref sig .tc := ⟨.vmem, 148, rfl⟩
abbrev cc12_stg2_0 : Ref sig .tc := ⟨.vmem, 149, rfl⟩
abbrev cc12_stg3_0 : Ref sig .tc := ⟨.vmem, 150, rfl⟩
abbrev cc12_stg4_0 : Ref sig .tc := ⟨.vmem, 151, rfl⟩
abbrev cc12_stg5_0 : Ref sig .tc := ⟨.vmem, 152, rfl⟩
abbrev cc12_stg5_1 : Ref sig .tc := ⟨.vmem, 153, rfl⟩
abbrev cc13_stg0_0 : Ref sig .tc := ⟨.vmem, 154, rfl⟩
abbrev cc13_stg0_1 : Ref sig .tc := ⟨.vmem, 155, rfl⟩
abbrev cc13_stg1_0 : Ref sig .tc := ⟨.vmem, 156, rfl⟩
abbrev cc13_stg2_0 : Ref sig .tc := ⟨.vmem, 157, rfl⟩
abbrev cc13_stg3_0 : Ref sig .tc := ⟨.vmem, 158, rfl⟩
abbrev cc13_stg4_0 : Ref sig .tc := ⟨.vmem, 159, rfl⟩
abbrev cc13_stg5_0 : Ref sig .tc := ⟨.vmem, 160, rfl⟩
abbrev cc13_stg5_1 : Ref sig .tc := ⟨.vmem, 161, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc2_sem8_0 : DmaSem sig := 28
abbrev cc2_sem8_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc4_sem6_0 : DmaSem sig := 51
abbrev cc4_sem7_0 : DmaSem sig := 52
abbrev cc4_sem7_1 : DmaSem sig := 53
abbrev cc4_sem8_0 : DmaSem sig := 54
abbrev cc4_sem8_1 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem2_1 : DmaSem sig := 61
abbrev cc5_sem3_0 : DmaSem sig := 62
abbrev cc5_sem4_0 : DmaSem sig := 63
abbrev cc5_sem5_0 : DmaSem sig := 64
abbrev cc5_sem6_0 : DmaSem sig := 65
abbrev cc5_sem7_0 : DmaSem sig := 66
abbrev cc5_sem7_1 : DmaSem sig := 67
abbrev cc6_sem0_0 : DmaSem sig := 68
abbrev cc6_sem0_1 : DmaSem sig := 69
abbrev cc6_sem1_0 : DmaSem sig := 70
abbrev cc6_sem1_1 : DmaSem sig := 71
abbrev cc6_sem2_0 : DmaSem sig := 72
abbrev cc6_sem2_1 : DmaSem sig := 73
abbrev cc6_sem3_0 : DmaSem sig := 74
abbrev cc6_sem4_0 : DmaSem sig := 75
abbrev cc6_sem5_0 : DmaSem sig := 76
abbrev cc6_sem6_0 : DmaSem sig := 77
abbrev cc6_sem7_0 : DmaSem sig := 78
abbrev cc6_sem7_1 : DmaSem sig := 79
abbrev cc6_sem8_0 : DmaSem sig := 80
abbrev cc6_sem8_1 : DmaSem sig := 81
abbrev cc7_sem0_0 : DmaSem sig := 82
abbrev cc7_sem0_1 : DmaSem sig := 83
abbrev cc7_sem1_0 : DmaSem sig := 84
abbrev cc7_sem1_1 : DmaSem sig := 85
abbrev cc7_sem2_0 : DmaSem sig := 86
abbrev cc7_sem2_1 : DmaSem sig := 87
abbrev cc7_sem3_0 : DmaSem sig := 88
abbrev cc7_sem4_0 : DmaSem sig := 89
abbrev cc7_sem5_0 : DmaSem sig := 90
abbrev cc7_sem6_0 : DmaSem sig := 91
abbrev cc7_sem7_0 : DmaSem sig := 92
abbrev cc7_sem7_1 : DmaSem sig := 93
abbrev cc8_sem0_0 : DmaSem sig := 94
abbrev cc8_sem0_1 : DmaSem sig := 95
abbrev cc8_sem1_0 : DmaSem sig := 96
abbrev cc8_sem1_1 : DmaSem sig := 97
abbrev cc8_sem2_0 : DmaSem sig := 98
abbrev cc8_sem2_1 : DmaSem sig := 99
abbrev cc8_sem3_0 : DmaSem sig := 100
abbrev cc8_sem4_0 : DmaSem sig := 101
abbrev cc8_sem5_0 : DmaSem sig := 102
abbrev cc8_sem6_0 : DmaSem sig := 103
abbrev cc8_sem7_0 : DmaSem sig := 104
abbrev cc8_sem7_1 : DmaSem sig := 105
abbrev cc8_sem8_0 : DmaSem sig := 106
abbrev cc8_sem8_1 : DmaSem sig := 107
abbrev cc9_sem0_0 : DmaSem sig := 108
abbrev cc9_sem0_1 : DmaSem sig := 109
abbrev cc9_sem1_0 : DmaSem sig := 110
abbrev cc9_sem1_1 : DmaSem sig := 111
abbrev cc9_sem2_0 : DmaSem sig := 112
abbrev cc9_sem2_1 : DmaSem sig := 113
abbrev cc9_sem3_0 : DmaSem sig := 114
abbrev cc9_sem4_0 : DmaSem sig := 115
abbrev cc9_sem5_0 : DmaSem sig := 116
abbrev cc9_sem6_0 : DmaSem sig := 117
abbrev cc9_sem7_0 : DmaSem sig := 118
abbrev cc9_sem7_1 : DmaSem sig := 119
abbrev cc10_sem0_0 : DmaSem sig := 120
abbrev cc10_sem0_1 : DmaSem sig := 121
abbrev cc10_sem1_0 : DmaSem sig := 122
abbrev cc10_sem1_1 : DmaSem sig := 123
abbrev cc10_sem2_0 : DmaSem sig := 124
abbrev cc10_sem2_1 : DmaSem sig := 125
abbrev cc10_sem3_0 : DmaSem sig := 126
abbrev cc10_sem4_0 : DmaSem sig := 127
abbrev cc10_sem5_0 : DmaSem sig := 128
abbrev cc10_sem6_0 : DmaSem sig := 129
abbrev cc10_sem7_0 : DmaSem sig := 130
abbrev cc10_sem7_1 : DmaSem sig := 131
abbrev cc10_sem8_0 : DmaSem sig := 132
abbrev cc10_sem8_1 : DmaSem sig := 133
abbrev cc11_sem0_0 : DmaSem sig := 134
abbrev cc11_sem0_1 : DmaSem sig := 135
abbrev cc11_sem1_0 : DmaSem sig := 136
abbrev cc11_sem1_1 : DmaSem sig := 137
abbrev cc11_sem2_0 : DmaSem sig := 138
abbrev cc11_sem2_1 : DmaSem sig := 139
abbrev cc11_sem3_0 : DmaSem sig := 140
abbrev cc11_sem4_0 : DmaSem sig := 141
abbrev cc11_sem5_0 : DmaSem sig := 142
abbrev cc11_sem6_0 : DmaSem sig := 143
abbrev cc11_sem7_0 : DmaSem sig := 144
abbrev cc11_sem7_1 : DmaSem sig := 145
abbrev cc12_sem0_0 : DmaSem sig := 146
abbrev cc12_sem0_1 : DmaSem sig := 147
abbrev cc12_sem1_0 : DmaSem sig := 148
abbrev cc12_sem2_0 : DmaSem sig := 149
abbrev cc12_sem3_0 : DmaSem sig := 150
abbrev cc12_sem4_0 : DmaSem sig := 151
abbrev cc12_sem5_0 : DmaSem sig := 152
abbrev cc12_sem5_1 : DmaSem sig := 153
abbrev cc13_sem0_0 : DmaSem sig := 154
abbrev cc13_sem0_1 : DmaSem sig := 155
abbrev cc13_sem1_0 : DmaSem sig := 156
abbrev cc13_sem2_0 : DmaSem sig := 157
abbrev cc13_sem3_0 : DmaSem sig := 158
abbrev cc13_sem4_0 : DmaSem sig := 159
abbrev cc13_sem5_0 : DmaSem sig := 160
abbrev cc13_sem5_1 : DmaSem sig := 161

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S384x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S4000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S384x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S384x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S4000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S4000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S384x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S384x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S4000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S4000x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S384x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S2000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![40], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4000x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S4000x128 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S384x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S4000x128 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 2 → Memref sig .tc .vmem S4000x128 .f32 := fun | 0 => Memref.whole cc8_stg8_0 | 1 => Memref.whole cc8_stg8_1 | ⟨_ + 2, h⟩ => absurd h (Nat.not_lt.2 (Nat.le_add_left _ _))
abbrev sem8_8 : Fin 2 → DmaSem sig := fun | 0 => cc8_sem8_0 | 1 => cc8_sem8_1 | ⟨_ + 2, h⟩ => absurd h (Nat.not_lt.2 (Nat.le_add_left _ _))
abbrev reads8_8 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S384x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S2000x128 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![40], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S4000x128 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S4000x128 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S384x128 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S128x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x128 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S4000x128 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 2 → Memref sig .tc .vmem S4000x128 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S2000x128 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S2000x128 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S384x128 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x128 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S128x128 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S2000x128 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S128x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128x3 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x3 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S2000x3 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![40], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S128x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S128x1 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x1 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S4000x1 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

class Facts₀ : Prop where
  shapeCasts_S128_S1x128 : S128.ShapeCasts S1x128
  inb_S2000x16_S2000x16_0_0 : ∀ a, (![0, 0] : Fin 2 → Nat) a + S2000x16.size a ≤ S2000x16.size a
  h_S2000x16 : 0 < S2000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  inb_S4000x8_S4000x8_0_0 : ∀ a, (![0, 0] : Fin 2 → Nat) a + S4000x8.size a ≤ S4000x8.size a
  h_S4000x8 : 0 < S4000x8.numel
  inb_S8x128_S8x128_0_0 : ∀ a, (![0, 0] : Fin 2 → Nat) a + S8x128.size a ≤ S8x128.size a
  h_S8x128 : 0 < S8x128.numel
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S160000 : S_.BroadcastsInDim S160000 (![] : Fin 0 → Fin S160000.rank)
  bcast_S160000_S160000x1_0 : S160000.BroadcastsInDim S160000x1 (![0] : Fin 1 → Fin S160000x1.rank)
  slices_S5x384x128_S1x384x128_0_0_0 : S5x384x128.Slices ![0, 0, 0] S1x384x128
  shapeCasts_S1x384x128_S384x128 : S1x384x128.ShapeCasts S384x128
  slices_S5x128_S1x128_0_0 : S5x128.Slices ![0, 0] S1x128
  shapeCasts_S1x128_S128 : S1x128.ShapeCasts S128
  slices_S5x128x128_S1x128x128_0_0_0 : S5x128x128.Slices ![0, 0, 0] S1x128x128
  shapeCasts_S1x128x128_S128x128 : S1x128x128.ShapeCasts S128x128
  shapeCasts_S4000x128_S4000x128 : S4000x128.ShapeCasts S4000x128
  inb_S384x128_S384x128_0_0 : ∀ a, (![0, 0] : Fin 2 → Nat) a + S384x128.size a ≤ S384x128.size a
  h_S384x128 : 0 < S384x128.numel
  shapeCasts_S384x128_S384x128 : S384x128.ShapeCasts S384x128
  slices_S384x128_o0_0_S128x128 : S384x128.Slices ![0, 0] S128x128
  slices_S384x128_o128_0_S128x128 : S384x128.Slices ![128, 0] S128x128
  slices_S384x128_o256_0_S128x128 : S384x128.Slices ![256, 0] S128x128
  shapeCasts_S128x128_S128x128 : S128x128.ShapeCasts S128x128
  bcast_S_S20000x128 : S_.BroadcastsInDim S20000x128 (![] : Fin 0 → Fin S20000x128.rank)
  shapeCasts_S2000x128_S2000x128 : S2000x128.ShapeCasts S2000x128
  slices_S5x384x128_S1x384x128_1_0_0 : S5x384x128.Slices ![1, 0, 0] S1x384x128
  slices_S5x128_S1x128_1_0 : S5x128.Slices ![1, 0] S1x128
  slices_S5x128x128_S1x128x128_1_0_0 : S5x128x128.Slices ![1, 0, 0] S1x128x128
  slices_S5x384x128_S1x384x128_2_0_0 : S5x384x128.Slices ![2, 0, 0] S1x384x128
  slices_S5x128_S1x128_2_0 : S5x128.Slices ![2, 0] S1x128
  slices_S5x128x128_S1x128x128_2_0_0 : S5x128x128.Slices ![2, 0, 0] S1x128x128
  slices_S5x384x128_S1x384x128_3_0_0 : S5x384x128.Slices ![3, 0, 0] S1x384x128
  slices_S5x128_S1x128_3_0 : S5x128.Slices ![3, 0] S1x128
  slices_S5x128x128_S1x128x128_3_0_0 : S5x128x128.Slices ![3, 0, 0] S1x128x128
  slices_S5x384x128_S1x384x128_4_0_0 : S5x384x128.Slices ![4, 0, 0] S1x384x128
  slices_S5x128_S1x128_4_0 : S5x128.Slices ![4, 0] S1x128
  slices_S5x128x128_S1x128x128_4_0_0 : S5x128x128.Slices ![4, 0, 0] S1x128x128
  shapeCasts_S3_S1x3 : S3.ShapeCasts S1x3
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  dot_S2000x16_S16x128_S2000x128_1_0_0_1_n_n_wf : DotDims.WF S2000x16 S16x128 S2000x128 [1] [0] [0] [1] [] []
  dot_S2000x128_S128x128_S2000x128_1_0_0_1_n_n_wf : DotDims.WF S2000x128 S128x128 S2000x128 [1] [0] [0] [1] [] []
  dot_S4000x8_S8x128_S4000x128_1_0_0_1_n_n_wf : DotDims.WF S4000x8 S8x128 S4000x128 [1] [0] [0] [1] [] []
  dot_S4000x128_S128x128_S4000x128_1_0_0_1_n_n_wf : DotDims.WF S4000x128 S128x128 S4000x128 [1] [0] [0] [1] [] []
  gather_S20000x128_S160000x1_S160000x128_1_0_n_n_0_1_1128_wf : GatherDims.WF S20000x128 S160000x1 S160000x128 [1] [0] [] [0] [] 1 ![1, 128]
  scatter_S20000x128_S160000x1_S160000x128_1_0_0_1_wf : ScatterDims.WF S20000x128 S160000x1 S160000x128 [1] [0] [0] 1
  dot_S2000x128_S128x3_S2000x3_1_0_0_1_n_n_wf : DotDims.WF S2000x128 S128x3 S2000x3 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x16.size a ≤ S20000x16.size a
  hwx0_0 : ∀ i : grid0.Coords, EltTy.bits .f32 = 32 ∨ (Rect.block (s := S20000x16) S2000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S20000x128.size a
  hwx0_5 : ∀ i : grid0.Coords, EltTy.bits .f32 = 32 ∨ (Rect.block (s := S20000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x8.size a ≤ S160000x8.size a
  hwx1_0 : ∀ i : grid1.Coords, EltTy.bits .f32 = 32 ∨ (Rect.block (s := S160000x8) S4000x8.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S8x128.size a
  hwx1_1 : ∀ i : grid1.Coords, EltTy.bits .f32 = 32 ∨ (Rect.block (s := S8x128) S8x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S160000x128.size a
  hwx1_5 : ∀ i : grid1.Coords, EltTy.bits .f32 = 32 ∨ (Rect.block (s := S160000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S160000x128.size a
  hwx2_0 : ∀ i : grid2.Coords, EltTy.bits .f32 = 32 ∨ (Rect.block (s := S160000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S160000x128.size a
  hwx2_1 : ∀ i : grid2.Coords, EltTy.bits .bf16 = 32 ∨ (Rect.block (s := S160000x128) S4000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S160000x128.size a
  hwx2_2 : ∀ i : grid2.Coords, EltTy.bits .bf16 = 32 ∨ (Rect.block (s := S160000x128) S4000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S384x128.size a ≤ S384x128.size a
  hwx2_3 : ∀ i : grid2.Coords, EltTy.bits .f32 = 32 ∨ (Rect.block (s := S384x128) S384x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x128.size a ≤ S160000x128.size a
  hwx2_7 : ∀ i : grid2.Coords, EltTy.bits .f32 = 32 ∨ (Rect.block (s := S160000x128) S4000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x128.size a ≤ S160000x128.size a
  hwx2_8 : ∀ i : grid2.Coords, EltTy.bits .f32 = 32 ∨ (Rect.block (s := S160000x128) S4000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S20000x128.size a
  hwx3_0 : ∀ i : grid3.Coords, EltTy.bits .f32 = 32 ∨ (Rect.block (s := S20000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S20000x128.size a
  hwx3_1 : ∀ i : grid3.Coords, EltTy.bits .f32 = 32 ∨ (Rect.block (s := S20000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S20000x128.size a
  hwx3_2 : ∀ i : grid3.Coords, EltTy.bits .f32 = 32 ∨ (Rect.block (s := S20000x128) S2000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S384x128.size a ≤ S384x128.size a
  hwx3_3 : ∀ i : grid3.Coords, EltTy.bits .f32 = 32 ∨ (Rect.block (s := S384x128) S384x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S20000x128.size a
  hwx3_7 : ∀ i : grid3.Coords, EltTy.bits .f32 = 32 ∨ (Rect.block (s := S20000x128) S2000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S160000x128.size a
  hwx4_0 : ∀ i : grid4.Coords, EltTy.bits .f32 = 32 ∨ (Rect.block (s := S160000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S160000x128.size a
  hwx4_1 : ∀ i : grid4.Coords, EltTy.bits .bf16 = 32 ∨ (Rect.block (s := S160000x128) S4000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S160000x128.size a
  hwx4_2 : ∀ i : grid4.Coords, EltTy.bits .bf16 = 32 ∨ (Rect.block (s := S160000x128) S4000x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S384x128.size a ≤ S384x128.size a
  hwx4_3 : ∀ i : grid4.Coords, EltTy.bits .f32 = 32 ∨ (Rect.block (s := S384x128) S384x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x128.size a ≤ S160000x128.size a
  hwx4_7 : ∀ i : grid4.Coords, EltTy.bits .f32 = 32 ∨ (Rect.block (s := S160000x128) S4000x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S4000x128.size a ≤ S160000x128.size a
  hwx4_8 : ∀ i : grid4.Coords, EltTy.bits .f32 = 32 ∨ (Rect.block (s := S160000x128) S4000x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S20000x128.size a
  hwx5_0 : ∀ i : grid5.Coords, EltTy.bits .f32 = 32 ∨ (Rect.block (s := S20000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S20000x128.size a
  hwx5_1 : ∀ i : grid5.Coords, EltTy.bits .f32 = 32 ∨ (Rect.block (s := S20000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S20000x128.size a
  hwx5_2 : ∀ i : grid5.Coords, EltTy.bits .f32 = 32 ∨ (Rect.block (s := S20000x128) S2000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S384x128.size a ≤ S384x128.size a
  hwx5_3 : ∀ i : grid5.Coords, EltTy.bits .f32 = 32 ∨ (Rect.block (s := S384x128) S384x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x128.size a ≤ S20000x128.size a
  hwx5_7 : ∀ i : grid5.Coords, EltTy.bits .f32 = 32 ∨ (Rect.block (s := S20000x128) S2000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x128.size a ≤ S160000x128.size a
  hwx6_0 : ∀ i : grid6.Coords, EltTy.bits .f32 = 32 ∨ (Rect.block (s := S160000x128) S4000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x128.size a ≤ S160000x128.size a
  hwx6_1 : ∀ i : grid6.Coords, EltTy.bits .bf16 = 32 ∨ (Rect.block (s := S160000x128) S4000x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x128.size a ≤ S160000x128.size a
  hwx6_2 : ∀ i : grid6.Coords, EltTy.bits .bf16 = 32 ∨ (Rect.block (s := S160000x128) S4000x128.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S384x128.size a ≤ S384x128.size a
  hwx6_3 : ∀ i : grid6.Coords, EltTy.bits .f32 = 32 ∨ (Rect.block (s := S384x128) S384x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S4000x128.size a ≤ S160000x128.size a
  hwx6_7 : ∀ i : grid6.Coords, EltTy.bits .f32 = 32 ∨ (Rect.block (s := S160000x128) S4000x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S4000x128.size a ≤ S160000x128.size a
  hwx6_8 : ∀ i : grid6.Coords, EltTy.bits .f32 = 32 ∨ (Rect.block (s := S160000x128) S4000x128.size (cc6_transform_8 i) (hinb6_8 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S20000x128.size a
  hwx7_0 : ∀ i : grid7.Coords, EltTy.bits .f32 = 32 ∨ (Rect.block (s := S20000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S20000x128.size a
  hwx7_1 : ∀ i : grid7.Coords, EltTy.bits .f32 = 32 ∨ (Rect.block (s := S20000x128) S2000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S20000x128.size a
  hwx7_2 : ∀ i : grid7.Coords, EltTy.bits .f32 = 32 ∨ (Rect.block (s := S20000x128) S2000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S384x128.size a ≤ S384x128.size a
  hwx7_3 : ∀ i : grid7.Coords, EltTy.bits .f32 = 32 ∨ (Rect.block (s := S384x128) S384x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2000x128.size a ≤ S20000x128.size a
  hwx7_7 : ∀ i : grid7.Coords, EltTy.bits .f32 = 32 ∨ (Rect.block (s := S20000x128) S2000x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x128.size a ≤ S160000x128.size a
  hwx8_0 : ∀ i : grid8.Coords, EltTy.bits .f32 = 32 ∨ (Rect.block (s := S160000x128) S4000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4000x128.size a ≤ S160000x128.size a
  hwx8_1 : ∀ i : grid8.Coords, EltTy.bits .bf16 = 32 ∨ (Rect.block (s := S160000x128) S4000x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4000x128.size a ≤ S160000x128.size a
  hwx8_2 : ∀ i : grid8.Coords, EltTy.bits .bf16 = 32 ∨ (Rect.block (s := S160000x128) S4000x128.size (cc8_transform_2 i) (hinb8_2 i)).WholeWords (EltTy.packing .bf16)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S384x128.size a ≤ S384x128.size a
  hwx8_3 : ∀ i : grid8.Coords, EltTy.bits .f32 = 32 ∨ (Rect.block (s := S384x128) S384x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S4000x128.size a ≤ S160000x128.size a
  hwx8_7 : ∀ i : grid8.Coords, EltTy.bits .f32 = 32 ∨ (Rect.block (s := S160000x128) S4000x128.size (cc8_transform_7 i) (hinb8_7 i)).WholeWords (EltTy.packing .f32)
  hstage8_8 : ∀ j, (stage8_8 j).IsWhole
  nbuf8_8 : grid8.bufCount reads8_8 false = 2
  hreads8_8 : ∀ i i' : grid8.Coords, (∀ a, reads8_8 a = true → i a = i' a) → cc8_transform_8 i = cc8_transform_8 i'
  hinb8_8 : ∀ (i : grid8.Coords) a, (cc8_transform_8 i a + 1) * S4000x128.size a ≤ S160000x128.size a
  hwx8_8 : ∀ i : grid8.Coords, EltTy.bits .f32 = 32 ∨ (Rect.block (s := S160000x128) S4000x128.size (cc8_transform_8 i) (hinb8_8 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x128.size a ≤ S20000x128.size a
  hwx9_0 : ∀ i : grid9.Coords, EltTy.bits .f32 = 32 ∨ (Rect.block (s := S20000x128) S2000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x128.size a ≤ S20000x128.size a
  hwx9_1 : ∀ i : grid9.Coords, EltTy.bits .f32 = 32 ∨ (Rect.block (s := S20000x128) S2000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x128.size a ≤ S20000x128.size a
  hwx9_2 : ∀ i : grid9.Coords, EltTy.bits .f32 = 32 ∨ (Rect.block (s := S20000x128) S2000x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S384x128.size a ≤ S384x128.size a
  hwx9_3 : ∀ i : grid9.Coords, EltTy.bits .f32 = 32 ∨ (Rect.block (s := S384x128) S384x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x128.size a ≤ S128x128.size a
  hwx9_5 : ∀ i : grid9.Coords, EltTy.bits .f32 = 32 ∨ (Rect.block (s := S128x128) S128x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S2000x128.size a ≤ S20000x128.size a
  hwx9_7 : ∀ i : grid9.Coords, EltTy.bits .f32 = 32 ∨ (Rect.block (s := S20000x128) S2000x128.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x128.size a ≤ S160000x128.size a
  hwx10_0 : ∀ i : grid10.Coords, EltTy.bits .f32 = 32 ∨ (Rect.block (s := S160000x128) S4000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4000x128.size a ≤ S160000x128.size a
  hwx10_1 : ∀ i : grid10.Coords, EltTy.bits .bf16 = 32 ∨ (Rect.block (s := S160000x128) S4000x128.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S4000x128.size a ≤ S160000x128.size a
  hwx10_2 : ∀ i : grid10.Coords, EltTy.bits .bf16 = 32 ∨ (Rect.block (s := S160000x128) S4000x128.size (cc10_transform_2 i) (hinb10_2 i)).WholeWords (EltTy.packing .bf16)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S384x128.size a ≤ S384x128.size a
  hwx10_3 : ∀ i : grid10.Coords, EltTy.bits .f32 = 32 ∨ (Rect.block (s := S384x128) S384x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S128x128.size a ≤ S128x128.size a
  hwx10_5 : ∀ i : grid10.Coords, EltTy.bits .f32 = 32 ∨ (Rect.block (s := S128x128) S128x128.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x128.size a ≤ S1x128.size a
  hwx10_6 : ∀ i : grid10.Coords, EltTy.bits .f32 = 32 ∨ (Rect.block (s := S1x128) S1x128.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S4000x128.size a ≤ S160000x128.size a
  hwx10_7 : ∀ i : grid10.Coords, EltTy.bits .f32 = 32 ∨ (Rect.block (s := S160000x128) S4000x128.size (cc10_transform_7 i) (hinb10_7 i)).WholeWords (EltTy.packing .f32)
  hstage10_8 : ∀ j, (stage10_8 j).IsWhole
  nbuf10_8 : grid10.bufCount reads10_8 false = 2
  hreads10_8 : ∀ i i' : grid10.Coords, (∀ a, reads10_8 a = true → i a = i' a) → cc10_transform_8 i = cc10_transform_8 i'
  hinb10_8 : ∀ (i : grid10.Coords) a, (cc10_transform_8 i a + 1) * S4000x128.size a ≤ S160000x128.size a
  hwx10_8 : ∀ i : grid10.Coords, EltTy.bits .f32 = 32 ∨ (Rect.block (s := S160000x128) S4000x128.size (cc10_transform_8 i) (hinb10_8 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x128.size a ≤ S20000x128.size a
  hwx11_0 : ∀ i : grid11.Coords, EltTy.bits .f32 = 32 ∨ (Rect.block (s := S20000x128) S2000x128.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S2000x128.size a ≤ S20000x128.size a
  hwx11_1 : ∀ i : grid11.Coords, EltTy.bits .f32 = 32 ∨ (Rect.block (s := S20000x128) S2000x128.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S2000x128.size a ≤ S20000x128.size a
  hwx11_2 : ∀ i : grid11.Coords, EltTy.bits .f32 = 32 ∨ (Rect.block (s := S20000x128) S2000x128.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S384x128.size a ≤ S384x128.size a
  hwx11_3 : ∀ i : grid11.Coords, EltTy.bits .f32 = 32 ∨ (Rect.block (s := S384x128) S384x128.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x128.size a ≤ S1x128.size a
  hwx11_4 : ∀ i : grid11.Coords, EltTy.bits .f32 = 32 ∨ (Rect.block (s := S1x128) S1x128.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S128x128.size a ≤ S128x128.size a
  hwx11_5 : ∀ i : grid11.Coords, EltTy.bits .f32 = 32 ∨ (Rect.block (s := S128x128) S128x128.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x128.size a ≤ S1x128.size a
  hwx11_6 : ∀ i : grid11.Coords, EltTy.bits .f32 = 32 ∨ (Rect.block (s := S1x128) S1x128.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S2000x128.size a ≤ S20000x128.size a
  hwx11_7 : ∀ i : grid11.Coords, EltTy.bits .f32 = 32 ∨ (Rect.block (s := S20000x128) S2000x128.size (cc11_transform_7 i) (hinb11_7 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x128.size a ≤ S20000x128.size a
  hwx12_0 : ∀ i : grid12.Coords, EltTy.bits .f32 = 32 ∨ (Rect.block (s := S20000x128) S2000x128.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S128x128.size a ≤ S128x128.size a
  hwx12_1 : ∀ i : grid12.Coords, EltTy.bits .f32 = 32 ∨ (Rect.block (s := S128x128) S128x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128x3.size a ≤ S128x3.size a
  hwx12_3 : ∀ i : grid12.Coords, EltTy.bits .f32 = 32 ∨ (Rect.block (s := S128x3) S128x3.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x3.size a ≤ S1x3.size a
  hwx12_4 : ∀ i : grid12.Coords, EltTy.bits .f32 = 32 ∨ (Rect.block (s := S1x3) S1x3.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S2000x3.size a ≤ S20000x3.size a
  hwx12_5 : ∀ i : grid12.Coords, EltTy.bits .f32 = 32 ∨ (Rect.block (s := S20000x3) S2000x3.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4000x128.size a ≤ S160000x128.size a
  hwx13_0 : ∀ i : grid13.Coords, EltTy.bits .f32 = 32 ∨ (Rect.block (s := S160000x128) S4000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S128x128.size a ≤ S128x128.size a
  hwx13_1 : ∀ i : grid13.Coords, EltTy.bits .f32 = 32 ∨ (Rect.block (s := S128x128) S128x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S128x1.size a ≤ S128x1.size a
  hwx13_3 : ∀ i : grid13.Coords, EltTy.bits .f32 = 32 ∨ (Rect.block (s := S128x1) S128x1.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x1.size a ≤ S1x1.size a
  hwx13_4 : ∀ i : grid13.Coords, EltTy.bits .f32 = 32 ∨ (Rect.block (s := S1x1) S1x1.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S4000x1.size a ≤ S160000x1.size a
  hwx13_5 : ∀ i : grid13.Coords, EltTy.bits .f32 = 32 ∨ (Rect.block (s := S160000x1) S4000x1.size (cc13_transform_5 i) (hinb13_5 i)).WholeWords (EltTy.packing .f32)

variable [Facts₀]

def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S20000x128_S160000x1_S160000x128_1_0_n_n_0_1_1128 : GatherDims S20000x128 S160000x1 S160000x128 where
  offsetDims := [1]
  collapsedSliceDims := [0]
  operandBatchingDims := []
  startIndicesBatchingDims := []
  startIndexMap := [0]
  indexVectorDim := 1
  sliceSizes := ![1, 128]
  wf := gather_S20000x128_S160000x1_S160000x128_1_0_n_n_0_1_1128_wf
def scatter_S20000x128_S160000x1_S160000x128_1_0_0_1 : ScatterDims S20000x128 S160000x1 S160000x128 where
  updateWindowDims := [1]
  insertedWindowDims := [0]
  scatterDimsToOperandDims := [0]
  indexVectorDim := 1
  wf := scatter_S20000x128_S160000x1_S160000x128_1_0_0_1_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_arg0) S2000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S4000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S8x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v5) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v22) S384x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v31_0) S4000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v31_1) S4000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v2) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v37) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39) S384x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v43) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v47) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v48) S2000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v31_1) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S4000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v65) S384x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v69) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v73) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v74_0) S4000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v74_1) S4000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v48) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v80) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v82) S384x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v89) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v86) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v90) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v91) S2000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v74_1) S4000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v99) S4000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v106) S4000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v108) S384x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v115) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v112) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v116) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v117_0) S4000x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v117_1) S4000x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

abbrev win7_0 : Pipeline.Window sig grid7 :=
  Pipeline.Window.ofSpec (Memref.whole main_v91) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v120) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v123) S2000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v125) S384x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v132) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v129) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v133) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v134) S2000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v117_1) S4000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v142) S4000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v149) S4000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v151) S384x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v158) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v155) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v159) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v160_0) S4000x128.size cc8_transform_7 reads8_7 true false 2 stage8_7 sem8_7
    hrank8 hreads8_7 hinb8_7 nbuf8_7 (Memref.isWhole_whole _) hwx8_7 hstage8_7

abbrev win8_8 : Pipeline.Window sig grid8 :=
  Pipeline.Window.ofSpec (Memref.whole main_v160_1) S4000x128.size cc8_transform_8 reads8_8 true false 2 stage8_8 sem8_8
    hrank8 hreads8_8 hinb8_8 nbuf8_8 (Memref.isWhole_whole _) hwx8_8 hstage8_8

abbrev win8 : Fin 9 → Pipeline.Window sig grid8 := fun | 0 => win8_0 | 1 => win8_1 | 2 => win8_2 | 3 => win8_3 | 4 => win8_4 | 5 => win8_5 | 6 => win8_6 | 7 => win8_7 | 8 => win8_8 | ⟨_ + 9, h⟩ => absurd h (Nat.not_lt.2 (Nat.le_add_left _ _))
abbrev spec8 : Fin 9 → Pipeline.WinSpec sig grid8.rank := fun w => (win8 w).toWinSpec

abbrev win9_0 : Pipeline.Window sig grid9 :=
  Pipeline.Window.ofSpec (Memref.whole main_v134) S2000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v163) S2000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v166) S2000x128.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v168) S384x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v175) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v172) S128x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v176) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v177) S2000x128.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v160_1) S4000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v185) S4000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v192) S4000x128.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v194) S384x128.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v201) S1x128.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v198) S128x128.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v202) S1x128.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v203_0) S4000x128.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v203_1) S4000x128.size cc10_transform_8 reads10_8 true false 2 stage10_8 sem10_8
    hrank10 hreads10_8 hinb10_8 nbuf10_8 (Memref.isWhole_whole _) hwx10_8 hstage10_8

abbrev win10 : Fin 9 → Pipeline.Window sig grid10 := fun | 0 => win10_0 | 1 => win10_1 | 2 => win10_2 | 3 => win10_3 | 4 => win10_4 | 5 => win10_5 | 6 => win10_6 | 7 => win10_7 | 8 => win10_8 | ⟨_ + 9, h⟩ => absurd h (Nat.not_lt.2 (Nat.le_add_left _ _))
abbrev spec10 : Fin 9 → Pipeline.WinSpec sig grid10.rank := fun w => (win10 w).toWinSpec

abbrev win11_0 : Pipeline.Window sig grid11 :=
  Pipeline.Window.ofSpec (Memref.whole main_v177) S2000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v206) S2000x128.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v209) S2000x128.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v211) S384x128.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v218) S1x128.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v215) S128x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v219) S1x128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v220) S2000x128.size cc11_transform_7 reads11_7 true false 2 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

abbrev win12_0 : Pipeline.Window sig grid12 :=
  Pipeline.Window.ofSpec (Memref.whole main_v220) S2000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg20) S128x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v221) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_arg22) S128x3.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v222) S1x3.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v223) S2000x3.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v203_1) S4000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg24) S128x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v224) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_arg26) S128x1.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v225) S1x1.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v226) S4000x1.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

class Facts : Prop extends Facts₀ where

variable [Facts]
-- ==== ReferenceIdeal.lean ====
abbrev S20000x16 : Shape := ⟨2, ![20000, 16]⟩
abbrev S160000x8 : Shape := ⟨2, ![160000, 8]⟩
abbrev S160000 : Shape := ⟨1, ![160000]⟩
abbrev S16x128 : Shape := ⟨2, ![16, 128]⟩
abbrev S128 : Shape := ⟨1, ![128]⟩
abbrev S128x128 : Shape := ⟨2, ![128, 128]⟩
abbrev S8x128 : Shape := ⟨2, ![8, 128]⟩
abbrev S5x384x128 : Shape := ⟨3, ![5, 384, 128]⟩
abbrev S5x128 : Shape := ⟨2, ![5, 128]⟩
abbrev S5x128x128 : Shape := ⟨3, ![5, 128, 128]⟩
abbrev S128x3 : Shape := ⟨2, ![128, 3]⟩
abbrev S3 : Shape := ⟨1, ![3]⟩
abbrev S128x1 : Shape := ⟨2, ![128, 1]⟩
abbrev S1 : Shape := ⟨1, ![1]⟩
abbrev S20000x128 : Shape := ⟨2, ![20000, 128]⟩
abbrev S1x128 : Shape := ⟨2, ![1, 128]⟩
abbrev S_ : Shape := ⟨0, ![]⟩
abbrev S160000x128 : Shape := ⟨2, ![160000, 128]⟩
abbrev S160000x1 : Shape := ⟨2, ![160000, 1]⟩
abbrev S160000x384 : Shape := ⟨2, ![160000, 384]⟩
abbrev S1x384x128 : Shape := ⟨3, ![1, 384, 128]⟩
abbrev S384x128 : Shape := ⟨2, ![384, 128]⟩
abbrev S1x128x128 : Shape := ⟨3, ![1, 128, 128]⟩
abbrev S20000x384 : Shape := ⟨2, ![20000, 384]⟩
abbrev S20000x3 : Shape := ⟨2, ![20000, 3]⟩
abbrev S1x3 : Shape := ⟨2, ![1, 3]⟩
abbrev S1x1 : Shape := ⟨2, ![1, 1]⟩

abbrev nBuf : Space → Nat
  | .hbm => 412
  | .vmem => 0
  | .smem => 0
  | _ => 0

abbrev hbmTy0_0 (i : Nat) : BufTy := match i % 128 with
  | 0 => ⟨S20000x16, .f32⟩
  | 1 => ⟨S160000x8, .f32⟩
  | 2 => ⟨S160000, .i32⟩
  | 3 => ⟨S160000, .i32⟩
  | 4 => ⟨S16x128, .f32⟩
  | 5 => ⟨S128, .f32⟩
  | 6 => ⟨S128x128, .f32⟩
  | 7 => ⟨S128, .f32⟩
  | 8 => ⟨S8x128, .f32⟩
  | 9 => ⟨S128, .f32⟩
  | 10 => ⟨S128x128, .f32⟩
  | 11 => ⟨S128, .f32⟩
  | 12 => ⟨S5x384x128, .f32⟩
  | 13 => ⟨S5x128, .f32⟩
  | 14 => ⟨S5x128x128, .f32⟩
  | 15 => ⟨S5x128, .f32⟩
  | 16 => ⟨S5x384x128, .f32⟩
  | 17 => ⟨S5x128, .f32⟩
  | 18 => ⟨S5x128x128, .f32⟩
  | 19 => ⟨S5x128, .f32⟩
  | 20 => ⟨S128x128, .f32⟩
  | 21 => ⟨S128, .f32⟩
  | 22 => ⟨S128x3, .f32⟩
  | 23 => ⟨S3, .f32⟩
  | 24 => ⟨S128x128, .f32⟩
  | 25 => ⟨S128, .f32⟩
  | 26 => ⟨S128x1, .f32⟩
  | 27 => ⟨S1, .f32⟩
  | 28 => ⟨S20000x128, .f32⟩
  | 29 => ⟨S1x128, .f32⟩
  | 30 => ⟨S20000x128, .f32⟩
  | 31 => ⟨S20000x128, .f32⟩
  | 32 => ⟨S_, .f32⟩
  | 33 => ⟨S20000x128, .f32⟩
  | 34 => ⟨S20000x128, .f32⟩
  | 35 => ⟨S20000x128, .f32⟩
  | 36 => ⟨S1x128, .f32⟩
  | 37 => ⟨S20000x128, .f32⟩
  | 38 => ⟨S20000x128, .f32⟩
  | 39 => ⟨S160000x128, .f32⟩
  | 40 => ⟨S1x128, .f32⟩
  | 41 => ⟨S160000x128, .f32⟩
  | 42 => ⟨S160000x128, .f32⟩
  | 43 => ⟨S_, .f32⟩
  | 44 => ⟨S160000x128, .f32⟩
  | 45 => ⟨S160000x128, .f32⟩
  | 46 => ⟨S160000x128, .f32⟩
  | 47 => ⟨S1x128, .f32⟩
  | 48 => ⟨S160000x128, .f32⟩
  | 49 => ⟨S160000x128, .f32⟩
  | 50 => ⟨S_, .i32⟩
  | 51 => ⟨S160000, .i32⟩
  | 52 => ⟨S160000, .i1⟩
  | 53 => ⟨S_, .i32⟩
  | 54 => ⟨S160000, .i32⟩
  | 55 => ⟨S160000, .i32⟩
  | 56 => ⟨S160000, .i32⟩
  | 57 => ⟨S160000x1, .i32⟩
  | 58 => ⟨S160000x128, .f32⟩
  | 59 => ⟨S_, .i32⟩
  | 60 => ⟨S160000, .i32⟩
  | 61 => ⟨S160000, .i1⟩
  | 62 => ⟨S_, .i32⟩
  | 63 => ⟨S160000, .i32⟩
  | 64 => ⟨S160000, .i32⟩
  | 65 => ⟨S160000, .i32⟩
  | 66 => ⟨S160000x1, .i32⟩
  | 67 => ⟨S160000x128, .f32⟩
  | 68 => ⟨S160000x384, .f32⟩
  | 69 => ⟨S1x384x128, .f32⟩
  | 70 => ⟨S384x128, .f32⟩
  | 71 => ⟨S1x128, .f32⟩
  | 72 => ⟨S128, .f32⟩
  | 73 => ⟨S1x128x128, .f32⟩
  | 74 => ⟨S128x128, .f32⟩
  | 75 => ⟨S1x128, .f32⟩
  | 76 => ⟨S128, .f32⟩
  | 77 => ⟨S160000x128, .f32⟩
  | 78 => ⟨S1x128, .f32⟩
  | 79 => ⟨S160000x128, .f32⟩
  | 80 => ⟨S160000x128, .f32⟩
  | 81 => ⟨S_, .f32⟩
  | 82 => ⟨S160000x128, .f32⟩
  | 83 => ⟨S160000x128, .f32⟩
  | 84 => ⟨S160000x128, .f32⟩
  | 85 => ⟨S1x128, .f32⟩
  | 86 => ⟨S160000x128, .f32⟩
  | 87 => ⟨S160000x128, .f32⟩
  | 88 => ⟨S_, .f32⟩
  | 89 => ⟨S20000x128, .f32⟩
  | 90 => ⟨S160000x1, .i32⟩
  | 91 => ⟨S20000x128, .f32⟩
  | 92 => ⟨S_, .f32⟩
  | 93 => ⟨S20000x128, .f32⟩
  | 94 => ⟨S160000x1, .i32⟩
  | 95 => ⟨S20000x128, .f32⟩
  | 96 => ⟨S20000x384, .f32⟩
  | 97 => ⟨S1x384x128, .f32⟩
  | 98 => ⟨S384x128, .f32⟩
  | 99 => ⟨S1x128, .f32⟩
  | 100 => ⟨S128, .f32⟩
  | 101 => ⟨S1x128x128, .f32⟩
  | 102 => ⟨S128x128, .f32⟩
  | 103 => ⟨S1x128, .f32⟩
  | 104 => ⟨S128, .f32⟩
  | 105 => ⟨S20000x128, .f32⟩
  | 106 => ⟨S1x128, .f32⟩
  | 107 => ⟨S20000x128, .f32⟩
  | 108 => ⟨S20000x128, .f32⟩
  | 109 => ⟨S_, .f32⟩
  | 110 => ⟨S20000x128, .f32⟩
  | 111 => ⟨S20000x128, .f32⟩
  | 112 => ⟨S20000x128, .f32⟩
  | 113 => ⟨S1x128, .f32⟩
  | 114 => ⟨S20000x128, .f32⟩
  | 115 => ⟨S20000x128, .f32⟩
  | 116 => ⟨S20000x128, .f32⟩
  | 117 => ⟨S160000x128, .f32⟩
  | 118 => ⟨S_, .i32⟩
  | 119 => ⟨S160000, .i32⟩
  | 120 => ⟨S160000, .i1⟩
  | 121 => ⟨S_, .i32⟩
  | 122 => ⟨S160000, .i32⟩
  | 123 => ⟨S160000, .i32⟩
  | 124 => ⟨S160000, .i32⟩
  | 125 => ⟨S160000x1, .i32⟩
  | 126 => ⟨S160000x128, .f32⟩
  | 127 => ⟨S_, .i32⟩
  | _ => ⟨S20000x16, .f32⟩

abbrev hbmTy0_1 (i : Nat) : BufTy := match i % 128 with
  | 0 => ⟨S160000, .i32⟩
  | 1 => ⟨S160000, .i1⟩
  | 2 => ⟨S_, .i32⟩
  | 3 => ⟨S160000, .i32⟩
  | 4 => ⟨S160000, .i32⟩
  | 5 => ⟨S160000, .i32⟩
  | 6 => ⟨S160000x1, .i32⟩
  | 7 => ⟨S160000x128, .f32⟩
  | 8 => ⟨S160000x384, .f32⟩
  | 9 => ⟨S1x384x128, .f32⟩
  | 10 => ⟨S384x128, .f32⟩
  | 11 => ⟨S1x128, .f32⟩
  | 12 => ⟨S128, .f32⟩
  | 13 => ⟨S1x128x128, .f32⟩
  | 14 => ⟨S128x128, .f32⟩
  | 15 => ⟨S1x128, .f32⟩
  | 16 => ⟨S128, .f32⟩
  | 17 => ⟨S160000x128, .f32⟩
  | 18 => ⟨S1x128, .f32⟩
  | 19 => ⟨S160000x128, .f32⟩
  | 20 => ⟨S160000x128, .f32⟩
  | 21 => ⟨S_, .f32⟩
  | 22 => ⟨S160000x128, .f32⟩
  | 23 => ⟨S160000x128, .f32⟩
  | 24 => ⟨S160000x128, .f32⟩
  | 25 => ⟨S1x128, .f32⟩
  | 26 => ⟨S160000x128, .f32⟩
  | 27 => ⟨S160000x128, .f32⟩
  | 28 => ⟨S_, .f32⟩
  | 29 => ⟨S20000x128, .f32⟩
  | 30 => ⟨S160000x1, .i32⟩
  | 31 => ⟨S20000x128, .f32⟩
  | 32 => ⟨S_, .f32⟩
  | 33 => ⟨S20000x128, .f32⟩
  | 34 => ⟨S160000x1, .i32⟩
  | 35 => ⟨S20000x128, .f32⟩
  | 36 => ⟨S20000x384, .f32⟩
  | 37 => ⟨S1x384x128, .f32⟩
  | 38 => ⟨S384x128, .f32⟩
  | 39 => ⟨S1x128, .f32⟩
  | 40 => ⟨S128, .f32⟩
  | 41 => ⟨S1x128x128, .f32⟩
  | 42 => ⟨S128x128, .f32⟩
  | 43 => ⟨S1x128, .f32⟩
  | 44 => ⟨S128, .f32⟩
  | 45 => ⟨S20000x128, .f32⟩
  | 46 => ⟨S1x128, .f32⟩
  | 47 => ⟨S20000x128, .f32⟩
  | 48 => ⟨S20000x128, .f32⟩
  | 49 => ⟨S_, .f32⟩
  | 50 => ⟨S20000x128, .f32⟩
  | 51 => ⟨S20000x128, .f32⟩
  | 52 => ⟨S20000x128, .f32⟩
  | 53 => ⟨S1x128, .f32⟩
  | 54 => ⟨S20000x128, .f32⟩
  | 55 => ⟨S20000x128, .f32⟩
  | 56 => ⟨S20000x128, .f32⟩
  | 57 => ⟨S160000x128, .f32⟩
  | 58 => ⟨S_, .i32⟩
  | 59 => ⟨S160000, .i32⟩
  | 60 => ⟨S160000, .i1⟩
  | 61 => ⟨S_, .i32⟩
  | 62 => ⟨S160000, .i32⟩
  | 63 => ⟨S160000, .i32⟩
  | 64 => ⟨S160000, .i32⟩
  | 65 => ⟨S160000x1, .i32⟩
  | 66 => ⟨S160000x128, .f32⟩
  | 67 => ⟨S_, .i32⟩
  | 68 => ⟨S160000, .i32⟩
  | 69 => ⟨S160000, .i1⟩
  | 70 => ⟨S_, .i32⟩
  | 71 => ⟨S160000, .i32⟩
  | 72 => ⟨S160000, .i32⟩
  | 73 => ⟨S160000, .i32⟩
  | 74 => ⟨S160000x1, .i32⟩
  | 75 => ⟨S160000x128, .f32⟩
  | 76 => ⟨S160000x384, .f32⟩
  | 77 => ⟨S1x384x128, .f32⟩
  | 78 => ⟨S384x128, .f32⟩
  | 79 => ⟨S1x128, .f32⟩
  | 80 => ⟨S128, .f32⟩
  | 81 => ⟨S1x128x128, .f32⟩
  | 82 => ⟨S128x128, .f32⟩
  | 83 => ⟨S1x128, .f32⟩
  | 84 => ⟨S128, .f32⟩
  | 85 => ⟨S160000x128, .f32⟩
  | 86 => ⟨S1x128, .f32⟩
  | 87 => ⟨S160000x128, .f32⟩
  | 88 => ⟨S160000x128, .f32⟩
  | 89 => ⟨S_, .f32⟩
  | 90 => ⟨S160000x128, .f32⟩
  | 91 => ⟨S160000x128, .f32⟩
  | 92 => ⟨S160000x128, .f32⟩
  | 93 => ⟨S1x128, .f32⟩
  | 94 => ⟨S160000x128, .f32⟩
  | 95 => ⟨S160000x128, .f32⟩
  | 96 => ⟨S_, .f32⟩
  | 97 => ⟨S20000x128, .f32⟩
  | 98 => ⟨S160000x1, .i32⟩
  | 99 => ⟨S20000x128, .f32⟩
  | 100 => ⟨S_, .f32⟩
  | 101 => ⟨S20000x128, .f32⟩
  | 102 => ⟨S160000x1, .i32⟩
  | 103 => ⟨S20000x128, .f32⟩
  | 104 => ⟨S20000x384, .f32⟩
  | 105 => ⟨S1x384x128, .f32⟩
  | 106 => ⟨S384x128, .f32⟩
  | 107 => ⟨S1x128, .f32⟩
  | 108 => ⟨S128, .f32⟩
  | 109 => ⟨S1x128x128, .f32⟩
  | 110 => ⟨S128x128, .f32⟩
  | 111 => ⟨S1x128, .f32⟩
  | 112 => ⟨S128, .f32⟩
  | 113 => ⟨S20000x128, .f32⟩
  | 114 => ⟨S1x128, .f32⟩
  | 115 => ⟨S20000x128, .f32⟩
  | 116 => ⟨S20000x128, .f32⟩
  | 117 => ⟨S_, .f32⟩
  | 118 => ⟨S20000x128, .f32⟩
  | 119 => ⟨S20000x128, .f32⟩
  | 120 => ⟨S20000x128, .f32⟩
  | 121 => ⟨S1x128, .f32⟩
  | 122 => ⟨S20000x128, .f32⟩
  | 123 => ⟨S20000x128, .f32⟩
  | 124 => ⟨S20000x128, .f32⟩
  | 125 => ⟨S160000x128, .f32⟩
  | 126 => ⟨S_, .i32⟩
  | 127 => ⟨S160000, .i32⟩
  | _ => ⟨S20000x16, .f32⟩

abbrev hbmTy0_2 (i : Nat) : BufTy := match i % 128 with
  | 0 => ⟨S160000, .i1⟩
  | 1 => ⟨S_, .i32⟩
  | 2 => ⟨S160000, .i32⟩
  | 3 => ⟨S160000, .i32⟩
  | 4 => ⟨S160000, .i32⟩
  | 5 => ⟨S160000x1, .i32⟩
  | 6 => ⟨S160000x128, .f32⟩
  | 7 => ⟨S_, .i32⟩
  | 8 => ⟨S160000, .i32⟩
  | 9 => ⟨S160000, .i1⟩
  | 10 => ⟨S_, .i32⟩
  | 11 => ⟨S160000, .i32⟩
  | 12 => ⟨S160000, .i32⟩
  | 13 => ⟨S160000, .i32⟩
  | 14 => ⟨S160000x1, .i32⟩
  | 15 => ⟨S160000x128, .f32⟩
  | 16 => ⟨S160000x384, .f32⟩
  | 17 => ⟨S1x384x128, .f32⟩
  | 18 => ⟨S384x128, .f32⟩
  | 19 => ⟨S1x128, .f32⟩
  | 20 => ⟨S128, .f32⟩
  | 21 => ⟨S1x128x128, .f32⟩
  | 22 => ⟨S128x128, .f32⟩
  | 23 => ⟨S1x128, .f32⟩
  | 24 => ⟨S128, .f32⟩
  | 25 => ⟨S160000x128, .f32⟩
  | 26 => ⟨S1x128, .f32⟩
  | 27 => ⟨S160000x128, .f32⟩
  | 28 => ⟨S160000x128, .f32⟩
  | 29 => ⟨S_, .f32⟩
  | 30 => ⟨S160000x128, .f32⟩
  | 31 => ⟨S160000x128, .f32⟩
  | 32 => ⟨S160000x128, .f32⟩
  | 33 => ⟨S1x128, .f32⟩
  | 34 => ⟨S160000x128, .f32⟩
  | 35 => ⟨S160000x128, .f32⟩
  | 36 => ⟨S_, .f32⟩
  | 37 => ⟨S20000x128, .f32⟩
  | 38 => ⟨S160000x1, .i32⟩
  | 39 => ⟨S20000x128, .f32⟩
  | 40 => ⟨S_, .f32⟩
  | 41 => ⟨S20000x128, .f32⟩
  | 42 => ⟨S160000x1, .i32⟩
  | 43 => ⟨S20000x128, .f32⟩
  | 44 => ⟨S20000x384, .f32⟩
  | 45 => ⟨S1x384x128, .f32⟩
  | 46 => ⟨S384x128, .f32⟩
  | 47 => ⟨S1x128, .f32⟩
  | 48 => ⟨S128, .f32⟩
  | 49 => ⟨S1x128x128, .f32⟩
  | 50 => ⟨S128x128, .f32⟩
  | 51 => ⟨S1x128, .f32⟩
  | 52 => ⟨S128, .f32⟩
  | 53 => ⟨S20000x128, .f32⟩
  | 54 => ⟨S1x128, .f32⟩
  | 55 => ⟨S20000x128, .f32⟩
  | 56 => ⟨S20000x128, .f32⟩
  | 57 => ⟨S_, .f32⟩
  | 58 => ⟨S20000x128, .f32⟩
  | 59 => ⟨S20000x128, .f32⟩
  | 60 => ⟨S20000x128, .f32⟩
  | 61 => ⟨S1x128, .f32⟩
  | 62 => ⟨S20000x128, .f32⟩
  | 63 => ⟨S20000x128, .f32⟩
  | 64 => ⟨S20000x128, .f32⟩
  | 65 => ⟨S160000x128, .f32⟩
  | 66 => ⟨S_, .i32⟩
  | 67 => ⟨S160000, .i32⟩
  | 68 => ⟨S160000, .i1⟩
  | 69 => ⟨S_, .i32⟩
  | 70 => ⟨S160000, .i32⟩
  | 71 => ⟨S160000, .i32⟩
  | 72 => ⟨S160000, .i32⟩
  | 73 => ⟨S160000x1, .i32⟩
  | 74 => ⟨S160000x128, .f32⟩
  | 75 => ⟨S_, .i32⟩
  | 76 => ⟨S160000, .i32⟩
  | 77 => ⟨S160000, .i1⟩
  | 78 => ⟨S_, .i32⟩
  | 79 => ⟨S160000, .i32⟩
  | 80 => ⟨S160000, .i32⟩
  | 81 => ⟨S160000, .i32⟩
  | 82 => ⟨S160000x1, .i32⟩
  | 83 => ⟨S160000x128, .f32⟩
  | 84 => ⟨S160000x384, .f32⟩
  | 85 => ⟨S1x384x128, .f32⟩
  | 86 => ⟨S384x128, .f32⟩
  | 87 => ⟨S1x128, .f32⟩
  | 88 => ⟨S128, .f32⟩
  | 89 => ⟨S1x128x128, .f32⟩
  | 90 => ⟨S128x128, .f32⟩
  | 91 => ⟨S1x128, .f32⟩
  | 92 => ⟨S128, .f32⟩
  | 93 => ⟨S160000x128, .f32⟩
  | 94 => ⟨S1x128, .f32⟩
  | 95 => ⟨S160000x128, .f32⟩
  | 96 => ⟨S160000x128, .f32⟩
  | 97 => ⟨S_, .f32⟩
  | 98 => ⟨S160000x128, .f32⟩
  | 99 => ⟨S160000x128, .f32⟩
  | 100 => ⟨S160000x128, .f32⟩
  | 101 => ⟨S1x128, .f32⟩
  | 102 => ⟨S160000x128, .f32⟩
  | 103 => ⟨S160000x128, .f32⟩
  | 104 => ⟨S_, .f32⟩
  | 105 => ⟨S20000x128, .f32⟩
  | 106 => ⟨S160000x1, .i32⟩
  | 107 => ⟨S20000x128, .f32⟩
  | 108 => ⟨S_, .f32⟩
  | 109 => ⟨S20000x128, .f32⟩
  | 110 => ⟨S160000x1, .i32⟩
  | 111 => ⟨S20000x128, .f32⟩
  | 112 => ⟨S20000x384, .f32⟩
  | 113 => ⟨S1x384x128, .f32⟩
  | 114 => ⟨S384x128, .f32⟩
  | 115 => ⟨S1x128, .f32⟩
  | 116 => ⟨S128, .f32⟩
  | 117 => ⟨S1x128x128, .f32⟩
  | 118 => ⟨S128x128, .f32⟩
  | 119 => ⟨S1x128, .f32⟩
  | 120 => ⟨S128, .f32⟩
  | 121 => ⟨S20000x128, .f32⟩
  | 122 => ⟨S1x128, .f32⟩
  | 123 => ⟨S20000x128, .f32⟩
  | 124 => ⟨S20000x128, .f32⟩
  | 125 => ⟨S_, .f32⟩
  | 126 => ⟨S20000x128, .f32⟩
  | 127 => ⟨S20000x128, .f32⟩
  | _ => ⟨S20000x16, .f32⟩

abbrev hbmTy0_3 (i : Nat) : BufTy := match i % 128 with
  | 0 => ⟨S20000x128, .f32⟩
  | 1 => ⟨S1x128, .f32⟩
  | 2 => ⟨S20000x128, .f32⟩
  | 3 => ⟨S20000x128, .f32⟩
  | 4 => ⟨S20000x128, .f32⟩
  | 5 => ⟨S160000x128, .f32⟩
  | 6 => ⟨S20000x128, .f32⟩
  | 7 => ⟨S1x128, .f32⟩
  | 8 => ⟨S20000x128, .f32⟩
  | 9 => ⟨S20000x128, .f32⟩
  | 10 => ⟨S_, .f32⟩
  | 11 => ⟨S20000x128, .f32⟩
  | 12 => ⟨S20000x128, .f32⟩
  | 13 => ⟨S20000x3, .f32⟩
  | 14 => ⟨S1x3, .f32⟩
  | 15 => ⟨S20000x3, .f32⟩
  | 16 => ⟨S20000x3, .f32⟩
  | 17 => ⟨S160000x128, .f32⟩
  | 18 => ⟨S1x128, .f32⟩
  | 19 => ⟨S160000x128, .f32⟩
  | 20 => ⟨S160000x128, .f32⟩
  | 21 => ⟨S_, .f32⟩
  | 22 => ⟨S160000x128, .f32⟩
  | 23 => ⟨S160000x128, .f32⟩
  | 24 => ⟨S160000x1, .f32⟩
  | 25 => ⟨S1x1, .f32⟩
  | 26 => ⟨S160000x1, .f32⟩
  | 27 => ⟨S160000x1, .f32⟩
  | _ => ⟨S20000x16, .f32⟩

abbrev hbmTy (i : Nat) : BufTy := match i / 128 with
  | 0 => hbmTy0_0 i
  | 1 => hbmTy0_1 i
  | 2 => hbmTy0_2 i
  | 3 => hbmTy0_3 i
  | _ => ⟨S20000x16, .f32⟩

abbrev bufTy : (tb : Table) → Fin (tcTables nBuf tb) → BufTy
  | .hbm, ⟨i, _⟩ => hbmTy i
  | _, _ => ⟨S20000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_0 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c : Ref sig .tc := ⟨.hbm, 50, rfl⟩
abbrev main_v20 : Ref sig .tc := ⟨.hbm, 51, rfl⟩
abbrev main_v21 : Ref sig .tc := ⟨.hbm, 52, rfl⟩
abbrev main_c_1 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_2 : Ref sig .tc := ⟨.hbm, 59, rfl⟩
abbrev main_v27 : Ref sig .tc := ⟨.hbm, 60, rfl⟩
abbrev main_v28 : Ref sig .tc := ⟨.hbm, 61, rfl⟩
abbrev main_c_3 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_4 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_5 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_6 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_7 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_c_8 : Ref sig .tc := ⟨.hbm, 118, rfl⟩
abbrev main_v80 : Ref sig .tc := ⟨.hbm, 119, rfl⟩
abbrev main_v81 : Ref sig .tc := ⟨.hbm, 120, rfl⟩
abbrev main_c_9 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_10 : Ref sig .tc := ⟨.hbm, 127, rfl⟩
abbrev main_v87 : Ref sig .tc := ⟨.hbm, 128, rfl⟩
abbrev main_v88 : Ref sig .tc := ⟨.hbm, 129, rfl⟩
abbrev main_c_11 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_12 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_13 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_cst_14 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_15 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_c_16 : Ref sig .tc := ⟨.hbm, 186, rfl⟩
abbrev main_v140 : Ref sig .tc := ⟨.hbm, 187, rfl⟩
abbrev main_v141 : Ref sig .tc := ⟨.hbm, 188, rfl⟩
abbrev main_c_17 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_c_18 : Ref sig .tc := ⟨.hbm, 195, rfl⟩
abbrev main_v147 : Ref sig .tc := ⟨.hbm, 196, rfl⟩
abbrev main_v148 : Ref sig .tc := ⟨.hbm, 197, rfl⟩
abbrev main_c_19 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_cst_20 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_cst_21 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_cst_22 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_cst_23 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_c_24 : Ref sig .tc := ⟨.hbm, 254, rfl⟩
abbrev main_v200 : Ref sig .tc := ⟨.hbm, 255, rfl⟩
abbrev main_v201 : Ref sig .tc := ⟨.hbm, 256, rfl⟩
abbrev main_c_25 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_c_26 : Ref sig .tc := ⟨.hbm, 263, rfl⟩
abbrev main_v207 : Ref sig .tc := ⟨.hbm, 264, rfl⟩
abbrev main_v208 : Ref sig .tc := ⟨.hbm, 265, rfl⟩
abbrev main_c_27 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_cst_28 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_cst_29 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_cst_30 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_cst_31 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_c_32 : Ref sig .tc := ⟨.hbm, 322, rfl⟩
abbrev main_v260 : Ref sig .tc := ⟨.hbm, 323, rfl⟩
abbrev main_v261 : Ref sig .tc := ⟨.hbm, 324, rfl⟩
abbrev main_c_33 : Ref sig .tc := ⟨.hbm, 325, rfl⟩
abbrev main_v262 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_c_34 : Ref sig .tc := ⟨.hbm, 331, rfl⟩
abbrev main_v267 : Ref sig .tc := ⟨.hbm, 332, rfl⟩
abbrev main_v268 : Ref sig .tc := ⟨.hbm, 333, rfl⟩
abbrev main_c_35 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_v275 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_v284 : Ref sig .tc := ⟨.hbm, 350, rfl⟩
abbrev main_v285 : Ref sig .tc := ⟨.hbm, 351, rfl⟩
abbrev main_v286 : Ref sig .tc := ⟨.hbm, 352, rfl⟩
abbrev main_cst_36 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_cst_37 : Ref sig .tc := ⟨.hbm, 360, rfl⟩
abbrev main_v293 : Ref sig .tc := ⟨.hbm, 361, rfl⟩
abbrev main_v294 : Ref sig .tc := ⟨.hbm, 362, rfl⟩
abbrev main_v295 : Ref sig .tc := ⟨.hbm, 363, rfl⟩
abbrev main_cst_38 : Ref sig .tc := ⟨.hbm, 364, rfl⟩
abbrev main_v296 : Ref sig .tc := ⟨.hbm, 365, rfl⟩
abbrev main_v297 : Ref sig .tc := ⟨.hbm, 366, rfl⟩
abbrev main_v298 : Ref sig .tc := ⟨.hbm, 367, rfl⟩
abbrev main_v299 : Ref sig .tc := ⟨.hbm, 368, rfl⟩
abbrev main_v300 : Ref sig .tc := ⟨.hbm, 369, rfl⟩
abbrev main_v301 : Ref sig .tc := ⟨.hbm, 370, rfl⟩
abbrev main_v302 : Ref sig .tc := ⟨.hbm, 371, rfl⟩
abbrev main_v303 : Ref sig .tc := ⟨.hbm, 372, rfl⟩
abbrev main_v304 : Ref sig .tc := ⟨.hbm, 373, rfl⟩
abbrev main_v305 : Ref sig .tc := ⟨.hbm, 374, rfl⟩
abbrev main_v306 : Ref sig .tc := ⟨.hbm, 375, rfl⟩
abbrev main_v307 : Ref sig .tc := ⟨.hbm, 376, rfl⟩
abbrev main_v308 : Ref sig .tc := ⟨.hbm, 377, rfl⟩
abbrev main_v309 : Ref sig .tc := ⟨.hbm, 378, rfl⟩
abbrev main_v310 : Ref sig .tc := ⟨.hbm, 379, rfl⟩
abbrev main_v311 : Ref sig .tc := ⟨.hbm, 380, rfl⟩
abbrev main_cst_39 : Ref sig .tc := ⟨.hbm, 381, rfl⟩
abbrev main_v312 : Ref sig .tc := ⟨.hbm, 382, rfl⟩
abbrev main_v313 : Ref sig .tc := ⟨.hbm, 383, rfl⟩
abbrev main_v314 : Ref sig .tc := ⟨.hbm, 384, rfl⟩
abbrev main_v315 : Ref sig .tc := ⟨.hbm, 385, rfl⟩
abbrev main_v316 : Ref sig .tc := ⟨.hbm, 386, rfl⟩
abbrev main_v317 : Ref sig .tc := ⟨.hbm, 387, rfl⟩
abbrev main_v318 : Ref sig .tc := ⟨.hbm, 388, rfl⟩
abbrev main_v319 : Ref sig .tc := ⟨.hbm, 389, rfl⟩
abbrev main_v320 : Ref sig .tc := ⟨.hbm, 390, rfl⟩
abbrev main_v321 : Ref sig .tc := ⟨.hbm, 391, rfl⟩
abbrev main_v322 : Ref sig .tc := ⟨.hbm, 392, rfl⟩
abbrev main_v323 : Ref sig .tc := ⟨.hbm, 393, rfl⟩
abbrev main_cst_40 : Ref sig .tc := ⟨.hbm, 394, rfl⟩
abbrev main_v324 : Ref sig .tc := ⟨.hbm, 395, rfl⟩
abbrev main_v325 : Ref sig .tc := ⟨.hbm, 396, rfl⟩
abbrev main_v326 : Ref sig .tc := ⟨.hbm, 397, rfl⟩
abbrev main_v327 : Ref sig .tc := ⟨.hbm, 398, rfl⟩
abbrev main_v328 : Ref sig .tc := ⟨.hbm, 399, rfl⟩
abbrev main_v329 : Ref sig .tc := ⟨.hbm, 400, rfl⟩
abbrev main_v330 : Ref sig .tc := ⟨.hbm, 401, rfl⟩
abbrev main_v331 : Ref sig .tc := ⟨.hbm, 402, rfl⟩
abbrev main_v332 : Ref sig .tc := ⟨.hbm, 403, rfl⟩
abbrev main_v333 : Ref sig .tc := ⟨.hbm, 404, rfl⟩
abbrev main_cst_41 : Ref sig .tc := ⟨.hbm, 405, rfl⟩
abbrev main_v334 : Ref sig .tc := ⟨.hbm, 406, rfl⟩
abbrev main_v335 : Ref sig .tc := ⟨.hbm, 407, rfl⟩
abbrev main_v336 : Ref sig .tc := ⟨.hbm, 408, rfl⟩
abbrev main_v337 : Ref sig .tc := ⟨.hbm, 409, rfl⟩
abbrev main_v338 : Ref sig .tc := ⟨.hbm, 410, rfl⟩
abbrev main_v339 : Ref sig .tc := ⟨.hbm, 411, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S1x128_S160000x128_0_1 : S1x128.BroadcastsInDim S160000x128 (![0, 1] : Fin 2 → Fin S160000x128.rank)
  bcast_S_S160000x128 : S_.BroadcastsInDim S160000x128 (![] : Fin 0 → Fin S160000x128.rank)
  bcast_S_S160000 : S_.BroadcastsInDim S160000 (![] : Fin 0 → Fin S160000.rank)
  bcast_S160000_S160000x1_0 : S160000.BroadcastsInDim S160000x1 (![0] : Fin 1 → Fin S160000x1.rank)
  concatenates_S160000x128_S160000x128_S160000x128_S160000x384_d1 : Shape.Concatenates [S160000x128, S160000x128, S160000x128] S160000x384 1
  slices_S5x384x128_S1x384x128_0_0_0 : S5x384x128.Slices ![0, 0, 0] S1x384x128
  shapeCasts_S1x384x128_S384x128 : S1x384x128.ShapeCasts S384x128
  slices_S5x128_S1x128_0_0 : S5x128.Slices ![0, 0] S1x128
  shapeCasts_S1x128_S128 : S1x128.ShapeCasts S128
  slices_S5x128x128_S1x128x128_0_0_0 : S5x128x128.Slices ![0, 0, 0] S1x128x128
  shapeCasts_S1x128x128_S128x128 : S1x128x128.ShapeCasts S128x128
  concatenates_S20000x128_S20000x128_S20000x128_S20000x384_d1 : Shape.Concatenates [S20000x128, S20000x128, S20000x128] S20000x384 1
  slices_S5x384x128_S1x384x128_1_0_0 : S5x384x128.Slices ![1, 0, 0] S1x384x128
  slices_S5x128_S1x128_1_0 : S5x128.Slices ![1, 0] S1x128
  slices_S5x128x128_S1x128x128_1_0_0 : S5x128x128.Slices ![1, 0, 0] S1x128x128
  slices_S5x384x128_S1x384x128_2_0_0 : S5x384x128.Slices ![2, 0, 0] S1x384x128
  slices_S5x128_S1x128_2_0 : S5x128.Slices ![2, 0] S1x128
  slices_S5x128x128_S1x128x128_2_0_0 : S5x128x128.Slices ![2, 0, 0] S1x128x128
  slices_S5x384x128_S1x384x128_3_0_0 : S5x384x128.Slices ![3, 0, 0] S1x384x128
  slices_S5x128_S1x128_3_0 : S5x128.Slices ![3, 0] S1x128
  slices_S5x128x128_S1x128x128_3_0_0 : S5x128x128.Slices ![3, 0, 0] S1x128x128
  slices_S5x384x128_S1x384x128_4_0_0 : S5x384x128.Slices ![4, 0, 0] S1x384x128
  slices_S5x128_S1x128_4_0 : S5x128.Slices ![4, 0] S1x128
  slices_S5x128x128_S1x128x128_4_0_0 : S5x128x128.Slices ![4, 0, 0] S1x128x128
  bcast_S3_S1x3_1 : S3.BroadcastsInDim S1x3 (![1] : Fin 1 → Fin S1x3.rank)
  bcast_S1x3_S20000x3_0_1 : S1x3.BroadcastsInDim S20000x3 (![0, 1] : Fin 2 → Fin S20000x3.rank)
  bcast_S1_S1x1_1 : S1.BroadcastsInDim S1x1 (![1] : Fin 1 → Fin S1x1.rank)
  bcast_S1x1_S160000x1_0_1 : S1x1.BroadcastsInDim S160000x1 (![0, 1] : Fin 2 → Fin S160000x1.rank)
  dot_S20000x16_S16x128_S20000x128_1_0_0_1_n_n_wf : DotDims.WF S20000x16 S16x128 S20000x128 [1] [0] [0] [1] [] []
  dot_S20000x128_S128x128_S20000x128_1_0_0_1_n_n_wf : DotDims.WF S20000x128 S128x128 S20000x128 [1] [0] [0] [1] [] []
  dot_S160000x8_S8x128_S160000x128_1_0_0_1_n_n_wf : DotDims.WF S160000x8 S8x128 S160000x128 [1] [0] [0] [1] [] []
  dot_S160000x128_S128x128_S160000x128_1_0_0_1_n_n_wf : DotDims.WF S160000x128 S128x128 S160000x128 [1] [0] [0] [1] [] []
  gather_S20000x128_S160000x1_S160000x128_1_0_n_n_0_1_1128_wf : GatherDims.WF S20000x128 S160000x1 S160000x128 [1] [0] [] [0] [] 1 ![1, 128]
  dot_S160000x384_S384x128_S160000x128_1_0_0_1_n_n_wf : DotDims.WF S160000x384 S384x128 S160000x128 [1] [0] [0] [1] [] []
  scatter_S20000x128_S160000x1_S160000x128_1_0_0_1_wf : ScatterDims.WF S20000x128 S160000x1 S160000x128 [1] [0] [0] 1
  dot_S20000x384_S384x128_S20000x128_1_0_0_1_n_n_wf : DotDims.WF S20000x384 S384x128 S20000x128 [1] [0] [0] [1] [] []
  dot_S20000x128_S128x3_S20000x3_1_0_0_1_n_n_wf : DotDims.WF S20000x128 S128x3 S20000x3 [1] [0] [0] [1] [] []
  dot_S160000x128_S128x1_S160000x1_1_0_0_1_n_n_wf : DotDims.WF S160000x128 S128x1 S160000x1 [1] [0] [0] [1] [] []

variable [Facts₀]

def dot_S20000x16_S16x128_S20000x128_1_0_0_1_n_n : DotDims S20000x16 S16x128 S20000x128 where
  lhsContracting := [1]
  rhsContracting := [0]
  lhsNonContracting := [0]
  rhsNonContracting := [1]
  lhsBatch := []
  rhsBatch := []
  wf := dot_S20000x16_S16x128_S20000x128_1_0_0_1_n_n_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def dot_S160000x8_S8x128_S160000x128_1_0_0_1_n_n : DotDims S160000x8 S8x128 S160000x128 where
  lhsContracting := [1]
  rhsContracting := [0]
  lhsNonContracting := [0]
  rhsNonContracting := [1]
  lhsBatch := []
  rhsBatch := []
  wf := dot_S160000x8_S8x128_S160000x128_1_0_0_1_n_n_wf
def dot_S160000x128_S128x128_S160000x128_1_0_0_1_n_n : DotDims S160000x128 S128x128 S160000x128 where
  lhsContracting := [1]
  rhsContracting := [0]
  lhsNonContracting := [0]
  rhsNonContracting := [1]
  lhsBatch := []
  rhsBatch := []
  wf := dot_S160000x128_S128x128_S160000x128_1_0_0_1_n_n_wf
def gather_S20000x128_S160000x1_S160000x128_1_0_n_n_0_1_1128 : GatherDims S20000x128 S160000x1 S160000x128 where
  offsetDims := [1]
  collapsedSliceDims := [0]
  operandBatchingDims := []
  startIndicesBatchingDims := []
  startIndexMap := [0]
  indexVectorDim := 1
  sliceSizes := ![1, 128]
  wf := gather_S20000x128_S160000x1_S160000x128_1_0_n_n_0_1_1128_wf
def dot_S160000x384_S384x128_S160000x128_1_0_0_1_n_n : DotDims S160000x384 S384x128 S160000x128 where
  lhsContracting := [1]
  rhsContracting := [0]
  lhsNonContracting := [0]
  rhsNonContracting := [1]
  lhsBatch := []
  rhsBatch := []
  wf := dot_S160000x384_S384x128_S160000x128_1_0_0_1_n_n_wf
def scatter_S20000x128_S160000x1_S160000x128_1_0_0_1 : ScatterDims S20000x128 S160000x1 S160000x128 where
  updateWindowDims := [1]
  insertedWindowDims := [0]
  scatterDimsToOperandDims := [0]
  indexVectorDim := 1
  wf := scatter_S20000x128_S160000x1_S160000x128_1_0_0_1_wf
def dot_S20000x384_S384x128_S20000x128_1_0_0_1_n_n : DotDims S20000x384 S384x128 S20000x128 where
  lhsContracting := [1]
  rhsContracting := [0]
  lhsNonContracting := [0]
  rhsNonContracting := [1]
  lhsBatch := []
  rhsBatch := []
  wf := dot_S20000x384_S384x128_S20000x128_1_0_0_1_n_n_wf
def dot_S20000x128_S128x3_S20000x3_1_0_0_1_n_n : DotDims S20000x128 S128x3 S20000x3 where
  lhsContracting := [1]
  rhsContracting := [0]
  lhsNonContracting := [0]
  rhsNonContracting := [1]
  lhsBatch := []
  rhsBatch := []
  wf := dot_S20000x128_S128x3_S20000x3_1_0_0_1_n_n_wf
def dot_S160000x128_S128x1_S160000x1_1_0_0_1_n_n : DotDims S160000x128 S128x1 S160000x1 where
  lhsContracting := [1]
  rhsContracting := [0]
  lhsNonContracting := [0]
  rhsNonContracting := [1]
  lhsBatch := []
  rhsBatch := []
  wf := dot_S160000x128_S128x1_S160000x1_1_0_0_1_n_n_wf

class Facts : Prop extends Facts₀ where

variable [Facts]
-- ==== Proof.KernelRun.lean ====
/-
  The idealized kernel's run, with every buffer named at the end.

  @main is fourteen kernel regions among stretches of host operations. Its run from any memory ends, on every core,
  with every buffer that outlives a region holding the last boundary's contents: the fold that starts from the launch
  memory, applies each stretch of host operations, and replaces each region's arrays by what its write-backs leave.
  This is the launch theorem for a chain of segments, applied to the segments of @main, with the final thread state
  read against the final memory; the two result buffers and the arguments are then read off it.
-/
import proofs.«150645_j45672682226304_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer that outlives a region at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W28 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h c => h c)

/-- The same run with the two results and the arguments read off. -/
theorem run : θ_run defs (onTc (τ := τ) (main (F := F))) ⟨m, fun _ => 0, ρ⟩ (fun r => ∀ c : Dev nD,
      (r.2.mem ((c.tc : Thread nD τ).loc main_v223) = W28 m ρ c (Proc.devRef .tc main_v223)
      ∧ r.2.mem ((c.tc : Thread nD τ).loc main_v226) = W28 m ρ c (Proc.devRef .tc main_v226))
      ∧ ∀ b : Ref sig .tc, ¬ (Proc.devRef .tc b : DevRef τ sig).isScoped → r.2.mem ((c.tc : Thread nD τ).loc b) = W28 m ρ c (Proc.devRef .tc b)) :=
  (θ_run defs _ _).mono (fun r h c => ⟨⟨h c _ (mem_uc main_v223 (by decide)), h c _ (mem_uc main_v226 (by decide))⟩,
    fun b hb => h c _ (mem_uc b hb)⟩) (run_all m ρ)

end Cert.KernelIdeal.ValueRun

end
-- ==== Proof.Keep.lean ====
/-
  What the boundaries between @main's segments keep.

  The buffer contents at the boundaries form a fold: a stretch of host operations changes only the buffers it
  writes, and a region changes only its output windows' arrays. So a buffer read at a late boundary holds what it
  held at the boundary after its last writer; these lemmas are the single steps of that walk.
-/
import proofs.«150645_j45672682226304_2_alg».proof.Proof.Gen.KernelIdeal.Frame

set_option maxRecDepth 16384

noncomputable section

namespace Cert.KernelIdeal.Keep

open Idealize.ShloMosaic Idealize.ShloMosaic.TcCoe Idealize.SL.Sem
open Cert.KernelIdeal Cert.KernelIdeal.Facts₀ Cert.KernelIdeal.Gen
open Idealize.ShloMosaic.Pipeline (Dat Cfg Window)

variable {F : FTy → Type} [FloatOps F]
variable (m : (ℓ : Loc nD τ sig) → Buf (Elt F) ℓ) (ρ : Dev nD → PrngReg)

/-- Stretch 0 writes none of the buffers outside `written0`. -/
def written0 : List (Ref sig .tc) := [main_v0, main_v1]
theorem keep_host0 (c : Dev nD) (b : Ref sig .tc) (hb : b ∉ written0) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact hb (by decide))))

/-- An input window's array leaves region 0 as it entered. -/
theorem keep_in0 (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- Stretch 1 writes none of the buffers outside `written1`. -/
def written1 : List (Ref sig .tc) := [main_v3, main_v4]
theorem keep_host1 (c : Dev nD) (b : Ref sig .tc) (hb : b ∉ written1) :
    W3 m ρ c (Proc.devRef .tc b) = W2 m ρ c (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact hb (by decide))))

/-- An input window's array leaves region 1 as it entered. -/
theorem keep_in1 (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- Stretch 2 writes none of the buffers outside `written2`. -/
def written2 : List (Ref sig .tc) := [main_v6, main_c, main_v7, main_v8, main_c_0, main_v9, main_v10, main_v11, main_v12, main_v13, main_c_1, main_v14, main_v15, main_c_2, main_v16, main_v17, main_v18, main_v19, main_v20, main_v21, main_v22, main_v23, main_v24, main_v25, main_v26, main_v27, main_v28, main_v29, main_v30]
theorem keep_host2 (c : Dev nD) (b : Ref sig .tc) (hb : b ∉ written2) :
    W5 m ρ c (Proc.devRef .tc b) = W4 m ρ c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact hb (by decide))))

/-- An input window's array leaves region 2 as it entered. -/
theorem keep_in2 (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-- Stretch 3 writes none of the buffers outside `written3`. -/
def written3 : List (Ref sig .tc) := [main_cst, main_v32, main_v33, main_v34, main_cst_3, main_v35, main_v36, main_v37, main_v38, main_v39, main_v40, main_v41, main_v42, main_v43, main_v44, main_v45, main_v46, main_v47]
theorem keep_host3 (c : Dev nD) (b : Ref sig .tc) (hb : b ∉ written3) :
    W7 m ρ c (Proc.devRef .tc b) = W6 m ρ c (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact hb (by decide))))

/-- An input window's array leaves region 3 as it entered. -/
theorem keep_in3 (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))

/-- Stretch 4 writes none of the buffers outside `written4`. -/
def written4 : List (Ref sig .tc) := [main_v49, main_c_4, main_v50, main_v51, main_c_5, main_v52, main_v53, main_v54, main_v55, main_v56, main_c_6, main_v57, main_v58, main_c_7, main_v59, main_v60, main_v61, main_v62, main_v63, main_v64, main_v65, main_v66, main_v67, main_v68, main_v69, main_v70, main_v71, main_v72, main_v73]
theorem keep_host4 (c : Dev nD) (b : Ref sig .tc) (hb : b ∉ written4) :
    W9 m ρ c (Proc.devRef .tc b) = W8 m ρ c (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact hb (by decide))))

/-- An input window's array leaves region 4 as it entered. -/
theorem keep_in4 (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hin _).trans (A_eq4 (V9 m ρ) c w))

/-- Stretch 5 writes none of the buffers outside `written5`. -/
def written5 : List (Ref sig .tc) := [main_cst_8, main_v75, main_v76, main_v77, main_cst_9, main_v78, main_v79, main_v80, main_v81, main_v82, main_v83, main_v84, main_v85, main_v86, main_v87, main_v88, main_v89, main_v90]
theorem keep_host5 (c : Dev nD) (b : Ref sig .tc) (hb : b ∉ written5) :
    W11 m ρ c (Proc.devRef .tc b) = W10 m ρ c (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact hb (by decide))))

/-- An input window's array leaves region 5 as it entered. -/
theorem keep_in5 (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (V11 m ρ) c).arrAt_in w hin _).trans (A_eq5 (V11 m ρ) c w))

/-- Stretch 6 writes none of the buffers outside `written6`. -/
def written6 : List (Ref sig .tc) := [main_v92, main_c_10, main_v93, main_v94, main_c_11, main_v95, main_v96, main_v97, main_v98, main_v99, main_c_12, main_v100, main_v101, main_c_13, main_v102, main_v103, main_v104, main_v105, main_v106, main_v107, main_v108, main_v109, main_v110, main_v111, main_v112, main_v113, main_v114, main_v115, main_v116]
theorem keep_host6 (c : Dev nD) (b : Ref sig .tc) (hb : b ∉ written6) :
    W13 m ρ c (Proc.devRef .tc b) = W12 m ρ c (Proc.devRef .tc b) :=
  StableHlo.after_of_forall_not_mem (b := Proc.devRef .tc b) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact hb (by decide))))

/-- An input window's array leaves region 6 as it entered. -/
theorem keep_in6 (c : Dev nD) (w : Fin cfg6.W) (hin : (cfg6.win w).isOut = false) :
    W14 m ρ c (Proc.devRef .tc (Pipeline.arrRef spec6 w)) = W13 m ρ c (Proc.devRef .tc (Pipeline.arrRef spec6 w)) :=
  (W14_arr m ρ c w).trans (((dat6 (V13 m ρ) c).arrAt_in w hin _).trans (A_eq6 (V13 m ρ) c w))

/-- Stretch 7 writes none of the buffers outside `written7`. -/
def written7 : List (Ref sig .tc) := [main_cst_14, main_v118, main_v119, main_v120, main_cst_15, main_v121, main_v122, main_v123, main_v124, main_v125, main_v126, main_v127, main_v128, main_v129, main_v130, main_v131, main_v132, main_v133]
theorem keep_host7 (c : Dev nD) (b : Ref sig .tc) (hb : b ∉ written7) :
    W15 m ρ c (Proc.devRef .tc b) = W14 m ρ c (Proc.devRef .tc b) :=
  StableHlo.after_of_forall_not_mem (b := Proc.devRef .tc b) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact hb (by decide))))

/-- An input window's array leaves region 7 as it entered. -/
theorem keep_in7 (c : Dev nD) (w : Fin cfg7.W) (hin : (cfg7.win w).isOut = false) :
    W16 m ρ c (Proc.devRef .tc (Pipeline.arrRef spec7 w)) = W15 m ρ c (Proc.devRef .tc (Pipeline.arrRef spec7 w)) :=
  (W16_arr m ρ c w).trans (((dat7 (V15 m ρ) c).arrAt_in w hin _).trans (A_eq7 (V15 m ρ) c w))

/-- Stretch 8 writes none of the buffers outside `written8`. -/
def written8 : List (Ref sig .tc) := [main_v135, main_c_16, main_v136, main_v137, main_c_17, main_v138, main_v139, main_v140, main_v141, main_v142, main_c_18, main_v143, main_v144, main_c_19, main_v145, main_v146, main_v147, main_v148, main_v149, main_v150, main_v151, main_v152, main_v153, main_v154, main_v155, main_v156, main_v157, main_v158, main_v159]
theorem keep_host8 (c : Dev nD) (b : Ref sig .tc) (hb : b ∉ written8) :
    W17 m ρ c (Proc.devRef .tc b) = W16 m ρ c (Proc.devRef .tc b) :=
  StableHlo.after_of_forall_not_mem (b := Proc.devRef .tc b) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact hb (by decide))))

/-- An input window's array leaves region 8 as it entered. -/
theorem keep_in8 (c : Dev nD) (w : Fin cfg8.W) (hin : (cfg8.win w).isOut = false) :
    W18 m ρ c (Proc.devRef .tc (Pipeline.arrRef spec8 w)) = W17 m ρ c (Proc.devRef .tc (Pipeline.arrRef spec8 w)) :=
  (W18_arr m ρ c w).trans (((dat8 (V17 m ρ) c).arrAt_in w hin _).trans (A_eq8 (V17 m ρ) c w))

/-- Stretch 9 writes none of the buffers outside `written9`. -/
def written9 : List (Ref sig .tc) := [main_cst_20, main_v161, main_v162, main_v163, main_cst_21, main_v164, main_v165, main_v166, main_v167, main_v168, main_v169, main_v170, main_v171, main_v172, main_v173, main_v174, main_v175, main_v176]
theorem keep_host9 (c : Dev nD) (b : Ref sig .tc) (hb : b ∉ written9) :
    W19 m ρ c (Proc.devRef .tc b) = W18 m ρ c (Proc.devRef .tc b) :=
  StableHlo.after_of_forall_not_mem (b := Proc.devRef .tc b) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact hb (by decide))))

/-- An input window's array leaves region 9 as it entered. -/
theorem keep_in9 (c : Dev nD) (w : Fin cfg9.W) (hin : (cfg9.win w).isOut = false) :
    W20 m ρ c (Proc.devRef .tc (Pipeline.arrRef spec9 w)) = W19 m ρ c (Proc.devRef .tc (Pipeline.arrRef spec9 w)) :=
  (W20_arr m ρ c w).trans (((dat9 (V19 m ρ) c).arrAt_in w hin _).trans (A_eq9 (V19 m ρ) c w))

/-- Stretch 10 writes none of the buffers outside `written10`. -/
def written10 : List (Ref sig .tc) := [main_v178, main_c_22, main_v179, main_v180, main_c_23, main_v181, main_v182, main_v183, main_v184, main_v185, main_c_24, main_v186, main_v187, main_c_25, main_v188, main_v189, main_v190, main_v191, main_v192, main_v193, main_v194, main_v195, main_v196, main_v197, main_v198, main_v199, main_v200, main_v201, main_v202]
theorem keep_host10 (c : Dev nD) (b : Ref sig .tc) (hb : b ∉ written10) :
    W21 m ρ c (Proc.devRef .tc b) = W20 m ρ c (Proc.devRef .tc b) :=
  StableHlo.after_of_forall_not_mem (b := Proc.devRef .tc b) _ _ (List.forall_iff_forall_mem.mp (by
    simp only [hostOps10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact hb (by decide))))

/-- An input window's array leaves region 10 as it entered. -/
theorem keep_in10 (c : Dev nD) (w : Fin cfg10.W) (hin : (cfg10.win w).isOut = false) :
    W22 m ρ c (Proc.devRef .tc (Pipeline.arrRef spec10 w)) = W21 m ρ c (Proc.devRef .tc (Pipeline.arrRef spec10 w)) :=
  (W22_arr m ρ c w).trans (((dat10 (V21 m ρ) c).arrAt_in w hin _).trans (A_eq10 (V21 m ρ) c w))

/-- Stretch 11 writes none of the buffers outside `written11`. -/
def written11 : List (Ref sig .tc) := [main_cst_26, main_v204, main_v205, main_v206, main_cst_27, main_v207, main_v208, main_v209, main_v210, main_v211, main_v212, main_v213, main_v214, main_v215, main_v216, main_v217, main_v218, main_v219]
theorem keep_host11 (c : Dev nD) (b : Ref sig .tc) (hb : b ∉ written11) :
    W23 m ρ c (Proc.devRef .tc b) = W22 m ρ c (Proc.devRef .tc b) :=
  StableHlo.after_of_forall_not_mem (b := Proc.devRef .tc b) _ _ (List.forall_iff_forall_mem.mp (by
    simp only [hostOps11, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact hb (by decide))))

/-- An input window's array leaves region 11 as it entered. -/
theorem keep_in11 (c : Dev nD) (w : Fin cfg11.W) (hin : (cfg11.win w).isOut = false) :
    W24 m ρ c (Proc.devRef .tc (Pipeline.arrRef spec11 w)) = W23 m ρ c (Proc.devRef .tc (Pipeline.arrRef spec11 w)) :=
  (W24_arr m ρ c w).trans (((dat11 (V23 m ρ) c).arrAt_in w hin _).trans (A_eq11 (V23 m ρ) c w))

/-- Stretch 12 writes none of the buffers outside `written12`. -/
def written12 : List (Ref sig .tc) := [main_v221, main_v222]
theorem keep_host12 (c : Dev nD) (b : Ref sig .tc) (hb : b ∉ written12) :
    W25 m ρ c (Proc.devRef .tc b) = W24 m ρ c (Proc.devRef .tc b) :=
  StableHlo.after_of_forall_not_mem (b := Proc.devRef .tc b) _ _ (List.forall_iff_forall_mem.mp (by
    simp only [hostOps12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact hb (by decide))))

/-- An input window's array leaves region 12 as it entered. -/
theorem keep_in12 (c : Dev nD) (w : Fin cfg12.W) (hin : (cfg12.win w).isOut = false) :
    W26 m ρ c (Proc.devRef .tc (Pipeline.arrRef spec12 w)) = W25 m ρ c (Proc.devRef .tc (Pipeline.arrRef spec12 w)) :=
  (W26_arr m ρ c w).trans (((dat12 (V25 m ρ) c).arrAt_in w hin _).trans (A_eq12 (V25 m ρ) c w))

/-- Stretch 13 writes none of the buffers outside `written13`. -/
def written13 : List (Ref sig .tc) := [main_v224, main_v225]
theorem keep_host13 (c : Dev nD) (b : Ref sig .tc) (hb : b ∉ written13) :
    W27 m ρ c (Proc.devRef .tc b) = W26 m ρ c (Proc.devRef .tc b) :=
  StableHlo.after_of_forall_not_mem (b := Proc.devRef .tc b) _ _ (List.forall_iff_forall_mem.mp (by
    simp only [hostOps13, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => by subst e; exact hb (by decide))))

/-- An input window's array leaves region 13 as it entered. -/
theorem keep_in13 (c : Dev nD) (w : Fin cfg13.W) (hin : (cfg13.win w).isOut = false) :
    W28 m ρ c (Proc.devRef .tc (Pipeline.arrRef spec13 w)) = W27 m ρ c (Proc.devRef .tc (Pipeline.arrRef spec13 w)) :=
  (W28_arr m ρ c w).trans (((dat13 (V27 m ρ) c).arrAt_in w hin _).trans (A_eq13 (V27 m ρ) c w))

end Cert.KernelIdeal.Keep

end
-- ==== Proof.ChainAgree.lean ====
/-
  The hypothesis that the two programs start from memories agreeing on the arguments, one argument at a time.

  The claim gives it as one conjunction over the twenty-eight argument buffers; the lemmas below take it apart.
-/
import proofs.«150645_j45672682226304_2_alg».proof.Proof.Keep
import proofs.«150645_j45672682226304_2_alg».proof.Proof.Gen.ReferenceIdeal
import Idealize.ShloMosaic.PureOps.Ideal

set_option maxRecDepth 16384

noncomputable section

namespace Cert.Chain

open Idealize.ShloMosaic Idealize.ShloMosaic.TcCoe Idealize.ShloMosaic.StableHlo Idealize.SL.Sem
open Cert.KernelIdeal Cert.KernelIdeal.Gen Cert.KernelIdeal

variable (m : (ℓ : Loc nD τ sig) → Buf (Elt Ideal) ℓ) (ρ : Dev nD → PrngReg) (c : Dev nD)
variable (V' : Valuation Cert.ReferenceIdeal.τ Cert.ReferenceIdeal.sig (Elt Ideal))

set_option maxHeartbeats 4000000 in
/-- The reference's argument buffers hold what the kernel's hold at launch, on core c. -/
def Agree : Prop :=
  (V' (Proc.devRef .tc Cert.ReferenceIdeal.main_arg0) = m ((c : Thread nD τ).loc main_arg0))
  ∧ (V' (Proc.devRef .tc Cert.ReferenceIdeal.main_arg1) = m ((c : Thread nD τ).loc main_arg1))
  ∧ (V' (Proc.devRef .tc Cert.ReferenceIdeal.main_arg2) = m ((c : Thread nD τ).loc main_arg2))
  ∧ (V' (Proc.devRef .tc Cert.ReferenceIdeal.main_arg3) = m ((c : Thread nD τ).loc main_arg3))
  ∧ (V' (Proc.devRef .tc Cert.ReferenceIdeal.main_arg4) = m ((c : Thread nD τ).loc main_arg4))
  ∧ (V' (Proc.devRef .tc Cert.ReferenceIdeal.main_arg5) = m ((c : Thread nD τ).loc main_arg5))
  ∧ (V' (Proc.devRef .tc Cert.ReferenceIdeal.main_arg6) = m ((c : Thread nD τ).loc main_arg6))
  ∧ (V' (Proc.devRef .tc Cert.ReferenceIdeal.main_arg7) = m ((c : Thread nD τ).loc main_arg7))
  ∧ (V' (Proc.devRef .tc Cert.ReferenceIdeal.main_arg8) = m ((c : Thread nD τ).loc main_arg8))
  ∧ (V' (Proc.devRef .tc Cert.ReferenceIdeal.main_arg9) = m ((c : Thread nD τ).loc main_arg9))
  ∧ (V' (Proc.devRef .tc Cert.ReferenceIdeal.main_arg10) = m ((c : Thread nD τ).loc main_arg10))
  ∧ (V' (Proc.devRef .tc Cert.ReferenceIdeal.main_arg11) = m ((c : Thread nD τ).loc main_arg11))
  ∧ (V' (Proc.devRef .tc Cert.ReferenceIdeal.main_arg12) = m ((c : Thread nD τ).loc main_arg12))
  ∧ (V' (Proc.devRef .tc Cert.ReferenceIdeal.main_arg13) = m ((c : Thread nD τ).loc main_arg13))
  ∧ (V' (Proc.devRef .tc Cert.ReferenceIdeal.main_arg14) = m ((c : Thread nD τ).loc main_arg14))
  ∧ (V' (Proc.devRef .tc Cert.ReferenceIdeal.main_arg15) = m ((c : Thread nD τ).loc main_arg15))
  ∧ (V' (Proc.devRef .tc Cert.ReferenceIdeal.main_arg16) = m ((c : Thread nD τ).loc main_arg16))
  ∧ (V' (Proc.devRef .tc Cert.ReferenceIdeal.main_arg17) = m ((c : Thread nD τ).loc main_arg17))
  ∧ (V' (Proc.devRef .tc Cert.ReferenceIdeal.main_arg18) = m ((c : Thread nD τ).loc main_arg18))
  ∧ (V' (Proc.devRef .tc Cert.ReferenceIdeal.main_arg19) = m ((c : Thread nD τ).loc main_arg19))
  ∧ (V' (Proc.devRef .tc Cert.ReferenceIdeal.main_arg20) = m ((c : Thread nD τ).loc main_arg20))
  ∧ (V' (Proc.devRef .tc Cert.ReferenceIdeal.main_arg21) = m ((c : Thread nD τ).loc main_arg21))
  ∧ (V' (Proc.devRef .tc Cert.ReferenceIdeal.main_arg22) = m ((c : Thread nD τ).loc main_arg22))
  ∧ (V' (Proc.devRef .tc Cert.ReferenceIdeal.main_arg23) = m ((c : Thread nD τ).loc main_arg23))
  ∧ (V' (Proc.devRef .tc Cert.ReferenceIdeal.main_arg24) = m ((c : Thread nD τ).loc main_arg24))
  ∧ (V' (Proc.devRef .tc Cert.ReferenceIdeal.main_arg25) = m ((c : Thread nD τ).loc main_arg25))
  ∧ (V' (Proc.devRef .tc Cert.ReferenceIdeal.main_arg26) = m ((c : Thread nD τ).loc main_arg26))
  ∧ (V' (Proc.devRef .tc Cert.ReferenceIdeal.main_arg27) = m ((c : Thread nD τ).loc main_arg27))

variable {m c V'}

theorem Agree.a0 (h : Agree m c V') : V' (Proc.devRef .tc Cert.ReferenceIdeal.main_arg0) = m ((c : Thread nD τ).loc main_arg0) := h.1
theorem Agree.a1 (h : Agree m c V') : V' (Proc.devRef .tc Cert.ReferenceIdeal.main_arg1) = m ((c : Thread nD τ).loc main_arg1) := h.2.1
theorem Agree.a2 (h : Agree m c V') : V' (Proc.devRef .tc Cert.ReferenceIdeal.main_arg2) = m ((c : Thread nD τ).loc main_arg2) := h.2.2.1
theorem Agree.a3 (h : Agree m c V') : V' (Proc.devRef .tc Cert.ReferenceIdeal.main_arg3) = m ((c : Thread nD τ).loc main_arg3) := h.2.2.2.1
theorem Agree.a4 (h : Agree m c V') : V' (Proc.devRef .tc Cert.ReferenceIdeal.main_arg4) = m ((c : Thread nD τ).loc main_arg4) := h.2.2.2.2.1
theorem Agree.a5 (h : Agree m c V') : V' (Proc.devRef .tc Cert.ReferenceIdeal.main_arg5) = m ((c : Thread nD τ).loc main_arg5) := h.2.2.2.2.2.1
theorem Agree.a6 (h : Agree m c V') : V' (Proc.devRef .tc Cert.ReferenceIdeal.main_arg6) = m ((c : Thread nD τ).loc main_arg6) := h.2.2.2.2.2.2.1
theorem Agree.a7 (h : Agree m c V') : V' (Proc.devRef .tc Cert.ReferenceIdeal.main_arg7) = m ((c : Thread nD τ).loc main_arg7) := h.2.2.2.2.2.2.2.1
theorem Agree.a8 (h : Agree m c V') : V' (Proc.devRef .tc Cert.ReferenceIdeal.main_arg8) = m ((c : Thread nD τ).loc main_arg8) := h.2.2.2.2.2.2.2.2.1
theorem Agree.a9 (h : Agree m c V') : V' (Proc.devRef .tc Cert.ReferenceIdeal.main_arg9) = m ((c : Thread nD τ).loc main_arg9) := h.2.2.2.2.2.2.2.2.2.1
theorem Agree.a10 (h : Agree m c V') : V' (Proc.devRef .tc Cert.ReferenceIdeal.main_arg10) = m ((c : Thread nD τ).loc main_arg10) := h.2.2.2.2.2.2.2.2.2.2.1
theorem Agree.a11 (h : Agree m c V') : V' (Proc.devRef .tc Cert.ReferenceIdeal.main_arg11) = m ((c : Thread nD τ).loc main_arg11) := h.2.2.2.2.2.2.2.2.2.2.2.1
theorem Agree.a12 (h : Agree m c V') : V' (Proc.devRef .tc Cert.ReferenceIdeal.main_arg12) = m ((c : Thread nD τ).loc main_arg12) := h.2.2.2.2.2.2.2.2.2.2.2.2.1
theorem Agree.a13 (h : Agree m c V') : V' (Proc.devRef .tc Cert.ReferenceIdeal.main_arg13) = m ((c : Thread nD τ).loc main_arg13) := h.2.2.2.2.2.2.2.2.2.2.2.2.2.1
theorem Agree.a14 (h : Agree m c V') : V' (Proc.devRef .tc Cert.ReferenceIdeal.main_arg14) = m ((c : Thread nD τ).loc main_arg14) := h.2.2.2.2.2.2.2.2.2.2.2.2.2.2.1
theorem Agree.a15 (h : Agree m c V') : V' (Proc.devRef .tc Cert.ReferenceIdeal.main_arg15) = m ((c : Thread nD τ).loc main_arg15) := h.2.2.2.2.2.2.2.2.2.2.2.2.2.2.2.1
theorem Agree.a16 (h : Agree m c V') : V' (Proc.devRef .tc Cert.ReferenceIdeal.main_arg16) = m ((c : Thread nD τ).loc main_arg16) := h.2.2.2.2.2.2.2.2.2.2.2.2.2.2.2.2.1
theorem Agree.a17 (h : Agree m c V') : V' (Proc.devRef .tc Cert.ReferenceIdeal.main_arg17) = m ((c : Thread nD τ).loc main_arg17) := h.2.2.2.2.2.2.2.2.2.2.2.2.2.2.2.2.2.1
theorem Agree.a18 (h : Agree m c V') : V' (Proc.devRef .tc Cert.ReferenceIdeal.main_arg18) = m ((c : Thread nD τ).loc main_arg18) := h.2.2.2.2.2.2.2.2.2.2.2.2.2.2.2.2.2.2.1
theorem Agree.a19 (h : Agree m c V') : V' (Proc.devRef .tc Cert.ReferenceIdeal.main_arg19) = m ((c : Thread nD τ).loc main_arg19) := h.2.2.2.2.2.2.2.2.2.2.2.2.2.2.2.2.2.2.2.1
theorem Agree.a20 (h : Agree m c V') : V' (Proc.devRef .tc Cert.ReferenceIdeal.main_arg20) = m ((c : Thread nD τ).loc main_arg20) := h.2.2.2.2.2.2.2.2.2.2.2.2.2.2.2.2.2.2.2.2.1
theorem Agree.a21 (h : Agree m c V') : V' (Proc.devRef .tc Cert.ReferenceIdeal.main_arg21) = m ((c : Thread nD τ).loc main_arg21) := h.2.2.2.2.2.2.2.2.2.2.2.2.2.2.2.2.2.2.2.2.2.1
theorem Agree.a22 (h : Agree m c V') : V' (Proc.devRef .tc Cert.ReferenceIdeal.main_arg22) = m ((c : Thread nD τ).loc main_arg22) := h.2.2.2.2.2.2.2.2.2.2.2.2.2.2.2.2.2.2.2.2.2.2.1
theorem Agree.a23 (h : Agree m c V') : V' (Proc.devRef .tc Cert.ReferenceIdeal.main_arg23) = m ((c : Thread nD τ).loc main_arg23) := h.2.2.2.2.2.2.2.2.2.2.2.2.2.2.2.2.2.2.2.2.2.2.2.1
theorem Agree.a24 (h : Agree m c V') : V' (Proc.devRef .tc Cert.ReferenceIdeal.main_arg24) = m ((c : Thread nD τ).loc main_arg24) := h.2.2.2.2.2.2.2.2.2.2.2.2.2.2.2.2.2.2.2.2.2.2.2.2.1
theorem Agree.a25 (h : Agree m c V') : V' (Proc.devRef .tc Cert.ReferenceIdeal.main_arg25) = m ((c : Thread nD τ).loc main_arg25) := h.2.2.2.2.2.2.2.2.2.2.2.2.2.2.2.2.2.2.2.2.2.2.2.2.2.1
theorem Agree.a26 (h : Agree m c V') : V' (Proc.devRef .tc Cert.ReferenceIdeal.main_arg26) = m ((c : Thread nD τ).loc main_arg26) := h.2.2.2.2.2.2.2.2.2.2.2.2.2.2.2.2.2.2.2.2.2.2.2.2.2.2.1
theorem Agree.a27 (h : Agree m c V') : V' (Proc.devRef .tc Cert.ReferenceIdeal.main_arg27) = m ((c : Thread nD τ).loc main_arg27) := h.2.2.2.2.2.2.2.2.2.2.2.2.2.2.2.2.2.2.2.2.2.2.2.2.2.2.2

end Cert.Chain

end
-- ==== Proof.ChainArgsA.lean ====
/-
  The argument arrays at the boundaries where they are read.

  No host operation and no region writes an argument, so at every boundary an argument's buffer holds its launch
  contents — which, under the claim's hypothesis that the two programs start from memories agreeing on the arguments,
  is the reference's argument. Each fact is the walk back to the launch through the segments in between.
-/
import proofs.«150645_j45672682226304_2_alg».proof.Proof.Keep
import proofs.«150645_j45672682226304_2_alg».proof.Proof.ChainAgree

set_option maxRecDepth 16384

noncomputable section

namespace Cert.Chain

open Idealize.ShloMosaic Idealize.ShloMosaic.TcCoe Idealize.ShloMosaic.StableHlo Idealize.SL.Sem
open Cert.KernelIdeal Cert.KernelIdeal.Gen Cert.KernelIdeal

variable {m : (ℓ : Loc nD τ sig) → Buf (Elt Ideal) ℓ} (ρ : Dev nD → PrngReg) {c : Dev nD}
variable {V' : Valuation Cert.ReferenceIdeal.τ Cert.ReferenceIdeal.sig (Elt Ideal)}

theorem arg0_at1 (h : Agree m c V') : W1 m ρ c (Proc.devRef .tc main_arg0) = V' (Proc.devRef .tc Cert.ReferenceIdeal.main_arg0) :=
  (Keep.keep_host0 m ρ c main_arg0 (by decide)).trans h.a0.symm
theorem arg1_at3 (h : Agree m c V') : W3 m ρ c (Proc.devRef .tc main_arg1) = V' (Proc.devRef .tc Cert.ReferenceIdeal.main_arg1) :=
  ((Keep.keep_host1 m ρ c main_arg1 (by decide)).trans ((W2_of_ne m ρ c main_arg1 (by decide)).trans (Keep.keep_host0 m ρ c main_arg1 (by decide)))).trans h.a1.symm
theorem arg4_at1 (h : Agree m c V') : W1 m ρ c (Proc.devRef .tc main_arg4) = V' (Proc.devRef .tc Cert.ReferenceIdeal.main_arg4) :=
  (Keep.keep_host0 m ρ c main_arg4 (by decide)).trans h.a4.symm
theorem arg5_at0 (h : Agree m c V') : W0 m ρ c (Proc.devRef .tc main_arg5) = V' (Proc.devRef .tc Cert.ReferenceIdeal.main_arg5) :=
  h.a5.symm
theorem arg6_at1 (h : Agree m c V') : W1 m ρ c (Proc.devRef .tc main_arg6) = V' (Proc.devRef .tc Cert.ReferenceIdeal.main_arg6) :=
  (Keep.keep_host0 m ρ c main_arg6 (by decide)).trans h.a6.symm
theorem arg7_at0 (h : Agree m c V') : W0 m ρ c (Proc.devRef .tc main_arg7) = V' (Proc.devRef .tc Cert.ReferenceIdeal.main_arg7) :=
  h.a7.symm
theorem arg8_at3 (h : Agree m c V') : W3 m ρ c (Proc.devRef .tc main_arg8) = V' (Proc.devRef .tc Cert.ReferenceIdeal.main_arg8) :=
  ((Keep.keep_host1 m ρ c main_arg8 (by decide)).trans ((W2_of_ne m ρ c main_arg8 (by decide)).trans (Keep.keep_host0 m ρ c main_arg8 (by decide)))).trans h.a8.symm
theorem arg9_at2 (h : Agree m c V') : W2 m ρ c (Proc.devRef .tc main_arg9) = V' (Proc.devRef .tc Cert.ReferenceIdeal.main_arg9) :=
  ((W2_of_ne m ρ c main_arg9 (by decide)).trans (Keep.keep_host0 m ρ c main_arg9 (by decide))).trans h.a9.symm
theorem arg10_at3 (h : Agree m c V') : W3 m ρ c (Proc.devRef .tc main_arg10) = V' (Proc.devRef .tc Cert.ReferenceIdeal.main_arg10) :=
  ((Keep.keep_host1 m ρ c main_arg10 (by decide)).trans ((W2_of_ne m ρ c main_arg10 (by decide)).trans (Keep.keep_host0 m ρ c main_arg10 (by decide)))).trans h.a10.symm
theorem arg11_at2 (h : Agree m c V') : W2 m ρ c (Proc.devRef .tc main_arg11) = V' (Proc.devRef .tc Cert.ReferenceIdeal.main_arg11) :=
  ((W2_of_ne m ρ c main_arg11 (by decide)).trans (Keep.keep_host0 m ρ c main_arg11 (by decide))).trans h.a11.symm

end Cert.Chain

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«150645_j45672682226304_2_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibRowConcat.lean ====
/-
  Blocks of rows of a matrix assembled from three matrices laid side by side.

  Three matrices with the same rows and K columns each, concatenated along the columns, give a matrix whose
  entry (r, c) is entry (r, c - p·K) of the p-th of them, p the third of the columns c falls in. The choice of
  the piece depends on the column only, so if each small matrix is the block of rows of a large one starting at
  row off, the concatenation of the small ones is that block of rows of the concatenation of the large ones.
  No finiteness is asked of any entry.
-/
import proofs.«150645_j45672682226304_2_alg».proof.Proof.LibDenseLayer

noncomputable section

namespace Cert.Lib.DenseLayer

open Idealize.ShloMosaic Idealize.ShloMosaic.ValueIdx

/-- Entry (r, c) of three K-column matrices laid side by side: the piece is chosen by the column. -/
theorem concat3_apply {α : Type} {M K K3 : Nat} (A1 A2 A3 : (⟨2, ![M, K]⟩ : Shape).Idx → α)
    (h : Shape.Concatenates ([(⟨⟨2, ![M, K]⟩, A1⟩ : (s : Shape) × (s.Idx → α)), ⟨⟨2, ![M, K]⟩, A2⟩, ⟨⟨2, ![M, K]⟩, A3⟩].map (·.1)) ⟨2, ![M, K3]⟩ 1)
    (r : Fin M) (c : Fin K3) :
    concatenate ⟨2, ![M, K3]⟩ 1 [⟨⟨2, ![M, K]⟩, A1⟩, ⟨⟨2, ![M, K]⟩, A2⟩, ⟨⟨2, ![M, K]⟩, A3⟩] h (ix2 r c) =
      if h1 : c.val < K then A1 (ix2 r ⟨c.val, h1⟩)
      else if h2 : c.val - K < K then A2 (ix2 r ⟨c.val - K, h2⟩)
      else if h3 : c.val - K - K < K then A3 (ix2 r ⟨c.val - K - K, h3⟩)
      else A1 (ix2 r ⟨0, by
        have hs : K + (K + (K + 0)) = K3 := h.2.2
        have := c.isLt; omega⟩) := by
  have hs : K + (K + (K + 0)) = K3 := h.2.2
  have hc := c.isLt
  by_cases h1 : c.val < K
  · rw [dif_pos h1]
    refine concatenate_apply_piece 1 _ h (ix2 r c) 0 (show 0 < 3 from by decide) ⟨2, ![M, K]⟩ A1 rfl rfl 0 rfl (ix2 r ⟨c.val, h1⟩) ?_ ?_
    · intro b hb
      match b with
      | ⟨0, _⟩ => rfl
      | ⟨1, _⟩ => exact absurd rfl hb
    · show 0 + c.val = c.val; omega
  · rw [dif_neg h1]
    by_cases h2 : c.val - K < K
    · rw [dif_pos h2]
      refine concatenate_apply_piece 1 _ h (ix2 r c) 1 (show 1 < 3 from by decide) ⟨2, ![M, K]⟩ A2 rfl rfl (K + 0) rfl (ix2 r ⟨c.val - K, h2⟩) ?_ ?_
      · intro b hb
        match b with
        | ⟨0, _⟩ => rfl
        | ⟨1, _⟩ => exact absurd rfl hb
      · show K + 0 + (c.val - K) = c.val; omega
    · rw [dif_neg h2]
      have h3 : c.val - K - K < K := by omega
      rw [dif_pos h3]
      refine concatenate_apply_piece 1 _ h (ix2 r c) 2 (show 2 < 3 from by decide) ⟨2, ![M, K]⟩ A3 rfl rfl (K + (K + 0)) rfl (ix2 r ⟨c.val - K - K, h3⟩) ?_ ?_
      · intro b hb
        match b with
        | ⟨0, _⟩ => rfl
        | ⟨1, _⟩ => exact absurd rfl hb
      · show K + (K + 0) + (c.val - K - K) = c.val; omega

/-- Three blocks of rows laid side by side are the block of rows of the three matrices laid side by side. -/
theorem RowBlk.concat3 {Mb M K K3 : Nat} {off : Nat} {a1 a2 a3 : (⟨2, ![Mb, K]⟩ : Shape).Idx → EReal}
    {A1 A2 A3 : (⟨2, ![M, K]⟩ : Shape).Idx → EReal} (h1 : RowBlk off a1 A1) (h2 : RowBlk off a2 A2) (h3 : RowBlk off a3 A3)
    (hb : Shape.Concatenates ([(⟨⟨2, ![Mb, K]⟩, a1⟩ : (s : Shape) × (s.Idx → EReal)), ⟨⟨2, ![Mb, K]⟩, a2⟩, ⟨⟨2, ![Mb, K]⟩, a3⟩].map (·.1)) ⟨2, ![Mb, K3]⟩ 1)
    (hB : Shape.Concatenates ([(⟨⟨2, ![M, K]⟩, A1⟩ : (s : Shape) × (s.Idx → EReal)), ⟨⟨2, ![M, K]⟩, A2⟩, ⟨⟨2, ![M, K]⟩, A3⟩].map (·.1)) ⟨2, ![M, K3]⟩ 1) :
    RowBlk off (concatenate ⟨2, ![Mb, K3]⟩ 1 [⟨⟨2, ![Mb, K]⟩, a1⟩, ⟨⟨2, ![Mb, K]⟩, a2⟩, ⟨⟨2, ![Mb, K]⟩, a3⟩] hb)
      (concatenate ⟨2, ![M, K3]⟩ 1 [⟨⟨2, ![M, K]⟩, A1⟩, ⟨⟨2, ![M, K]⟩, A2⟩, ⟨⟨2, ![M, K]⟩, A3⟩] hB) := fun r hr c => by
  rw [concat3_apply a1 a2 a3 hb r c, concat3_apply A1 A2 A3 hB ⟨off + r.val, hr⟩ c]
  split
  · exact h1 r hr _
  · split
    · exact h2 r hr _
    · split
      · exact h3 r hr _
      · exact h1 r hr _

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«150645_j45672682226304_2_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibBlockFormats.lean ====
/-
  Blocks of rows of a dense layer at the extended reals, for operands held in any float format.

  At the extended reals a float of every format is an extended real and a change of format is the identity. So the
  relation "xb is the block of rows of X that starts at row off" passes through a narrowing cast unchanged, and
  a block of rows times a matrix, accumulated into the zero matrix by a matrix unit, is that block of rows of
  the host's product — whichever formats the two factors are held in (one may be a cast f32 value, the other a
  value loaded as bf16). A block that starts at row 0 and has every row is the matrix itself, and a block read at one
  entry is the matrix read `off` rows further down. No finiteness is asked of any entry.
-/
import proofs.«150645_j45672682226304_2_alg».proof.Proof.LibPlainRecord

noncomputable section

open scoped BigOperators

namespace Cert.Lib.DenseLayer

open Idealize.ShloMosaic Idealize.ShloMosaic.ValueIdx Cert.Lib.PlainDot

/-- A narrowing change of float format leaves a block of rows what it is. -/
theorem RowBlk.narrow {Mb M K : Nat} {off : Nat} {φ ψ : FTy} {a : FVec Ideal ⟨2, ![Mb, K]⟩ φ} {A : (⟨2, ![M, K]⟩ : Shape).Idx → EReal}
    (ha : RowBlk off a A) (hψ : ψ.bits < φ.bits) : RowBlk off (truncf ψ a hψ) A := ha

/-- A block of rows times a matrix, accumulated into the zero matrix, is the block of rows of the product,
    whatever float formats the two factors are held in. -/
theorem RowBlk.matmulZero {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh) {φ₁ φ₂ : FTy}
    {xb : FVec Ideal ⟨2, ![Mb, K]⟩ φ₁} {X : FVec Ideal ⟨2, ![M, K]⟩ .f32} (h : RowBlk off xb X) (w : FVec Ideal ⟨2, ![K, N]⟩ φ₂) :
    RowBlk off (Idealize.ShloMosaic.matmul db none xb w (constant ⟨2, ![Mb, N]⟩ .f32 0x00000000#32)) (Host.dotGeneral dh none X w) := fun r hr c =>
  ((Ideal.matmul_constant_zero_apply db none xb w (ix2 r c)).trans
    (contraction_sum db hb.rank hb.size hb.l0 hb.l1 hb.r0 hb.r1 xb w r c)).trans
    ((Finset.sum_congr rfl fun k _ => congrArg (· * w (ix2 k c)) (h r hr k)).trans
      (hh.dot_apply X w ⟨off + r.val, hr⟩ c).symm)

/-- A block that starts at row 0 and has all the rows is the matrix. -/
theorem RowBlk.eq_whole {M K : Nat} {a A : (⟨2, ![M, K]⟩ : Shape).Idx → EReal} (h : RowBlk 0 a A) : a = A := funext fun j => by
  rw [eq_ix2 j]
  exact (h (j 0) (by rw [Nat.zero_add]; exact (j 0).isLt) (j 1)).trans
    (congrArg (fun r => A (ix2 r (j 1))) (Fin.ext (Nat.zero_add _)))

/-- A block of rows read at one entry: position j inside the block and position i in the whole matrix, same column,
    row `off` further down, hold the same number. -/
theorem RowBlk.at {Mb M K : Nat} {off : Nat} {a : (⟨2, ![Mb, K]⟩ : Shape).Idx → EReal} {A : (⟨2, ![M, K]⟩ : Shape).Idx → EReal}
    (h : RowBlk off a A) (j : (⟨2, ![Mb, K]⟩ : Shape).Idx) (i : (⟨2, ![M, K]⟩ : Shape).Idx)
    (hi0 : (i 0).val = off + (j 0).val) (hi1 : (i 1).val = (j 1).val) : a j = A i := by
  rw [eq_ix2 j, eq_ix2 i]
  have hlt : off + (j 0).val < M := hi0 ▸ (i 0).isLt
  exact (h (j 0) hlt (j 1)).trans (congrArg₂ (fun r k => A (ix2 r k)) (Fin.ext hi0.symm) (Fin.ext hi1.symm))

end Cert.Lib.DenseLayer

end
-- ==== Proof.LibNarrowRight.lean ====
/-
  Blocks of rows of a dense layer at the extended reals: four more ways a block is carried.

  At the extended reals a float of every format is an extended real and a change of format is the identity. So a
  block of rows (held in any format) times a weight matrix that is narrowed from f32 on the way into the matrix
  unit, accumulated into the zero matrix, is that block of rows of the host's product with the weight matrix
  itself; the entrywise product of two blocks held in any one format is the block of the entrywise product; and
  a matrix filled with one number inside a kernel body and a rank-0 constant broadcast on the host are two
  constant matrices of one value; and a block of rows of a block of rows of a matrix is a block of rows of it. No
  finiteness is asked of any entry.
-/
import proofs.«150645_j45672682226304_2_alg».proof.Proof.LibBlockFormats

noncomputable section

open scoped BigOperators

namespace Cert.Lib.DenseLayer

open Idealize.ShloMosaic Idealize.ShloMosaic.ValueIdx Cert.Lib.PlainDot

/-- A block of rows in any format times a weight matrix narrowed from f32, accumulated into the zero matrix,
    is the block of rows of the host's product with the weight matrix itself: the narrowing is the identity,
    and both sides are the sum over k of x(r, k) · w(k, c). -/
theorem RowBlk.matmulNarrowRight {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh) {φ₁ ψ : FTy}
    {xb : FVec Ideal ⟨2, ![Mb, K]⟩ φ₁} {X : FVec Ideal ⟨2, ![M, K]⟩ .f32} (h : RowBlk off xb X)
    (w : FVec Ideal ⟨2, ![K, N]⟩ .f32) (hψ : ψ.bits < FTy.f32.bits) :
    RowBlk off (Idealize.ShloMosaic.matmul db none xb (truncf ψ w hψ) (constant ⟨2, ![Mb, N]⟩ .f32 0x00000000#32))
      (Host.dotGeneral dh none X w) := fun r hr c =>
  ((Ideal.matmul_constant_zero_apply db none xb (truncf ψ w hψ) (ix2 r c)).trans
    (contraction_sum db hb.rank hb.size hb.l0 hb.l1 hb.r0 hb.r1 xb (truncf ψ w hψ) r c)).trans
    ((Finset.sum_congr rfl fun k _ => congrArg (· * w (ix2 k c)) (h r hr k)).trans
      (hh.dot_apply X w ⟨off + r.val, hr⟩ c).symm)

/-- Entrywise products of blocks of rows held in any one float format. -/
theorem RowBlk.mulAny {Mb M K : Nat} {off : Nat} {φ : FTy} {a b : FVec Ideal ⟨2, ![Mb, K]⟩ φ}
    {A B : FVec Ideal ⟨2, ![M, K]⟩ .f32} (ha : RowBlk off a A) (hb : RowBlk off b B) :
    RowBlk off (mulf a b) (mulf A B) := fun r hr k => by
  rw [mulf_apply, mulf_apply]
  show a (ix2 r k) * b (ix2 r k) = A (ix2 ⟨off + r.val, hr⟩ k) * B (ix2 ⟨off + r.val, hr⟩ k)
  rw [ha r hr k, hb r hr k]

/-- A block filled with the float of one bit pattern inside a body, and the rank-0 constant of that pattern
    broadcast to a whole matrix on the host, are constant matrices of one value. -/
theorem RowBlk.fill {Mb M K : Nat} {off : Nat} (bits : BitVec FTy.f32.bits)
    (hB : (⟨0, ![]⟩ : Shape).BroadcastsInDim ⟨2, ![M, K]⟩ ![]) :
    RowBlk (Mb := Mb) off (broadcast ⟨2, ![Mb, K]⟩ (Scalar.ofBits (F := Ideal) .f32 bits))
      (broadcastInDim ⟨2, ![M, K]⟩ ![] hB (constant (F := Ideal) ⟨0, ![]⟩ .f32 bits)) := fun r hr k =>
  (broadcastInDim_apply _ hB (constant (F := Ideal) ⟨0, ![]⟩ .f32 bits) (ix2 ⟨off + r.val, hr⟩ k) (fun a => a.elim0)
    (fun a => a.elim0)).symm

/-- A block of rows of a block of rows is a block of rows: if xb is the rows of X from row off₂ + off₁ and Y is the rows
    of X from row off₂, then xb is the rows of Y from row off₁ (when it fits inside Y, and Y inside X). -/
theorem RowBlk.sub {Mb Mm M K : Nat} {off off₁ off₂ : Nat} {xb : (⟨2, ![Mb, K]⟩ : Shape).Idx → EReal}
    {X : (⟨2, ![M, K]⟩ : Shape).Idx → EReal} {Y : (⟨2, ![Mm, K]⟩ : Shape).Idx → EReal}
    (h : RowBlk off xb X) (hY : RowBlk off₂ Y X) (e : off = off₂ + off₁) (hM : off₂ + Mm ≤ M) :
    RowBlk off₁ xb Y := fun r hr k => by
  subst e
  have hr' : off₂ + off₁ + r.val < M := by omega
  rw [h r hr' k, hY ⟨off₁ + r.val, hr⟩ (by show off₂ + (off₁ + r.val) < M; omega) k]
  exact congrArg (fun q => X (ix2 q k)) (Fin.ext (by show off₂ + off₁ + r.val = off₂ + (off₁ + r.val); omega))

end Cert.Lib.DenseLayer

end
-- ==== Proof.Bands.lean ====
/-
  The one algebraic law of this certificate, at the extended reals.

  Three matrices A, B, C with the same rows and K columns each, laid side by side, form a matrix of 3K columns.
  Its product with a weight matrix W of 3K rows is, entry by entry, the sum over all 3K columns; cutting that sum
  at K and 2K gives the product of A with the first K rows of W, plus the product of B with the next K rows, plus
  the product of C with the last K rows. Only the commutativity and associativity of addition are used, so no
  finiteness is asked of any entry. The law is stated for one block of rows (of A, B, C held in any float
  formats, each product accumulated into the zero matrix by a matrix unit) against the whole product on the host.
-/
import proofs.«150645_j45672682226304_2_alg».proof.Proof.LibRowConcat
import proofs.«150645_j45672682226304_2_alg».proof.Proof.LibNarrowRight

noncomputable section

open scoped BigOperators

namespace Cert.Lib.DenseLayer

open Idealize.ShloMosaic Idealize.ShloMosaic.ValueIdx Cert.Lib.PlainDot

/-- A sum over 3K positions cut at K and at 2K. -/
theorem sum_three {A : Type*} [AddCommMonoid A] (K : Nat) (f : Fin (K + (K + (K + 0))) → A) :
    ∑ k, f k = ∑ k : Fin K, f ⟨k.val, by omega⟩ + (∑ k : Fin K, f ⟨K + k.val, by omega⟩ + ∑ k : Fin K, f ⟨K + (K + k.val), by omega⟩) := by
  rw [Fin.sum_univ_add, Fin.sum_univ_add]; rfl

/-- One entry of a block of rows times a matrix accumulated into zero: the sum over the K columns. -/
theorem matmul_entry {Mb K N : Nat} {db : DotDims ⟨2, ![Mb, K]⟩ ⟨2, ![K, N]⟩ ⟨2, ![Mb, N]⟩} (hb : Plain db) {φ ψ : FTy}
    (a : FVec Ideal ⟨2, ![Mb, K]⟩ φ) (w : FVec Ideal ⟨2, ![K, N]⟩ ψ) (r : Fin Mb) (n : Fin N) :
    Idealize.ShloMosaic.matmul db none a w (constant ⟨2, ![Mb, N]⟩ .f32 0x00000000#32) (ix2 r n) = ∑ k : Fin K, a (ix2 r k) * w (ix2 k n) :=
  (Ideal.matmul_constant_zero_apply db none a w (ix2 r n)).trans
    (contraction_sum db hb.rank hb.size hb.l0 hb.l1 hb.r0 hb.r1 a w r n)

/-- Three blocks of rows, each multiplied with its own band of K rows of the weight matrix and the three products
    added, are the block of rows of the product of the three matrices laid side by side with the whole weight matrix. -/
theorem RowBlk.threeBands {Mb M K K3 N : Nat} {off : Nat}
    {db : DotDims ⟨2, ![Mb, K]⟩ ⟨2, ![K, N]⟩ ⟨2, ![Mb, N]⟩}
    {dh : DotDims ⟨2, ![M, K3]⟩ ⟨2, ![K3, N]⟩ ⟨2, ![M, N]⟩} (hb : Plain db) (hh : Plain dh)
    {φ₁ φ₂ φ₃ ψ : FTy}
    {a : FVec Ideal ⟨2, ![Mb, K]⟩ φ₁} {b : FVec Ideal ⟨2, ![Mb, K]⟩ φ₂} {c : FVec Ideal ⟨2, ![Mb, K]⟩ φ₃}
    {A B C : FVec Ideal ⟨2, ![M, K]⟩ .f32}
    (ha : RowBlk off a A) (hbb : RowBlk off b B) (hc : RowBlk off c C)
    (hB : Shape.Concatenates ([(⟨⟨2, ![M, K]⟩, A⟩ : (s : Shape) × (s.Idx → EReal)), ⟨⟨2, ![M, K]⟩, B⟩, ⟨⟨2, ![M, K]⟩, C⟩].map (·.1)) ⟨2, ![M, K3]⟩ 1)
    (W : FVec Ideal ⟨2, ![K3, N]⟩ .f32) (wa wb wc : FVec Ideal ⟨2, ![K, N]⟩ ψ)
    (hwa : ∀ (k : Fin K) (n : Fin N) (h : k.val < K3), wa (ix2 k n) = W (ix2 ⟨k.val, h⟩ n))
    (hwb : ∀ (k : Fin K) (n : Fin N) (h : K + k.val < K3), wb (ix2 k n) = W (ix2 ⟨K + k.val, h⟩ n))
    (hwc : ∀ (k : Fin K) (n : Fin N) (h : K + (K + k.val) < K3), wc (ix2 k n) = W (ix2 ⟨K + (K + k.val), h⟩ n)) :
    RowBlk off
      (addf (addf (Idealize.ShloMosaic.matmul db none a wa (constant ⟨2, ![Mb, N]⟩ .f32 0x00000000#32))
          (Idealize.ShloMosaic.matmul db none b wb (constant ⟨2, ![Mb, N]⟩ .f32 0x00000000#32)))
        (Idealize.ShloMosaic.matmul db none c wc (constant ⟨2, ![Mb, N]⟩ .f32 0x00000000#32)))
      (Host.dotGeneral dh none (concatenate ⟨2, ![M, K3]⟩ 1 [⟨⟨2, ![M, K]⟩, A⟩, ⟨⟨2, ![M, K]⟩, B⟩, ⟨⟨2, ![M, K]⟩, C⟩] hB) W) := by
  have hs : K + (K + (K + 0)) = K3 := hB.2.2
  subst hs
  intro r hr n
  rw [addf_apply, addf_apply, matmul_entry hb, matmul_entry hb, matmul_entry hb, hh.dot_apply, sum_three K, add_assoc]
  refine congrArg₂ (· + ·) (Finset.sum_congr rfl fun k _ => ?_)
    (congrArg₂ (· + ·) (Finset.sum_congr rfl fun k _ => ?_) (Finset.sum_congr rfl fun k _ => ?_))
  · have hk := k.isLt
    rw [concat3_apply A B C hB ⟨off + r.val, hr⟩ ⟨k.val, by omega⟩, dif_pos (show k.val < K from hk), ha r hr k,
      hwa k n (by omega)]
  · have hk := k.isLt
    rw [concat3_apply A B C hB ⟨off + r.val, hr⟩ ⟨K + k.val, by omega⟩, dif_neg (show ¬ K + k.val < K from by omega),
      dif_pos (show K + k.val - K < K from by omega), hbb r hr k, hwb k n (by omega)]
    exact congrArg (fun q => B (ix2 ⟨off + r.val, hr⟩ q) * W (ix2 ⟨K + k.val, by omega⟩ n)) (Fin.ext (by show k.val = K + k.val - K; omega))
  · have hk := k.isLt
    rw [concat3_apply A B C hB ⟨off + r.val, hr⟩ ⟨K + (K + k.val), by omega⟩, dif_neg (show ¬ K + (K + k.val) < K from by omega),
      dif_neg (show ¬ K + (K + k.val) - K < K from by omega), dif_pos (show K + (K + k.val) - K - K < K from by omega),
      hc r hr k, hwc k n (by omega)]
    exact congrArg (fun q => C (ix2 ⟨off + r.val, hr⟩ q) * W (ix2 ⟨K + (K + k.val), by omega⟩ n)) (Fin.ext (by show k.val = K + (K + k.val) - K - K; omega))

end Cert.Lib.DenseLayer

end
-- ==== Proof.Layers.lean ====
/-
  A two-layer perceptron on a block of rows, at the extended reals.

  Inside a kernel body a block of Mb rows goes through: a product with the first weight matrix (both factors first
  narrowed to bf16, accumulated into zero), the first bias row added to every row, the maximum with zero, a
  narrowing, a product with the second weight matrix, the second bias row. On the host the whole matrix of M rows
  goes through the same operations spelt with dot_general and broadcasts. Each operation acts row by row, so the
  block's result is that block of rows of the whole result. The second form has three inputs: the first product is
  replaced by three products, one per input, with the three bands of rows of a taller first weight matrix, summed;
  on the host the three inputs are laid side by side and multiplied once.
-/
import proofs.«150645_j45672682226304_2_alg».proof.Proof.Bands

noncomputable section

namespace Cert.Lib.DenseLayer

open Idealize.ShloMosaic Idealize.ShloMosaic.ValueIdx Cert.Lib.PlainDot

/-- One input: block of rows of x ↦ max(x·w1 + b1, 0)·w2 + b2. -/
theorem RowBlk.twoLayer {Mb M K H N : Nat} {off : Nat}
    {db1 : DotDims ⟨2, ![Mb, K]⟩ ⟨2, ![K, H]⟩ ⟨2, ![Mb, H]⟩} {db2 : DotDims ⟨2, ![Mb, H]⟩ ⟨2, ![H, N]⟩ ⟨2, ![Mb, N]⟩}
    {dh1 : DotDims ⟨2, ![M, K]⟩ ⟨2, ![K, H]⟩ ⟨2, ![M, H]⟩} {dh2 : DotDims ⟨2, ![M, H]⟩ ⟨2, ![H, N]⟩ ⟨2, ![M, N]⟩}
    (hb1 : Plain db1) (hb2 : Plain db2) (hh1 : Plain dh1) (hh2 : Plain dh2)
    {xb : FVec Ideal ⟨2, ![Mb, K]⟩ .f32} {X : FVec Ideal ⟨2, ![M, K]⟩ .f32} (hx : RowBlk off xb X)
    (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32)
    (hlt : FTy.bf16.bits < FTy.f32.bits)
    (hbb1 : (⟨2, ![1, H]⟩ : Shape).Broadcasts ⟨2, ![Mb, H]⟩) (hbb2 : (⟨2, ![1, N]⟩ : Shape).Broadcasts ⟨2, ![Mb, N]⟩)
    (hB1 : (⟨2, ![1, H]⟩ : Shape).BroadcastsInDim ⟨2, ![M, H]⟩ ![0, 1])
    (hB2 : (⟨2, ![1, N]⟩ : Shape).BroadcastsInDim ⟨2, ![M, N]⟩ ![0, 1])
    (hZ : (⟨0, ![]⟩ : Shape).BroadcastsInDim ⟨2, ![M, H]⟩ ![]) :
    RowBlk off
      (addf (Idealize.ShloMosaic.matmul db2 none
          (truncf .bf16 (maximumf (addf (Idealize.ShloMosaic.matmul db1 none (truncf .bf16 xb hlt) (truncf .bf16 w1 hlt)
              (constant ⟨2, ![Mb, H]⟩ .f32 0x00000000#32)) (broadcastTo ⟨2, ![Mb, H]⟩ b1 hbb1))
            (broadcast ⟨2, ![Mb, H]⟩ (Scalar.ofBits (F := Ideal) .f32 0x00000000#32))) hlt)
          (truncf .bf16 w2 hlt) (constant ⟨2, ![Mb, N]⟩ .f32 0x00000000#32)) (broadcastTo ⟨2, ![Mb, N]⟩ b2 hbb2))
      (addf (Host.dotGeneral dh2 none (maximumf (addf (Host.dotGeneral dh1 none X w1) (broadcastInDim ⟨2, ![M, H]⟩ ![0, 1] hB1 b1))
          (broadcastInDim ⟨2, ![M, H]⟩ ![] hZ (constant (F := Ideal) ⟨0, ![]⟩ .f32 0x00000000#32))) w2)
        (broadcastInDim ⟨2, ![M, N]⟩ ![0, 1] hB2 b2)) :=
  ((((hx.matmul hb1 hh1 w1 hlt hlt).add (RowBlk.bias b1 hbb1 hB1)).max (RowBlk.fill 0x00000000#32 hZ)).matmul
    hb2 hh2 w2 hlt hlt).add (RowBlk.bias b2 hbb2 hB2)

/-- Three inputs: blocks of rows of a, b, c ↦ max(a·W[0:K] + b·W[K:2K] + c·W[2K:3K] + b1, 0)·w2 + b2, against the host's
    max([a | b | c]·W + b1, 0)·w2 + b2. -/
theorem RowBlk.threeInputLayer {Mb M K K3 H N : Nat} {off : Nat}
    {db : DotDims ⟨2, ![Mb, K]⟩ ⟨2, ![K, H]⟩ ⟨2, ![Mb, H]⟩} {db2 : DotDims ⟨2, ![Mb, H]⟩ ⟨2, ![H, N]⟩ ⟨2, ![Mb, N]⟩}
    {dh3 : DotDims ⟨2, ![M, K3]⟩ ⟨2, ![K3, H]⟩ ⟨2, ![M, H]⟩} {dh2 : DotDims ⟨2, ![M, H]⟩ ⟨2, ![H, N]⟩ ⟨2, ![M, N]⟩}
    (hb : Plain db) (hb2 : Plain db2) (hh3 : Plain dh3) (hh2 : Plain dh2)
    {φ₁ φ₂ φ₃ ψ : FTy}
    {a : FVec Ideal ⟨2, ![Mb, K]⟩ φ₁} {b : FVec Ideal ⟨2, ![Mb, K]⟩ φ₂} {c : FVec Ideal ⟨2, ![Mb, K]⟩ φ₃}
    {A B C : FVec Ideal ⟨2, ![M, K]⟩ .f32}
    (ha : RowBlk off a A) (hbb : RowBlk off b B) (hc : RowBlk off c C)
    (hcat : Shape.Concatenates ([(⟨⟨2, ![M, K]⟩, A⟩ : (s : Shape) × (s.Idx → EReal)), ⟨⟨2, ![M, K]⟩, B⟩, ⟨⟨2, ![M, K]⟩, C⟩].map (·.1)) ⟨2, ![M, K3]⟩ 1)
    (W : FVec Ideal ⟨2, ![K3, H]⟩ .f32) (wa wb wc : FVec Ideal ⟨2, ![K, H]⟩ ψ)
    (hwa : ∀ (k : Fin K) (n : Fin H) (h : k.val < K3), wa (ix2 k n) = W (ix2 ⟨k.val, h⟩ n))
    (hwb : ∀ (k : Fin K) (n : Fin H) (h : K + k.val < K3), wb (ix2 k n) = W (ix2 ⟨K + k.val, h⟩ n))
    (hwc : ∀ (k : Fin K) (n : Fin H) (h : K + (K + k.val) < K3), wc (ix2 k n) = W (ix2 ⟨K + (K + k.val), h⟩ n))
    (b1 : FVec Ideal ⟨2, ![1, H]⟩ .f32) (w2 : FVec Ideal ⟨2, ![H, N]⟩ .f32) (b2 : FVec Ideal ⟨2, ![1, N]⟩ .f32)
    (hlt : FTy.bf16.bits < FTy.f32.bits)
    (hbb1 : (⟨2, ![1, H]⟩ : Shape).Broadcasts ⟨2, ![Mb, H]⟩) (hbb2 : (⟨2, ![1, N]⟩ : Shape).Broadcasts ⟨2, ![Mb, N]⟩)
    (hB1 : (⟨2, ![1, H]⟩ : Shape).BroadcastsInDim ⟨2, ![M, H]⟩ ![0, 1])
    (hB2 : (⟨2, ![1, N]⟩ : Shape).BroadcastsInDim ⟨2, ![M, N]⟩ ![0, 1])
    (hZ : (⟨0, ![]⟩ : Shape).BroadcastsInDim ⟨2, ![M, H]⟩ ![]) :
    RowBlk off
      (addf (Idealize.ShloMosaic.matmul db2 none
          (truncf .bf16 (maximumf (addf
              (addf (addf (Idealize.ShloMosaic.matmul db none a wa (constant ⟨2, ![Mb, H]⟩ .f32 0x00000000#32))
                  (Idealize.ShloMosaic.matmul db none b wb (constant ⟨2, ![Mb, H]⟩ .f32 0x00000000#32)))
                (Idealize.ShloMosaic.matmul db none c wc (constant ⟨2, ![Mb, H]⟩ .f32 0x00000000#32)))
              (broadcastTo ⟨2, ![Mb, H]⟩ b1 hbb1))
            (broadcast ⟨2, ![Mb, H]⟩ (Scalar.ofBits (F := Ideal) .f32 0x00000000#32))) hlt)
          (truncf .bf16 w2 hlt) (constant ⟨2, ![Mb, N]⟩ .f32 0x00000000#32)) (broadcastTo ⟨2, ![Mb, N]⟩ b2 hbb2))
      (addf (Host.dotGeneral dh2 none (maximumf (addf
            (Host.dotGeneral dh3 none (concatenate ⟨2, ![M, K3]⟩ 1 [⟨⟨2, ![M, K]⟩, A⟩, ⟨⟨2, ![M, K]⟩, B⟩, ⟨⟨2, ![M, K]⟩, C⟩] hcat) W)
            (broadcastInDim ⟨2, ![M, H]⟩ ![0, 1] hB1 b1))
          (broadcastInDim ⟨2, ![M, H]⟩ ![] hZ (constant (F := Ideal) ⟨0, ![]⟩ .f32 0x00000000#32))) w2)
        (broadcastInDim ⟨2, ![M, N]⟩ ![0, 1] hB2 b2)) :=
  (((((RowBlk.threeBands hb hh3 ha hbb hc hcat W wa wb wc hwa hwb hwc).add (RowBlk.bias b1 hbb1 hB1)).max
    (RowBlk.fill 0x00000000#32 hZ)).matmul hb2 hh2 w2 hlt hlt).add (RowBlk.bias b2 hbb2 hB2))

end Cert.Lib.DenseLayer

end
-- ==== Proof.Spec.lean ====
/-
  What each stage of the network computes, as whole-array functions at the extended reals, in the host's spelling.

  Every stage is a two-layer perceptron x ↦ max(x·W1 + b1, 0)·W2 + b2 applied to every row of a matrix: the node and
  edge encoders, the node and edge decoders, and — with the input row the concatenation of three rows of 128
  features, W1 of 384 rows — the edge update and the node update of one message-passing step. The bias is a 1×n
  row repeated down the rows. These are the terms the reference program's run is composed of.
-/
import proofs.«150645_j45672682226304_2_alg».proof.Proof.Gen.ReferenceIdeal
import Idealize.ShloMosaic.PureOps.Ideal

noncomputable section

namespace Cert.Spec

open Idealize.ShloMosaic Cert.ReferenceIdeal Cert.ReferenceIdeal.Facts₀

/-- The node encoder: 16 features to 128. -/
abbrev encodeNodes (X : FVec Ideal S20000x16 .f32) (W1 : FVec Ideal S16x128 .f32) (b1 : FVec Ideal S1x128 .f32)
    (W2 : FVec Ideal S128x128 .f32) (b2 : FVec Ideal S1x128 .f32) : FVec Ideal S20000x128 .f32 :=
  addf (Host.dotGeneral dot_S20000x128_S128x128_S20000x128_1_0_0_1_n_n none
      (maximumf (addf (Host.dotGeneral dot_S20000x16_S16x128_S20000x128_1_0_0_1_n_n none X W1)
          (broadcastInDim S20000x128 ![0, 1] bcast_S1x128_S20000x128_0_1 b1))
        (broadcastInDim S20000x128 ![] bcast_S_S20000x128 (constant S_ .f32 0x00000000#32))) W2)
    (broadcastInDim S20000x128 ![0, 1] bcast_S1x128_S20000x128_0_1 b2)

/-- The edge encoder: 8 features to 128. -/
abbrev encodeEdges (X : FVec Ideal S160000x8 .f32) (W1 : FVec Ideal S8x128 .f32) (b1 : FVec Ideal S1x128 .f32)
    (W2 : FVec Ideal S128x128 .f32) (b2 : FVec Ideal S1x128 .f32) : FVec Ideal S160000x128 .f32 :=
  addf (Host.dotGeneral dot_S160000x128_S128x128_S160000x128_1_0_0_1_n_n none
      (maximumf (addf (Host.dotGeneral dot_S160000x8_S8x128_S160000x128_1_0_0_1_n_n none X W1)
          (broadcastInDim S160000x128 ![0, 1] bcast_S1x128_S160000x128_0_1 b1))
        (broadcastInDim S160000x128 ![] bcast_S_S160000x128 (constant S_ .f32 0x00000000#32))) W2)
    (broadcastInDim S160000x128 ![0, 1] bcast_S1x128_S160000x128_0_1 b2)

/-- The node decoder: 128 features to 3. -/
abbrev decodeNodes (X : FVec Ideal S20000x128 .f32) (W1 : FVec Ideal S128x128 .f32) (b1 : FVec Ideal S1x128 .f32)
    (W2 : FVec Ideal S128x3 .f32) (b2 : FVec Ideal S1x3 .f32) : FVec Ideal S20000x3 .f32 :=
  addf (Host.dotGeneral dot_S20000x128_S128x3_S20000x3_1_0_0_1_n_n none
      (maximumf (addf (Host.dotGeneral dot_S20000x128_S128x128_S20000x128_1_0_0_1_n_n none X W1)
          (broadcastInDim S20000x128 ![0, 1] bcast_S1x128_S20000x128_0_1 b1))
        (broadcastInDim S20000x128 ![] bcast_S_S20000x128 (constant S_ .f32 0x00000000#32))) W2)
    (broadcastInDim S20000x3 ![0, 1] bcast_S1x3_S20000x3_0_1 b2)

/-- The edge decoder: 128 features to 1. -/
abbrev decodeEdges (X : FVec Ideal S160000x128 .f32) (W1 : FVec Ideal S128x128 .f32) (b1 : FVec Ideal S1x128 .f32)
    (W2 : FVec Ideal S128x1 .f32) (b2 : FVec Ideal S1x1 .f32) : FVec Ideal S160000x1 .f32 :=
  addf (Host.dotGeneral dot_S160000x128_S128x1_S160000x1_1_0_0_1_n_n none
      (maximumf (addf (Host.dotGeneral dot_S160000x128_S128x128_S160000x128_1_0_0_1_n_n none X W1)
          (broadcastInDim S160000x128 ![0, 1] bcast_S1x128_S160000x128_0_1 b1))
        (broadcastInDim S160000x128 ![] bcast_S_S160000x128 (constant S_ .f32 0x00000000#32))) W2)
    (broadcastInDim S160000x1 ![0, 1] bcast_S1x1_S160000x1_0_1 b2)

/-- The edge update of one step: the edge's features, its sender's and its receiver's, side by side, through the perceptron. -/
abbrev edgeUpdate (A B C : FVec Ideal S160000x128 .f32) (W1 : FVec Ideal S384x128 .f32) (b1 : FVec Ideal S1x128 .f32)
    (W2 : FVec Ideal S128x128 .f32) (b2 : FVec Ideal S1x128 .f32) : FVec Ideal S160000x128 .f32 :=
  addf (Host.dotGeneral dot_S160000x128_S128x128_S160000x128_1_0_0_1_n_n none
      (maximumf (addf (Host.dotGeneral dot_S160000x384_S384x128_S160000x128_1_0_0_1_n_n none
            (concatenate S160000x384 1 [⟨S160000x128, A⟩, ⟨S160000x128, B⟩, ⟨S160000x128, C⟩] concatenates_S160000x128_S160000x128_S160000x128_S160000x384_d1) W1)
          (broadcastInDim S160000x128 ![0, 1] bcast_S1x128_S160000x128_0_1 b1))
        (broadcastInDim S160000x128 ![] bcast_S_S160000x128 (constant S_ .f32 0x00000000#32))) W2)
    (broadcastInDim S160000x128 ![0, 1] bcast_S1x128_S160000x128_0_1 b2)

/-- The node update of one step: the node's features, the sum over the edges it sends and the sum over the edges it receives, side by side, through the perceptron. -/
abbrev nodeUpdate (A B C : FVec Ideal S20000x128 .f32) (W1 : FVec Ideal S384x128 .f32) (b1 : FVec Ideal S1x128 .f32)
    (W2 : FVec Ideal S128x128 .f32) (b2 : FVec Ideal S1x128 .f32) : FVec Ideal S20000x128 .f32 :=
  addf (Host.dotGeneral dot_S20000x128_S128x128_S20000x128_1_0_0_1_n_n none
      (maximumf (addf (Host.dotGeneral dot_S20000x384_S384x128_S20000x128_1_0_0_1_n_n none
            (concatenate S20000x384 1 [⟨S20000x128, A⟩, ⟨S20000x128, B⟩, ⟨S20000x128, C⟩] concatenates_S20000x128_S20000x128_S20000x128_S20000x384_d1) W1)
          (broadcastInDim S20000x128 ![0, 1] bcast_S1x128_S20000x128_0_1 b1))
        (broadcastInDim S20000x128 ![] bcast_S_S20000x128 (constant S_ .f32 0x00000000#32))) W2)
    (broadcastInDim S20000x128 ![0, 1] bcast_S1x128_S20000x128_0_1 b2)

end Cert.Spec

end
-- ==== Proof.Payloads.lean ====
/-
  The kernel bodies' stored values on a block of rows.

  Each of the fourteen kernels loads one block of rows of its row-tiled inputs and the whole of its weight and bias
  arrays, and stores a block of rows. Here each stored value — the pure term the generated skeleton names — is shown
  to be that block of rows of the whole-array function of Spec.lean: the encoders and decoders by the one-input
  two-layer lemma; the edge and node updates by the three-input one, the three bands of the first weight matrix being
  the body's three slices of it. The residual sum adds the block of the old features to the block of the new ones.
-/
import proofs.«150645_j45672682226304_2_alg».proof.Proof.Gen.KernelIdeal.Skeleton
import proofs.«150645_j45672682226304_2_alg».proof.Proof.Layers
import proofs.«150645_j45672682226304_2_alg».proof.Proof.Spec

noncomputable section

namespace Cert.Payloads

open Idealize.ShloMosaic Idealize.ShloMosaic.ValueIdx Cert.Lib.DenseLayer Cert.KernelIdeal Cert.KernelIdeal.Gen

/-! ## The product records are the plain ones -/

theorem pk_S2000x16_S16x128_S2000x128 : Plain Cert.KernelIdeal.dot_S2000x16_S16x128_S2000x128_1_0_0_1_n_n := Plain.of_fields _ rfl rfl rfl rfl rfl rfl
theorem pk_S2000x128_S128x128_S2000x128 : Plain Cert.KernelIdeal.dot_S2000x128_S128x128_S2000x128_1_0_0_1_n_n := Plain.of_fields _ rfl rfl rfl rfl rfl rfl
theorem pk_S4000x8_S8x128_S4000x128 : Plain Cert.KernelIdeal.dot_S4000x8_S8x128_S4000x128_1_0_0_1_n_n := Plain.of_fields _ rfl rfl rfl rfl rfl rfl
theorem pk_S4000x128_S128x128_S4000x128 : Plain Cert.KernelIdeal.dot_S4000x128_S128x128_S4000x128_1_0_0_1_n_n := Plain.of_fields _ rfl rfl rfl rfl rfl rfl
theorem pk_S2000x128_S128x3_S2000x3 : Plain Cert.KernelIdeal.dot_S2000x128_S128x3_S2000x3_1_0_0_1_n_n := Plain.of_fields _ rfl rfl rfl rfl rfl rfl
theorem pk_S4000x128_S128x1_S4000x1 : Plain Cert.KernelIdeal.dot_S4000x128_S128x1_S4000x1_1_0_0_1_n_n := Plain.of_fields _ rfl rfl rfl rfl rfl rfl
theorem pr_S20000x16_S16x128_S20000x128 : Plain Cert.ReferenceIdeal.dot_S20000x16_S16x128_S20000x128_1_0_0_1_n_n := Plain.of_fields _ rfl rfl rfl rfl rfl rfl
theorem pr_S20000x128_S128x128_S20000x128 : Plain Cert.ReferenceIdeal.dot_S20000x128_S128x128_S20000x128_1_0_0_1_n_n := Plain.of_fields _ rfl rfl rfl rfl rfl rfl
theorem pr_S160000x8_S8x128_S160000x128 : Plain Cert.ReferenceIdeal.dot_S160000x8_S8x128_S160000x128_1_0_0_1_n_n := Plain.of_fields _ rfl rfl rfl rfl rfl rfl
theorem pr_S160000x128_S128x128_S160000x128 : Plain Cert.ReferenceIdeal.dot_S160000x128_S128x128_S160000x128_1_0_0_1_n_n := Plain.of_fields _ rfl rfl rfl rfl rfl rfl
theorem pr_S20000x128_S128x3_S20000x3 : Plain Cert.ReferenceIdeal.dot_S20000x128_S128x3_S20000x3_1_0_0_1_n_n := Plain.of_fields _ rfl rfl rfl rfl rfl rfl
theorem pr_S160000x128_S128x1_S160000x1 : Plain Cert.ReferenceIdeal.dot_S160000x128_S128x1_S160000x1_1_0_0_1_n_n := Plain.of_fields _ rfl rfl rfl rfl rfl rfl
theorem pr_S160000x384_S384x128_S160000x128 : Plain Cert.ReferenceIdeal.dot_S160000x384_S384x128_S160000x128_1_0_0_1_n_n := Plain.of_fields _ rfl rfl rfl rfl rfl rfl
theorem pr_S20000x384_S384x128_S20000x128 : Plain Cert.ReferenceIdeal.dot_S20000x384_S384x128_S20000x128_1_0_0_1_n_n := Plain.of_fields _ rfl rfl rfl rfl rfl rfl

/-! ## Encoders and decoders -/

/-- The body's stored value on a block of 2000 rows is that block of rows of `encodeNodes`. -/
theorem k0_pay1_blk {off : Nat} {x : Vec Ideal S2000x16 .f32} {X : FVec Ideal Cert.ReferenceIdeal.S20000x16 .f32} (hx : RowBlk off x X)
    (w1 : Vec Ideal S16x128 .f32) (b1 : Vec Ideal S1x128 .f32) (w2 : Vec Ideal S128x128 .f32) (b2 : Vec Ideal S1x128 .f32) :
    RowBlk off (k0_pay1 x w1 b1 w2 b2) (Cert.Spec.encodeNodes X w1 b1 w2 b2) := by
  unfold k0_pay1
  simp only [shapeCast_self]
  exact hx.twoLayer pk_S2000x16_S16x128_S2000x128 pk_S2000x128_S128x128_S2000x128 pr_S20000x16_S16x128_S20000x128 pr_S20000x128_S128x128_S20000x128
    w1 b1 w2 b2 _ _ _ _ _ _

/-- The body's stored value on a block of 4000 rows is that block of rows of `encodeEdges`. -/
theorem k1_pay1_blk {off : Nat} {x : Vec Ideal S4000x8 .f32} {X : FVec Ideal Cert.ReferenceIdeal.S160000x8 .f32} (hx : RowBlk off x X)
    (w1 : Vec Ideal S8x128 .f32) (b1 : Vec Ideal S1x128 .f32) (w2 : Vec Ideal S128x128 .f32) (b2 : Vec Ideal S1x128 .f32) :
    RowBlk off (k1_pay1 x w1 b1 w2 b2) (Cert.Spec.encodeEdges X w1 b1 w2 b2) := by
  unfold k1_pay1
  simp only [shapeCast_self]
  exact hx.twoLayer pk_S4000x8_S8x128_S4000x128 pk_S4000x128_S128x128_S4000x128 pr_S160000x8_S8x128_S160000x128 pr_S160000x128_S128x128_S160000x128
    w1 b1 w2 b2 _ _ _ _ _ _

/-- The body's stored value on a block of 2000 rows is that block of rows of `decodeNodes`. -/
theorem k12_pay1_blk {off : Nat} {x : Vec Ideal S2000x128 .f32} {X : FVec Ideal Cert.ReferenceIdeal.S20000x128 .f32} (hx : RowBlk off x X)
    (w1 : Vec Ideal S128x128 .f32) (b1 : Vec Ideal S1x128 .f32) (w2 : Vec Ideal S128x3 .f32) (b2 : Vec Ideal S1x3 .f32) :
    RowBlk off (k12_pay1 x w1 b1 w2 b2) (Cert.Spec.decodeNodes X w1 b1 w2 b2) := by
  unfold k12_pay1
  simp only [shapeCast_self]
  exact hx.twoLayer pk_S2000x128_S128x128_S2000x128 pk_S2000x128_S128x3_S2000x3 pr_S20000x128_S128x128_S20000x128 pr_S20000x128_S128x3_S20000x3
    w1 b1 w2 b2 _ _ _ _ _ _

/-- The body's stored value on a block of 4000 rows is that block of rows of `decodeEdges`. -/
theorem k13_pay1_blk {off : Nat} {x : Vec Ideal S4000x128 .f32} {X : FVec Ideal Cert.ReferenceIdeal.S160000x128 .f32} (hx : RowBlk off x X)
    (w1 : Vec Ideal S128x128 .f32) (b1 : Vec Ideal S1x128 .f32) (w2 : Vec Ideal S128x1 .f32) (b2 : Vec Ideal S1x1 .f32) :
    RowBlk off (k13_pay1 x w1 b1 w2 b2) (Cert.Spec.decodeEdges X w1 b1 w2 b2) := by
  unfold k13_pay1
  simp only [shapeCast_self]
  exact hx.twoLayer pk_S4000x128_S128x128_S4000x128 pk_S4000x128_S128x1_S4000x1 pr_S160000x128_S128x128_S160000x128 pr_S160000x128_S128x1_S160000x1
    w1 b1 w2 b2 _ _ _ _ _ _

/-! ## The three bands of the first weight matrix, as the bodies slice it -/

theorem band0 (w : FVec Ideal S384x128 .f32) (k : Fin 128) (n : Fin 128) (h : k.val < 384) :
    extractStridedSlice S128x128 ![0, 0] (truncf (F := Ideal) .bf16 w bitsLt_bf16_f32) slices_S384x128_o0_0_S128x128 (ix2 k n) = w (ix2 ⟨k.val, h⟩ n) :=
  extractStridedSlice_apply _ _ _ _ _ (fun a => by
    match a with
    | ⟨0, _⟩ => exact (Nat.zero_add _).symm
    | ⟨1, _⟩ => exact (Nat.zero_add _).symm)

theorem band1 (w : FVec Ideal S384x128 .f32) (k : Fin 128) (n : Fin 128) (h : 128 + k.val < 384) :
    extractStridedSlice S128x128 ![128, 0] (truncf (F := Ideal) .bf16 w bitsLt_bf16_f32) slices_S384x128_o128_0_S128x128 (ix2 k n) = w (ix2 ⟨128 + k.val, h⟩ n) :=
  extractStridedSlice_apply _ _ _ _ _ (fun a => by
    match a with
    | ⟨0, _⟩ => rfl
    | ⟨1, _⟩ => exact (Nat.zero_add _).symm)

theorem band2 (w : FVec Ideal S384x128 .f32) (k : Fin 128) (n : Fin 128) (h : 128 + (128 + k.val) < 384) :
    extractStridedSlice S128x128 ![256, 0] (truncf (F := Ideal) .bf16 w bitsLt_bf16_f32) slices_S384x128_o256_0_S128x128 (ix2 k n) = w (ix2 ⟨128 + (128 + k.val), h⟩ n) :=
  extractStridedSlice_apply _ _ _ _ _ (fun a => by
    match a with
    | ⟨0, _⟩ => show 128 + (128 + k.val) = 256 + k.val; omega
    | ⟨1, _⟩ => exact (Nat.zero_add _).symm)

/-! ## The edge update (the first of the five edge kernels; the others are the same body) -/

/-- The new edge features on a block of 4000 edges. -/
theorem edge_new_blk {off : Nat} {x0 : Vec Ideal S4000x128 .f32} {x1 x2 : Vec Ideal S4000x128 .bf16}
    {A B C : FVec Ideal Cert.ReferenceIdeal.S160000x128 .f32} (h0 : RowBlk off x0 A) (h1 : RowBlk off x1 B) (h2 : RowBlk off x2 C)
    (w1 : Vec Ideal S384x128 .f32) (b1 : Vec Ideal S1x128 .f32) (w2 : Vec Ideal S128x128 .f32) (b2 : Vec Ideal S1x128 .f32) :
    RowBlk off (k2_pay2 x0 x1 x2 w1 b1 w2 b2) (Cert.Spec.edgeUpdate A B C w1 b1 w2 b2) := by
  unfold k2_pay2 k2_pay1
  simp only [shapeCast_self]
  exact RowBlk.threeInputLayer pk_S4000x128_S128x128_S4000x128 pk_S4000x128_S128x128_S4000x128 pr_S160000x384_S384x128_S160000x128
    pr_S160000x128_S128x128_S160000x128 (h0.narrow bitsLt_bf16_f32) h1 h2 _ w1 _ _ _ (band0 w1) (band1 w1) (band2 w1) b1 w2 b2 _ _ _ _ _ _

/-- The next edge features (new plus old) on a block of 4000 edges. -/
theorem edge_next_blk {off : Nat} {x0 : Vec Ideal S4000x128 .f32} {x1 x2 : Vec Ideal S4000x128 .bf16}
    {A B C : FVec Ideal Cert.ReferenceIdeal.S160000x128 .f32} (h0 : RowBlk off x0 A) (h1 : RowBlk off x1 B) (h2 : RowBlk off x2 C)
    (w1 : Vec Ideal S384x128 .f32) (b1 : Vec Ideal S1x128 .f32) (w2 : Vec Ideal S128x128 .f32) (b2 : Vec Ideal S1x128 .f32) :
    RowBlk off (k2_pay3 x0 x1 x2 w1 b1 w2 b2) (addf (Cert.Spec.edgeUpdate A B C w1 b1 w2 b2) A) := by
  unfold k2_pay3
  have hx : RowBlk off (k2_pay1 x0) A := by unfold k2_pay1; rw [shapeCast_self]; exact h0
  exact (edge_new_blk h0 h1 h2 w1 b1 w2 b2).add hx

/-! ## The node update (the first of the five node kernels) -/

/-- The next node features (new plus old) on a block of 2000 nodes. -/
theorem node_next_blk {off : Nat} {x0 x1 x2 : Vec Ideal S2000x128 .f32}
    {A B C : FVec Ideal Cert.ReferenceIdeal.S20000x128 .f32} (h0 : RowBlk off x0 A) (h1 : RowBlk off x1 B) (h2 : RowBlk off x2 C)
    (w1 : Vec Ideal S384x128 .f32) (b1 : Vec Ideal S1x128 .f32) (w2 : Vec Ideal S128x128 .f32) (b2 : Vec Ideal S1x128 .f32) :
    RowBlk off (k3_pay1 x0 x1 x2 w1 b1 w2 b2) (addf (Cert.Spec.nodeUpdate A B C w1 b1 w2 b2) A) := by
  unfold k3_pay1
  simp only [shapeCast_self]
  exact (RowBlk.threeInputLayer pk_S2000x128_S128x128_S2000x128 pk_S2000x128_S128x128_S2000x128 pr_S20000x384_S384x128_S20000x128
    pr_S20000x128_S128x128_S20000x128 (h0.narrow bitsLt_bf16_f32) (h1.narrow bitsLt_bf16_f32) (h2.narrow bitsLt_bf16_f32) _ w1 _ _ _
    (band0 w1) (band1 w1) (band2 w1) b1 w2 b2 _ _ _ _ _ _).add h0

/-! ## The later steps' bodies are the first step's -/

theorem k4_pay2_eq : @k4_pay2 = @k2_pay2 := rfl
theorem k4_pay3_eq : @k4_pay3 = @k2_pay3 := rfl
theorem k6_pay2_eq : @k6_pay2 = @k2_pay2 := rfl
theorem k6_pay3_eq : @k6_pay3 = @k2_pay3 := rfl
theorem k8_pay2_eq : @k8_pay2 = @k2_pay2 := rfl
theorem k8_pay3_eq : @k8_pay3 = @k2_pay3 := rfl
theorem k10_pay2_eq : @k10_pay2 = @k2_pay2 := rfl
theorem k10_pay3_eq : @k10_pay3 = @k2_pay3 := rfl
theorem k5_pay1_eq : @k5_pay1 = @k3_pay1 := rfl
theorem k7_pay1_eq : @k7_pay1 = @k3_pay1 := rfl
theorem k9_pay1_eq : @k9_pay1 = @k3_pay1 := rfl
theorem k11_pay1_eq : @k11_pay1 = @k3_pay1 := rfl

end Cert.Payloads

end
-- ==== Proof.LibRowRead.lean ====
/-
  Reading the row-block relation of a dense layer at arbitrary indices.

  `RowBlk off xb X` says that `xb` is the block of rows of `X` that starts at row `off`, entry by entry at indices
  built from a row and a column. Here the same fact is read at ANY index `y` of the block and ANY index `i` of the
  whole matrix whose row is `off` plus `y`'s row and whose column is `y`'s column; and a block equal to a whole
  matrix entry by entry, read at indices with equal coordinates.
-/
import proofs.«150645_j45672682226304_2_alg».proof.Proof.LibPlainRecord

noncomputable section

namespace Cert.Lib.DenseLayer

open Idealize.ShloMosaic Idealize.ShloMosaic.ValueIdx

/-- The block's entry at `y` is the matrix's entry at `i` when `i` is `y` moved down by `off` rows. -/
theorem RowBlk.read {Mb M K : Nat} {off : Nat} {xb : (⟨2, ![Mb, K]⟩ : Shape).Idx → EReal} {X : (⟨2, ![M, K]⟩ : Shape).Idx → EReal}
    (h : RowBlk off xb X) (y : (⟨2, ![Mb, K]⟩ : Shape).Idx) (i : (⟨2, ![M, K]⟩ : Shape).Idx)
    (h0 : (i 0).val = off + (y 0).val) (h1 : (i 1).val = (y 1).val) : xb y = X i := by
  have hr : off + (y 0).val < M := h0 ▸ (i 0).isLt
  have ey : y = ix2 (y 0) (y 1) := eq_ix2 y
  have ei : i = ix2 ⟨off + (y 0).val, hr⟩ (y 1) := funext fun a => Fin.ext (by
    match a with
    | ⟨0, _⟩ => exact h0
    | ⟨1, _⟩ => exact h1)
  rw [ey, ei]
  exact h (y 0) hr (y 1)

/-- The converse packaging: a block whose every entry is the matrix's entry `off` rows further down. -/
theorem RowBlk.of_read {Mb M K : Nat} {off : Nat} {xb : (⟨2, ![Mb, K]⟩ : Shape).Idx → EReal} {X : (⟨2, ![M, K]⟩ : Shape).Idx → EReal}
    (e : (⟨2, ![Mb, K]⟩ : Shape).Idx → (⟨2, ![M, K]⟩ : Shape).Idx)
    (h0 : ∀ y, (e y 0).val = off + (y 0).val) (h1 : ∀ y, (e y 1).val = (y 1).val)
    (h : ∀ y, xb y = X (e y)) : RowBlk off xb X := fun r hr k => by
  rw [h (ix2 r k)]
  exact congrArg X (funext fun a => Fin.ext (by
    match a with
    | ⟨0, _⟩ => exact h0 (ix2 r k)
    | ⟨1, _⟩ => exact h1 (ix2 r k)))

/-- Two indices of one rank-2 shape with equal coordinates are equal. -/
theorem idx2_ext {A B : Nat} (i j : (⟨2, ![A, B]⟩ : Shape).Idx) (h0 : (i 0).val = (j 0).val) (h1 : (i 1).val = (j 1).val) :
    i = j := funext fun a => Fin.ext (by
  match a with
  | ⟨0, _⟩ => exact h0
  | ⟨1, _⟩ => exact h1)

end Cert.Lib.DenseLayer

end
-- ==== Proof.Region0.lean ====
/-
  Region 0 of the kernel's @main: the node encoder, 16 features to 128, over 20000 nodes in blocks of 2000.

  The grid has 10 points; point t stages rows 2000·t … 2000·t + 1999 of the input, the whole weight and bias arrays,
  and writes back rows 2000·t … of the output. The body's stored block is, by the payload lemma, that block of rows of
  the whole-array function; the blocks of the 10 points cover every row; so the output array after the region is the
  whole-array function of the arrays the region found.
-/
import proofs.«150645_j45672682226304_2_alg».proof.Proof.Gen.KernelIdeal.Frame
import proofs.«150645_j45672682226304_2_alg».proof.Proof.Payloads
import proofs.«150645_j45672682226304_2_alg».proof.Proof.LibRowRead

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.Lib.DenseLayer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0 :=
  (by decide +kernel : ∀ t : Fin grid0.N, _)

/-- The input block at point t is the block of rows of the input array that starts at row 2000·t. -/
theorem blk0 (c : Dev nD) (t : Fin cfg0.N) : RowBlk (t.val * 2000) (iblk0 V c 0 t) (V c (Pipeline.arrRef spec0 0)) :=
  RowBlk.of_read (fun y => ((cfg0.win 0).blk t).view.emb y)
    (fun y => by show win0_0.index t (0 : Fin 2) * 2000 + 1 * (y 0).val = t.val * 2000 + (y 0).val; rw [(idx_facts t).1]; omega)
    (fun y => by show win0_0.index t (1 : Fin 2) * 16 + 1 * (y 1).val = (y 1).val; rw [(idx_facts t).2.1]; omega)
    (fun y => rfl)

/-- Window 1 stages its whole array at every point. -/
theorem blk1 (c : Dev nD) (t : Fin cfg0.N) : iblk0 V c 1 t = V c (Pipeline.arrRef spec0 1) :=
  funext fun y => congrArg (V c (Pipeline.arrRef spec0 1)) (funext fun a => Fin.ext (by
    match a with
    | ⟨0, _⟩ => show win0_1.index t (0 : Fin 2) * 16 + 1 * (y 0).val = (y 0).val; rw [(idx_facts t).2.2.1]; omega
    | ⟨1, _⟩ => show win0_1.index t (1 : Fin 2) * 128 + 1 * (y 1).val = (y 1).val; rw [(idx_facts t).2.2.2.1]; omega))

/-- Window 2 stages its whole array at every point. -/
theorem blk2 (c : Dev nD) (t : Fin cfg0.N) : iblk0 V c 2 t = V c (Pipeline.arrRef spec0 2) :=
  funext fun y => congrArg (V c (Pipeline.arrRef spec0 2)) (funext fun a => Fin.ext (by
    match a with
    | ⟨0, _⟩ => show win0_2.index t (0 : Fin 2) * 1 + 1 * (y 0).val = (y 0).val; rw [(idx_facts t).2.2.2.2.1]; omega
    | ⟨1, _⟩ => show win0_2.index t (1 : Fin 2) * 128 + 1 * (y 1).val = (y 1).val; rw [(idx_facts t).2.2.2.2.2.1]; omega))

/-- Window 3 stages its whole array at every point. -/
theorem blk3 (c : Dev nD) (t : Fin cfg0.N) : iblk0 V c 3 t = V c (Pipeline.arrRef spec0 3) :=
  funext fun y => congrArg (V c (Pipeline.arrRef spec0 3)) (funext fun a => Fin.ext (by
    match a with
    | ⟨0, _⟩ => show win0_3.index t (0 : Fin 2) * 128 + 1 * (y 0).val = (y 0).val; rw [(idx_facts t).2.2.2.2.2.2.1]; omega
    | ⟨1, _⟩ => show win0_3.index t (1 : Fin 2) * 128 + 1 * (y 1).val = (y 1).val; rw [(idx_facts t).2.2.2.2.2.2.2.1]; omega))

/-- Window 4 stages its whole array at every point. -/
theorem blk4 (c : Dev nD) (t : Fin cfg0.N) : iblk0 V c 4 t = V c (Pipeline.arrRef spec0 4) :=
  funext fun y => congrArg (V c (Pipeline.arrRef spec0 4)) (funext fun a => Fin.ext (by
    match a with
    | ⟨0, _⟩ => show win0_4.index t (0 : Fin 2) * 1 + 1 * (y 0).val = (y 0).val; rw [(idx_facts t).2.2.2.2.2.2.2.2.1]; omega
    | ⟨1, _⟩ => show win0_4.index t (1 : Fin 2) * 128 + 1 * (y 1).val = (y 1).val; rw [(idx_facts t).2.2.2.2.2.2.2.2.2.1]; omega))

/-- What point t writes back is block t of the whole-array function of the arrays the region found. -/
theorem flushed (c : Dev nD) (t : Fin cfg0.N) :
    (dat0 V c).flushed 5 t = ((cfg0.win 5).blk t).view.read (Elt Ideal)
      (Cert.Spec.encodeNodes (V c main_arg0) (V c main_arg4) (V c main_v0)
        (V c main_arg6) (V c main_v1)) := by
  show (cfg0.win 5).cut (grid0.coords t) ((dat0 V c).after 5 t) = _
  rw [after0_5]
  unfold out0_5
  rw [View.canon_unit_zero hz]
  simp only [View.ld_unit_zero (S := S2000x16) hz, View.ld_unit_zero (S := S16x128) hz, View.ld_unit_zero (S := S1x128) hz,
    View.ld_unit_zero (S := S128x128) hz, View.ld_unit_zero (S := S1x128) hz]
  rw [blk1 V c t, blk2 V c t, blk3 V c t, blk4 V c t]
  funext j
  exact (Cert.Payloads.k0_pay1_blk (blk0 V c t) _ _ _ _).read j (((cfg0.win 5).blk t).view.emb j)
    (by show win0_5.index t (0 : Fin 2) * 2000 + 1 * (j 0).val = t.val * 2000 + (j 0).val; rw [(idx_facts t).2.2.2.2.2.2.2.2.2.2.1]; omega)
    (by show win0_5.index t (1 : Fin 2) * 128 + 1 * (j 1).val = (j 1).val; rw [(idx_facts t).2.2.2.2.2.2.2.2.2.2.2]; omega)

/-- An index of the output array is in point t's block iff each coordinate is in the block's range. -/
theorem mem_blk (t : Fin cfg0.N) (i : S20000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v2).slice (win0_5.rect t)).set ↔ _
  rw [View.set_slice_whole, Rect.mem_set_unit]
  exact Iff.rfl

/-- Every row of the output is in the block of the point its row number divided by 2000 names. -/
theorem cover (i : S20000x128.Idx) : ∃ t : Fin cfg0.N, (cfg0.win 5).flush t = true ∧ i ∈ ((cfg0.win 5).blk t).view.set := by
  have hi0 : (i 0).val < 20000 := (i 0).isLt
  have hi1 : (i 1).val < 128 := (i 1).isLt
  have ht : (i 0).val / 2000 < 10 := by omega
  refine ⟨⟨(i 0).val / 2000, ht⟩, flush0_5 _, ?_⟩
  rw [mem_blk]
  have e0 := (idx_facts ⟨(i 0).val / 2000, ht⟩).2.2.2.2.2.2.2.2.2.2.1
  have e1 := (idx_facts ⟨(i 0).val / 2000, ht⟩).2.2.2.2.2.2.2.2.2.2.2
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [e1]; omega

/-- The output array after the region. -/
theorem final (c : Dev nD) :
    (dat0 V c).arrAt 5 cfg0.N = Cert.Spec.encodeNodes (V c main_arg0) (V c main_arg4)
      (V c main_v0) (V c main_arg6) (V c main_v1) :=
  (dat0 V c).arrAt_eq_of_cover 5 _ (fun t _ => flushed V c t) cover

end Cert.KernelIdeal.Region0

end
-- ==== Proof.Region1.lean ====
/-
  Region 1 of the kernel's @main: the edge encoder, 8 features to 128, over 160000 edges in blocks of 4000.

  The grid has 40 points; point t stages rows 4000·t … 4000·t + 3999 of the input, the whole weight and bias arrays,
  and writes back rows 4000·t … of the output. The body's stored block is, by the payload lemma, that block of rows of
  the whole-array function; the blocks of the 40 points cover every row; so the output array after the region is the
  whole-array function of the arrays the region found.
-/
import proofs.«150645_j45672682226304_2_alg».proof.Proof.Gen.KernelIdeal.Frame
import proofs.«150645_j45672682226304_2_alg».proof.Proof.Payloads
import proofs.«150645_j45672682226304_2_alg».proof.Proof.LibRowRead

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.Lib.DenseLayer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- The input block at point t is the block of rows of the input array that starts at row 4000·t. -/
theorem blk0 (c : Dev nD) (t : Fin cfg1.N) : RowBlk (t.val * 4000) (iblk1 V c 0 t) (V c (Pipeline.arrRef spec1 0)) :=
  RowBlk.of_read (fun y => ((cfg1.win 0).blk t).view.emb y)
    (fun y => by show win1_0.index t (0 : Fin 2) * 4000 + 1 * (y 0).val = t.val * 4000 + (y 0).val; rw [(idx_facts t).1]; omega)
    (fun y => by show win1_0.index t (1 : Fin 2) * 8 + 1 * (y 1).val = (y 1).val; rw [(idx_facts t).2.1]; omega)
    (fun y => rfl)

/-- Window 1 stages its whole array at every point. -/
theorem blk1 (c : Dev nD) (t : Fin cfg1.N) : iblk1 V c 1 t = V c (Pipeline.arrRef spec1 1) :=
  funext fun y => congrArg (V c (Pipeline.arrRef spec1 1)) (funext fun a => Fin.ext (by
    match a with
    | ⟨0, _⟩ => show win1_1.index t (0 : Fin 2) * 8 + 1 * (y 0).val = (y 0).val; rw [(idx_facts t).2.2.1]; omega
    | ⟨1, _⟩ => show win1_1.index t (1 : Fin 2) * 128 + 1 * (y 1).val = (y 1).val; rw [(idx_facts t).2.2.2.1]; omega))

/-- Window 2 stages its whole array at every point. -/
theorem blk2 (c : Dev nD) (t : Fin cfg1.N) : iblk1 V c 2 t = V c (Pipeline.arrRef spec1 2) :=
  funext fun y => congrArg (V c (Pipeline.arrRef spec1 2)) (funext fun a => Fin.ext (by
    match a with
    | ⟨0, _⟩ => show win1_2.index t (0 : Fin 2) * 1 + 1 * (y 0).val = (y 0).val; rw [(idx_facts t).2.2.2.2.1]; omega
    | ⟨1, _⟩ => show win1_2.index t (1 : Fin 2) * 128 + 1 * (y 1).val = (y 1).val; rw [(idx_facts t).2.2.2.2.2.1]; omega))

/-- Window 3 stages its whole array at every point. -/
theorem blk3 (c : Dev nD) (t : Fin cfg1.N) : iblk1 V c 3 t = V c (Pipeline.arrRef spec1 3) :=
  funext fun y => congrArg (V c (Pipeline.arrRef spec1 3)) (funext fun a => Fin.ext (by
    match a with
    | ⟨0, _⟩ => show win1_3.index t (0 : Fin 2) * 128 + 1 * (y 0).val = (y 0).val; rw [(idx_facts t).2.2.2.2.2.2.1]; omega
    | ⟨1, _⟩ => show win1_3.index t (1 : Fin 2) * 128 + 1 * (y 1).val = (y 1).val; rw [(idx_facts t).2.2.2.2.2.2.2.1]; omega))

/-- Window 4 stages its whole array at every point. -/
theorem blk4 (c : Dev nD) (t : Fin cfg1.N) : iblk1 V c 4 t = V c (Pipeline.arrRef spec1 4) :=
  funext fun y => congrArg (V c (Pipeline.arrRef spec1 4)) (funext fun a => Fin.ext (by
    match a with
    | ⟨0, _⟩ => show win1_4.index t (0 : Fin 2) * 1 + 1 * (y 0).val = (y 0).val; rw [(idx_facts t).2.2.2.2.2.2.2.2.1]; omega
    | ⟨1, _⟩ => show win1_4.index t (1 : Fin 2) * 128 + 1 * (y 1).val = (y 1).val; rw [(idx_facts t).2.2.2.2.2.2.2.2.2.1]; omega))

/-- What point t writes back is block t of the whole-array function of the arrays the region found. -/
theorem flushed (c : Dev nD) (t : Fin cfg1.N) :
    (dat1 V c).flushed 5 t = ((cfg1.win 5).blk t).view.read (Elt Ideal)
      (Cert.Spec.encodeEdges (V c main_arg1) (V c main_arg8) (V c main_v3)
        (V c main_arg10) (V c main_v4)) := by
  show (cfg1.win 5).cut (grid1.coords t) ((dat1 V c).after 5 t) = _
  rw [after1_5]
  unfold out1_5
  rw [View.canon_unit_zero hz]
  simp only [View.ld_unit_zero (S := S4000x8) hz, View.ld_unit_zero (S := S8x128) hz, View.ld_unit_zero (S := S1x128) hz,
    View.ld_unit_zero (S := S128x128) hz, View.ld_unit_zero (S := S1x128) hz]
  rw [blk1 V c t, blk2 V c t, blk3 V c t, blk4 V c t]
  funext j
  exact (Cert.Payloads.k1_pay1_blk (blk0 V c t) _ _ _ _).read j (((cfg1.win 5).blk t).view.emb j)
    (by show win1_5.index t (0 : Fin 2) * 4000 + 1 * (j 0).val = t.val * 4000 + (j 0).val; rw [(idx_facts t).2.2.2.2.2.2.2.2.2.2.1]; omega)
    (by show win1_5.index t (1 : Fin 2) * 128 + 1 * (j 1).val = (j 1).val; rw [(idx_facts t).2.2.2.2.2.2.2.2.2.2.2]; omega)

/-- An index of the output array is in point t's block iff each coordinate is in the block's range. -/
theorem mem_blk (t : Fin cfg1.N) (i : S160000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v5).slice (win1_5.rect t)).set ↔ _
  rw [View.set_slice_whole, Rect.mem_set_unit]
  exact Iff.rfl

/-- Every row of the output is in the block of the point its row number divided by 4000 names. -/
theorem cover (i : S160000x128.Idx) : ∃ t : Fin cfg1.N, (cfg1.win 5).flush t = true ∧ i ∈ ((cfg1.win 5).blk t).view.set := by
  have hi0 : (i 0).val < 160000 := (i 0).isLt
  have hi1 : (i 1).val < 128 := (i 1).isLt
  have ht : (i 0).val / 4000 < 40 := by omega
  refine ⟨⟨(i 0).val / 4000, ht⟩, flush1_5 _, ?_⟩
  rw [mem_blk]
  have e0 := (idx_facts ⟨(i 0).val / 4000, ht⟩).2.2.2.2.2.2.2.2.2.2.1
  have e1 := (idx_facts ⟨(i 0).val / 4000, ht⟩).2.2.2.2.2.2.2.2.2.2.2
  intro a
  match a with
  | ⟨0, _⟩ =>
    show win1_5.index ⟨(i 0).val / 4000, ht⟩ (0 : Fin 2) * 4000 ≤ (i 0).val ∧ (i 0).val < win1_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_5.index ⟨(i 0).val / 4000, ht⟩ (1 : Fin 2) * 128 ≤ (i 1).val ∧ (i 1).val < win1_5.index ⟨(i 0).val / 4000, ht⟩ (1 : Fin 2) * 128 + 128
    rw [e1]; omega

/-- The output array after the region. -/
theorem final (c : Dev nD) :
    (dat1 V c).arrAt 5 cfg1.N = Cert.Spec.encodeEdges (V c main_arg1) (V c main_arg8)
      (V c main_v3) (V c main_arg10) (V c main_v4) :=
  (dat1 V c).arrAt_eq_of_cover 5 _ (fun t _ => flushed V c t) cover

end Cert.KernelIdeal.Region1

end
-- ==== Proof.Terms.lean ====
/-
  The network's intermediate arrays as terms of the argument arrays, at the extended reals.

  From a valuation V of the argument buffers: the encoded nodes and edges; then, five times, the new edge features
  (the edge update of the edge's features and its sender's and receiver's node features, gathered by the index
  arrays with jnp's negative-index wrap), the next edge features (new plus old), the two segment sums of the new edge
  features over senders and over receivers, and the next node features (the node update of the three, plus old);
  finally the decoded nodes and edges. Step i uses the i-th slices of the stacked per-step weights and biases. The
  spelling is the host's, operation by operation as the reference program states them.
-/
import proofs.«150645_j45672682226304_2_alg».proof.Proof.Spec

noncomputable section

namespace Cert.Terms

open Idealize.ShloMosaic Idealize.ShloMosaic.StableHlo Cert.ReferenceIdeal Cert.ReferenceIdeal.Facts₀

variable (V : Valuation τ sig (Elt Ideal))

/-- A bias vector of n entries as a 1×n row. -/
abbrev row128 (b : FVec Ideal S128 .f32) : FVec Ideal S1x128 .f32 := broadcastInDim S1x128 ![1] bcast_S128_S1x128_1 b

/-- The sender index of every edge as a column, negative indices wrapped by the number of nodes. -/
abbrev sIdx : IVec S160000x1 32 :=
  broadcastInDim S160000x1 ![0] bcast_S160000_S160000x1_0 (select (cmpi .slt (V (Proc.devRef .tc main_arg2)) (broadcastInDim S160000 ![] bcast_S_S160000 (constantI S_ 32 0#32))) (addi (V (Proc.devRef .tc main_arg2)) (broadcastInDim S160000 ![] bcast_S_S160000 (constantI S_ 32 20000#32))) (V (Proc.devRef .tc main_arg2)))
/-- The receiver index of every edge, likewise. -/
abbrev rIdx : IVec S160000x1 32 :=
  broadcastInDim S160000x1 ![0] bcast_S160000_S160000x1_0 (select (cmpi .slt (V (Proc.devRef .tc main_arg3)) (broadcastInDim S160000 ![] bcast_S_S160000 (constantI S_ 32 0#32))) (addi (V (Proc.devRef .tc main_arg3)) (broadcastInDim S160000 ![] bcast_S_S160000 (constantI S_ 32 20000#32))) (V (Proc.devRef .tc main_arg3)))

/-- Node rows picked by an index column. -/
abbrev pick (h : FVec Ideal S20000x128 .f32) (idx : IVec S160000x1 32) : FVec Ideal S160000x128 .f32 :=
  Host.gather gather_S20000x128_S160000x1_S160000x128_1_0_n_n_0_1_1128 h idx
/-- Edge rows summed into the node rows their sender index names. -/
abbrev sumSent (e : FVec Ideal S160000x128 .f32) : FVec Ideal S20000x128 .f32 :=
  Host.scatterAdd scatter_S20000x128_S160000x1_S160000x128_1_0_0_1 (broadcastInDim S20000x128 ![] bcast_S_S20000x128 (constant S_ .f32 0x00000000#32)) (broadcastInDim S160000x1 ![0] bcast_S160000_S160000x1_0 (V (Proc.devRef .tc main_arg2))) e
/-- Edge rows summed into the node rows their receiver index names. -/
abbrev sumRecv (e : FVec Ideal S160000x128 .f32) : FVec Ideal S20000x128 .f32 :=
  Host.scatterAdd scatter_S20000x128_S160000x1_S160000x128_1_0_0_1 (broadcastInDim S20000x128 ![] bcast_S_S20000x128 (constant S_ .f32 0x00000000#32)) (broadcastInDim S160000x1 ![0] bcast_S160000_S160000x1_0 (V (Proc.devRef .tc main_arg3))) e

/-- Step 0's weights and biases: the 0-th slices of the stacked arrays. -/
abbrev eW1_0 : FVec Ideal S384x128 .f32 := shapeCast _ (extractStridedSlice S1x384x128 ![0, 0, 0] (V (Proc.devRef .tc main_arg12)) slices_S5x384x128_S1x384x128_0_0_0) shapeCasts_S1x384x128_S384x128
abbrev eb1_0 : FVec Ideal S1x128 .f32 := row128 (shapeCast _ (extractStridedSlice S1x128 ![0, 0] (V (Proc.devRef .tc main_arg13)) slices_S5x128_S1x128_0_0) shapeCasts_S1x128_S128)
abbrev eW2_0 : FVec Ideal S128x128 .f32 := shapeCast _ (extractStridedSlice S1x128x128 ![0, 0, 0] (V (Proc.devRef .tc main_arg14)) slices_S5x128x128_S1x128x128_0_0_0) shapeCasts_S1x128x128_S128x128
abbrev eb2_0 : FVec Ideal S1x128 .f32 := row128 (shapeCast _ (extractStridedSlice S1x128 ![0, 0] (V (Proc.devRef .tc main_arg15)) slices_S5x128_S1x128_0_0) shapeCasts_S1x128_S128)
abbrev nW1_0 : FVec Ideal S384x128 .f32 := shapeCast _ (extractStridedSlice S1x384x128 ![0, 0, 0] (V (Proc.devRef .tc main_arg16)) slices_S5x384x128_S1x384x128_0_0_0) shapeCasts_S1x384x128_S384x128
abbrev nb1_0 : FVec Ideal S1x128 .f32 := row128 (shapeCast _ (extractStridedSlice S1x128 ![0, 0] (V (Proc.devRef .tc main_arg17)) slices_S5x128_S1x128_0_0) shapeCasts_S1x128_S128)
abbrev nW2_0 : FVec Ideal S128x128 .f32 := shapeCast _ (extractStridedSlice S1x128x128 ![0, 0, 0] (V (Proc.devRef .tc main_arg18)) slices_S5x128x128_S1x128x128_0_0_0) shapeCasts_S1x128x128_S128x128
abbrev nb2_0 : FVec Ideal S1x128 .f32 := row128 (shapeCast _ (extractStridedSlice S1x128 ![0, 0] (V (Proc.devRef .tc main_arg19)) slices_S5x128_S1x128_0_0) shapeCasts_S1x128_S128)

/-- Step 1's weights and biases: the 1-th slices of the stacked arrays. -/
abbrev eW1_1 : FVec Ideal S384x128 .f32 := shapeCast _ (extractStridedSlice S1x384x128 ![1, 0, 0] (V (Proc.devRef .tc main_arg12)) slices_S5x384x128_S1x384x128_1_0_0) shapeCasts_S1x384x128_S384x128
abbrev eb1_1 : FVec Ideal S1x128 .f32 := row128 (shapeCast _ (extractStridedSlice S1x128 ![1, 0] (V (Proc.devRef .tc main_arg13)) slices_S5x128_S1x128_1_0) shapeCasts_S1x128_S128)
abbrev eW2_1 : FVec Ideal S128x128 .f32 := shapeCast _ (extractStridedSlice S1x128x128 ![1, 0, 0] (V (Proc.devRef .tc main_arg14)) slices_S5x128x128_S1x128x128_1_0_0) shapeCasts_S1x128x128_S128x128
abbrev eb2_1 : FVec Ideal S1x128 .f32 := row128 (shapeCast _ (extractStridedSlice S1x128 ![1, 0] (V (Proc.devRef .tc main_arg15)) slices_S5x128_S1x128_1_0) shapeCasts_S1x128_S128)
abbrev nW1_1 : FVec Ideal S384x128 .f32 := shapeCast _ (extractStridedSlice S1x384x128 ![1, 0, 0] (V (Proc.devRef .tc main_arg16)) slices_S5x384x128_S1x384x128_1_0_0) shapeCasts_S1x384x128_S384x128
abbrev nb1_1 : FVec Ideal S1x128 .f32 := row128 (shapeCast _ (extractStridedSlice S1x128 ![1, 0] (V (Proc.devRef .tc main_arg17)) slices_S5x128_S1x128_1_0) shapeCasts_S1x128_S128)
abbrev nW2_1 : FVec Ideal S128x128 .f32 := shapeCast _ (extractStridedSlice S1x128x128 ![1, 0, 0] (V (Proc.devRef .tc main_arg18)) slices_S5x128x128_S1x128x128_1_0_0) shapeCasts_S1x128x128_S128x128
abbrev nb2_1 : FVec Ideal S1x128 .f32 := row128 (shapeCast _ (extractStridedSlice S1x128 ![1, 0] (V (Proc.devRef .tc main_arg19)) slices_S5x128_S1x128_1_0) shapeCasts_S1x128_S128)

/-- Step 2's weights and biases: the 2-th slices of the stacked arrays. -/
abbrev eW1_2 : FVec Ideal S384x128 .f32 := shapeCast _ (extractStridedSlice S1x384x128 ![2, 0, 0] (V (Proc.devRef .tc main_arg12)) slices_S5x384x128_S1x384x128_2_0_0) shapeCasts_S1x384x128_S384x128
abbrev eb1_2 : FVec Ideal S1x128 .f32 := row128 (shapeCast _ (extractStridedSlice S1x128 ![2, 0] (V (Proc.devRef .tc main_arg13)) slices_S5x128_S1x128_2_0) shapeCasts_S1x128_S128)
abbrev eW2_2 : FVec Ideal S128x128 .f32 := shapeCast _ (extractStridedSlice S1x128x128 ![2, 0, 0] (V (Proc.devRef .tc main_arg14)) slices_S5x128x128_S1x128x128_2_0_0) shapeCasts_S1x128x128_S128x128
abbrev eb2_2 : FVec Ideal S1x128 .f32 := row128 (shapeCast _ (extractStridedSlice S1x128 ![2, 0] (V (Proc.devRef .tc main_arg15)) slices_S5x128_S1x128_2_0) shapeCasts_S1x128_S128)
abbrev nW1_2 : FVec Ideal S384x128 .f32 := shapeCast _ (extractStridedSlice S1x384x128 ![2, 0, 0] (V (Proc.devRef .tc main_arg16)) slices_S5x384x128_S1x384x128_2_0_0) shapeCasts_S1x384x128_S384x128
abbrev nb1_2 : FVec Ideal S1x128 .f32 := row128 (shapeCast _ (extractStridedSlice S1x128 ![2, 0] (V (Proc.devRef .tc main_arg17)) slices_S5x128_S1x128_2_0) shapeCasts_S1x128_S128)
abbrev nW2_2 : FVec Ideal S128x128 .f32 := shapeCast _ (extractStridedSlice S1x128x128 ![2, 0, 0] (V (Proc.devRef .tc main_arg18)) slices_S5x128x128_S1x128x128_2_0_0) shapeCasts_S1x128x128_S128x128
abbrev nb2_2 : FVec Ideal S1x128 .f32 := row128 (shapeCast _ (extractStridedSlice S1x128 ![2, 0] (V (Proc.devRef .tc main_arg19)) slices_S5x128_S1x128_2_0) shapeCasts_S1x128_S128)

/-- Step 3's weights and biases: the 3-th slices of the stacked arrays. -/
abbrev eW1_3 : FVec Ideal S384x128 .f32 := shapeCast _ (extractStridedSlice S1x384x128 ![3, 0, 0] (V (Proc.devRef .tc main_arg12)) slices_S5x384x128_S1x384x128_3_0_0) shapeCasts_S1x384x128_S384x128
abbrev eb1_3 : FVec Ideal S1x128 .f32 := row128 (shapeCast _ (extractStridedSlice S1x128 ![3, 0] (V (Proc.devRef .tc main_arg13)) slices_S5x128_S1x128_3_0) shapeCasts_S1x128_S128)
abbrev eW2_3 : FVec Ideal S128x128 .f32 := shapeCast _ (extractStridedSlice S1x128x128 ![3, 0, 0] (V (Proc.devRef .tc main_arg14)) slices_S5x128x128_S1x128x128_3_0_0) shapeCasts_S1x128x128_S128x128
abbrev eb2_3 : FVec Ideal S1x128 .f32 := row128 (shapeCast _ (extractStridedSlice S1x128 ![3, 0] (V (Proc.devRef .tc main_arg15)) slices_S5x128_S1x128_3_0) shapeCasts_S1x128_S128)
abbrev nW1_3 : FVec Ideal S384x128 .f32 := shapeCast _ (extractStridedSlice S1x384x128 ![3, 0, 0] (V (Proc.devRef .tc main_arg16)) slices_S5x384x128_S1x384x128_3_0_0) shapeCasts_S1x384x128_S384x128
abbrev nb1_3 : FVec Ideal S1x128 .f32 := row128 (shapeCast _ (extractStridedSlice S1x128 ![3, 0] (V (Proc.devRef .tc main_arg17)) slices_S5x128_S1x128_3_0) shapeCasts_S1x128_S128)
abbrev nW2_3 : FVec Ideal S128x128 .f32 := shapeCast _ (extractStridedSlice S1x128x128 ![3, 0, 0] (V (Proc.devRef .tc main_arg18)) slices_S5x128x128_S1x128x128_3_0_0) shapeCasts_S1x128x128_S128x128
abbrev nb2_3 : FVec Ideal S1x128 .f32 := row128 (shapeCast _ (extractStridedSlice S1x128 ![3, 0] (V (Proc.devRef .tc main_arg19)) slices_S5x128_S1x128_3_0) shapeCasts_S1x128_S128)

/-- Step 4's weights and biases: the 4-th slices of the stacked arrays. -/
abbrev eW1_4 : FVec Ideal S384x128 .f32 := shapeCast _ (extractStridedSlice S1x384x128 ![4, 0, 0] (V (Proc.devRef .tc main_arg12)) slices_S5x384x128_S1x384x128_4_0_0) shapeCasts_S1x384x128_S384x128
abbrev eb1_4 : FVec Ideal S1x128 .f32 := row128 (shapeCast _ (extractStridedSlice S1x128 ![4, 0] (V (Proc.devRef .tc main_arg13)) slices_S5x128_S1x128_4_0) shapeCasts_S1x128_S128)
abbrev eW2_4 : FVec Ideal S128x128 .f32 := shapeCast _ (extractStridedSlice S1x128x128 ![4, 0, 0] (V (Proc.devRef .tc main_arg14)) slices_S5x128x128_S1x128x128_4_0_0) shapeCasts_S1x128x128_S128x128
abbrev eb2_4 : FVec Ideal S1x128 .f32 := row128 (shapeCast _ (extractStridedSlice S1x128 ![4, 0] (V (Proc.devRef .tc main_arg15)) slices_S5x128_S1x128_4_0) shapeCasts_S1x128_S128)
abbrev nW1_4 : FVec Ideal S384x128 .f32 := shapeCast _ (extractStridedSlice S1x384x128 ![4, 0, 0] (V (Proc.devRef .tc main_arg16)) slices_S5x384x128_S1x384x128_4_0_0) shapeCasts_S1x384x128_S384x128
abbrev nb1_4 : FVec Ideal S1x128 .f32 := row128 (shapeCast _ (extractStridedSlice S1x128 ![4, 0] (V (Proc.devRef .tc main_arg17)) slices_S5x128_S1x128_4_0) shapeCasts_S1x128_S128)
abbrev nW2_4 : FVec Ideal S128x128 .f32 := shapeCast _ (extractStridedSlice S1x128x128 ![4, 0, 0] (V (Proc.devRef .tc main_arg18)) slices_S5x128x128_S1x128x128_4_0_0) shapeCasts_S1x128x128_S128x128
abbrev nb2_4 : FVec Ideal S1x128 .f32 := row128 (shapeCast _ (extractStridedSlice S1x128 ![4, 0] (V (Proc.devRef .tc main_arg19)) slices_S5x128_S1x128_4_0) shapeCasts_S1x128_S128)

/-- The encoded nodes and edges. -/
def hn0 : FVec Ideal S20000x128 .f32 := Cert.Spec.encodeNodes (V (Proc.devRef .tc main_arg0)) (V (Proc.devRef .tc main_arg4)) (row128 (V (Proc.devRef .tc main_arg5))) (V (Proc.devRef .tc main_arg6)) (row128 (V (Proc.devRef .tc main_arg7)))
def he0 : FVec Ideal S160000x128 .f32 := Cert.Spec.encodeEdges (V (Proc.devRef .tc main_arg1)) (V (Proc.devRef .tc main_arg8)) (row128 (V (Proc.devRef .tc main_arg9))) (V (Proc.devRef .tc main_arg10)) (row128 (V (Proc.devRef .tc main_arg11)))

/-- Step 0: the new edge features, the next edge features, the next node features. -/
def enew0 : FVec Ideal S160000x128 .f32 := Cert.Spec.edgeUpdate (he0 V) (pick (hn0 V) (sIdx V)) (pick (hn0 V) (rIdx V)) (eW1_0 V) (eb1_0 V) (eW2_0 V) (eb2_0 V)
def he1 : FVec Ideal S160000x128 .f32 := addf (enew0 V) (he0 V)
def hn1 : FVec Ideal S20000x128 .f32 := addf (Cert.Spec.nodeUpdate (hn0 V) (sumSent V (enew0 V)) (sumRecv V (enew0 V)) (nW1_0 V) (nb1_0 V) (nW2_0 V) (nb2_0 V)) (hn0 V)

/-- Step 1: the new edge features, the next edge features, the next node features. -/
def enew1 : FVec Ideal S160000x128 .f32 := Cert.Spec.edgeUpdate (he1 V) (pick (hn1 V) (sIdx V)) (pick (hn1 V) (rIdx V)) (eW1_1 V) (eb1_1 V) (eW2_1 V) (eb2_1 V)
def he2 : FVec Ideal S160000x128 .f32 := addf (enew1 V) (he1 V)
def hn2 : FVec Ideal S20000x128 .f32 := addf (Cert.Spec.nodeUpdate (hn1 V) (sumSent V (enew1 V)) (sumRecv V (enew1 V)) (nW1_1 V) (nb1_1 V) (nW2_1 V) (nb2_1 V)) (hn1 V)

/-- Step 2: the new edge features, the next edge features, the next node features. -/
def enew2 : FVec Ideal S160000x128 .f32 := Cert.Spec.edgeUpdate (he2 V) (pick (hn2 V) (sIdx V)) (pick (hn2 V) (rIdx V)) (eW1_2 V) (eb1_2 V) (eW2_2 V) (eb2_2 V)
def he3 : FVec Ideal S160000x128 .f32 := addf (enew2 V) (he2 V)
def hn3 : FVec Ideal S20000x128 .f32 := addf (Cert.Spec.nodeUpdate (hn2 V) (sumSent V (enew2 V)) (sumRecv V (enew2 V)) (nW1_2 V) (nb1_2 V) (nW2_2 V) (nb2_2 V)) (hn2 V)

/-- Step 3: the new edge features, the next edge features, the next node features. -/
def enew3 : FVec Ideal S160000x128 .f32 := Cert.Spec.edgeUpdate (he3 V) (pick (hn3 V) (sIdx V)) (pick (hn3 V) (rIdx V)) (eW1_3 V) (eb1_3 V) (eW2_3 V) (eb2_3 V)
def he4 : FVec Ideal S160000x128 .f32 := addf (enew3 V) (he3 V)
def hn4 : FVec Ideal S20000x128 .f32 := addf (Cert.Spec.nodeUpdate (hn3 V) (sumSent V (enew3 V)) (sumRecv V (enew3 V)) (nW1_3 V) (nb1_3 V) (nW2_3 V) (nb2_3 V)) (hn3 V)

/-- Step 4: the new edge features, the next edge features, the next node features. -/
def enew4 : FVec Ideal S160000x128 .f32 := Cert.Spec.edgeUpdate (he4 V) (pick (hn4 V) (sIdx V)) (pick (hn4 V) (rIdx V)) (eW1_4 V) (eb1_4 V) (eW2_4 V) (eb2_4 V)
def he5 : FVec Ideal S160000x128 .f32 := addf (enew4 V) (he4 V)
def hn5 : FVec Ideal S20000x128 .f32 := addf (Cert.Spec.nodeUpdate (hn4 V) (sumSent V (enew4 V)) (sumRecv V (enew4 V)) (nW1_4 V) (nb1_4 V) (nW2_4 V) (nb2_4 V)) (hn4 V)

/-- The decoded nodes and edges: the two results. -/
def outN : FVec Ideal S20000x3 .f32 := Cert.Spec.decodeNodes (hn5 V) (V (Proc.devRef .tc main_arg20)) (row128 (V (Proc.devRef .tc main_arg21))) (V (Proc.devRef .tc main_arg22)) (broadcastInDim S1x3 ![1] bcast_S3_S1x3_1 (V (Proc.devRef .tc main_arg23)))
def outE : FVec Ideal S160000x1 .f32 := Cert.Spec.decodeEdges (he5 V) (V (Proc.devRef .tc main_arg24)) (row128 (V (Proc.devRef .tc main_arg25))) (V (Proc.devRef .tc main_arg26)) (broadcastInDim S1x1 ![1] bcast_S1_S1x1_1 (V (Proc.devRef .tc main_arg27)))

end Cert.Terms

end
-- ==== Proof.Chain0.lean ====
/-
  The encoders: regions 0 and 1 of the kernel's @main leave the encoded nodes and the encoded edges.

  Each region's output array is the whole-array function of the arrays the region found (Region0, Region1); those
  arrays are arguments, or bias vectors a stretch of host operations reshaped into rows.
-/
import proofs.«150645_j45672682226304_2_alg».proof.Proof.ChainArgsA
import proofs.«150645_j45672682226304_2_alg».proof.Proof.Region0
import proofs.«150645_j45672682226304_2_alg».proof.Proof.Region1
import proofs.«150645_j45672682226304_2_alg».proof.Proof.Terms
import Idealize.ShloMosaic.Lib.ValueIdx
import Idealize.ShloMosaic.Lib.Pipeline.Value

set_option maxRecDepth 16384

noncomputable section

namespace Cert.Chain

open Idealize.ShloMosaic Idealize.ShloMosaic.TcCoe Idealize.ShloMosaic.StableHlo Idealize.SL.Sem
open Cert.KernelIdeal Cert.KernelIdeal.Gen Cert.KernelIdeal

variable {m : (ℓ : Loc nD τ sig) → Buf (Elt Ideal) ℓ} (ρ : Dev nD → PrngReg) {c : Dev nD}
variable {V' : Valuation Cert.ReferenceIdeal.τ Cert.ReferenceIdeal.sig (Elt Ideal)}

/-- A one-entry vector made a 1×1 row by a reshape or by a broadcast along a new unit axis is the same row. -/
theorem unit_row {α : Type} (b : (⟨1, ![1]⟩ : Shape).Idx → α) (hs : (⟨1, ![1]⟩ : Shape).ShapeCasts ⟨2, ![1, 1]⟩)
    (hb : (⟨1, ![1]⟩ : Shape).BroadcastsInDim ⟨2, ![1, 1]⟩ ![1]) :
    shapeCast ⟨2, ![1, 1]⟩ b hs = broadcastInDim ⟨2, ![1, 1]⟩ ![1] hb b := funext fun j =>
  (shapeCast_addUnit_apply ![1] b hs j).trans
    (broadcastInDim_apply ![1] hb b j (fun a => j a.succ) (fun a => by
      match a with
      | ⟨0, _⟩ =>
        have hj : (j 1).val < 1 := (j 1).isLt
        show (j 1).val = if (1 : Nat) = 1 then 0 else (j 1).val
        rw [if_pos rfl]; omega)).symm

theorem in0_0 (h : Agree m c V') : V1 m ρ c main_arg0 = (V' (Proc.devRef .tc Cert.ReferenceIdeal.main_arg0)) := arg0_at1 ρ h
theorem in0_1 (h : Agree m c V') : V1 m ρ c main_arg4 = (V' (Proc.devRef .tc Cert.ReferenceIdeal.main_arg4)) := arg4_at1 ρ h
theorem in0_2 (h : Agree m c V') : V1 m ρ c main_v0 = (Terms.row128 (V' (Proc.devRef .tc Cert.ReferenceIdeal.main_arg5))) := by
  show StableHlo.after hostOps0 (W0 m ρ c) (Proc.devRef .tc main_v0) = _
  after_results
  simp only [arg5_at0 ρ h, arg7_at0 ρ h]
  first | rfl | exact Cert.Lib.DenseLayer.addUnit_eq_bcast (by decide) _ _ _ | exact unit_row _ _ _
theorem in0_3 (h : Agree m c V') : V1 m ρ c main_arg6 = (V' (Proc.devRef .tc Cert.ReferenceIdeal.main_arg6)) := arg6_at1 ρ h
theorem in0_4 (h : Agree m c V') : V1 m ρ c main_v1 = (Terms.row128 (V' (Proc.devRef .tc Cert.ReferenceIdeal.main_arg7))) := by
  show StableHlo.after hostOps0 (W0 m ρ c) (Proc.devRef .tc main_v1) = _
  after_results
  simp only [arg5_at0 ρ h, arg7_at0 ρ h]
  first | rfl | exact Cert.Lib.DenseLayer.addUnit_eq_bcast (by decide) _ _ _ | exact unit_row _ _ _

/-- Region 0's output main_v2 after the region. -/
theorem t_hn0 (h : Agree m c V') : W2 m ρ c (Proc.devRef .tc main_v2) = (Terms.hn0 V') := by
  refine (W2_arr m ρ c 5).trans ?_
  rw [Region0.final (V1 m ρ) c, in0_0 ρ h, in0_1 ρ h, in0_2 ρ h, in0_3 ρ h, in0_4 ρ h]
  rfl

theorem in1_0 (h : Agree m c V') : V3 m ρ c main_arg1 = (V' (Proc.devRef .tc Cert.ReferenceIdeal.main_arg1)) := arg1_at3 ρ h
theorem in1_1 (h : Agree m c V') : V3 m ρ c main_arg8 = (V' (Proc.devRef .tc Cert.ReferenceIdeal.main_arg8)) := arg8_at3 ρ h
theorem in1_2 (h : Agree m c V') : V3 m ρ c main_v3 = (Terms.row128 (V' (Proc.devRef .tc Cert.ReferenceIdeal.main_arg9))) := by
  show StableHlo.after hostOps1 (W2 m ρ c) (Proc.devRef .tc main_v3) = _
  after_results
  simp only [arg9_at2 ρ h, arg11_at2 ρ h]
  first | rfl | exact Cert.Lib.DenseLayer.addUnit_eq_bcast (by decide) _ _ _ | exact unit_row _ _ _
theorem in1_3 (h : Agree m c V') : V3 m ρ c main_arg10 = (V' (Proc.devRef .tc Cert.ReferenceIdeal.main_arg10)) := arg10_at3 ρ h
theorem in1_4 (h : Agree m c V') : V3 m ρ c main_v4 = (Terms.row128 (V' (Proc.devRef .tc Cert.ReferenceIdeal.main_arg11))) := by
  show StableHlo.after hostOps1 (W2 m ρ c) (Proc.devRef .tc main_v4) = _
  after_results
  simp only [arg9_at2 ρ h, arg11_at2 ρ h]
  first | rfl | exact Cert.Lib.DenseLayer.addUnit_eq_bcast (by decide) _ _ _ | exact unit_row _ _ _

/-- Region 1's output main_v5 after the region. -/
theorem t_he0 (h : Agree m c V') : W4 m ρ c (Proc.devRef .tc main_v5) = (Terms.he0 V') := by
  refine (W4_arr m ρ c 5).trans ?_
  rw [Region1.final (V3 m ρ) c, in1_0 ρ h, in1_1 ρ h, in1_2 ρ h, in1_3 ρ h, in1_4 ρ h]
  rfl

end Cert.Chain

end
-- ==== Proof.ChainArgsB.lean ====
/-
  The argument arrays at the boundaries where they are read.

  No host operation and no region writes an argument, so at every boundary an argument's buffer holds its launch
  contents — which, under the claim's hypothesis that the two programs start from memories agreeing on the arguments,
  is the reference's argument. Each fact is the walk back to the launch through the segments in between.
-/
import proofs.«150645_j45672682226304_2_alg».proof.Proof.Keep
import proofs.«150645_j45672682226304_2_alg».proof.Proof.ChainAgree

set_option maxRecDepth 16384

noncomputable section

namespace Cert.Chain

open Idealize.ShloMosaic Idealize.ShloMosaic.TcCoe Idealize.ShloMosaic.StableHlo Idealize.SL.Sem
open Cert.KernelIdeal Cert.KernelIdeal.Gen Cert.KernelIdeal

variable {m : (ℓ : Loc nD τ sig) → Buf (Elt Ideal) ℓ} (ρ : Dev nD → PrngReg) {c : Dev nD}
variable {V' : Valuation Cert.ReferenceIdeal.τ Cert.ReferenceIdeal.sig (Elt Ideal)}

theorem arg2_at4 (h : Agree m c V') : W4 m ρ c (Proc.devRef .tc main_arg2) = V' (Proc.devRef .tc Cert.ReferenceIdeal.main_arg2) :=
  ((W4_of_ne m ρ c main_arg2 (by decide)).trans ((Keep.keep_host1 m ρ c main_arg2 (by decide)).trans ((W2_of_ne m ρ c main_arg2 (by decide)).trans (Keep.keep_host0 m ρ c main_arg2 (by decide))))).trans h.a2.symm
theorem arg2_at6 (h : Agree m c V') : W6 m ρ c (Proc.devRef .tc main_arg2) = V' (Proc.devRef .tc Cert.ReferenceIdeal.main_arg2) :=
  ((W6_of_ne m ρ c main_arg2 (by decide)).trans (Keep.keep_host2 m ρ c main_arg2 (by decide))).trans (arg2_at4 ρ h)
theorem arg2_at8 (h : Agree m c V') : W8 m ρ c (Proc.devRef .tc main_arg2) = V' (Proc.devRef .tc Cert.ReferenceIdeal.main_arg2) :=
  ((W8_of_ne m ρ c main_arg2 (by decide)).trans (Keep.keep_host3 m ρ c main_arg2 (by decide))).trans (arg2_at6 ρ h)
theorem arg2_at10 (h : Agree m c V') : W10 m ρ c (Proc.devRef .tc main_arg2) = V' (Proc.devRef .tc Cert.ReferenceIdeal.main_arg2) :=
  ((W10_of_ne m ρ c main_arg2 (by decide)).trans (Keep.keep_host4 m ρ c main_arg2 (by decide))).trans (arg2_at8 ρ h)
theorem arg2_at12 (h : Agree m c V') : W12 m ρ c (Proc.devRef .tc main_arg2) = V' (Proc.devRef .tc Cert.ReferenceIdeal.main_arg2) :=
  ((W12_of_ne m ρ c main_arg2 (by decide)).trans (Keep.keep_host5 m ρ c main_arg2 (by decide))).trans (arg2_at10 ρ h)
theorem arg2_at14 (h : Agree m c V') : W14 m ρ c (Proc.devRef .tc main_arg2) = V' (Proc.devRef .tc Cert.ReferenceIdeal.main_arg2) :=
  ((W14_of_ne m ρ c main_arg2 (by decide)).trans (Keep.keep_host6 m ρ c main_arg2 (by decide))).trans (arg2_at12 ρ h)
theorem arg2_at16 (h : Agree m c V') : W16 m ρ c (Proc.devRef .tc main_arg2) = V' (Proc.devRef .tc Cert.ReferenceIdeal.main_arg2) :=
  ((W16_of_ne m ρ c main_arg2 (by decide)).trans (Keep.keep_host7 m ρ c main_arg2 (by decide))).trans (arg2_at14 ρ h)
theorem arg2_at18 (h : Agree m c V') : W18 m ρ c (Proc.devRef .tc main_arg2) = V' (Proc.devRef .tc Cert.ReferenceIdeal.main_arg2) :=
  ((W18_of_ne m ρ c main_arg2 (by decide)).trans (Keep.keep_host8 m ρ c main_arg2 (by decide))).trans (arg2_at16 ρ h)
theorem arg2_at20 (h : Agree m c V') : W20 m ρ c (Proc.devRef .tc main_arg2) = V' (Proc.devRef .tc Cert.ReferenceIdeal.main_arg2) :=
  ((W20_of_ne m ρ c main_arg2 (by decide)).trans (Keep.keep_host9 m ρ c main_arg2 (by decide))).trans (arg2_at18 ρ h)
theorem arg2_at22 (h : Agree m c V') : W22 m ρ c (Proc.devRef .tc main_arg2) = V' (Proc.devRef .tc Cert.ReferenceIdeal.main_arg2) :=
  ((W22_of_ne m ρ c main_arg2 (by decide)).trans (Keep.keep_host10 m ρ c main_arg2 (by decide))).trans (arg2_at20 ρ h)
theorem arg3_at4 (h : Agree m c V') : W4 m ρ c (Proc.devRef .tc main_arg3) = V' (Proc.devRef .tc Cert.ReferenceIdeal.main_arg3) :=
  ((W4_of_ne m ρ c main_arg3 (by decide)).trans ((Keep.keep_host1 m ρ c main_arg3 (by decide)).trans ((W2_of_ne m ρ c main_arg3 (by decide)).trans (Keep.keep_host0 m ρ c main_arg3 (by decide))))).trans h.a3.symm
theorem arg3_at6 (h : Agree m c V') : W6 m ρ c (Proc.devRef .tc main_arg3) = V' (Proc.devRef .tc Cert.ReferenceIdeal.main_arg3) :=
  ((W6_of_ne m ρ c main_arg3 (by decide)).trans (Keep.keep_host2 m ρ c main_arg3 (by decide))).trans (arg3_at4 ρ h)
theorem arg3_at8 (h : Agree m c V') : W8 m ρ c (Proc.devRef .tc main_arg3) = V' (Proc.devRef .tc Cert.ReferenceIdeal.main_arg3) :=
  ((W8_of_ne m ρ c main_arg3 (by decide)).trans (Keep.keep_host3 m ρ c main_arg3 (by decide))).trans (arg3_at6 ρ h)
theorem arg3_at10 (h : Agree m c V') : W10 m ρ c (Proc.devRef .tc main_arg3) = V' (Proc.devRef .tc Cert.ReferenceIdeal.main_arg3) :=
  ((W10_of_ne m ρ c main_arg3 (by decide)).trans (Keep.keep_host4 m ρ c main_arg3 (by decide))).trans (arg3_at8 ρ h)
theorem arg3_at12 (h : Agree m c V') : W12 m ρ c (Proc.devRef .tc main_arg3) = V' (Proc.devRef .tc Cert.ReferenceIdeal.main_arg3) :=
  ((W12_of_ne m ρ c main_arg3 (by decide)).trans (Keep.keep_host5 m ρ c main_arg3 (by decide))).trans (arg3_at10 ρ h)
theorem arg3_at14 (h : Agree m c V') : W14 m ρ c (Proc.devRef .tc main_arg3) = V' (Proc.devRef .tc Cert.ReferenceIdeal.main_arg3) :=
  ((W14_of_ne m ρ c main_arg3 (by decide)).trans (Keep.keep_host6 m ρ c main_arg3 (by decide))).trans (arg3_at12 ρ h)
theorem arg3_at16 (h : Agree m c V') : W16 m ρ c (Proc.devRef .tc main_arg3) = V' (Proc.devRef .tc Cert.ReferenceIdeal.main_arg3) :=
  ((W16_of_ne m ρ c main_arg3 (by decide)).trans (Keep.keep_host7 m ρ c main_arg3 (by decide))).trans (arg3_at14 ρ h)
theorem arg3_at18 (h : Agree m c V') : W18 m ρ c (Proc.devRef .tc main_arg3) = V' (Proc.devRef .tc Cert.ReferenceIdeal.main_arg3) :=
  ((W18_of_ne m ρ c main_arg3 (by decide)).trans (Keep.keep_host8 m ρ c main_arg3 (by decide))).trans (arg3_at16 ρ h)
theorem arg3_at20 (h : Agree m c V') : W20 m ρ c (Proc.devRef .tc main_arg3) = V' (Proc.devRef .tc Cert.ReferenceIdeal.main_arg3) :=
  ((W20_of_ne m ρ c main_arg3 (by decide)).trans (Keep.keep_host9 m ρ c main_arg3 (by decide))).trans (arg3_at18 ρ h)
theorem arg3_at22 (h : Agree m c V') : W22 m ρ c (Proc.devRef .tc main_arg3) = V' (Proc.devRef .tc Cert.ReferenceIdeal.main_arg3) :=
  ((W22_of_ne m ρ c main_arg3 (by decide)).trans (Keep.keep_host10 m ρ c main_arg3 (by decide))).trans (arg3_at20 ρ h)

end Cert.Chain

end
-- ==== Proof.ChainArgsC.lean ====
/-
  The argument arrays at the boundaries where they are read.

  No host operation and no region writes an argument, so at every boundary an argument's buffer holds its launch
  contents — which, under the claim's hypothesis that the two programs start from memories agreeing on the arguments,
  is the reference's argument. Each fact is the walk back to the launch through the segments in between.
-/
import proofs.«150645_j45672682226304_2_alg».proof.Proof.Keep
import proofs.«150645_j45672682226304_2_alg».proof.Proof.ChainAgree

set_option maxRecDepth 16384

noncomputable section

namespace Cert.Chain

open Idealize.ShloMosaic Idealize.ShloMosaic.TcCoe Idealize.ShloMosaic.StableHlo Idealize.SL.Sem
open Cert.KernelIdeal Cert.KernelIdeal.Gen Cert.KernelIdeal

variable {m : (ℓ : Loc nD τ sig) → Buf (Elt Ideal) ℓ} (ρ : Dev nD → PrngReg) {c : Dev nD}
variable {V' : Valuation Cert.ReferenceIdeal.τ Cert.ReferenceIdeal.sig (Elt Ideal)}

theorem arg12_at4 (h : Agree m c V') : W4 m ρ c (Proc.devRef .tc main_arg12) = V' (Proc.devRef .tc Cert.ReferenceIdeal.main_arg12) :=
  ((W4_of_ne m ρ c main_arg12 (by decide)).trans ((Keep.keep_host1 m ρ c main_arg12 (by decide)).trans ((W2_of_ne m ρ c main_arg12 (by decide)).trans (Keep.keep_host0 m ρ c main_arg12 (by decide))))).trans h.a12.symm
theorem arg12_at8 (h : Agree m c V') : W8 m ρ c (Proc.devRef .tc main_arg12) = V' (Proc.devRef .tc Cert.ReferenceIdeal.main_arg12) :=
  ((W8_of_ne m ρ c main_arg12 (by decide)).trans ((Keep.keep_host3 m ρ c main_arg12 (by decide)).trans ((W6_of_ne m ρ c main_arg12 (by decide)).trans (Keep.keep_host2 m ρ c main_arg12 (by decide))))).trans (arg12_at4 ρ h)
theorem arg12_at12 (h : Agree m c V') : W12 m ρ c (Proc.devRef .tc main_arg12) = V' (Proc.devRef .tc Cert.ReferenceIdeal.main_arg12) :=
  ((W12_of_ne m ρ c main_arg12 (by decide)).trans ((Keep.keep_host5 m ρ c main_arg12 (by decide)).trans ((W10_of_ne m ρ c main_arg12 (by decide)).trans (Keep.keep_host4 m ρ c main_arg12 (by decide))))).trans (arg12_at8 ρ h)
theorem arg12_at16 (h : Agree m c V') : W16 m ρ c (Proc.devRef .tc main_arg12) = V' (Proc.devRef .tc Cert.ReferenceIdeal.main_arg12) :=
  ((W16_of_ne m ρ c main_arg12 (by decide)).trans ((Keep.keep_host7 m ρ c main_arg12 (by decide)).trans ((W14_of_ne m ρ c main_arg12 (by decide)).trans (Keep.keep_host6 m ρ c main_arg12 (by decide))))).trans (arg12_at12 ρ h)
theorem arg12_at20 (h : Agree m c V') : W20 m ρ c (Proc.devRef .tc main_arg12) = V' (Proc.devRef .tc Cert.ReferenceIdeal.main_arg12) :=
  ((W20_of_ne m ρ c main_arg12 (by decide)).trans ((Keep.keep_host9 m ρ c main_arg12 (by decide)).trans ((W18_of_ne m ρ c main_arg12 (by decide)).trans (Keep.keep_host8 m ρ c main_arg12 (by decide))))).trans (arg12_at16 ρ h)
theorem arg13_at4 (h : Agree m c V') : W4 m ρ c (Proc.devRef .tc main_arg13) = V' (Proc.devRef .tc Cert.ReferenceIdeal.main_arg13) :=
  ((W4_of_ne m ρ c main_arg13 (by decide)).trans ((Keep.keep_host1 m ρ c main_arg13 (by decide)).trans ((W2_of_ne m ρ c main_arg13 (by decide)).trans (Keep.keep_host0 m ρ c main_arg13 (by decide))))).trans h.a13.symm
theorem arg13_at8 (h : Agree m c V') : W8 m ρ c (Proc.devRef .tc main_arg13) = V' (Proc.devRef .tc Cert.ReferenceIdeal.main_arg13) :=
  ((W8_of_ne m ρ c main_arg13 (by decide)).trans ((Keep.keep_host3 m ρ c main_arg13 (by decide)).trans ((W6_of_ne m ρ c main_arg13 (by decide)).trans (Keep.keep_host2 m ρ c main_arg13 (by decide))))).trans (arg13_at4 ρ h)
theorem arg13_at12 (h : Agree m c V') : W12 m ρ c (Proc.devRef .tc main_arg13) = V' (Proc.devRef .tc Cert.ReferenceIdeal.main_arg13) :=
  ((W12_of_ne m ρ c main_arg13 (by decide)).trans ((Keep.keep_host5 m ρ c main_arg13 (by decide)).trans ((W10_of_ne m ρ c main_arg13 (by decide)).trans (Keep.keep_host4 m ρ c main_arg13 (by decide))))).trans (arg13_at8 ρ h)
theorem arg13_at16 (h : Agree m c V') : W16 m ρ c (Proc.devRef .tc main_arg13) = V' (Proc.devRef .tc Cert.ReferenceIdeal.main_arg13) :=
  ((W16_of_ne m ρ c main_arg13 (by decide)).trans ((Keep.keep_host7 m ρ c main_arg13 (by decide)).trans ((W14_of_ne m ρ c main_arg13 (by decide)).trans (Keep.keep_host6 m ρ c main_arg13 (by decide))))).trans (arg13_at12 ρ h)
theorem arg13_at20 (h : Agree m c V') : W20 m ρ c (Proc.devRef .tc main_arg13) = V' (Proc.devRef .tc Cert.ReferenceIdeal.main_arg13) :=
  ((W20_of_ne m ρ c main_arg13 (by decide)).trans ((Keep.keep_host9 m ρ c main_arg13 (by decide)).trans ((W18_of_ne m ρ c main_arg13 (by decide)).trans (Keep.keep_host8 m ρ c main_arg13 (by decide))))).trans (arg13_at16 ρ h)
theorem arg14_at4 (h : Agree m c V') : W4 m ρ c (Proc.devRef .tc main_arg14) = V' (Proc.devRef .tc Cert.ReferenceIdeal.main_arg14) :=
  ((W4_of_ne m ρ c main_arg14 (by decide)).trans ((Keep.keep_host1 m ρ c main_arg14 (by decide)).trans ((W2_of_ne m ρ c main_arg14 (by decide)).trans (Keep.keep_host0 m ρ c main_arg14 (by decide))))).trans h.a14.symm
theorem arg14_at8 (h : Agree m c V') : W8 m ρ c (Proc.devRef .tc main_arg14) = V' (Proc.devRef .tc Cert.ReferenceIdeal.main_arg14) :=
  ((W8_of_ne m ρ c main_arg14 (by decide)).trans ((Keep.keep_host3 m ρ c main_arg14 (by decide)).trans ((W6_of_ne m ρ c main_arg14 (by decide)).trans (Keep.keep_host2 m ρ c main_arg14 (by decide))))).trans (arg14_at4 ρ h)
theorem arg14_at12 (h : Agree m c V') : W12 m ρ c (Proc.devRef .tc main_arg14) = V' (Proc.devRef .tc Cert.ReferenceIdeal.main_arg14) :=
  ((W12_of_ne m ρ c main_arg14 (by decide)).trans ((Keep.keep_host5 m ρ c main_arg14 (by decide)).trans ((W10_of_ne m ρ c main_arg14 (by decide)).trans (Keep.keep_host4 m ρ c main_arg14 (by decide))))).trans (arg14_at8 ρ h)
theorem arg14_at16 (h : Agree m c V') : W16 m ρ c (Proc.devRef .tc main_arg14) = V' (Proc.devRef .tc Cert.ReferenceIdeal.main_arg14) :=
  ((W16_of_ne m ρ c main_arg14 (by decide)).trans ((Keep.keep_host7 m ρ c main_arg14 (by decide)).trans ((W14_of_ne m ρ c main_arg14 (by decide)).trans (Keep.keep_host6 m ρ c main_arg14 (by decide))))).trans (arg14_at12 ρ h)
theorem arg14_at20 (h : Agree m c V') : W20 m ρ c (Proc.devRef .tc main_arg14) = V' (Proc.devRef .tc Cert.ReferenceIdeal.main_arg14) :=
  ((W20_of_ne m ρ c main_arg14 (by decide)).trans ((Keep.keep_host9 m ρ c main_arg14 (by decide)).trans ((W18_of_ne m ρ c main_arg14 (by decide)).trans (Keep.keep_host8 m ρ c main_arg14 (by decide))))).trans (arg14_at16 ρ h)
theorem arg15_at4 (h : Agree m c V') : W4 m ρ c (Proc.devRef .tc main_arg15) = V' (Proc.devRef .tc Cert.ReferenceIdeal.main_arg15) :=
  ((W4_of_ne m ρ c main_arg15 (by decide)).trans ((Keep.keep_host1 m ρ c main_arg15 (by decide)).trans ((W2_of_ne m ρ c main_arg15 (by decide)).trans (Keep.keep_host0 m ρ c main_arg15 (by decide))))).trans h.a15.symm
theorem arg15_at8 (h : Agree m c V') : W8 m ρ c (Proc.devRef .tc main_arg15) = V' (Proc.devRef .tc Cert.ReferenceIdeal.main_arg15) :=
  ((W8_of_ne m ρ c main_arg15 (by decide)).trans ((Keep.keep_host3 m ρ c main_arg15 (by decide)).trans ((W6_of_ne m ρ c main_arg15 (by decide)).trans (Keep.keep_host2 m ρ c main_arg15 (by decide))))).trans (arg15_at4 ρ h)
theorem arg15_at12 (h : Agree m c V') : W12 m ρ c (Proc.devRef .tc main_arg15) = V' (Proc.devRef .tc Cert.ReferenceIdeal.main_arg15) :=
  ((W12_of_ne m ρ c main_arg15 (by decide)).trans ((Keep.keep_host5 m ρ c main_arg15 (by decide)).trans ((W10_of_ne m ρ c main_arg15 (by decide)).trans (Keep.keep_host4 m ρ c main_arg15 (by decide))))).trans (arg15_at8 ρ h)
theorem arg15_at16 (h : Agree m c V') : W16 m ρ c (Proc.devRef .tc main_arg15) = V' (Proc.devRef .tc Cert.ReferenceIdeal.main_arg15) :=
  ((W16_of_ne m ρ c main_arg15 (by decide)).trans ((Keep.keep_host7 m ρ c main_arg15 (by decide)).trans ((W14_of_ne m ρ c main_arg15 (by decide)).trans (Keep.keep_host6 m ρ c main_arg15 (by decide))))).trans (arg15_at12 ρ h)
theorem arg15_at20 (h : Agree m c V') : W20 m ρ c (Proc.devRef .tc main_arg15) = V' (Proc.devRef .tc Cert.ReferenceIdeal.main_arg15) :=
  ((W20_of_ne m ρ c main_arg15 (by decide)).trans ((Keep.keep_host9 m ρ c main_arg15 (by decide)).trans ((W18_of_ne m ρ c main_arg15 (by decide)).trans (Keep.keep_host8 m ρ c main_arg15 (by decide))))).trans (arg15_at16 ρ h)

end Cert.Chain

end
-- ==== Proof.ChainArgsD.lean ====
/-
  The argument arrays at the boundaries where they are read.

  No host operation and no region writes an argument, so at every boundary an argument's buffer holds its launch
  contents — which, under the claim's hypothesis that the two programs start from memories agreeing on the arguments,
  is the reference's argument. Each fact is the walk back to the launch through the segments in between.
-/
import proofs.«150645_j45672682226304_2_alg».proof.Proof.Keep
import proofs.«150645_j45672682226304_2_alg».proof.Proof.ChainAgree

set_option maxRecDepth 16384

noncomputable section

namespace Cert.Chain

open Idealize.ShloMosaic Idealize.ShloMosaic.TcCoe Idealize.ShloMosaic.StableHlo Idealize.SL.Sem
open Cert.KernelIdeal Cert.KernelIdeal.Gen Cert.KernelIdeal

variable {m : (ℓ : Loc nD τ sig) → Buf (Elt Ideal) ℓ} (ρ : Dev nD → PrngReg) {c : Dev nD}
variable {V' : Valuation Cert.ReferenceIdeal.τ Cert.ReferenceIdeal.sig (Elt Ideal)}

theorem arg16_at6 (h : Agree m c V') : W6 m ρ c (Proc.devRef .tc main_arg16) = V' (Proc.devRef .tc Cert.ReferenceIdeal.main_arg16) :=
  ((W6_of_ne m ρ c main_arg16 (by decide)).trans ((Keep.keep_host2 m ρ c main_arg16 (by decide)).trans ((W4_of_ne m ρ c main_arg16 (by decide)).trans ((Keep.keep_host1 m ρ c main_arg16 (by decide)).trans ((W2_of_ne m ρ c main_arg16 (by decide)).trans (Keep.keep_host0 m ρ c main_arg16 (by decide))))))).trans h.a16.symm
theorem arg16_at10 (h : Agree m c V') : W10 m ρ c (Proc.devRef .tc main_arg16) = V' (Proc.devRef .tc Cert.ReferenceIdeal.main_arg16) :=
  ((W10_of_ne m ρ c main_arg16 (by decide)).trans ((Keep.keep_host4 m ρ c main_arg16 (by decide)).trans ((W8_of_ne m ρ c main_arg16 (by decide)).trans (Keep.keep_host3 m ρ c main_arg16 (by decide))))).trans (arg16_at6 ρ h)
theorem arg16_at14 (h : Agree m c V') : W14 m ρ c (Proc.devRef .tc main_arg16) = V' (Proc.devRef .tc Cert.ReferenceIdeal.main_arg16) :=
  ((W14_of_ne m ρ c main_arg16 (by decide)).trans ((Keep.keep_host6 m ρ c main_arg16 (by decide)).trans ((W12_of_ne m ρ c main_arg16 (by decide)).trans (Keep.keep_host5 m ρ c main_arg16 (by decide))))).trans (arg16_at10 ρ h)
theorem arg16_at18 (h : Agree m c V') : W18 m ρ c (Proc.devRef .tc main_arg16) = V' (Proc.devRef .tc Cert.ReferenceIdeal.main_arg16) :=
  ((W18_of_ne m ρ c main_arg16 (by decide)).trans ((Keep.keep_host8 m ρ c main_arg16 (by decide)).trans ((W16_of_ne m ρ c main_arg16 (by decide)).trans (Keep.keep_host7 m ρ c main_arg16 (by decide))))).trans (arg16_at14 ρ h)
theorem arg16_at22 (h : Agree m c V') : W22 m ρ c (Proc.devRef .tc main_arg16) = V' (Proc.devRef .tc Cert.ReferenceIdeal.main_arg16) :=
  ((W22_of_ne m ρ c main_arg16 (by decide)).trans ((Keep.keep_host10 m ρ c main_arg16 (by decide)).trans ((W20_of_ne m ρ c main_arg16 (by decide)).trans (Keep.keep_host9 m ρ c main_arg16 (by decide))))).trans (arg16_at18 ρ h)
theorem arg17_at6 (h : Agree m c V') : W6 m ρ c (Proc.devRef .tc main_arg17) = V' (Proc.devRef .tc Cert.ReferenceIdeal.main_arg17) :=
  ((W6_of_ne m ρ c main_arg17 (by decide)).trans ((Keep.keep_host2 m ρ c main_arg17 (by decide)).trans ((W4_of_ne m ρ c main_arg17 (by decide)).trans ((Keep.keep_host1 m ρ c main_arg17 (by decide)).trans ((W2_of_ne m ρ c main_arg17 (by decide)).trans (Keep.keep_host0 m ρ c main_arg17 (by decide))))))).trans h.a17.symm
theorem arg17_at10 (h : Agree m c V') : W10 m ρ c (Proc.devRef .tc main_arg17) = V' (Proc.devRef .tc Cert.ReferenceIdeal.main_arg17) :=
  ((W10_of_ne m ρ c main_arg17 (by decide)).trans ((Keep.keep_host4 m ρ c main_arg17 (by decide)).trans ((W8_of_ne m ρ c main_arg17 (by decide)).trans (Keep.keep_host3 m ρ c main_arg17 (by decide))))).trans (arg17_at6 ρ h)
theorem arg17_at14 (h : Agree m c V') : W14 m ρ c (Proc.devRef .tc main_arg17) = V' (Proc.devRef .tc Cert.ReferenceIdeal.main_arg17) :=
  ((W14_of_ne m ρ c main_arg17 (by decide)).trans ((Keep.keep_host6 m ρ c main_arg17 (by decide)).trans ((W12_of_ne m ρ c main_arg17 (by decide)).trans (Keep.keep_host5 m ρ c main_arg17 (by decide))))).trans (arg17_at10 ρ h)
theorem arg17_at18 (h : Agree m c V') : W18 m ρ c (Proc.devRef .tc main_arg17) = V' (Proc.devRef .tc Cert.ReferenceIdeal.main_arg17) :=
  ((W18_of_ne m ρ c main_arg17 (by decide)).trans ((Keep.keep_host8 m ρ c main_arg17 (by decide)).trans ((W16_of_ne m ρ c main_arg17 (by decide)).trans (Keep.keep_host7 m ρ c main_arg17 (by decide))))).trans (arg17_at14 ρ h)
theorem arg17_at22 (h : Agree m c V') : W22 m ρ c (Proc.devRef .tc main_arg17) = V' (Proc.devRef .tc Cert.ReferenceIdeal.main_arg17) :=
  ((W22_of_ne m ρ c main_arg17 (by decide)).trans ((Keep.keep_host10 m ρ c main_arg17 (by decide)).trans ((W20_of_ne m ρ c main_arg17 (by decide)).trans (Keep.keep_host9 m ρ c main_arg17 (by decide))))).trans (arg17_at18 ρ h)
theorem arg18_at6 (h : Agree m c V') : W6 m ρ c (Proc.devRef .tc main_arg18) = V' (Proc.devRef .tc Cert.ReferenceIdeal.main_arg18) :=
  ((W6_of_ne m ρ c main_arg18 (by decide)).trans ((Keep.keep_host2 m ρ c main_arg18 (by decide)).trans ((W4_of_ne m ρ c main_arg18 (by decide)).trans ((Keep.keep_host1 m ρ c main_arg18 (by decide)).trans ((W2_of_ne m ρ c main_arg18 (by decide)).trans (Keep.keep_host0 m ρ c main_arg18 (by decide))))))).trans h.a18.symm
theorem arg18_at10 (h : Agree m c V') : W10 m ρ c (Proc.devRef .tc main_arg18) = V' (Proc.devRef .tc Cert.ReferenceIdeal.main_arg18) :=
  ((W10_of_ne m ρ c main_arg18 (by decide)).trans ((Keep.keep_host4 m ρ c main_arg18 (by decide)).trans ((W8_of_ne m ρ c main_arg18 (by decide)).trans (Keep.keep_host3 m ρ c main_arg18 (by decide))))).trans (arg18_at6 ρ h)
theorem arg18_at14 (h : Agree m c V') : W14 m ρ c (Proc.devRef .tc main_arg18) = V' (Proc.devRef .tc Cert.ReferenceIdeal.main_arg18) :=
  ((W14_of_ne m ρ c main_arg18 (by decide)).trans ((Keep.keep_host6 m ρ c main_arg18 (by decide)).trans ((W12_of_ne m ρ c main_arg18 (by decide)).trans (Keep.keep_host5 m ρ c main_arg18 (by decide))))).trans (arg18_at10 ρ h)
theorem arg18_at18 (h : Agree m c V') : W18 m ρ c (Proc.devRef .tc main_arg18) = V' (Proc.devRef .tc Cert.ReferenceIdeal.main_arg18) :=
  ((W18_of_ne m ρ c main_arg18 (by decide)).trans ((Keep.keep_host8 m ρ c main_arg18 (by decide)).trans ((W16_of_ne m ρ c main_arg18 (by decide)).trans (Keep.keep_host7 m ρ c main_arg18 (by decide))))).trans (arg18_at14 ρ h)
theorem arg18_at22 (h : Agree m c V') : W22 m ρ c (Proc.devRef .tc main_arg18) = V' (Proc.devRef .tc Cert.ReferenceIdeal.main_arg18) :=
  ((W22_of_ne m ρ c main_arg18 (by decide)).trans ((Keep.keep_host10 m ρ c main_arg18 (by decide)).trans ((W20_of_ne m ρ c main_arg18 (by decide)).trans (Keep.keep_host9 m ρ c main_arg18 (by decide))))).trans (arg18_at18 ρ h)
theorem arg19_at6 (h : Agree m c V') : W6 m ρ c (Proc.devRef .tc main_arg19) = V' (Proc.devRef .tc Cert.ReferenceIdeal.main_arg19) :=
  ((W6_of_ne m ρ c main_arg19 (by decide)).trans ((Keep.keep_host2 m ρ c main_arg19 (by decide)).trans ((W4_of_ne m ρ c main_arg19 (by decide)).trans ((Keep.keep_host1 m ρ c main_arg19 (by decide)).trans ((W2_of_ne m ρ c main_arg19 (by decide)).trans (Keep.keep_host0 m ρ c main_arg19 (by decide))))))).trans h.a19.symm
theorem arg19_at10 (h : Agree m c V') : W10 m ρ c (Proc.devRef .tc main_arg19) = V' (Proc.devRef .tc Cert.ReferenceIdeal.main_arg19) :=
  ((W10_of_ne m ρ c main_arg19 (by decide)).trans ((Keep.keep_host4 m ρ c main_arg19 (by decide)).trans ((W8_of_ne m ρ c main_arg19 (by decide)).trans (Keep.keep_host3 m ρ c main_arg19 (by decide))))).trans (arg19_at6 ρ h)
theorem arg19_at14 (h : Agree m c V') : W14 m ρ c (Proc.devRef .tc main_arg19) = V' (Proc.devRef .tc Cert.ReferenceIdeal.main_arg19) :=
  ((W14_of_ne m ρ c main_arg19 (by decide)).trans ((Keep.keep_host6 m ρ c main_arg19 (by decide)).trans ((W12_of_ne m ρ c main_arg19 (by decide)).trans (Keep.keep_host5 m ρ c main_arg19 (by decide))))).trans (arg19_at10 ρ h)
theorem arg19_at18 (h : Agree m c V') : W18 m ρ c (Proc.devRef .tc main_arg19) = V' (Proc.devRef .tc Cert.ReferenceIdeal.main_arg19) :=
  ((W18_of_ne m ρ c main_arg19 (by decide)).trans ((Keep.keep_host8 m ρ c main_arg19 (by decide)).trans ((W16_of_ne m ρ c main_arg19 (by decide)).trans (Keep.keep_host7 m ρ c main_arg19 (by decide))))).trans (arg19_at14 ρ h)
theorem arg19_at22 (h : Agree m c V') : W22 m ρ c (Proc.devRef .tc main_arg19) = V' (Proc.devRef .tc Cert.ReferenceIdeal.main_arg19) :=
  ((W22_of_ne m ρ c main_arg19 (by decide)).trans ((Keep.keep_host10 m ρ c main_arg19 (by decide)).trans ((W20_of_ne m ρ c main_arg19 (by decide)).trans (Keep.keep_host9 m ρ c main_arg19 (by decide))))).trans (arg19_at18 ρ h)

end Cert.Chain

end
-- ==== Proof.Region2.lean ====
/-
  Region 2 of the kernel's @main: the edge update of step 0 over 160000 edges in blocks of 4000, with the new and the next edge features as two outputs.

  The grid has 40 points; point t stages rows 4000·t … 4000·t + 3999 of the three row-tiled inputs, the whole weight and bias
  arrays, and writes back the same rows of each of the two outputs. The body's stored block is, by the payload lemma, that
  block of rows of the whole-array function; the 40 blocks cover every row; so each output array after the region is
  the whole-array function of the arrays the region found.
-/
import proofs.«150645_j45672682226304_2_alg».proof.Proof.Gen.KernelIdeal.Frame
import proofs.«150645_j45672682226304_2_alg».proof.Proof.Payloads
import proofs.«150645_j45672682226304_2_alg».proof.Proof.LibRowRead

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.Lib.DenseLayer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = t.val
    ∧ win2_7.index t (1 : Fin 2) = 0
    ∧ win2_8.index t (0 : Fin 2) = t.val
    ∧ win2_8.index t (1 : Fin 2) = 0 :=
  (by decide +kernel : ∀ t : Fin grid2.N, _)

/-- Window 0's block at point t is the block of rows of its array that starts at row 4000·t. -/
theorem blk0 (c : Dev nD) (t : Fin cfg2.N) : RowBlk (t.val * 4000) (iblk2 V c 0 t) (V c (Pipeline.arrRef spec2 0)) :=
  RowBlk.of_read (fun y => ((cfg2.win 0).blk t).view.emb y)
    (fun y => by show win2_0.index t (0 : Fin 2) * 4000 + 1 * (y 0).val = t.val * 4000 + (y 0).val; rw [(idx_facts t).1]; omega)
    (fun y => by show win2_0.index t (1 : Fin 2) * 128 + 1 * (y 1).val = (y 1).val; rw [(idx_facts t).2.1]; omega)
    (fun y => rfl)

/-- Window 1's block at point t is the block of rows of its array that starts at row 4000·t. -/
theorem blk1 (c : Dev nD) (t : Fin cfg2.N) : RowBlk (t.val * 4000) (iblk2 V c 1 t) (V c (Pipeline.arrRef spec2 1)) :=
  RowBlk.of_read (fun y => ((cfg2.win 1).blk t).view.emb y)
    (fun y => by show win2_1.index t (0 : Fin 2) * 4000 + 1 * (y 0).val = t.val * 4000 + (y 0).val; rw [(idx_facts t).2.2.1]; omega)
    (fun y => by show win2_1.index t (1 : Fin 2) * 128 + 1 * (y 1).val = (y 1).val; rw [(idx_facts t).2.2.2.1]; omega)
    (fun y => rfl)

/-- Window 2's block at point t is the block of rows of its array that starts at row 4000·t. -/
theorem blk2 (c : Dev nD) (t : Fin cfg2.N) : RowBlk (t.val * 4000) (iblk2 V c 2 t) (V c (Pipeline.arrRef spec2 2)) :=
  RowBlk.of_read (fun y => ((cfg2.win 2).blk t).view.emb y)
    (fun y => by show win2_2.index t (0 : Fin 2) * 4000 + 1 * (y 0).val = t.val * 4000 + (y 0).val; rw [(idx_facts t).2.2.2.2.1]; omega)
    (fun y => by show win2_2.index t (1 : Fin 2) * 128 + 1 * (y 1).val = (y 1).val; rw [(idx_facts t).2.2.2.2.2.1]; omega)
    (fun y => rfl)

/-- Window 3 stages its whole array at every point. -/
theorem blk3 (c : Dev nD) (t : Fin cfg2.N) : iblk2 V c 3 t = V c (Pipeline.arrRef spec2 3) :=
  funext fun y => congrArg (V c (Pipeline.arrRef spec2 3)) (funext fun a => Fin.ext (by
    match a with
    | ⟨0, _⟩ => show win2_3.index t (0 : Fin 2) * 384 + 1 * (y 0).val = (y 0).val; rw [(idx_facts t).2.2.2.2.2.2.1]; omega
    | ⟨1, _⟩ => show win2_3.index t (1 : Fin 2) * 128 + 1 * (y 1).val = (y 1).val; rw [(idx_facts t).2.2.2.2.2.2.2.1]; omega))

/-- Window 4 stages its whole array at every point. -/
theorem blk4 (c : Dev nD) (t : Fin cfg2.N) : iblk2 V c 4 t = V c (Pipeline.arrRef spec2 4) :=
  funext fun y => congrArg (V c (Pipeline.arrRef spec2 4)) (funext fun a => Fin.ext (by
    match a with
    | ⟨0, _⟩ => show win2_4.index t (0 : Fin 2) * 1 + 1 * (y 0).val = (y 0).val; rw [(idx_facts t).2.2.2.2.2.2.2.2.1]; omega
    | ⟨1, _⟩ => show win2_4.index t (1 : Fin 2) * 128 + 1 * (y 1).val = (y 1).val; rw [(idx_facts t).2.2.2.2.2.2.2.2.2.1]; omega))

/-- Window 5 stages its whole array at every point. -/
theorem blk5 (c : Dev nD) (t : Fin cfg2.N) : iblk2 V c 5 t = V c (Pipeline.arrRef spec2 5) :=
  funext fun y => congrArg (V c (Pipeline.arrRef spec2 5)) (funext fun a => Fin.ext (by
    match a with
    | ⟨0, _⟩ => show win2_5.index t (0 : Fin 2) * 128 + 1 * (y 0).val = (y 0).val; rw [(idx_facts t).2.2.2.2.2.2.2.2.2.2.1]; omega
    | ⟨1, _⟩ => show win2_5.index t (1 : Fin 2) * 128 + 1 * (y 1).val = (y 1).val; rw [(idx_facts t).2.2.2.2.2.2.2.2.2.2.2.1]; omega))

/-- Window 6 stages its whole array at every point. -/
theorem blk6 (c : Dev nD) (t : Fin cfg2.N) : iblk2 V c 6 t = V c (Pipeline.arrRef spec2 6) :=
  funext fun y => congrArg (V c (Pipeline.arrRef spec2 6)) (funext fun a => Fin.ext (by
    match a with
    | ⟨0, _⟩ => show win2_6.index t (0 : Fin 2) * 1 + 1 * (y 0).val = (y 0).val; rw [(idx_facts t).2.2.2.2.2.2.2.2.2.2.2.2.1]; omega
    | ⟨1, _⟩ => show win2_6.index t (1 : Fin 2) * 128 + 1 * (y 1).val = (y 1).val; rw [(idx_facts t).2.2.2.2.2.2.2.2.2.2.2.2.2.1]; omega))

/-- What point t writes back through output window 7 is block t of the whole-array function. -/
theorem flushed_new (c : Dev nD) (t : Fin cfg2.N) :
    (dat2 V c).flushed 7 t = ((cfg2.win 7).blk t).view.read (Elt Ideal) (Cert.Spec.edgeUpdate (V c main_v5) (V c main_v13) (V c main_v20) (V c main_v22) (V c main_v29) (V c main_v26) (V c main_v30)) := by
  show (cfg2.win 7).cut (grid2.coords t) ((dat2 V c).after 7 t) = _
  rw [after2_7]
  unfold out2_7
  rw [View.canon_unit_zero hz]
  simp only [View.ld_unit_zero (S := S4000x128) hz, View.ld_unit_zero (S := S384x128) hz, View.ld_unit_zero (S := S1x128) hz, View.ld_unit_zero (S := S128x128) hz]
  rw [blk3 V c t, blk4 V c t, blk5 V c t, blk6 V c t]
  funext j
  exact (Cert.Payloads.edge_new_blk (blk0 V c t) (blk1 V c t) (blk2 V c t) _ _ _ _).read j (((cfg2.win 7).blk t).view.emb j)
    (by show win2_7.index t (0 : Fin 2) * 4000 + 1 * (j 0).val = t.val * 4000 + (j 0).val; rw [(idx_facts t).2.2.2.2.2.2.2.2.2.2.2.2.2.2.1]; omega)
    (by show win2_7.index t (1 : Fin 2) * 128 + 1 * (j 1).val = (j 1).val; rw [(idx_facts t).2.2.2.2.2.2.2.2.2.2.2.2.2.2.2.1]; omega)

/-- An index of output array 7 is in point t's block iff each coordinate is in the block's range. -/
theorem mem_blk_new (t : Fin cfg2.N) (i : S160000x128.Idx) :
    i ∈ ((cfg2.win 7).blk t).view.set ↔ ∀ a : Fin 2, win2_7.index t a * S4000x128.size a ≤ (i a).val ∧ (i a).val < win2_7.index t a * S4000x128.size a + S4000x128.size a := by
  show i ∈ ((View.whole main_v31_0).slice (win2_7.rect t)).set ↔ _
  rw [View.set_slice_whole, Rect.mem_set_unit]
  exact Iff.rfl

/-- Every row of output array 7 is in the block of the point its row number divided by 4000 names. -/
theorem cover_new (i : S160000x128.Idx) : ∃ t : Fin cfg2.N, (cfg2.win 7).flush t = true ∧ i ∈ ((cfg2.win 7).blk t).view.set := by
  have hi0 : (i 0).val < 160000 := (i 0).isLt
  have hi1 : (i 1).val < 128 := (i 1).isLt
  have ht : (i 0).val / 4000 < 40 := by omega
  refine ⟨⟨(i 0).val / 4000, ht⟩, flush2_7 _, ?_⟩
  rw [mem_blk_new]
  have e0 := (idx_facts ⟨(i 0).val / 4000, ht⟩).2.2.2.2.2.2.2.2.2.2.2.2.2.2.1
  have e1 := (idx_facts ⟨(i 0).val / 4000, ht⟩).2.2.2.2.2.2.2.2.2.2.2.2.2.2.2.1
  intro a
  match a with
  | ⟨0, _⟩ =>
    show win2_7.index ⟨(i 0).val / 4000, ht⟩ (0 : Fin 2) * 4000 ≤ (i 0).val ∧ (i 0).val < win2_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win2_7.index ⟨(i 0).val / 4000, ht⟩ (1 : Fin 2) * 128 ≤ (i 1).val ∧ (i 1).val < win2_7.index ⟨(i 0).val / 4000, ht⟩ (1 : Fin 2) * 128 + 128
    rw [e1]; omega

/-- Output array 7 after the region. -/
theorem final_new (c : Dev nD) : (dat2 V c).arrAt 7 cfg2.N = Cert.Spec.edgeUpdate (V c main_v5) (V c main_v13) (V c main_v20) (V c main_v22) (V c main_v29) (V c main_v26) (V c main_v30) :=
  (dat2 V c).arrAt_eq_of_cover 7 _ (fun t _ => flushed_new V c t) cover_new

/-- What point t writes back through output window 8 is block t of the whole-array function. -/
theorem flushed_next (c : Dev nD) (t : Fin cfg2.N) :
    (dat2 V c).flushed 8 t = ((cfg2.win 8).blk t).view.read (Elt Ideal) (addf (Cert.Spec.edgeUpdate (V c main_v5) (V c main_v13) (V c main_v20) (V c main_v22) (V c main_v29) (V c main_v26) (V c main_v30)) (V c main_v5)) := by
  show (cfg2.win 8).cut (grid2.coords t) ((dat2 V c).after 8 t) = _
  rw [after2_8]
  unfold out2_8
  rw [View.canon_unit_zero hz]
  simp only [View.ld_unit_zero (S := S4000x128) hz, View.ld_unit_zero (S := S384x128) hz, View.ld_unit_zero (S := S1x128) hz, View.ld_unit_zero (S := S128x128) hz]
  rw [blk3 V c t, blk4 V c t, blk5 V c t, blk6 V c t]
  funext j
  exact (Cert.Payloads.edge_next_blk (blk0 V c t) (blk1 V c t) (blk2 V c t) _ _ _ _).read j (((cfg2.win 8).blk t).view.emb j)
    (by show win2_8.index t (0 : Fin 2) * 4000 + 1 * (j 0).val = t.val * 4000 + (j 0).val; rw [(idx_facts t).2.2.2.2.2.2.2.2.2.2.2.2.2.2.2.2.1]; omega)
    (by show win2_8.index t (1 : Fin 2) * 128 + 1 * (j 1).val = (j 1).val; rw [(idx_facts t).2.2.2.2.2.2.2.2.2.2.2.2.2.2.2.2.2]; omega)

/-- An index of output array 8 is in point t's block iff each coordinate is in the block's range. -/
theorem mem_blk_next (t : Fin cfg2.N) (i : S160000x128.Idx) :
    i ∈ ((cfg2.win 8).blk t).view.set ↔ ∀ a : Fin 2, win2_8.index t a * S4000x128.size a ≤ (i a).val ∧ (i a).val < win2_8.index t a * S4000x128.size a + S4000x128.size a := by
  show i ∈ ((View.whole main_v31_1).slice (win2_8.rect t)).set ↔ _
  rw [View.set_slice_whole, Rect.mem_set_unit]
  exact Iff.rfl

/-- Every row of output array 8 is in the block of the point its row number divided by 4000 names. -/
theorem cover_next (i : S160000x128.Idx) : ∃ t : Fin cfg2.N, (cfg2.win 8).flush t = true ∧ i ∈ ((cfg2.win 8).blk t).view.set := by
  have hi0 : (i 0).val < 160000 := (i 0).isLt
  have hi1 : (i 1).val < 128 := (i 1).isLt
  have ht : (i 0).val / 4000 < 40 := by omega
  refine ⟨⟨(i 0).val / 4000, ht⟩, flush2_8 _, ?_⟩
  rw [mem_blk_next]
  have e0 := (idx_facts ⟨(i 0).val / 4000, ht⟩).2.2.2.2.2.2.2.2.2.2.2.2.2.2.2.2.1
  have e1 := (idx_facts ⟨(i 0).val / 4000, ht⟩).2.2.2.2.2.2.2.2.2.2.2.2.2.2.2.2.2
  intro a
  match a with
  | ⟨0, _⟩ =>
    show win2_8.index ⟨(i 0).val / 4000, ht⟩ (0 : Fin 2) * 4000 ≤ (i 0).val ∧ (i 0).val < win2_8.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win2_8.index ⟨(i 0).val / 4000, ht⟩ (1 : Fin 2) * 128 ≤ (i 1).val ∧ (i 1).val < win2_8.index ⟨(i 0).val / 4000, ht⟩ (1 : Fin 2) * 128 + 128
    rw [e1]; omega

/-- Output array 8 after the region. -/
theorem final_next (c : Dev nD) : (dat2 V c).arrAt 8 cfg2.N = addf (Cert.Spec.edgeUpdate (V c main_v5) (V c main_v13) (V c main_v20) (V c main_v22) (V c main_v29) (V c main_v26) (V c main_v30)) (V c main_v5) :=
  (dat2 V c).arrAt_eq_of_cover 8 _ (fun t _ => flushed_next V c t) cover_next

end Cert.KernelIdeal.Region2

end
-- ==== Proof.Region3.lean ====
/-
  Region 3 of the kernel's @main: the node update of step 0 over 20000 nodes in blocks of 2000, the old features added.

  The grid has 10 points; point t stages rows 2000·t … 2000·t + 1999 of the three row-tiled inputs, the whole weight and bias
  arrays, and writes back the same rows of the output. The body's stored block is, by the payload lemma, that
  block of rows of the whole-array function; the 10 blocks cover every row; so the output array after the region is
  the whole-array function of the arrays the region found.
-/
import proofs.«150645_j45672682226304_2_alg».proof.Proof.Gen.KernelIdeal.Frame
import proofs.«150645_j45672682226304_2_alg».proof.Proof.Payloads
import proofs.«150645_j45672682226304_2_alg».proof.Proof.LibRowRead

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen Cert.Lib.DenseLayer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = t.val
    ∧ win3_7.index t (1 : Fin 2) = 0 :=
  (by decide +kernel : ∀ t : Fin grid3.N, _)

/-- Window 0's block at point t is the block of rows of its array that starts at row 2000·t. -/
theorem blk0 (c : Dev nD) (t : Fin cfg3.N) : RowBlk (t.val * 2000) (iblk3 V c 0 t) (V c (Pipeline.arrRef spec3 0)) :=
  RowBlk.of_read (fun y => ((cfg3.win 0).blk t).view.emb y)
    (fun y => by show win3_0.index t (0 : Fin 2) * 2000 + 1 * (y 0).val = t.val * 2000 + (y 0).val; rw [(idx_facts t).1]; omega)
    (fun y => by show win3_0.index t (1 : Fin 2) * 128 + 1 * (y 1).val = (y 1).val; rw [(idx_facts t).2.1]; omega)
    (fun y => rfl)

/-- Window 1's block at point t is the block of rows of its array that starts at row 2000·t. -/
theorem blk1 (c : Dev nD) (t : Fin cfg3.N) : RowBlk (t.val * 2000) (iblk3 V c 1 t) (V c (Pipeline.arrRef spec3 1)) :=
  RowBlk.of_read (fun y => ((cfg3.win 1).blk t).view.emb y)
    (fun y => by show win3_1.index t (0 : Fin 2) * 2000 + 1 * (y 0).val = t.val * 2000 + (y 0).val; rw [(idx_facts t).2.2.1]; omega)
    (fun y => by show win3_1.index t (1 : Fin 2) * 128 + 1 * (y 1).val = (y 1).val; rw [(idx_facts t).2.2.2.1]; omega)
    (fun y => rfl)

/-- Window 2's block at point t is the block of rows of its array that starts at row 2000·t. -/
theorem blk2 (c : Dev nD) (t : Fin cfg3.N) : RowBlk (t.val * 2000) (iblk3 V c 2 t) (V c (Pipeline.arrRef spec3 2)) :=
  RowBlk.of_read (fun y => ((cfg3.win 2).blk t).view.emb y)
    (fun y => by show win3_2.index t (0 : Fin 2) * 2000 + 1 * (y 0).val = t.val * 2000 + (y 0).val; rw [(idx_facts t).2.2.2.2.1]; omega)
    (fun y => by show win3_2.index t (1 : Fin 2) * 128 + 1 * (y 1).val = (y 1).val; rw [(idx_facts t).2.2.2.2.2.1]; omega)
    (fun y => rfl)

/-- Window 3 stages its whole array at every point. -/
theorem blk3 (c : Dev nD) (t : Fin cfg3.N) : iblk3 V c 3 t = V c (Pipeline.arrRef spec3 3) :=
  funext fun y => congrArg (V c (Pipeline.arrRef spec3 3)) (funext fun a => Fin.ext (by
    match a with
    | ⟨0, _⟩ => show win3_3.index t (0 : Fin 2) * 384 + 1 * (y 0).val = (y 0).val; rw [(idx_facts t).2.2.2.2.2.2.1]; omega
    | ⟨1, _⟩ => show win3_3.index t (1 : Fin 2) * 128 + 1 * (y 1).val = (y 1).val; rw [(idx_facts t).2.2.2.2.2.2.2.1]; omega))

/-- Window 4 stages its whole array at every point. -/
theorem blk4 (c : Dev nD) (t : Fin cfg3.N) : iblk3 V c 4 t = V c (Pipeline.arrRef spec3 4) :=
  funext fun y => congrArg (V c (Pipeline.arrRef spec3 4)) (funext fun a => Fin.ext (by
    match a with
    | ⟨0, _⟩ => show win3_4.index t (0 : Fin 2) * 1 + 1 * (y 0).val = (y 0).val; rw [(idx_facts t).2.2.2.2.2.2.2.2.1]; omega
    | ⟨1, _⟩ => show win3_4.index t (1 : Fin 2) * 128 + 1 * (y 1).val = (y 1).val; rw [(idx_facts t).2.2.2.2.2.2.2.2.2.1]; omega))

/-- Window 5 stages its whole array at every point. -/
theorem blk5 (c : Dev nD) (t : Fin cfg3.N) : iblk3 V c 5 t = V c (Pipeline.arrRef spec3 5) :=
  funext fun y => congrArg (V c (Pipeline.arrRef spec3 5)) (funext fun a => Fin.ext (by
    match a with
    | ⟨0, _⟩ => show win3_5.index t (0 : Fin 2) * 128 + 1 * (y 0).val = (y 0).val; rw [(idx_facts t).2.2.2.2.2.2.2.2.2.2.1]; omega
    | ⟨1, _⟩ => show win3_5.index t (1 : Fin 2) * 128 + 1 * (y 1).val = (y 1).val; rw [(idx_facts t).2.2.2.2.2.2.2.2.2.2.2.1]; omega))

/-- Window 6 stages its whole array at every point. -/
theorem blk6 (c : Dev nD) (t : Fin cfg3.N) : iblk3 V c 6 t = V c (Pipeline.arrRef spec3 6) :=
  funext fun y => congrArg (V c (Pipeline.arrRef spec3 6)) (funext fun a => Fin.ext (by
    match a with
    | ⟨0, _⟩ => show win3_6.index t (0 : Fin 2) * 1 + 1 * (y 0).val = (y 0).val; rw [(idx_facts t).2.2.2.2.2.2.2.2.2.2.2.2.1]; omega
    | ⟨1, _⟩ => show win3_6.index t (1 : Fin 2) * 128 + 1 * (y 1).val = (y 1).val; rw [(idx_facts t).2.2.2.2.2.2.2.2.2.2.2.2.2.1]; omega))

/-- What point t writes back through output window 7 is block t of the whole-array function. -/
theorem flushed_next (c : Dev nD) (t : Fin cfg3.N) :
    (dat3 V c).flushed 7 t = ((cfg3.win 7).blk t).view.read (Elt Ideal) (addf (Cert.Spec.nodeUpdate (V c main_v2) (V c main_v34) (V c main_v37) (V c main_v39) (V c main_v46) (V c main_v43) (V c main_v47)) (V c main_v2)) := by
  show (cfg3.win 7).cut (grid3.coords t) ((dat3 V c).after 7 t) = _
  rw [after3_7]
  unfold out3_7
  rw [View.canon_unit_zero hz]
  simp only [View.ld_unit_zero (S := S2000x128) hz, View.ld_unit_zero (S := S384x128) hz, View.ld_unit_zero (S := S1x128) hz, View.ld_unit_zero (S := S128x128) hz]
  rw [blk3 V c t, blk4 V c t, blk5 V c t, blk6 V c t]
  funext j
  exact (Cert.Payloads.node_next_blk (blk0 V c t) (blk1 V c t) (blk2 V c t) _ _ _ _).read j (((cfg3.win 7).blk t).view.emb j)
    (by show win3_7.index t (0 : Fin 2) * 2000 + 1 * (j 0).val = t.val * 2000 + (j 0).val; rw [(idx_facts t).2.2.2.2.2.2.2.2.2.2.2.2.2.2.1]; omega)
    (by show win3_7.index t (1 : Fin 2) * 128 + 1 * (j 1).val = (j 1).val; rw [(idx_facts t).2.2.2.2.2.2.2.2.2.2.2.2.2.2.2]; omega)

/-- An index of output array 7 is in point t's block iff each coordinate is in the block's range. -/
theorem mem_blk_next (t : Fin cfg3.N) (i : S20000x128.Idx) :
    i ∈ ((cfg3.win 7).blk t).view.set ↔ ∀ a : Fin 2, win3_7.index t a * S2000x128.size a ≤ (i a).val ∧ (i a).val < win3_7.index t a * S2000x128.size a + S2000x128.size a := by
  show i ∈ ((View.whole main_v48).slice (win3_7.rect t)).set ↔ _
  rw [View.set_slice_whole, Rect.mem_set_unit]
  exact Iff.rfl

/-- Every row of output array 7 is in the block of the point its row number divided by 2000 names. -/
theorem cover_next (i : S20000x128.Idx) : ∃ t : Fin cfg3.N, (cfg3.win 7).flush t = true ∧ i ∈ ((cfg3.win 7).blk t).view.set := by
  have hi0 : (i 0).val < 20000 := (i 0).isLt
  have hi1 : (i 1).val < 128 := (i 1).isLt
  have ht : (i 0).val / 2000 < 10 := by omega
  refine ⟨⟨(i 0).val / 2000, ht⟩, flush3_7 _, ?_⟩
  rw [mem_blk_next]
  have e0 := (idx_facts ⟨(i 0).val / 2000, ht⟩).2.2.2.2.2.2.2.2.2.2.2.2.2.2.1
  have e1 := (idx_facts ⟨(i 0).val / 2000, ht⟩).2.2.2.2.2.2.2.2.2.2.2.2.2.2.2
  intro a
  match a with
  | ⟨0, _⟩ =>
    show win3_7.index ⟨(i 0).val / 2000, ht⟩ (0 : Fin 2) * 2000 ≤ (i 0).val ∧ (i 0).val < win3_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_7.index ⟨(i 0).val / 2000, ht⟩ (1 : Fin 2) * 128 ≤ (i 1).val ∧ (i 1).val < win3_7.index ⟨(i 0).val / 2000, ht⟩ (1 : Fin 2) * 128 + 128
    rw [e1]; omega

/-- Output array 7 after the region. -/
theorem final_next (c : Dev nD) : (dat3 V c).arrAt 7 cfg3.N = addf (Cert.Spec.nodeUpdate (V c main_v2) (V c main_v34) (V c main_v37) (V c main_v39) (V c main_v46) (V c main_v43) (V c main_v47)) (V c main_v2) :=
  (dat3 V c).arrAt_eq_of_cover 7 _ (fun t _ => flushed_next V c t) cover_next

end Cert.KernelIdeal.Region3

end
-- ==== Proof.ChainStep0.lean ====
/-
  Message-passing step 0: regions 2 and 3 of the kernel's @main leave the new edge features, the next edge features and
  the next node features of step 0.

  The stretch of host operations before the edge region gathers the sender and receiver rows of the current node
  features and slices the step's weights; the stretch before the node region forms the two segment sums of the new
  edge features. Each region's output is the whole-array function of what it found (Region2, Region3).
-/
import proofs.«150645_j45672682226304_2_alg».proof.Proof.Chain0
import proofs.«150645_j45672682226304_2_alg».proof.Proof.ChainArgsB
import proofs.«150645_j45672682226304_2_alg».proof.Proof.ChainArgsC
import proofs.«150645_j45672682226304_2_alg».proof.Proof.ChainArgsD
import proofs.«150645_j45672682226304_2_alg».proof.Proof.Region2
import proofs.«150645_j45672682226304_2_alg».proof.Proof.Region3

set_option maxRecDepth 16384

noncomputable section

namespace Cert.Chain

open Idealize.ShloMosaic Idealize.ShloMosaic.TcCoe Idealize.ShloMosaic.StableHlo Idealize.SL.Sem
open Cert.KernelIdeal Cert.KernelIdeal.Gen Cert.KernelIdeal

variable {m : (ℓ : Loc nD τ sig) → Buf (Elt Ideal) ℓ} (ρ : Dev nD → PrngReg) {c : Dev nD}
variable {V' : Valuation Cert.ReferenceIdeal.τ Cert.ReferenceIdeal.sig (Elt Ideal)}

/-- What stretch 2 reads of the earlier regions' results. -/
theorem hn0_at4 (h : Agree m c V') : W4 m ρ c (Proc.devRef .tc main_v2) = (Terms.hn0 V') :=
  ((W4_of_ne m ρ c main_v2 (by decide)).trans (Keep.keep_host1 m ρ c main_v2 (by decide))).trans (t_hn0 ρ h)

theorem in2_0 (h : Agree m c V') : V5 m ρ c main_v5 = (Terms.he0 V') := (Keep.keep_host2 m ρ c main_v5 (by decide)).trans (t_he0 ρ h)
theorem in2_1 (h : Agree m c V') : V5 m ρ c main_v13 = (Terms.pick (Terms.hn0 V') (Terms.sIdx V')) := by
  show StableHlo.after hostOps2 (W4 m ρ c) (Proc.devRef .tc main_v13) = _
  after_results
  simp only [arg2_at4 ρ h, arg3_at4 ρ h, arg12_at4 ρ h, arg13_at4 ρ h, arg14_at4 ρ h, arg15_at4 ρ h, hn0_at4 ρ h]
  first | rfl | exact Cert.Lib.DenseLayer.addUnit_eq_bcast (by decide) _ _ _ | exact unit_row _ _ _
theorem in2_2 (h : Agree m c V') : V5 m ρ c main_v20 = (Terms.pick (Terms.hn0 V') (Terms.rIdx V')) := by
  show StableHlo.after hostOps2 (W4 m ρ c) (Proc.devRef .tc main_v20) = _
  after_results
  simp only [arg2_at4 ρ h, arg3_at4 ρ h, arg12_at4 ρ h, arg13_at4 ρ h, arg14_at4 ρ h, arg15_at4 ρ h, hn0_at4 ρ h]
  first | rfl | exact Cert.Lib.DenseLayer.addUnit_eq_bcast (by decide) _ _ _ | exact unit_row _ _ _
theorem in2_3 (h : Agree m c V') : V5 m ρ c main_v22 = (Terms.eW1_0 V') := by
  show StableHlo.after hostOps2 (W4 m ρ c) (Proc.devRef .tc main_v22) = _
  after_results
  simp only [arg2_at4 ρ h, arg3_at4 ρ h, arg12_at4 ρ h, arg13_at4 ρ h, arg14_at4 ρ h, arg15_at4 ρ h, hn0_at4 ρ h]
  first | rfl | exact Cert.Lib.DenseLayer.addUnit_eq_bcast (by decide) _ _ _ | exact unit_row _ _ _
theorem in2_4 (h : Agree m c V') : V5 m ρ c main_v29 = (Terms.eb1_0 V') := by
  show StableHlo.after hostOps2 (W4 m ρ c) (Proc.devRef .tc main_v29) = _
  after_results
  simp only [arg2_at4 ρ h, arg3_at4 ρ h, arg12_at4 ρ h, arg13_at4 ρ h, arg14_at4 ρ h, arg15_at4 ρ h, hn0_at4 ρ h]
  first | rfl | exact Cert.Lib.DenseLayer.addUnit_eq_bcast (by decide) _ _ _ | exact unit_row _ _ _
theorem in2_5 (h : Agree m c V') : V5 m ρ c main_v26 = (Terms.eW2_0 V') := by
  show StableHlo.after hostOps2 (W4 m ρ c) (Proc.devRef .tc main_v26) = _
  after_results
  simp only [arg2_at4 ρ h, arg3_at4 ρ h, arg12_at4 ρ h, arg13_at4 ρ h, arg14_at4 ρ h, arg15_at4 ρ h, hn0_at4 ρ h]
  first | rfl | exact Cert.Lib.DenseLayer.addUnit_eq_bcast (by decide) _ _ _ | exact unit_row _ _ _
theorem in2_6 (h : Agree m c V') : V5 m ρ c main_v30 = (Terms.eb2_0 V') := by
  show StableHlo.after hostOps2 (W4 m ρ c) (Proc.devRef .tc main_v30) = _
  after_results
  simp only [arg2_at4 ρ h, arg3_at4 ρ h, arg12_at4 ρ h, arg13_at4 ρ h, arg14_at4 ρ h, arg15_at4 ρ h, hn0_at4 ρ h]
  first | rfl | exact Cert.Lib.DenseLayer.addUnit_eq_bcast (by decide) _ _ _ | exact unit_row _ _ _

/-- Region 2's output main_v31_0 after the region. -/
theorem t_enew0 (h : Agree m c V') : W6 m ρ c (Proc.devRef .tc main_v31_0) = (Terms.enew0 V') := by
  refine (W6_arr m ρ c 7).trans ?_
  rw [Region2.final_new (V5 m ρ) c, in2_0 ρ h, in2_1 ρ h, in2_2 ρ h, in2_3 ρ h, in2_4 ρ h, in2_5 ρ h, in2_6 ρ h]
  rfl

/-- Region 2's output main_v31_1 after the region. -/
theorem t_he1 (h : Agree m c V') : W6 m ρ c (Proc.devRef .tc main_v31_1) = (Terms.he1 V') := by
  refine (W6_arr m ρ c 8).trans ?_
  rw [Region2.final_next (V5 m ρ) c, in2_0 ρ h, in2_1 ρ h, in2_2 ρ h, in2_3 ρ h, in2_4 ρ h, in2_5 ρ h, in2_6 ρ h]
  rfl

/-- What stretch 3 reads of the earlier regions' results. -/
theorem enew0_at6 (h : Agree m c V') : W6 m ρ c (Proc.devRef .tc main_v31_0) = (Terms.enew0 V') :=
  t_enew0 ρ h

theorem in3_0 (h : Agree m c V') : V7 m ρ c main_v2 = (Terms.hn0 V') := ((Keep.keep_host3 m ρ c main_v2 (by decide)).trans ((W6_of_ne m ρ c main_v2 (by decide)).trans ((Keep.keep_host2 m ρ c main_v2 (by decide)).trans ((W4_of_ne m ρ c main_v2 (by decide)).trans (Keep.keep_host1 m ρ c main_v2 (by decide)))))).trans (t_hn0 ρ h)
theorem in3_1 (h : Agree m c V') : V7 m ρ c main_v34 = (Terms.sumSent V' (Terms.enew0 V')) := by
  show StableHlo.after hostOps3 (W6 m ρ c) (Proc.devRef .tc main_v34) = _
  after_results
  simp only [arg2_at6 ρ h, arg3_at6 ρ h, arg16_at6 ρ h, arg17_at6 ρ h, arg18_at6 ρ h, arg19_at6 ρ h, enew0_at6 ρ h]
  first | rfl | exact Cert.Lib.DenseLayer.addUnit_eq_bcast (by decide) _ _ _ | exact unit_row _ _ _
theorem in3_2 (h : Agree m c V') : V7 m ρ c main_v37 = (Terms.sumRecv V' (Terms.enew0 V')) := by
  show StableHlo.after hostOps3 (W6 m ρ c) (Proc.devRef .tc main_v37) = _
  after_results
  simp only [arg2_at6 ρ h, arg3_at6 ρ h, arg16_at6 ρ h, arg17_at6 ρ h, arg18_at6 ρ h, arg19_at6 ρ h, enew0_at6 ρ h]
  first | rfl | exact Cert.Lib.DenseLayer.addUnit_eq_bcast (by decide) _ _ _ | exact unit_row _ _ _
theorem in3_3 (h : Agree m c V') : V7 m ρ c main_v39 = (Terms.nW1_0 V') := by
  show StableHlo.after hostOps3 (W6 m ρ c) (Proc.devRef .tc main_v39) = _
  after_results
  simp only [arg2_at6 ρ h, arg3_at6 ρ h, arg16_at6 ρ h, arg17_at6 ρ h, arg18_at6 ρ h, arg19_at6 ρ h, enew0_at6 ρ h]
  first | rfl | exact Cert.Lib.DenseLayer.addUnit_eq_bcast (by decide) _ _ _ | exact unit_row _ _ _
theorem in3_4 (h : Agree m c V') : V7 m ρ c main_v46 = (Terms.nb1_0 V') := by
  show StableHlo.after hostOps3 (W6 m ρ c) (Proc.devRef .tc main_v46) = _
  after_results
  simp only [arg2_at6 ρ h, arg3_at6 ρ h, arg16_at6 ρ h, arg17_at6 ρ h, arg18_at6 ρ h, arg19_at6 ρ h, enew0_at6 ρ h]
  first | rfl | exact Cert.Lib.DenseLayer.addUnit_eq_bcast (by decide) _ _ _ | exact unit_row _ _ _
theorem in3_5 (h : Agree m c V') : V7 m ρ c main_v43 = (Terms.nW2_0 V') := by
  show StableHlo.after hostOps3 (W6 m ρ c) (Proc.devRef .tc main_v43) = _
  after_results
  simp only [arg2_at6 ρ h, arg3_at6 ρ h, arg16_at6 ρ h, arg17_at6 ρ h, arg18_at6 ρ h, arg19_at6 ρ h, enew0_at6 ρ h]
  first | rfl | exact Cert.Lib.DenseLayer.addUnit_eq_bcast (by decide) _ _ _ | exact unit_row _ _ _
theorem in3_6 (h : Agree m c V') : V7 m ρ c main_v47 = (Terms.nb2_0 V') := by
  show StableHlo.after hostOps3 (W6 m ρ c) (Proc.devRef .tc main_v47) = _
  after_results
  simp only [arg2_at6 ρ h, arg3_at6 ρ h, arg16_at6 ρ h, arg17_at6 ρ h, arg18_at6 ρ h, arg19_at6 ρ h, enew0_at6 ρ h]
  first | rfl | exact Cert.Lib.DenseLayer.addUnit_eq_bcast (by decide) _ _ _ | exact unit_row _ _ _

/-- Region 3's output main_v48 after the region. -/
theorem t_hn1 (h : Agree m c V') : W8 m ρ c (Proc.devRef .tc main_v48) = (Terms.hn1 V') := by
  refine (W8_arr m ρ c 7).trans ?_
  rw [Region3.final_next (V7 m ρ) c, in3_0 ρ h, in3_1 ρ h, in3_2 ρ h, in3_3 ρ h, in3_4 ρ h, in3_5 ρ h, in3_6 ρ h]
  rfl

end Cert.Chain

end
-- ==== Proof.Region4.lean ====
/-
  Region 4 of the kernel's @main: the edge update of step 1 over 160000 edges in blocks of 4000, with the new and the next edge features as two outputs.

  The grid has 40 points; point t stages rows 4000·t … 4000·t + 3999 of the three row-tiled inputs, the whole weight and bias
  arrays, and writes back the same rows of each of the two outputs. The body's stored block is, by the payload lemma, that
  block of rows of the whole-array function; the 40 blocks cover every row; so each output array after the region is
  the whole-array function of the arrays the region found.
-/
import proofs.«150645_j45672682226304_2_alg».proof.Proof.Gen.KernelIdeal.Frame
import proofs.«150645_j45672682226304_2_alg».proof.Proof.Payloads
import proofs.«150645_j45672682226304_2_alg».proof.Proof.LibRowRead

set_option maxRecDepth 16384

noncomputable section

namespace Cert.KernelIdeal.Region4

open Idealize.ShloMosaic Idealize.ShloMosaic.TcCoe Idealize.ShloMosaic.ValueIdx Idealize.SL.Sem
open Cert.KernelIdeal Cert.KernelIdeal.Gen Cert.Lib.DenseLayer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = t.val
    ∧ win4_7.index t (1 : Fin 2) = 0
    ∧ win4_8.index t (0 : Fin 2) = t.val
    ∧ win4_8.index t (1 : Fin 2) = 0 :=
  (by decide +kernel : ∀ t : Fin grid4.N, _)

/-- Window 0's block at point t is the block of rows of its array that starts at row 4000·t. -/
theorem blk0 (c : Dev nD) (t : Fin cfg4.N) : RowBlk (t.val * 4000) (iblk4 V c 0 t) (V c (Pipeline.arrRef spec4 0)) :=
  RowBlk.of_read (fun y => ((cfg4.win 0).blk t).view.emb y)
    (fun y => by show win4_0.index t (0 : Fin 2) * 4000 + 1 * (y 0).val = t.val * 4000 + (y 0).val; rw [(idx_facts t).1]; omega)
    (fun y => by show win4_0.index t (1 : Fin 2) * 128 + 1 * (y 1).val = (y 1).val; rw [(idx_facts t).2.1]; omega)
    (fun y => rfl)

/-- Window 1's block at point t is the block of rows of its array that starts at row 4000·t. -/
theorem blk1 (c : Dev nD) (t : Fin cfg4.N) : RowBlk (t.val * 4000) (iblk4 V c 1 t) (V c (Pipeline.arrRef spec4 1)) :=
  RowBlk.of_read (fun y => ((cfg4.win 1).blk t).view.emb y)
    (fun y => by show win4_1.index t (0 : Fin 2) * 4000 + 1 * (y 0).val = t.val * 4000 + (y 0).val; rw [(idx_facts t).2.2.1]; omega)
    (fun y => by show win4_1.index t (1 : Fin 2) * 128 + 1 * (y 1).val = (y 1).val; rw [(idx_facts t).2.2.2.1]; omega)
    (fun y => rfl)

/-- Window 2's block at point t is the block of rows of its array that starts at row 4000·t. -/
theorem blk2 (c : Dev nD) (t : Fin cfg4.N) : RowBlk (t.val * 4000) (iblk4 V c 2 t) (V c (Pipeline.arrRef spec4 2)) :=
  RowBlk.of_read (fun y => ((cfg4.win 2).blk t).view.emb y)
    (fun y => by show win4_2.index t (0 : Fin 2) * 4000 + 1 * (y 0).val = t.val * 4000 + (y 0).val; rw [(idx_facts t).2.2.2.2.1]; omega)
    (fun y => by show win4_2.index t (1 : Fin 2) * 128 + 1 * (y 1).val = (y 1).val; rw [(idx_facts t).2.2.2.2.2.1]; omega)
    (fun y => rfl)

/-- Window 3 stages its whole array at every point. -/
theorem blk3 (c : Dev nD) (t : Fin cfg4.N) : iblk4 V c 3 t = V c (Pipeline.arrRef spec4 3) :=
  funext fun y => congrArg (V c (Pipeline.arrRef spec4 3)) (funext fun a => Fin.ext (by
    match a with
    | ⟨0, _⟩ => show win4_3.index t (0 : Fin 2) * 384 + 1 * (y 0).val = (y 0).val; rw [(idx_facts t).2.2.2.2.2.2.1]; omega
    | ⟨1, _⟩ => show win4_3.index t (1 : Fin 2) * 128 + 1 * (y 1).val = (y 1).val; rw [(idx_facts t).2.2.2.2.2.2.2.1]; omega))

/-- Window 4 stages its whole array at every point. -/
theorem blk4 (c : Dev nD) (t : Fin cfg4.N) : iblk4 V c 4 t = V c (Pipeline.arrRef spec4 4) :=
  funext fun y => congrArg (V c (Pipeline.arrRef spec4 4)) (funext fun a => Fin.ext (by
    match a with
    | ⟨0, _⟩ => show win4_4.index t (0 : Fin 2) * 1 + 1 * (y 0).val = (y 0).val; rw [(idx_facts t).2.2.2.2.2.2.2.2.1]; omega
    | ⟨1, _⟩ => show win4_4.index t (1 : Fin 2) * 128 + 1 * (y 1).val = (y 1).val; rw [(idx_facts t).2.2.2.2.2.2.2.2.2.1]; omega))

/-- Window 5 stages its whole array at every point. -/
theorem blk5 (c : Dev nD) (t : Fin cfg4.N) : iblk4 V c 5 t = V c (Pipeline.arrRef spec4 5) :=
  funext fun y => congrArg (V c (Pipeline.arrRef spec4 5)) (funext fun a => Fin.ext (by
    match a with
    | ⟨0, _⟩ => show win4_5.index t (0 : Fin 2) * 128 + 1 * (y 0).val = (y 0).val; rw [(idx_facts t).2.2.2.2.2.2.2.2.2.2.1]; omega
    | ⟨1, _⟩ => show win4_5.index t (1 : Fin 2) * 128 + 1 * (y 1).val = (y 1).val; rw [(idx_facts t).2.2.2.2.2.2.2.2.2.2.2.1]; omega))

/-- Window 6 stages its whole array at every point. -/
theorem blk6 (c : Dev nD) (t : Fin cfg4.N) : iblk4 V c 6 t = V c (Pipeline.arrRef spec4 6) :=
  funext fun y => congrArg (V c (Pipeline.arrRef spec4 6)) (funext fun a => Fin.ext (by
    match a with
    | ⟨0, _⟩ => show win4_6.index t (0 : Fin 2) * 1 + 1 * (y 0).val = (y 0).val; rw [(idx_facts t).2.2.2.2.2.2.2.2.2.2.2.2.1]; omega
    | ⟨1, _⟩ => show win4_6.index t (1 : Fin 2) * 128 + 1 * (y 1).val = (y 1).val; rw [(idx_facts t).2.2.2.2.2.2.2.2.2.2.2.2.2.1]; omega))

/-- What point t writes back through output window 7 is block t of the whole-array function. -/
theorem flushed_new (c : Dev nD) (t : Fin cfg4.N) :
    (dat4 V c).flushed 7 t = ((cfg4.win 7).blk t).view.read (Elt Ideal) (Cert.Spec.edgeUpdate (V c main_v31_1) (V c main_v56) (V c main_v63) (V c main_v65) (V c main_v72) (V c main_v69) (V c main_v73)) := by
  show (cfg4.win 7).cut (grid4.coords t) ((dat4 V c).after 7 t) = _
  rw [after4_7]
  unfold out4_7
  rw [View.canon_unit_zero hz]
  simp only [View.ld_unit_zero (S := S4000x128) hz, View.ld_unit_zero (S := S384x128) hz, View.ld_unit_zero (S := S1x128) hz, View.ld_unit_zero (S := S128x128) hz]
  rw [blk3 V c t, blk4 V c t, blk5 V c t, blk6 V c t, Cert.Payloads.k4_pay2_eq]
  funext j
  exact (Cert.Payloads.edge_new_blk (blk0 V c t) (blk1 V c t) (blk2 V c t) _ _ _ _).read j (((cfg4.win 7).blk t).view.emb j)
    (by show win4_7.index t (0 : Fin 2) * 4000 + 1 * (j 0).val = t.val * 4000 + (j 0).val; rw [(idx_facts t).2.2.2.2.2.2.2.2.2.2.2.2.2.2.1]; omega)
    (by show win4_7.index t (1 : Fin 2) * 128 + 1 * (j 1).val = (j 1).val; rw [(idx_facts t).2.2.2.2.2.2.2.2.2.2.2.2.2.2.2.1]; omega)

/-- An index of output array 7 is in point t's block iff each coordinate is in the block's range. -/
theorem mem_blk_new (t : Fin cfg4.N) (i : S160000x128.Idx) :
    i ∈ ((cfg4.win 7).blk t).view.set ↔ ∀ a : Fin 2, win4_7.index t a * S4000x128.size a ≤ (i a).val ∧ (i a).val < win4_7.index t a * S4000x128.size a + S4000x128.size a := by
  show i ∈ ((View.whole main_v74_0).slice (win4_7.rect t)).set ↔ _
  rw [View.set_slice_whole, Rect.mem_set_unit]
  exact Iff.rfl

/-- Every row of output array 7 is in the block of the point its row number divided by 4000 names. -/
theorem cover_new (i : S160000x128.Idx) : ∃ t : Fin cfg4.N, (cfg4.win 7).flush t = true ∧ i ∈ ((cfg4.win 7).blk t).view.set := by
  have hi0 : (i 0).val < 160000 := (i 0).isLt
  have hi1 : (i 1).val < 128 := (i 1).isLt
  have ht : (i 0).val / 4000 < 40 := by omega
  refine ⟨⟨(i 0).val / 4000, ht⟩, flush4_7 _, ?_⟩
  rw [mem_blk_new]
  have e0 := (idx_facts ⟨(i 0).val / 4000, ht⟩).2.2.2.2.2.2.2.2.2.2.2.2.2.2.1
  have e1 := (idx_facts ⟨(i 0).val / 4000, ht⟩).2.2.2.2.2.2.2.2.2.2.2.2.2.2.2.1
  intro a
  match a with
  | ⟨0, _⟩ =>
    show win4_7.index ⟨(i 0).val / 4000, ht⟩ (0 : Fin 2) * 4000 ≤ (i 0).val ∧ (i 0).val < win4_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win4_7.index ⟨(i 0).val / 4000, ht⟩ (1 : Fin 2) * 128 ≤ (i 1).val ∧ (i 1).val < win4_7.index ⟨(i 0).val / 4000, ht⟩ (1 : Fin 2) * 128 + 128
    rw [e1]; omega

/-- Output array 7 after the region. -/
theorem final_new (c : Dev nD) : (dat4 V c).arrAt 7 cfg4.N = Cert.Spec.edgeUpdate (V c main_v31_1) (V c main_v56) (V c main_v63) (V c main_v65) (V c main_v72) (V c main_v69) (V c main_v73) :=
  (dat4 V c).arrAt_eq_of_cover 7 _ (fun t _ => flushed_new V c t) cover_new

/-- What point t writes back through output window 8 is block t of the whole-array function. -/
theorem flushed_next (c : Dev nD) (t : Fin cfg4.N) :
    (dat4 V c).flushed 8 t = ((cfg4.win 8).blk t).view.read (Elt Ideal) (addf (Cert.Spec.edgeUpdate (V c main_v31_1) (V c main_v56) (V c main_v63) (V c main_v65) (V c main_v72) (V c main_v69) (V c main_v73)) (V c main_v31_1)) := by
  show (cfg4.win 8).cut (grid4.coords t) ((dat4 V c).after 8 t) = _
  rw [after4_8]
  unfold out4_8
  rw [View.canon_unit_zero hz]
  simp only [View.ld_unit_zero (S := S4000x128) hz, View.ld_unit_zero (S := S384x128) hz, View.ld_unit_zero (S := S1x128) hz, View.ld_unit_zero (S := S128x128) hz]
  rw [blk3 V c t, blk4 V c t, blk5 V c t, blk6 V c t, Cert.Payloads.k4_pay3_eq]
  funext j
  exact (Cert.Payloads.edge_next_blk (blk0 V c t) (blk1 V c t) (blk2 V c t) _ _ _ _).read j (((cfg4.win 8).blk t).view.emb j)
    (by show win4_8.index t (0 : Fin 2) * 4000 + 1 * (j 0).val = t.val * 4000 + (j 0).val; rw [(idx_facts t).2.2.2.2.2.2.2.2.2.2.2.2.2.2.2.2.1]; omega)
    (by show win4_8.index t (1 : Fin 2) * 128 + 1 * (j 1).val = (j 1).val; rw [(idx_facts t).2.2.2.2.2.2.2.2.2.2.2.2.2.2.2.2.2]; omega)

/-- An index of output array 8 is in point t's block iff each coordinate is in the block's range. -/
theorem mem_blk_next (t : Fin cfg4.N) (i : S160000x128.Idx) :
    i ∈ ((cfg4.win 8).blk t).view.set ↔ ∀ a : Fin 2, win4_8.index t a * S4000x128.size a ≤ (i a).val ∧ (i a).val < win4_8.index t a * S4000x128.size a + S4000x128.size a := by
  show i ∈ ((View.whole main_v74_1).slice (win4_8.rect t)).set ↔ _
  rw [View.set_slice_whole, Rect.mem_set_unit]
  exact Iff.rfl

/-- Every row of output array 8 is in the block of the point its row number divided by 4000 names. -/
theorem cover_next (i : S160000x128.Idx) : ∃ t : Fin cfg4.N, (cfg4.win 8).flush t = true ∧ i ∈ ((cfg4.win 8).blk t).view.set := by
  have hi0 : (i 0).val < 160000 := (i 0).isLt
  have hi1 : (i 1).val < 128 := (i 1).isLt
  have ht : (i 0).val / 4000 < 40 := by omega
  refine ⟨⟨(i 0).val / 4000, ht⟩, flush4_8 _, ?_⟩
  rw [mem_blk_next]
  have e0 := (idx_facts ⟨(i 0).val / 4000, ht⟩).2.2.2.2.2.2.2.2.2.2.2.2.2.2.2.2.1
  have e1 := (idx_facts ⟨(i 0).val / 4000, ht⟩).2.2.2.2.2.2.2.2.2.2.2.2.2.2.2.2.2
  intro a
  match a with
  | ⟨0, _⟩ =>
    show win4_8.index ⟨(i 0).val / 4000, ht⟩ (0 : Fin 2) * 4000 ≤ (i 0).val ∧ (i 0).val < win4_8.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win4_8.index ⟨(i 0).val / 4000, ht⟩ (1 : Fin 2) * 128 ≤ (i 1).val ∧ (i 1).val < win4_8.index ⟨(i 0).val / 4000, ht⟩ (1 : Fin 2) * 128 + 128
    rw [e1]; omega

/-- Output array 8 after the region. -/
theorem final_next (c : Dev nD) : (dat4 V c).arrAt 8 cfg4.N = addf (Cert.Spec.edgeUpdate (V c main_v31_1) (V c main_v56) (V c main_v63) (V c main_v65) (V c main_v72) (V c main_v69) (V c main_v73)) (V c main_v31_1) :=
  (dat4 V c).arrAt_eq_of_cover 8 _ (fun t _ => flushed_next V c t) cover_next

end Cert.KernelIdeal.Region4

end
-- ==== Proof.Region5.lean ====
/-
  Region 5 of the kernel's @main: the node update of step 1 over 20000 nodes in blocks of 2000, the old features added.

  The grid has 10 points; point t stages rows 2000·t … 2000·t + 1999 of the three row-tiled inputs, the whole weight and bias
  arrays, and writes back the same rows of the output. The body's stored block is, by the payload lemma, that
  block of rows of the whole-array function; the 10 blocks cover every row; so the output array after the region is
  the whole-array function of the arrays the region found.
-/
import proofs.«150645_j45672682226304_2_alg».proof.Proof.Gen.KernelIdeal.Frame
import proofs.«150645_j45672682226304_2_alg».proof.Proof.Payloads
import proofs.«150645_j45672682226304_2_alg».proof.Proof.LibRowRead

set_option maxRecDepth 16384

noncomputable section

namespace Cert.KernelIdeal.Region5

open Idealize.ShloMosaic Idealize.ShloMosaic.TcCoe Idealize.ShloMosaic.ValueIdx Idealize.SL.Sem
open Cert.KernelIdeal Cert.KernelIdeal.Gen Cert.Lib.DenseLayer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = t.val
    ∧ win5_7.index t (1 : Fin 2) = 0 :=
  (by decide +kernel : ∀ t : Fin grid5.N, _)

/-- Window 0's block at point t is the block of rows of its array that starts at row 2000·t. -/
theorem blk0 (c : Dev nD) (t : Fin cfg5.N) : RowBlk (t.val * 2000) (iblk5 V c 0 t) (V c (Pipeline.arrRef spec5 0)) :=
  RowBlk.of_read (fun y => ((cfg5.win 0).blk t).view.emb y)
    (fun y => by show win5_0.index t (0 : Fin 2) * 2000 + 1 * (y 0).val = t.val * 2000 + (y 0).val; rw [(idx_facts t).1]; omega)
    (fun y => by show win5_0.index t (1 : Fin 2) * 128 + 1 * (y 1).val = (y 1).val; rw [(idx_facts t).2.1]; omega)
    (fun y => rfl)

/-- Window 1's block at point t is the block of rows of its array that starts at row 2000·t. -/
theorem blk1 (c : Dev nD) (t : Fin cfg5.N) : RowBlk (t.val * 2000) (iblk5 V c 1 t) (V c (Pipeline.arrRef spec5 1)) :=
  RowBlk.of_read (fun y => ((cfg5.win 1).blk t).view.emb y)
    (fun y => by show win5_1.index t (0 : Fin 2) * 2000 + 1 * (y 0).val = t.val * 2000 + (y 0).val; rw [(idx_facts t).2.2.1]; omega)
    (fun y => by show win5_1.index t (1 : Fin 2) * 128 + 1 * (y 1).val = (y 1).val; rw [(idx_facts t).2.2.2.1]; omega)
    (fun y => rfl)

/-- Window 2's block at point t is the block of rows of its array that starts at row 2000·t. -/
theorem blk2 (c : Dev nD) (t : Fin cfg5.N) : RowBlk (t.val * 2000) (iblk5 V c 2 t) (V c (Pipeline.arrRef spec5 2)) :=
  RowBlk.of_read (fun y => ((cfg5.win 2).blk t).view.emb y)
    (fun y => by show win5_2.index t (0 : Fin 2) * 2000 + 1 * (y 0).val = t.val * 2000 + (y 0).val; rw [(idx_facts t).2.2.2.2.1]; omega)
    (fun y => by show win5_2.index t (1 : Fin 2) * 128 + 1 * (y 1).val = (y 1).val; rw [(idx_facts t).2.2.2.2.2.1]; omega)
    (fun y => rfl)

/-- Window 3 stages its whole array at every point. -/
theorem blk3 (c : Dev nD) (t : Fin cfg5.N) : iblk5 V c 3 t = V c (Pipeline.arrRef spec5 3) :=
  funext fun y => congrArg (V c (Pipeline.arrRef spec5 3)) (funext fun a => Fin.ext (by
    match a with
    | ⟨0, _⟩ => show win5_3.index t (0 : Fin 2) * 384 + 1 * (y 0).val = (y 0).val; rw [(idx_facts t).2.2.2.2.2.2.1]; omega
    | ⟨1, _⟩ => show win5_3.index t (1 : Fin 2) * 128 + 1 * (y 1).val = (y 1).val; rw [(idx_facts t).2.2.2.2.2.2.2.1]; omega))

/-- Window 4 stages its whole array at every point. -/
theorem blk4 (c : Dev nD) (t : Fin cfg5.N) : iblk5 V c 4 t = V c (Pipeline.arrRef spec5 4) :=
  funext fun y => congrArg (V c (Pipeline.arrRef spec5 4)) (funext fun a => Fin.ext (by
    match a with
    | ⟨0, _⟩ => show win5_4.index t (0 : Fin 2) * 1 + 1 * (y 0).val = (y 0).val; rw [(idx_facts t).2.2.2.2.2.2.2.2.1]; omega
    | ⟨1, _⟩ => show win5_4.index t (1 : Fin 2) * 128 + 1 * (y 1).val = (y 1).val; rw [(idx_facts t).2.2.2.2.2.2.2.2.2.1]; omega))

/-- Window 5 stages its whole array at every point. -/
theorem blk5 (c : Dev nD) (t : Fin cfg5.N) : iblk5 V c 5 t = V c (Pipeline.arrRef spec5 5) :=
  funext fun y => congrArg (V c (Pipeline.arrRef spec5 5)) (funext fun a => Fin.ext (by
    match a with
    | ⟨0, _⟩ => show win5_5.index t (0 : Fin 2) * 128 + 1 * (y 0).val = (y 0).val; rw [(idx_facts t).2.2.2.2.2.2.2.2.2.2.1]; omega
    | ⟨1, _⟩ => show win5_5.index t (1 : Fin 2) * 128 + 1 * (y 1).val = (y 1).val; rw [(idx_facts t).2.2.2.2.2.2.2.2.2.2.2.1]; omega))

/-- Window 6 stages its whole array at every point. -/
theorem blk6 (c : Dev nD) (t : Fin cfg5.N) : iblk5 V c 6 t = V c (Pipeline.arrRef spec5 6) :=
  funext fun y => congrArg (V c (Pipeline.arrRef spec5 6)) (funext fun a => Fin.ext (by
    match a with
    | ⟨0, _⟩ => show win5_6.index t (0 : Fin 2) * 1 + 1 * (y 0).val = (y 0).val; rw [(idx_facts t).2.2.2.2.2.2.2.2.2.2.2.2.1]; omega
    | ⟨1, _⟩ => show win5_6.index t (1 : Fin 2) * 128 + 1 * (y 1).val = (y 1).val; rw [(idx_facts t).2.2.2.2.2.2.2.2.2.2.2.2.2.1]; omega))

/-- What point t writes back through output window 7 is block t of the whole-array function. -/
theorem flushed_next (c : Dev nD) (t : Fin cfg5.N) :
    (dat5 V c).flushed 7 t = ((cfg5.win 7).blk t).view.read (Elt Ideal) (addf (Cert.Spec.nodeUpdate (V c main_v48) (V c main_v77) (V c main_v80) (V c main_v82) (V c main_v89) (V c main_v86) (V c main_v90)) (V c main_v48)) := by
  show (cfg5.win 7).cut (grid5.coords t) ((dat5 V c).after 7 t) = _
  rw [after5_7]
  unfold out5_7
  rw [View.canon_unit_zero hz]
  simp only [View.ld_unit_zero (S := S2000x128) hz, View.ld_unit_zero (S := S384x128) hz, View.ld_unit_zero (S := S1x128) hz, View.ld_unit_zero (S := S128x128) hz]
  rw [blk3 V c t, blk4 V c t, blk5 V c t, blk6 V c t, Cert.Payloads.k5_pay1_eq]
  funext j
  exact (Cert.Payloads.node_next_blk (blk0 V c t) (blk1 V c t) (blk2 V c t) _ _ _ _).read j (((cfg5.win 7).blk t).view.emb j)
    (by show win5_7.index t (0 : Fin 2) * 2000 + 1 * (j 0).val = t.val * 2000 + (j 0).val; rw [(idx_facts t).2.2.2.2.2.2.2.2.2.2.2.2.2.2.1]; omega)
    (by show win5_7.index t (1 : Fin 2) * 128 + 1 * (j 1).val = (j 1).val; rw [(idx_facts t).2.2.2.2.2.2.2.2.2.2.2.2.2.2.2]; omega)

/-- An index of output array 7 is in point t's block iff each coordinate is in the block's range. -/
theorem mem_blk_next (t : Fin cfg5.N) (i : S20000x128.Idx) :
    i ∈ ((cfg5.win 7).blk t).view.set ↔ ∀ a : Fin 2, win5_7.index t a * S2000x128.size a ≤ (i a).val ∧ (i a).val < win5_7.index t a * S2000x128.size a + S2000x128.size a := by
  show i ∈ ((View.whole main_v91).slice (win5_7.rect t)).set ↔ _
  rw [View.set_slice_whole, Rect.mem_set_unit]
  exact Iff.rfl

/-- Every row of output array 7 is in the block of the point its row number divided by 2000 names. -/
theorem cover_next (i : S20000x128.Idx) : ∃ t : Fin cfg5.N, (cfg5.win 7).flush t = true ∧ i ∈ ((cfg5.win 7).blk t).view.set := by
  have hi0 : (i 0).val < 20000 := (i 0).isLt
  have hi1 : (i 1).val < 128 := (i 1).isLt
  have ht : (i 0).val / 2000 < 10 := by omega
  refine ⟨⟨(i 0).val / 2000, ht⟩, flush5_7 _, ?_⟩
  rw [mem_blk_next]
  have e0 := (idx_facts ⟨(i 0).val / 2000, ht⟩).2.2.2.2.2.2.2.2.2.2.2.2.2.2.1
  have e1 := (idx_facts ⟨(i 0).val / 2000, ht⟩).2.2.2.2.2.2.2.2.2.2.2.2.2.2.2
  intro a
  match a with
  | ⟨0, _⟩ =>
    show win5_7.index ⟨(i 0).val / 2000, ht⟩ (0 : Fin 2) * 2000 ≤ (i 0).val ∧ (i 0).val < win5_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win5_7.index ⟨(i 0).val / 2000, ht⟩ (1 : Fin 2) * 128 ≤ (i 1).val ∧ (i 1).val < win5_7.index ⟨(i 0).val / 2000, ht⟩ (1 : Fin 2) * 128 + 128
    rw [e1]; omega

/-- Output array 7 after the region. -/
theorem final_next (c : Dev nD) : (dat5 V c).arrAt 7 cfg5.N = addf (Cert.Spec.nodeUpdate (V c main_v48) (V c main_v77) (V c main_v80) (V c main_v82) (V c main_v89) (V c main_v86) (V c main_v90)) (V c main_v48) :=
  (dat5 V c).arrAt_eq_of_cover 7 _ (fun t _ => flushed_next V c t) cover_next

end Cert.KernelIdeal.Region5

end
-- ==== Proof.ChainStep1.lean ====
/-
  Message-passing step 1: regions 4 and 5 of the kernel's @main leave the new edge features, the next edge features and
  the next node features of step 1.

  The stretch of host operations before the edge region gathers the sender and receiver rows of the current node
  features and slices the step's weights; the stretch before the node region forms the two segment sums of the new
  edge features. Each region's output is the whole-array function of what it found (Region4, Region5).
-/
import proofs.«150645_j45672682226304_2_alg».proof.Proof.ChainStep0
import proofs.«150645_j45672682226304_2_alg».proof.Proof.Region4
import proofs.«150645_j45672682226304_2_alg».proof.Proof.Region5

set_option maxRecDepth 16384

noncomputable section

namespace Cert.Chain

open Idealize.ShloMosaic Idealize.ShloMosaic.TcCoe Idealize.ShloMosaic.StableHlo Idealize.SL.Sem
open Cert.KernelIdeal Cert.KernelIdeal.Gen Cert.KernelIdeal

variable {m : (ℓ : Loc nD τ sig) → Buf (Elt Ideal) ℓ} (ρ : Dev nD → PrngReg) {c : Dev nD}
variable {V' : Valuation Cert.ReferenceIdeal.τ Cert.ReferenceIdeal.sig (Elt Ideal)}

/-- What stretch 4 reads of the earlier regions' results. -/
theorem hn1_at8 (h : Agree m c V') : W8 m ρ c (Proc.devRef .tc main_v48) = (Terms.hn1 V') :=
  t_hn1 ρ h

theorem in4_0 (h : Agree m c V') : V9 m ρ c main_v31_1 = (Terms.he1 V') := ((Keep.keep_host4 m ρ c main_v31_1 (by decide)).trans ((W8_of_ne m ρ c main_v31_1 (by decide)).trans (Keep.keep_host3 m ρ c main_v31_1 (by decide)))).trans (t_he1 ρ h)
set_option maxHeartbeats 4000000 in
theorem in4_1 (h : Agree m c V') : V9 m ρ c main_v56 = (Terms.pick (Terms.hn1 V') (Terms.sIdx V')) := by
  show StableHlo.after hostOps4 (W8 m ρ c) (Proc.devRef .tc main_v56) = _
  after_results
  simp only [arg2_at8 ρ h, arg3_at8 ρ h, arg12_at8 ρ h, arg13_at8 ρ h, arg14_at8 ρ h, arg15_at8 ρ h, hn1_at8 ρ h]
  first | rfl | exact Cert.Lib.DenseLayer.addUnit_eq_bcast (by decide) _ _ _ | exact unit_row _ _ _
set_option maxHeartbeats 4000000 in
theorem in4_2 (h : Agree m c V') : V9 m ρ c main_v63 = (Terms.pick (Terms.hn1 V') (Terms.rIdx V')) := by
  show StableHlo.after hostOps4 (W8 m ρ c) (Proc.devRef .tc main_v63) = _
  after_results
  simp only [arg2_at8 ρ h, arg3_at8 ρ h, arg12_at8 ρ h, arg13_at8 ρ h, arg14_at8 ρ h, arg15_at8 ρ h, hn1_at8 ρ h]
  first | rfl | exact Cert.Lib.DenseLayer.addUnit_eq_bcast (by decide) _ _ _ | exact unit_row _ _ _
set_option maxHeartbeats 4000000 in
theorem in4_3 (h : Agree m c V') : V9 m ρ c main_v65 = (Terms.eW1_1 V') := by
  show StableHlo.after hostOps4 (W8 m ρ c) (Proc.devRef .tc main_v65) = _
  after_results
  simp only [arg2_at8 ρ h, arg3_at8 ρ h, arg12_at8 ρ h, arg13_at8 ρ h, arg14_at8 ρ h, arg15_at8 ρ h, hn1_at8 ρ h]
  first | rfl | exact Cert.Lib.DenseLayer.addUnit_eq_bcast (by decide) _ _ _ | exact unit_row _ _ _
set_option maxHeartbeats 4000000 in
theorem in4_4 (h : Agree m c V') : V9 m ρ c main_v72 = (Terms.eb1_1 V') := by
  show StableHlo.after hostOps4 (W8 m ρ c) (Proc.devRef .tc main_v72) = _
  after_results
  simp only [arg2_at8 ρ h, arg3_at8 ρ h, arg12_at8 ρ h, arg13_at8 ρ h, arg14_at8 ρ h, arg15_at8 ρ h, hn1_at8 ρ h]
  first | rfl | exact Cert.Lib.DenseLayer.addUnit_eq_bcast (by decide) _ _ _ | exact unit_row _ _ _
set_option maxHeartbeats 4000000 in
theorem in4_5 (h : Agree m c V') : V9 m ρ c main_v69 = (Terms.eW2_1 V') := by
  show StableHlo.after hostOps4 (W8 m ρ c) (Proc.devRef .tc main_v69) = _
  after_results
  simp only [arg2_at8 ρ h, arg3_at8 ρ h, arg12_at8 ρ h, arg13_at8 ρ h, arg14_at8 ρ h, arg15_at8 ρ h, hn1_at8 ρ h]
  first | rfl | exact Cert.Lib.DenseLayer.addUnit_eq_bcast (by decide) _ _ _ | exact unit_row _ _ _
set_option maxHeartbeats 4000000 in
theorem in4_6 (h : Agree m c V') : V9 m ρ c main_v73 = (Terms.eb2_1 V') := by
  show StableHlo.after hostOps4 (W8 m ρ c) (Proc.devRef .tc main_v73) = _
  after_results
  simp only [arg2_at8 ρ h, arg3_at8 ρ h, arg12_at8 ρ h, arg13_at8 ρ h, arg14_at8 ρ h, arg15_at8 ρ h, hn1_at8 ρ h]
  first | rfl | exact Cert.Lib.DenseLayer.addUnit_eq_bcast (by decide) _ _ _ | exact unit_row _ _ _

/-- Region 4's output main_v74_0 after the region. -/
theorem t_enew1 (h : Agree m c V') : W10 m ρ c (Proc.devRef .tc main_v74_0) = (Terms.enew1 V') := by
  refine (W10_arr m ρ c 7).trans ?_
  rw [Region4.final_new (V9 m ρ) c, in4_0 ρ h, in4_1 ρ h, in4_2 ρ h, in4_3 ρ h, in4_4 ρ h, in4_5 ρ h, in4_6 ρ h]
  rfl

/-- Region 4's output main_v74_1 after the region. -/
theorem t_he2 (h : Agree m c V') : W10 m ρ c (Proc.devRef .tc main_v74_1) = (Terms.he2 V') := by
  refine (W10_arr m ρ c 8).trans ?_
  rw [Region4.final_next (V9 m ρ) c, in4_0 ρ h, in4_1 ρ h, in4_2 ρ h, in4_3 ρ h, in4_4 ρ h, in4_5 ρ h, in4_6 ρ h]
  rfl

/-- What stretch 5 reads of the earlier regions' results. -/
theorem enew1_at10 (h : Agree m c V') : W10 m ρ c (Proc.devRef .tc main_v74_0) = (Terms.enew1 V') :=
  t_enew1 ρ h

theorem in5_0 (h : Agree m c V') : V11 m ρ c main_v48 = (Terms.hn1 V') := ((Keep.keep_host5 m ρ c main_v48 (by decide)).trans ((W10_of_ne m ρ c main_v48 (by decide)).trans (Keep.keep_host4 m ρ c main_v48 (by decide)))).trans (t_hn1 ρ h)
set_option maxHeartbeats 4000000 in
theorem in5_1 (h : Agree m c V') : V11 m ρ c main_v77 = (Terms.sumSent V' (Terms.enew1 V')) := by
  show StableHlo.after hostOps5 (W10 m ρ c) (Proc.devRef .tc main_v77) = _
  after_results
  simp only [arg2_at10 ρ h, arg3_at10 ρ h, arg16_at10 ρ h, arg17_at10 ρ h, arg18_at10 ρ h, arg19_at10 ρ h, enew1_at10 ρ h]
  first | rfl | exact Cert.Lib.DenseLayer.addUnit_eq_bcast (by decide) _ _ _ | exact unit_row _ _ _
set_option maxHeartbeats 4000000 in
theorem in5_2 (h : Agree m c V') : V11 m ρ c main_v80 = (Terms.sumRecv V' (Terms.enew1 V')) := by
  show StableHlo.after hostOps5 (W10 m ρ c) (Proc.devRef .tc main_v80) = _
  after_results
  simp only [arg2_at10 ρ h, arg3_at10 ρ h, arg16_at10 ρ h, arg17_at10 ρ h, arg18_at10 ρ h, arg19_at10 ρ h, enew1_at10 ρ h]
  first | rfl | exact Cert.Lib.DenseLayer.addUnit_eq_bcast (by decide) _ _ _ | exact unit_row _ _ _
set_option maxHeartbeats 4000000 in
theorem in5_3 (h : Agree m c V') : V11 m ρ c main_v82 = (Terms.nW1_1 V') := by
  show StableHlo.after hostOps5 (W10 m ρ c) (Proc.devRef .tc main_v82) = _
  after_results
  simp only [arg2_at10 ρ h, arg3_at10 ρ h, arg16_at10 ρ h, arg17_at10 ρ h, arg18_at10 ρ h, arg19_at10 ρ h, enew1_at10 ρ h]
  first | rfl | exact Cert.Lib.DenseLayer.addUnit_eq_bcast (by decide) _ _ _ | exact unit_row _ _ _
set_option maxHeartbeats 4000000 in
theorem in5_4 (h : Agree m c V') : V11 m ρ c main_v89 = (Terms.nb1_1 V') := by
  show StableHlo.after hostOps5 (W10 m ρ c) (Proc.devRef .tc main_v89) = _
  after_results
  simp only [arg2_at10 ρ h, arg3_at10 ρ h, arg16_at10 ρ h, arg17_at10 ρ h, arg18_at10 ρ h, arg19_at10 ρ h, enew1_at10 ρ h]
  first | rfl | exact Cert.Lib.DenseLayer.addUnit_eq_bcast (by decide) _ _ _ | exact unit_row _ _ _
set_option maxHeartbeats 4000000 in
theorem in5_5 (h : Agree m c V') : V11 m ρ c main_v86 = (Terms.nW2_1 V') := by
  show StableHlo.after hostOps5 (W10 m ρ c) (Proc.devRef .tc main_v86) = _
  after_results
  simp only [arg2_at10 ρ h, arg3_at10 ρ h, arg16_at10 ρ h, arg17_at10 ρ h, arg18_at10 ρ h, arg19_at10 ρ h, enew1_at10 ρ h]
  first | rfl | exact Cert.Lib.DenseLayer.addUnit_eq_bcast (by decide) _ _ _ | exact unit_row _ _ _
set_option maxHeartbeats 4000000 in
theorem in5_6 (h : Agree m c V') : V11 m ρ c main_v90 = (Terms.nb2_1 V') := by
  show StableHlo.after hostOps5 (W10 m ρ c) (Proc.devRef .tc main_v90) = _
  after_results
  simp only [arg2_at10 ρ h, arg3_at10 ρ h, arg16_at10 ρ h, arg17_at10 ρ h, arg18_at10 ρ h, arg19_at10 ρ h, enew1_at10 ρ h]
  first | rfl | exact Cert.Lib.DenseLayer.addUnit_eq_bcast (by decide) _ _ _ | exact unit_row _ _ _

/-- Region 5's output main_v91 after the region. -/
theorem t_hn2 (h : Agree m c V') : W12 m ρ c (Proc.devRef .tc main_v91) = (Terms.hn2 V') := by
  refine (W12_arr m ρ c 7).trans ?_
  rw [Region5.final_next (V11 m ρ) c, in5_0 ρ h, in5_1 ρ h, in5_2 ρ h, in5_3 ρ h, in5_4 ρ h, in5_5 ρ h, in5_6 ρ h]
  rfl

end Cert.Chain

end
-- ==== Proof.Region6.lean ====
/-
  Region 6 of the kernel's @main: the edge update of step 2 over 160000 edges in blocks of 4000, with the new and the next edge features as two outputs.

  The grid has 40 points; point t stages rows 4000·t … 4000·t + 3999 of the three row-tiled inputs, the whole weight and bias
  arrays, and writes back the same rows of each of the two outputs. The body's stored block is, by the payload lemma, that
  block of rows of the whole-array function; the 40 blocks cover every row; so each output array after the region is
  the whole-array function of the arrays the region found.
-/
import proofs.«150645_j45672682226304_2_alg».proof.Proof.Gen.KernelIdeal.Frame
import proofs.«150645_j45672682226304_2_alg».proof.Proof.Payloads
import proofs.«150645_j45672682226304_2_alg».proof.Proof.LibRowRead

set_option maxRecDepth 16384

noncomputable section

namespace Cert.KernelIdeal.Region6

open Idealize.ShloMosaic Idealize.ShloMosaic.TcCoe Idealize.ShloMosaic.ValueIdx Idealize.SL.Sem
open Cert.KernelIdeal Cert.KernelIdeal.Gen Cert.Lib.DenseLayer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = t.val
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = 0
    ∧ win6_5.index t (1 : Fin 2) = 0
    ∧ win6_6.index t (0 : Fin 2) = 0
    ∧ win6_6.index t (1 : Fin 2) = 0
    ∧ win6_7.index t (0 : Fin 2) = t.val
    ∧ win6_7.index t (1 : Fin 2) = 0
    ∧ win6_8.index t (0 : Fin 2) = t.val
    ∧ win6_8.index t (1 : Fin 2) = 0 :=
  (by decide +kernel : ∀ t : Fin grid6.N, _)

/-- Window 0's block at point t is the block of rows of its array that starts at row 4000·t. -/
theorem blk0 (c : Dev nD) (t : Fin cfg6.N) : RowBlk (t.val * 4000) (iblk6 V c 0 t) (V c (Pipeline.arrRef spec6 0)) :=
  RowBlk.of_read (fun y => ((cfg6.win 0).blk t).view.emb y)
    (fun y => by show win6_0.index t (0 : Fin 2) * 4000 + 1 * (y 0).val = t.val * 4000 + (y 0).val; rw [(idx_facts t).1]; omega)
    (fun y => by show win6_0.index t (1 : Fin 2) * 128 + 1 * (y 1).val = (y 1).val; rw [(idx_facts t).2.1]; omega)
    (fun y => rfl)

/-- Window 1's block at point t is the block of rows of its array that starts at row 4000·t. -/
theorem blk1 (c : Dev nD) (t : Fin cfg6.N) : RowBlk (t.val * 4000) (iblk6 V c 1 t) (V c (Pipeline.arrRef spec6 1)) :=
  RowBlk.of_read (fun y => ((cfg6.win 1).blk t).view.emb y)
    (fun y => by show win6_1.index t (0 : Fin 2) * 4000 + 1 * (y 0).val = t.val * 4000 + (y 0).val; rw [(idx_facts t).2.2.1]; omega)
    (fun y => by show win6_1.index t (1 : Fin 2) * 128 + 1 * (y 1).val = (y 1).val; rw [(idx_facts t).2.2.2.1]; omega)
    (fun y => rfl)

/-- Window 2's block at point t is the block of rows of its array that starts at row 4000·t. -/
theorem blk2 (c : Dev nD) (t : Fin cfg6.N) : RowBlk (t.val * 4000) (iblk6 V c 2 t) (V c (Pipeline.arrRef spec6 2)) :=
  RowBlk.of_read (fun y => ((cfg6.win 2).blk t).view.emb y)
    (fun y => by show win6_2.index t (0 : Fin 2) * 4000 + 1 * (y 0).val = t.val * 4000 + (y 0).val; rw [(idx_facts t).2.2.2.2.1]; omega)
    (fun y => by show win6_2.index t (1 : Fin 2) * 128 + 1 * (y 1).val = (y 1).val; rw [(idx_facts t).2.2.2.2.2.1]; omega)
    (fun y => rfl)

/-- Window 3 stages its whole array at every point. -/
theorem blk3 (c : Dev nD) (t : Fin cfg6.N) : iblk6 V c 3 t = V c (Pipeline.arrRef spec6 3) :=
  funext fun y => congrArg (V c (Pipeline.arrRef spec6 3)) (funext fun a => Fin.ext (by
    match a with
    | ⟨0, _⟩ => show win6_3.index t (0 : Fin 2) * 384 + 1 * (y 0).val = (y 0).val; rw [(idx_facts t).2.2.2.2.2.2.1]; omega
    | ⟨1, _⟩ => show win6_3.index t (1 : Fin 2) * 128 + 1 * (y 1).val = (y 1).val; rw [(idx_facts t).2.2.2.2.2.2.2.1]; omega))

/-- Window 4 stages its whole array at every point. -/
theorem blk4 (c : Dev nD) (t : Fin cfg6.N) : iblk6 V c 4 t = V c (Pipeline.arrRef spec6 4) :=
  funext fun y => congrArg (V c (Pipeline.arrRef spec6 4)) (funext fun a => Fin.ext (by
    match a with
    | ⟨0, _⟩ => show win6_4.index t (0 : Fin 2) * 1 + 1 * (y 0).val = (y 0).val; rw [(idx_facts t).2.2.2.2.2.2.2.2.1]; omega
    | ⟨1, _⟩ => show win6_4.index t (1 : Fin 2) * 128 + 1 * (y 1).val = (y 1).val; rw [(idx_facts t).2.2.2.2.2.2.2.2.2.1]; omega))

/-- Window 5 stages its whole array at every point. -/
theorem blk5 (c : Dev nD) (t : Fin cfg6.N) : iblk6 V c 5 t = V c (Pipeline.arrRef spec6 5) :=
  funext fun y => congrArg (V c (Pipeline.arrRef spec6 5)) (funext fun a => Fin.ext (by
    match a with
    | ⟨0, _⟩ => show win6_5.index t (0 : Fin 2) * 128 + 1 * (y 0).val = (y 0).val; rw [(idx_facts t).2.2.2.2.2.2.2.2.2.2.1]; omega
    | ⟨1, _⟩ => show win6_5.index t (1 : Fin 2) * 128 + 1 * (y 1).val = (y 1).val; rw [(idx_facts t).2.2.2.2.2.2.2.2.2.2.2.1]; omega))

/-- Window 6 stages its whole array at every point. -/
theorem blk6 (c : Dev nD) (t : Fin cfg6.N) : iblk6 V c 6 t = V c (Pipeline.arrRef spec6 6) :=
  funext fun y => congrArg (V c (Pipeline.arrRef spec6 6)) (funext fun a => Fin.ext (by
    match a with
    | ⟨0, _⟩ => show win6_6.index t (0 : Fin 2) * 1 + 1 * (y 0).val = (y 0).val; rw [(idx_facts t).2.2.2.2.2.2.2.2.2.2.2.2.1]; omega
    | ⟨1, _⟩ => show win6_6.index t (1 : Fin 2) * 128 + 1 * (y 1).val = (y 1).val; rw [(idx_facts t).2.2.2.2.2.2.2.2.2.2.2.2.2.1]; omega))

/-- What point t writes back through output window 7 is block t of the whole-array function. -/
theorem flushed_new (c : Dev nD) (t : Fin cfg6.N) :
    (dat6 V c).flushed 7 t = ((cfg6.win 7).blk t).view.read (Elt Ideal) (Cert.Spec.edgeUpdate (V c main_v74_1) (V c main_v99) (V c main_v106) (V c main_v108) (V c main_v115) (V c main_v112) (V c main_v116)) := by
  show (cfg6.win 7).cut (grid6.coords t) ((dat6 V c).after 7 t) = _
  rw [after6_7]
  unfold out6_7
  rw [View.canon_unit_zero hz]
  simp only [View.ld_unit_zero (S := S4000x128) hz, View.ld_unit_zero (S := S384x128) hz, View.ld_unit_zero (S := S1x128) hz, View.ld_unit_zero (S := S128x128) hz]
  rw [blk3 V c t, blk4 V c t, blk5 V c t, blk6 V c t, Cert.Payloads.k6_pay2_eq]
  funext j
  exact (Cert.Payloads.edge_new_blk (blk0 V c t) (blk1 V c t) (blk2 V c t) _ _ _ _).read j (((cfg6.win 7).blk t).view.emb j)
    (by show win6_7.index t (0 : Fin 2) * 4000 + 1 * (j 0).val = t.val * 4000 + (j 0).val; rw [(idx_facts t).2.2.2.2.2.2.2.2.2.2.2.2.2.2.1]; omega)
    (by show win6_7.index t (1 : Fin 2) * 128 + 1 * (j 1).val = (j 1).val; rw [(idx_facts t).2.2.2.2.2.2.2.2.2.2.2.2.2.2.2.1]; omega)

/-- An index of output array 7 is in point t's block iff each coordinate is in the block's range. -/
theorem mem_blk_new (t : Fin cfg6.N) (i : S160000x128.Idx) :
    i ∈ ((cfg6.win 7).blk t).view.set ↔ ∀ a : Fin 2, win6_7.index t a * S4000x128.size a ≤ (i a).val ∧ (i a).val < win6_7.index t a * S4000x128.size a + S4000x128.size a := by
  show i ∈ ((View.whole main_v117_0).slice (win6_7.rect t)).set ↔ _
  rw [View.set_slice_whole, Rect.mem_set_unit]
  exact Iff.rfl

/-- Every row of output array 7 is in the block of the point its row number divided by 4000 names. -/
theorem cover_new (i : S160000x128.Idx) : ∃ t : Fin cfg6.N, (cfg6.win 7).flush t = true ∧ i ∈ ((cfg6.win 7).blk t).view.set := by
  have hi0 : (i 0).val < 160000 := (i 0).isLt
  have hi1 : (i 1).val < 128 := (i 1).isLt
  have ht : (i 0).val / 4000 < 40 := by omega
  refine ⟨⟨(i 0).val / 4000, ht⟩, flush6_7 _, ?_⟩
  rw [mem_blk_new]
  have e0 := (idx_facts ⟨(i 0).val / 4000, ht⟩).2.2.2.2.2.2.2.2.2.2.2.2.2.2.1
  have e1 := (idx_facts ⟨(i 0).val / 4000, ht⟩).2.2.2.2.2.2.2.2.2.2.2.2.2.2.2.1
  intro a
  match a with
  | ⟨0, _⟩ =>
    show win6_7.index ⟨(i 0).val / 4000, ht⟩ (0 : Fin 2) * 4000 ≤ (i 0).val ∧ (i 0).val < win6_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win6_7.index ⟨(i 0).val / 4000, ht⟩ (1 : Fin 2) * 128 ≤ (i 1).val ∧ (i 1).val < win6_7.index ⟨(i 0).val / 4000, ht⟩ (1 : Fin 2) * 128 + 128
    rw [e1]; omega

/-- Output array 7 after the region. -/
theorem final_new (c : Dev nD) : (dat6 V c).arrAt 7 cfg6.N = Cert.Spec.edgeUpdate (V c main_v74_1) (V c main_v99) (V c main_v106) (V c main_v108) (V c main_v115) (V c main_v112) (V c main_v116) :=
  (dat6 V c).arrAt_eq_of_cover 7 _ (fun t _ => flushed_new V c t) cover_new

/-- What point t writes back through output window 8 is block t of the whole-array function. -/
theorem flushed_next (c : Dev nD) (t : Fin cfg6.N) :
    (dat6 V c).flushed 8 t = ((cfg6.win 8).blk t).view.read (Elt Ideal) (addf (Cert.Spec.edgeUpdate (V c main_v74_1) (V c main_v99) (V c main_v106) (V c main_v108) (V c main_v115) (V c main_v112) (V c main_v116)) (V c main_v74_1)) := by
  show (cfg6.win 8).cut (grid6.coords t) ((dat6 V c).after 8 t) = _
  rw [after6_8]
  unfold out6_8
  rw [View.canon_unit_zero hz]
  simp only [View.ld_unit_zero (S := S4000x128) hz, View.ld_unit_zero (S := S384x128) hz, View.ld_unit_zero (S := S1x128) hz, View.ld_unit_zero (S := S128x128) hz]
  rw [blk3 V c t, blk4 V c t, blk5 V c t, blk6 V c t, Cert.Payloads.k6_pay3_eq]
  funext j
  exact (Cert.Payloads.edge_next_blk (blk0 V c t) (blk1 V c t) (blk2 V c t) _ _ _ _).read j (((cfg6.win 8).blk t).view.emb j)
    (by show win6_8.index t (0 : Fin 2) * 4000 + 1 * (j 0).val = t.val * 4000 + (j 0).val; rw [(idx_facts t).2.2.2.2.2.2.2.2.2.2.2.2.2.2.2.2.1]; omega)
    (by show win6_8.index t (1 : Fin 2) * 128 + 1 * (j 1).val = (j 1).val; rw [(idx_facts t).2.2.2.2.2.2.2.2.2.2.2.2.2.2.2.2.2]; omega)

/-- An index of output array 8 is in point t's block iff each coordinate is in the block's range. -/
theorem mem_blk_next (t : Fin cfg6.N) (i : S160000x128.Idx) :
    i ∈ ((cfg6.win 8).blk t).view.set ↔ ∀ a : Fin 2, win6_8.index t a * S4000x128.size a ≤ (i a).val ∧ (i a).val < win6_8.index t a * S4000x128.size a + S4000x128.size a := by
  show i ∈ ((View.whole main_v117_1).slice (win6_8.rect t)).set ↔ _
  rw [View.set_slice_whole, Rect.mem_set_unit]
  exact Iff.rfl

/-- Every row of output array 8 is in the block of the point its row number divided by 4000 names. -/
theorem cover_next (i : S160000x128.Idx) : ∃ t : Fin cfg6.N, (cfg6.win 8).flush t = true ∧ i ∈ ((cfg6.win 8).blk t).view.set := by
  have hi0 : (i 0).val < 160000 := (i 0).isLt
  have hi1 : (i 1).val < 128 := (i 1).isLt
  have ht : (i 0).val / 4000 < 40 := by omega
  refine ⟨⟨(i 0).val / 4000, ht⟩, flush6_8 _, ?_⟩
  rw [mem_blk_next]
  have e0 := (idx_facts ⟨(i 0).val / 4000, ht⟩).2.2.2.2.2.2.2.2.2.2.2.2.2.2.2.2.1
  have e1 := (idx_facts ⟨(i 0).val / 4000, ht⟩).2.2.2.2.2.2.2.2.2.2.2.2.2.2.2.2.2
  intro a
  match a with
  | ⟨0, _⟩ =>
    show win6_8.index ⟨(i 0).val / 4000, ht⟩ (0 : Fin 2) * 4000 ≤ (i 0).val ∧ (i 0).val < win6_8.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win6_8.index ⟨(i 0).val / 4000, ht⟩ (1 : Fin 2) * 128 ≤ (i 1).val ∧ (i 1).val < win6_8.index ⟨(i 0).val / 4000, ht⟩ (1 : Fin 2) * 128 + 128
    rw [e1]; omega

/-- Output array 8 after the region. -/
theorem final_next (c : Dev nD) : (dat6 V c).arrAt 8 cfg6.N = addf (Cert.Spec.edgeUpdate (V c main_v74_1) (V c main_v99) (V c main_v106) (V c main_v108) (V c main_v115) (V c main_v112) (V c main_v116)) (V c main_v74_1) :=
  (dat6 V c).arrAt_eq_of_cover 8 _ (fun t _ => flushed_next V c t) cover_next

end Cert.KernelIdeal.Region6

end
-- ==== Proof.Region7.lean ====
/-
  Region 7 of the kernel's @main: the node update of step 2 over 20000 nodes in blocks of 2000, the old features added.

  The grid has 10 points; point t stages rows 2000·t … 2000·t + 1999 of the three row-tiled inputs, the whole weight and bias
  arrays, and writes back the same rows of the output. The body's stored block is, by the payload lemma, that
  block of rows of the whole-array function; the 10 blocks cover every row; so the output array after the region is
  the whole-array function of the arrays the region found.
-/
import proofs.«150645_j45672682226304_2_alg».proof.Proof.Gen.KernelIdeal.Frame
import proofs.«150645_j45672682226304_2_alg».proof.Proof.Payloads
import proofs.«150645_j45672682226304_2_alg».proof.Proof.LibRowRead

set_option maxRecDepth 16384

noncomputable section

namespace Cert.KernelIdeal.Region7

open Idealize.ShloMosaic Idealize.ShloMosaic.TcCoe Idealize.ShloMosaic.ValueIdx Idealize.SL.Sem
open Cert.KernelIdeal Cert.KernelIdeal.Gen Cert.Lib.DenseLayer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = t.val
    ∧ win7_2.index t (1 : Fin 2) = 0
    ∧ win7_3.index t (0 : Fin 2) = 0
    ∧ win7_3.index t (1 : Fin 2) = 0
    ∧ win7_4.index t (0 : Fin 2) = 0
    ∧ win7_4.index t (1 : Fin 2) = 0
    ∧ win7_5.index t (0 : Fin 2) = 0
    ∧ win7_5.index t (1 : Fin 2) = 0
    ∧ win7_6.index t (0 : Fin 2) = 0
    ∧ win7_6.index t (1 : Fin 2) = 0
    ∧ win7_7.index t (0 : Fin 2) = t.val
    ∧ win7_7.index t (1 : Fin 2) = 0 :=
  (by decide +kernel : ∀ t : Fin grid7.N, _)

/-- Window 0's block at point t is the block of rows of its array that starts at row 2000·t. -/
theorem blk0 (c : Dev nD) (t : Fin cfg7.N) : RowBlk (t.val * 2000) (iblk7 V c 0 t) (V c (Pipeline.arrRef spec7 0)) :=
  RowBlk.of_read (fun y => ((cfg7.win 0).blk t).view.emb y)
    (fun y => by show win7_0.index t (0 : Fin 2) * 2000 + 1 * (y 0).val = t.val * 2000 + (y 0).val; rw [(idx_facts t).1]; omega)
    (fun y => by show win7_0.index t (1 : Fin 2) * 128 + 1 * (y 1).val = (y 1).val; rw [(idx_facts t).2.1]; omega)
    (fun y => rfl)

/-- Window 1's block at point t is the block of rows of its array that starts at row 2000·t. -/
theorem blk1 (c : Dev nD) (t : Fin cfg7.N) : RowBlk (t.val * 2000) (iblk7 V c 1 t) (V c (Pipeline.arrRef spec7 1)) :=
  RowBlk.of_read (fun y => ((cfg7.win 1).blk t).view.emb y)
    (fun y => by show win7_1.index t (0 : Fin 2) * 2000 + 1 * (y 0).val = t.val * 2000 + (y 0).val; rw [(idx_facts t).2.2.1]; omega)
    (fun y => by show win7_1.index t (1 : Fin 2) * 128 + 1 * (y 1).val = (y 1).val; rw [(idx_facts t).2.2.2.1]; omega)
    (fun y => rfl)

/-- Window 2's block at point t is the block of rows of its array that starts at row 2000·t. -/
theorem blk2 (c : Dev nD) (t : Fin cfg7.N) : RowBlk (t.val * 2000) (iblk7 V c 2 t) (V c (Pipeline.arrRef spec7 2)) :=
  RowBlk.of_read (fun y => ((cfg7.win 2).blk t).view.emb y)
    (fun y => by show win7_2.index t (0 : Fin 2) * 2000 + 1 * (y 0).val = t.val * 2000 + (y 0).val; rw [(idx_facts t).2.2.2.2.1]; omega)
    (fun y => by show win7_2.index t (1 : Fin 2) * 128 + 1 * (y 1).val = (y 1).val; rw [(idx_facts t).2.2.2.2.2.1]; omega)
    (fun y => rfl)

/-- Window 3 stages its whole array at every point. -/
theorem blk3 (c : Dev nD) (t : Fin cfg7.N) : iblk7 V c 3 t = V c (Pipeline.arrRef spec7 3) :=
  funext fun y => congrArg (V c (Pipeline.arrRef spec7 3)) (funext fun a => Fin.ext (by
    match a with
    | ⟨0, _⟩ => show win7_3.index t (0 : Fin 2) * 384 + 1 * (y 0).val = (y 0).val; rw [(idx_facts t).2.2.2.2.2.2.1]; omega
    | ⟨1, _⟩ => show win7_3.index t (1 : Fin 2) * 128 + 1 * (y 1).val = (y 1).val; rw [(idx_facts t).2.2.2.2.2.2.2.1]; omega))

/-- Window 4 stages its whole array at every point. -/
theorem blk4 (c : Dev nD) (t : Fin cfg7.N) : iblk7 V c 4 t = V c (Pipeline.arrRef spec7 4) :=
  funext fun y => congrArg (V c (Pipeline.arrRef spec7 4)) (funext fun a => Fin.ext (by
    match a with
    | ⟨0, _⟩ => show win7_4.index t (0 : Fin 2) * 1 + 1 * (y 0).val = (y 0).val; rw [(idx_facts t).2.2.2.2.2.2.2.2.1]; omega
    | ⟨1, _⟩ => show win7_4.index t (1 : Fin 2) * 128 + 1 * (y 1).val = (y 1).val; rw [(idx_facts t).2.2.2.2.2.2.2.2.2.1]; omega))

/-- Window 5 stages its whole array at every point. -/
theorem blk5 (c : Dev nD) (t : Fin cfg7.N) : iblk7 V c 5 t = V c (Pipeline.arrRef spec7 5) :=
  funext fun y => congrArg (V c (Pipeline.arrRef spec7 5)) (funext fun a => Fin.ext (by
    match a with
    | ⟨0, _⟩ => show win7_5.index t (0 : Fin 2) * 128 + 1 * (y 0).val = (y 0).val; rw [(idx_facts t).2.2.2.2.2.2.2.2.2.2.1]; omega
    | ⟨1, _⟩ => show win7_5.index t (1 : Fin 2) * 128 + 1 * (y 1).val = (y 1).val; rw [(idx_facts t).2.2.2.2.2.2.2.2.2.2.2.1]; omega))

/-- Window 6 stages its whole array at every point. -/
theorem blk6 (c : Dev nD) (t : Fin cfg7.N) : iblk7 V c 6 t = V c (Pipeline.arrRef spec7 6) :=
  funext fun y => congrArg (V c (Pipeline.arrRef spec7 6)) (funext fun a => Fin.ext (by
    match a with
    | ⟨0, _⟩ => show win7_6.index t (0 : Fin 2) * 1 + 1 * (y 0).val = (y 0).val; rw [(idx_facts t).2.2.2.2.2.2.2.2.2.2.2.2.1]; omega
    | ⟨1, _⟩ => show win7_6.index t (1 : Fin 2) * 128 + 1 * (y 1).val = (y 1).val; rw [(idx_facts t).2.2.2.2.2.2.2.2.2.2.2.2.2.1]; omega))

/-- What point t writes back through output window 7 is block t of the whole-array function. -/
theorem flushed_next (c : Dev nD) (t : Fin cfg7.N) :
    (dat7 V c).flushed 7 t = ((cfg7.win 7).blk t).view.read (Elt Ideal) (addf (Cert.Spec.nodeUpdate (V c main_v91) (V c main_v120) (V c main_v123) (V c main_v125) (V c main_v132) (V c main_v129) (V c main_v133)) (V c main_v91)) := by
  show (cfg7.win 7).cut (grid7.coords t) ((dat7 V c).after 7 t) = _
  rw [after7_7]
  unfold out7_7
  rw [View.canon_unit_zero hz]
  simp only [View.ld_unit_zero (S := S2000x128) hz, View.ld_unit_zero (S := S384x128) hz, View.ld_unit_zero (S := S1x128) hz, View.ld_unit_zero (S := S128x128) hz]
  rw [blk3 V c t, blk4 V c t, blk5 V c t, blk6 V c t, Cert.Payloads.k7_pay1_eq]
  funext j
  exact (Cert.Payloads.node_next_blk (blk0 V c t) (blk1 V c t) (blk2 V c t) _ _ _ _).read j (((cfg7.win 7).blk t).view.emb j)
    (by show win7_7.index t (0 : Fin 2) * 2000 + 1 * (j 0).val = t.val * 2000 + (j 0).val; rw [(idx_facts t).2.2.2.2.2.2.2.2.2.2.2.2.2.2.1]; omega)
    (by show win7_7.index t (1 : Fin 2) * 128 + 1 * (j 1).val = (j 1).val; rw [(idx_facts t).2.2.2.2.2.2.2.2.2.2.2.2.2.2.2]; omega)

/-- An index of output array 7 is in point t's block iff each coordinate is in the block's range. -/
theorem mem_blk_next (t : Fin cfg7.N) (i : S20000x128.Idx) :
    i ∈ ((cfg7.win 7).blk t).view.set ↔ ∀ a : Fin 2, win7_7.index t a * S2000x128.size a ≤ (i a).val ∧ (i a).val < win7_7.index t a * S2000x128.size a + S2000x128.size a := by
  show i ∈ ((View.whole main_v134).slice (win7_7.rect t)).set ↔ _
  rw [View.set_slice_whole, Rect.mem_set_unit]
  exact Iff.rfl

/-- Every row of output array 7 is in the block of the point its row number divided by 2000 names. -/
theorem cover_next (i : S20000x128.Idx) : ∃ t : Fin cfg7.N, (cfg7.win 7).flush t = true ∧ i ∈ ((cfg7.win 7).blk t).view.set := by
  have hi0 : (i 0).val < 20000 := (i 0).isLt
  have hi1 : (i 1).val < 128 := (i 1).isLt
  have ht : (i 0).val / 2000 < 10 := by omega
  refine ⟨⟨(i 0).val / 2000, ht⟩, flush7_7 _, ?_⟩
  rw [mem_blk_next]
  have e0 := (idx_facts ⟨(i 0).val / 2000, ht⟩).2.2.2.2.2.2.2.2.2.2.2.2.2.2.1
  have e1 := (idx_facts ⟨(i 0).val / 2000, ht⟩).2.2.2.2.2.2.2.2.2.2.2.2.2.2.2
  intro a
  match a with
  | ⟨0, _⟩ =>
    show win7_7.index ⟨(i 0).val / 2000, ht⟩ (0 : Fin 2) * 2000 ≤ (i 0).val ∧ (i 0).val < win7_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win7_7.index ⟨(i 0).val / 2000, ht⟩ (1 : Fin 2) * 128 ≤ (i 1).val ∧ (i 1).val < win7_7.index ⟨(i 0).val / 2000, ht⟩ (1 : Fin 2) * 128 + 128
    rw [e1]; omega

/-- Output array 7 after the region. -/
theorem final_next (c : Dev nD) : (dat7 V c).arrAt 7 cfg7.N = addf (Cert.Spec.nodeUpdate (V c main_v91) (V c main_v120) (V c main_v123) (V c main_v125) (V c main_v132) (V c main_v129) (V c main_v133)) (V c main_v91) :=
  (dat7 V c).arrAt_eq_of_cover 7 _ (fun t _ => flushed_next V c t) cover_next

end Cert.KernelIdeal.Region7

end
-- ==== Proof.ChainStep2.lean ====
/-
  Message-passing step 2: regions 6 and 7 of the kernel's @main leave the new edge features, the next edge features and
  the next node features of step 2.

  The stretch of host operations before the edge region gathers the sender and receiver rows of the current node
  features and slices the step's weights; the stretch before the node region forms the two segment sums of the new
  edge features. Each region's output is the whole-array function of what it found (Region6, Region7).
-/
import proofs.«150645_j45672682226304_2_alg».proof.Proof.ChainStep1
import proofs.«150645_j45672682226304_2_alg».proof.Proof.Region6
import proofs.«150645_j45672682226304_2_alg».proof.Proof.Region7

set_option maxRecDepth 16384

noncomputable section

namespace Cert.Chain

open Idealize.ShloMosaic Idealize.ShloMosaic.TcCoe Idealize.ShloMosaic.StableHlo Idealize.SL.Sem
open Cert.KernelIdeal Cert.KernelIdeal.Gen Cert.KernelIdeal

variable {m : (ℓ : Loc nD τ sig) → Buf (Elt Ideal) ℓ} (ρ : Dev nD → PrngReg) {c : Dev nD}
variable {V' : Valuation Cert.ReferenceIdeal.τ Cert.ReferenceIdeal.sig (Elt Ideal)}

/-- What stretch 6 reads of the earlier regions' results. -/
theorem hn2_at12 (h : Agree m c V') : W12 m ρ c (Proc.devRef .tc main_v91) = (Terms.hn2 V') :=
  t_hn2 ρ h

theorem in6_0 (h : Agree m c V') : V13 m ρ c main_v74_1 = (Terms.he2 V') := ((Keep.keep_host6 m ρ c main_v74_1 (by decide)).trans ((W12_of_ne m ρ c main_v74_1 (by decide)).trans (Keep.keep_host5 m ρ c main_v74_1 (by decide)))).trans (t_he2 ρ h)
set_option maxHeartbeats 4000000 in
theorem in6_1 (h : Agree m c V') : V13 m ρ c main_v99 = (Terms.pick (Terms.hn2 V') (Terms.sIdx V')) := by
  show StableHlo.after hostOps6 (W12 m ρ c) (Proc.devRef .tc main_v99) = _
  after_results
  simp only [arg2_at12 ρ h, arg3_at12 ρ h, arg12_at12 ρ h, arg13_at12 ρ h, arg14_at12 ρ h, arg15_at12 ρ h, hn2_at12 ρ h]
  first | rfl | exact Cert.Lib.DenseLayer.addUnit_eq_bcast (by decide) _ _ _ | exact unit_row _ _ _
set_option maxHeartbeats 4000000 in
theorem in6_2 (h : Agree m c V') : V13 m ρ c main_v106 = (Terms.pick (Terms.hn2 V') (Terms.rIdx V')) := by
  show StableHlo.after hostOps6 (W12 m ρ c) (Proc.devRef .tc main_v106) = _
  after_results
  simp only [arg2_at12 ρ h, arg3_at12 ρ h, arg12_at12 ρ h, arg13_at12 ρ h, arg14_at12 ρ h, arg15_at12 ρ h, hn2_at12 ρ h]
  first | rfl | exact Cert.Lib.DenseLayer.addUnit_eq_bcast (by decide) _ _ _ | exact unit_row _ _ _
set_option maxHeartbeats 4000000 in
theorem in6_3 (h : Agree m c V') : V13 m ρ c main_v108 = (Terms.eW1_2 V') := by
  show StableHlo.after hostOps6 (W12 m ρ c) (Proc.devRef .tc main_v108) = _
  after_results
  simp only [arg2_at12 ρ h, arg3_at12 ρ h, arg12_at12 ρ h, arg13_at12 ρ h, arg14_at12 ρ h, arg15_at12 ρ h, hn2_at12 ρ h]
  first | rfl | exact Cert.Lib.DenseLayer.addUnit_eq_bcast (by decide) _ _ _ | exact unit_row _ _ _
set_option maxHeartbeats 4000000 in
theorem in6_4 (h : Agree m c V') : V13 m ρ c main_v115 = (Terms.eb1_2 V') := by
  show StableHlo.after hostOps6 (W12 m ρ c) (Proc.devRef .tc main_v115) = _
  after_results
  simp only [arg2_at12 ρ h, arg3_at12 ρ h, arg12_at12 ρ h, arg13_at12 ρ h, arg14_at12 ρ h, arg15_at12 ρ h, hn2_at12 ρ h]
  first | rfl | exact Cert.Lib.DenseLayer.addUnit_eq_bcast (by decide) _ _ _ | exact unit_row _ _ _
set_option maxHeartbeats 4000000 in
theorem in6_5 (h : Agree m c V') : V13 m ρ c main_v112 = (Terms.eW2_2 V') := by
  show StableHlo.after hostOps6 (W12 m ρ c) (Proc.devRef .tc main_v112) = _
  after_results
  simp only [arg2_at12 ρ h, arg3_at12 ρ h, arg12_at12 ρ h, arg13_at12 ρ h, arg14_at12 ρ h, arg15_at12 ρ h, hn2_at12 ρ h]
  first | rfl | exact Cert.Lib.DenseLayer.addUnit_eq_bcast (by decide) _ _ _ | exact unit_row _ _ _
set_option maxHeartbeats 4000000 in
theorem in6_6 (h : Agree m c V') : V13 m ρ c main_v116 = (Terms.eb2_2 V') := by
  show StableHlo.after hostOps6 (W12 m ρ c) (Proc.devRef .tc main_v116) = _
  after_results
  simp only [arg2_at12 ρ h, arg3_at12 ρ h, arg12_at12 ρ h, arg13_at12 ρ h, arg14_at12 ρ h, arg15_at12 ρ h, hn2_at12 ρ h]
  first | rfl | exact Cert.Lib.DenseLayer.addUnit_eq_bcast (by decide) _ _ _ | exact unit_row _ _ _

/-- Region 6's output main_v117_0 after the region. -/
theorem t_enew2 (h : Agree m c V') : W14 m ρ c (Proc.devRef .tc main_v117_0) = (Terms.enew2 V') := by
  refine (W14_arr m ρ c 7).trans ?_
  rw [Region6.final_new (V13 m ρ) c, in6_0 ρ h, in6_1 ρ h, in6_2 ρ h, in6_3 ρ h, in6_4 ρ h, in6_5 ρ h, in6_6 ρ h]
  rfl

/-- Region 6's output main_v117_1 after the region. -/
theorem t_he3 (h : Agree m c V') : W14 m ρ c (Proc.devRef .tc main_v117_1) = (Terms.he3 V') := by
  refine (W14_arr m ρ c 8).trans ?_
  rw [Region6.final_next (V13 m ρ) c, in6_0 ρ h, in6_1 ρ h, in6_2 ρ h, in6_3 ρ h, in6_4 ρ h, in6_5 ρ h, in6_6 ρ h]
  rfl

/-- What stretch 7 reads of the earlier regions' results. -/
theorem enew2_at14 (h : Agree m c V') : W14 m ρ c (Proc.devRef .tc main_v117_0) = (Terms.enew2 V') :=
  t_enew2 ρ h

theorem in7_0 (h : Agree m c V') : V15 m ρ c main_v91 = (Terms.hn2 V') := ((Keep.keep_host7 m ρ c main_v91 (by decide)).trans ((W14_of_ne m ρ c main_v91 (by decide)).trans (Keep.keep_host6 m ρ c main_v91 (by decide)))).trans (t_hn2 ρ h)
set_option maxHeartbeats 4000000 in
theorem in7_1 (h : Agree m c V') : V15 m ρ c main_v120 = (Terms.sumSent V' (Terms.enew2 V')) := by
  show StableHlo.after hostOps7 (W14 m ρ c) (Proc.devRef .tc main_v120) = _
  after_results
  simp only [arg2_at14 ρ h, arg3_at14 ρ h, arg16_at14 ρ h, arg17_at14 ρ h, arg18_at14 ρ h, arg19_at14 ρ h, enew2_at14 ρ h]
  first | rfl | exact Cert.Lib.DenseLayer.addUnit_eq_bcast (by decide) _ _ _ | exact unit_row _ _ _
set_option maxHeartbeats 4000000 in
theorem in7_2 (h : Agree m c V') : V15 m ρ c main_v123 = (Terms.sumRecv V' (Terms.enew2 V')) := by
  show StableHlo.after hostOps7 (W14 m ρ c) (Proc.devRef .tc main_v123) = _
  after_results
  simp only [arg2_at14 ρ h, arg3_at14 ρ h, arg16_at14 ρ h, arg17_at14 ρ h, arg18_at14 ρ h, arg19_at14 ρ h, enew2_at14 ρ h]
  first | rfl | exact Cert.Lib.DenseLayer.addUnit_eq_bcast (by decide) _ _ _ | exact unit_row _ _ _
set_option maxHeartbeats 4000000 in
theorem in7_3 (h : Agree m c V') : V15 m ρ c main_v125 = (Terms.nW1_2 V') := by
  show StableHlo.after hostOps7 (W14 m ρ c) (Proc.devRef .tc main_v125) = _
  after_results
  simp only [arg2_at14 ρ h, arg3_at14 ρ h, arg16_at14 ρ h, arg17_at14 ρ h, arg18_at14 ρ h, arg19_at14 ρ h, enew2_at14 ρ h]
  first | rfl | exact Cert.Lib.DenseLayer.addUnit_eq_bcast (by decide) _ _ _ | exact unit_row _ _ _
set_option maxHeartbeats 4000000 in
theorem in7_4 (h : Agree m c V') : V15 m ρ c main_v132 = (Terms.nb1_2 V') := by
  show StableHlo.after hostOps7 (W14 m ρ c) (Proc.devRef .tc main_v132) = _
  after_results
  simp only [arg2_at14 ρ h, arg3_at14 ρ h, arg16_at14 ρ h, arg17_at14 ρ h, arg18_at14 ρ h, arg19_at14 ρ h, enew2_at14 ρ h]
  first | rfl | exact Cert.Lib.DenseLayer.addUnit_eq_bcast (by decide) _ _ _ | exact unit_row _ _ _
set_option maxHeartbeats 4000000 in
theorem in7_5 (h : Agree m c V') : V15 m ρ c main_v129 = (Terms.nW2_2 V') := by
  show StableHlo.after hostOps7 (W14 m ρ c) (Proc.devRef .tc main_v129) = _
  after_results
  simp only [arg2_at14 ρ h, arg3_at14 ρ h, arg16_at14 ρ h, arg17_at14 ρ h, arg18_at14 ρ h, arg19_at14 ρ h, enew2_at14 ρ h]
  first | rfl | exact Cert.Lib.DenseLayer.addUnit_eq_bcast (by decide) _ _ _ | exact unit_row _ _ _
set_option maxHeartbeats 4000000 in
theorem in7_6 (h : Agree m c V') : V15 m ρ c main_v133 = (Terms.nb2_2 V') := by
  show StableHlo.after hostOps7 (W14 m ρ c) (Proc.devRef .tc main_v133) = _
  after_results
  simp only [arg2_at14 ρ h, arg3_at14 ρ h, arg16_at14 ρ h, arg17_at14 ρ h, arg18_at14 ρ h, arg19_at14 ρ h, enew2_at14 ρ h]
  first | rfl | exact Cert.Lib.DenseLayer.addUnit_eq_bcast (by decide) _ _ _ | exact unit_row _ _ _

/-- Region 7's output main_v134 after the region. -/
theorem t_hn3 (h : Agree m c V') : W16 m ρ c (Proc.devRef .tc main_v134) = (Terms.hn3 V') := by
  refine (W16_arr m ρ c 7).trans ?_
  rw [Region7.final_next (V15 m ρ) c, in7_0 ρ h, in7_1 ρ h, in7_2 ρ h, in7_3 ρ h, in7_4 ρ h, in7_5 ρ h, in7_6 ρ h]
  rfl

end Cert.Chain

end
-- ==== Proof.Region8.lean ====
/-
  Region 8 of the kernel's @main: the edge update of step 3 over 160000 edges in blocks of 4000, with the new and the next edge features as two outputs.

  The grid has 40 points; point t stages rows 4000·t … 4000·t + 3999 of the three row-tiled inputs, the whole weight and bias
  arrays, and writes back the same rows of each of the two outputs. The body's stored block is, by the payload lemma, that
  block of rows of the whole-array function; the 40 blocks cover every row; so each output array after the region is
  the whole-array function of the arrays the region found.
-/
import proofs.«150645_j45672682226304_2_alg».proof.Proof.Gen.KernelIdeal.Frame
import proofs.«150645_j45672682226304_2_alg».proof.Proof.Payloads
import proofs.«150645_j45672682226304_2_alg».proof.Proof.LibRowRead

set_option maxRecDepth 16384

noncomputable section

namespace Cert.KernelIdeal.Region8

open Idealize.ShloMosaic Idealize.ShloMosaic.TcCoe Idealize.ShloMosaic.ValueIdx Idealize.SL.Sem
open Cert.KernelIdeal Cert.KernelIdeal.Gen Cert.Lib.DenseLayer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg8.N, win8_0.index t (0 : Fin 2) = t.val
    ∧ win8_0.index t (1 : Fin 2) = 0
    ∧ win8_1.index t (0 : Fin 2) = t.val
    ∧ win8_1.index t (1 : Fin 2) = 0
    ∧ win8_2.index t (0 : Fin 2) = t.val
    ∧ win8_2.index t (1 : Fin 2) = 0
    ∧ win8_3.index t (0 : Fin 2) = 0
    ∧ win8_3.index t (1 : Fin 2) = 0
    ∧ win8_4.index t (0 : Fin 2) = 0
    ∧ win8_4.index t (1 : Fin 2) = 0
    ∧ win8_5.index t (0 : Fin 2) = 0
    ∧ win8_5.index t (1 : Fin 2) = 0
    ∧ win8_6.index t (0 : Fin 2) = 0
    ∧ win8_6.index t (1 : Fin 2) = 0
    ∧ win8_7.index t (0 : Fin 2) = t.val
    ∧ win8_7.index t (1 : Fin 2) = 0
    ∧ win8_8.index t (0 : Fin 2) = t.val
    ∧ win8_8.index t (1 : Fin 2) = 0 :=
  (by decide +kernel : ∀ t : Fin grid8.N, _)

/-- Window 0's block at point t is the block of rows of its array that starts at row 4000·t. -/
theorem blk0 (c : Dev nD) (t : Fin cfg8.N) : RowBlk (t.val * 4000) (iblk8 V c 0 t) (V c (Pipeline.arrRef spec8 0)) :=
  RowBlk.of_read (fun y => ((cfg8.win 0).blk t).view.emb y)
    (fun y => by show win8_0.index t (0 : Fin 2) * 4000 + 1 * (y 0).val = t.val * 4000 + (y 0).val; rw [(idx_facts t).1]; omega)
    (fun y => by show win8_0.index t (1 : Fin 2) * 128 + 1 * (y 1).val = (y 1).val; rw [(idx_facts t).2.1]; omega)
    (fun y => rfl)

/-- Window 1's block at point t is the block of rows of its array that starts at row 4000·t. -/
theorem blk1 (c : Dev nD) (t : Fin cfg8.N) : RowBlk (t.val * 4000) (iblk8 V c 1 t) (V c (Pipeline.arrRef spec8 1)) :=
  RowBlk.of_read (fun y => ((cfg8.win 1).blk t).view.emb y)
    (fun y => by show win8_1.index t (0 : Fin 2) * 4000 + 1 * (y 0).val = t.val * 4000 + (y 0).val; rw [(idx_facts t).2.2.1]; omega)
    (fun y => by show win8_1.index t (1 : Fin 2) * 128 + 1 * (y 1).val = (y 1).val; rw [(idx_facts t).2.2.2.1]; omega)
    (fun y => rfl)

/-- Window 2's block at point t is the block of rows of its array that starts at row 4000·t. -/
theorem blk2 (c : Dev nD) (t : Fin cfg8.N) : RowBlk (t.val * 4000) (iblk8 V c 2 t) (V c (Pipeline.arrRef spec8 2)) :=
  RowBlk.of_read (fun y => ((cfg8.win 2).blk t).view.emb y)
    (fun y => by show win8_2.index t (0 : Fin 2) * 4000 + 1 * (y 0).val = t.val * 4000 + (y 0).val; rw [(idx_facts t).2.2.2.2.1]; omega)
    (fun y => by show win8_2.index t (1 : Fin 2) * 128 + 1 * (y 1).val = (y 1).val; rw [(idx_facts t).2.2.2.2.2.1]; omega)
    (fun y => rfl)

/-- Window 3 stages its whole array at every point. -/
theorem blk3 (c : Dev nD) (t : Fin cfg8.N) : iblk8 V c 3 t = V c (Pipeline.arrRef spec8 3) :=
  funext fun y => congrArg (V c (Pipeline.arrRef spec8 3)) (funext fun a => Fin.ext (by
    match a with
    | ⟨0, _⟩ => show win8_3.index t (0 : Fin 2) * 384 + 1 * (y 0).val = (y 0).val; rw [(idx_facts t).2.2.2.2.2.2.1]; omega
    | ⟨1, _⟩ => show win8_3.index t (1 : Fin 2) * 128 + 1 * (y 1).val = (y 1).val; rw [(idx_facts t).2.2.2.2.2.2.2.1]; omega))

/-- Window 4 stages its whole array at every point. -/
theorem blk4 (c : Dev nD) (t : Fin cfg8.N) : iblk8 V c 4 t = V c (Pipeline.arrRef spec8 4) :=
  funext fun y => congrArg (V c (Pipeline.arrRef spec8 4)) (funext fun a => Fin.ext (by
    match a with
    | ⟨0, _⟩ => show win8_4.index t (0 : Fin 2) * 1 + 1 * (y 0).val = (y 0).val; rw [(idx_facts t).2.2.2.2.2.2.2.2.1]; omega
    | ⟨1, _⟩ => show win8_4.index t (1 : Fin 2) * 128 + 1 * (y 1).val = (y 1).val; rw [(idx_facts t).2.2.2.2.2.2.2.2.2.1]; omega))

/-- Window 5 stages its whole array at every point. -/
theorem blk5 (c : Dev nD) (t : Fin cfg8.N) : iblk8 V c 5 t = V c (Pipeline.arrRef spec8 5) :=
  funext fun y => congrArg (V c (Pipeline.arrRef spec8 5)) (funext fun a => Fin.ext (by
    match a with
    | ⟨0, _⟩ => show win8_5.index t (0 : Fin 2) * 128 + 1 * (y 0).val = (y 0).val; rw [(idx_facts t).2.2.2.2.2.2.2.2.2.2.1]; omega
    | ⟨1, _⟩ => show win8_5.index t (1 : Fin 2) * 128 + 1 * (y 1).val = (y 1).val; rw [(idx_facts t).2.2.2.2.2.2.2.2.2.2.2.1]; omega))

/-- Window 6 stages its whole array at every point. -/
theorem blk6 (c : Dev nD) (t : Fin cfg8.N) : iblk8 V c 6 t = V c (Pipeline.arrRef spec8 6) :=
  funext fun y => congrArg (V c (Pipeline.arrRef spec8 6)) (funext fun a => Fin.ext (by
    match a with
    | ⟨0, _⟩ => show win8_6.index t (0 : Fin 2) * 1 + 1 * (y 0).val = (y 0).val; rw [(idx_facts t).2.2.2.2.2.2.2.2.2.2.2.2.1]; omega
    | ⟨1, _⟩ => show win8_6.index t (1 : Fin 2) * 128 + 1 * (y 1).val = (y 1).val; rw [(idx_facts t).2.2.2.2.2.2.2.2.2.2.2.2.2.1]; omega))

/-- What point t writes back through output window 7 is block t of the whole-array function. -/
theorem flushed_new (c : Dev nD) (t : Fin cfg8.N) :
    (dat8 V c).flushed 7 t = ((cfg8.win 7).blk t).view.read (Elt Ideal) (Cert.Spec.edgeUpdate (V c main_v117_1) (V c main_v142) (V c main_v149) (V c main_v151) (V c main_v158) (V c main_v155) (V c main_v159)) := by
  show (cfg8.win 7).cut (grid8.coords t) ((dat8 V c).after 7 t) = _
  rw [after8_7]
  unfold out8_7
  rw [View.canon_unit_zero hz]
  simp only [View.ld_unit_zero (S := S4000x128) hz, View.ld_unit_zero (S := S384x128) hz, View.ld_unit_zero (S := S1x128) hz, View.ld_unit_zero (S := S128x128) hz]
  rw [blk3 V c t, blk4 V c t, blk5 V c t, blk6 V c t, Cert.Payloads.k8_pay2_eq]
  funext j
  exact (Cert.Payloads.edge_new_blk (blk0 V c t) (blk1 V c t) (blk2 V c t) _ _ _ _).read j (((cfg8.win 7).blk t).view.emb j)
    (by show win8_7.index t (0 : Fin 2) * 4000 + 1 * (j 0).val = t.val * 4000 + (j 0).val; rw [(idx_facts t).2.2.2.2.2.2.2.2.2.2.2.2.2.2.1]; omega)
    (by show win8_7.index t (1 : Fin 2) * 128 + 1 * (j 1).val = (j 1).val; rw [(idx_facts t).2.2.2.2.2.2.2.2.2.2.2.2.2.2.2.1]; omega)

/-- An index of output array 7 is in point t's block iff each coordinate is in the block's range. -/
theorem mem_blk_new (t : Fin cfg8.N) (i : S160000x128.Idx) :
    i ∈ ((cfg8.win 7).blk t).view.set ↔ ∀ a : Fin 2, win8_7.index t a * S4000x128.size a ≤ (i a).val ∧ (i a).val < win8_7.index t a * S4000x128.size a + S4000x128.size a := by
  show i ∈ ((View.whole main_v160_0).slice (win8_7.rect t)).set ↔ _
  rw [View.set_slice_whole, Rect.mem_set_unit]
  exact Iff.rfl

/-- Every row of output array 7 is in the block of the point its row number divided by 4000 names. -/
theorem cover_new (i : S160000x128.Idx) : ∃ t : Fin cfg8.N, (cfg8.win 7).flush t = true ∧ i ∈ ((cfg8.win 7).blk t).view.set := by
  have hi0 : (i 0).val < 160000 := (i 0).isLt
  have hi1 : (i 1).val < 128 := (i 1).isLt
  have ht : (i 0).val / 4000 < 40 := by omega
  refine ⟨⟨(i 0).val / 4000, ht⟩, flush8_7 _, ?_⟩
  rw [mem_blk_new]
  have e0 := (idx_facts ⟨(i 0).val / 4000, ht⟩).2.2.2.2.2.2.2.2.2.2.2.2.2.2.1
  have e1 := (idx_facts ⟨(i 0).val / 4000, ht⟩).2.2.2.2.2.2.2.2.2.2.2.2.2.2.2.1
  intro a
  match a with
  | ⟨0, _⟩ =>
    show win8_7.index ⟨(i 0).val / 4000, ht⟩ (0 : Fin 2) * 4000 ≤ (i 0).val ∧ (i 0).val < win8_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win8_7.index ⟨(i 0).val / 4000, ht⟩ (1 : Fin 2) * 128 ≤ (i 1).val ∧ (i 1).val < win8_7.index ⟨(i 0).val / 4000, ht⟩ (1 : Fin 2) * 128 + 128
    rw [e1]; omega

/-- Output array 7 after the region. -/
theorem final_new (c : Dev nD) : (dat8 V c).arrAt 7 cfg8.N = Cert.Spec.edgeUpdate (V c main_v117_1) (V c main_v142) (V c main_v149) (V c main_v151) (V c main_v158) (V c main_v155) (V c main_v159) :=
  (dat8 V c).arrAt_eq_of_cover 7 _ (fun t _ => flushed_new V c t) cover_new

/-- What point t writes back through output window 8 is block t of the whole-array function. -/
theorem flushed_next (c : Dev nD) (t : Fin cfg8.N) :
    (dat8 V c).flushed 8 t = ((cfg8.win 8).blk t).view.read (Elt Ideal) (addf (Cert.Spec.edgeUpdate (V c main_v117_1) (V c main_v142) (V c main_v149) (V c main_v151) (V c main_v158) (V c main_v155) (V c main_v159)) (V c main_v117_1)) := by
  show (cfg8.win 8).cut (grid8.coords t) ((dat8 V c).after 8 t) = _
  rw [after8_8]
  unfold out8_8
  rw [View.canon_unit_zero hz]
  simp only [View.ld_unit_zero (S := S4000x128) hz, View.ld_unit_zero (S := S384x128) hz, View.ld_unit_zero (S := S1x128) hz, View.ld_unit_zero (S := S128x128) hz]
  rw [blk3 V c t, blk4 V c t, blk5 V c t, blk6 V c t, Cert.Payloads.k8_pay3_eq]
  funext j
  exact (Cert.Payloads.edge_next_blk (blk0 V c t) (blk1 V c t) (blk2 V c t) _ _ _ _).read j (((cfg8.win 8).blk t).view.emb j)
    (by show win8_8.index t (0 : Fin 2) * 4000 + 1 * (j 0).val = t.val * 4000 + (j 0).val; rw [(idx_facts t).2.2.2.2.2.2.2.2.2.2.2.2.2.2.2.2.1]; omega)
    (by show win8_8.index t (1 : Fin 2) * 128 + 1 * (j 1).val = (j 1).val; rw [(idx_facts t).2.2.2.2.2.2.2.2.2.2.2.2.2.2.2.2.2]; omega)

/-- An index of output array 8 is in point t's block iff each coordinate is in the block's range. -/
theorem mem_blk_next (t : Fin cfg8.N) (i : S160000x128.Idx) :
    i ∈ ((cfg8.win 8).blk t).view.set ↔ ∀ a : Fin 2, win8_8.index t a * S4000x128.size a ≤ (i a).val ∧ (i a).val < win8_8.index t a * S4000x128.size a + S4000x128.size a := by
  show i ∈ ((View.whole main_v160_1).slice (win8_8.rect t)).set ↔ _
  rw [View.set_slice_whole, Rect.mem_set_unit]
  exact Iff.rfl

/-- Every row of output array 8 is in the block of the point its row number divided by 4000 names. -/
theorem cover_next (i : S160000x128.Idx) : ∃ t : Fin cfg8.N, (cfg8.win 8).flush t = true ∧ i ∈ ((cfg8.win 8).blk t).view.set := by
  have hi0 : (i 0).val < 160000 := (i 0).isLt
  have hi1 : (i 1).val < 128 := (i 1).isLt
  have ht : (i 0).val / 4000 < 40 := by omega
  refine ⟨⟨(i 0).val / 4000, ht⟩, flush8_8 _, ?_⟩
  rw [mem_blk_next]
  have e0 := (idx_facts ⟨(i 0).val / 4000, ht⟩).2.2.2.2.2.2.2.2.2.2.2.2.2.2.2.2.1
  have e1 := (idx_facts ⟨(i 0).val / 4000, ht⟩).2.2.2.2.2.2.2.2.2.2.2.2.2.2.2.2.2
  intro a
  match a with
  | ⟨0, _⟩ =>
    show win8_8.index ⟨(i 0).val / 4000, ht⟩ (0 : Fin 2) * 4000 ≤ (i 0).val ∧ (i 0).val < win8_8.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win8_8.index ⟨(i 0).val / 4000, ht⟩ (1 : Fin 2) * 128 ≤ (i 1).val ∧ (i 1).val < win8_8.index ⟨(i 0).val / 4000, ht⟩ (1 : Fin 2) * 128 + 128
    rw [e1]; omega

/-- Output array 8 after the region. -/
theorem final_next (c : Dev nD) : (dat8 V c).arrAt 8 cfg8.N = addf (Cert.Spec.edgeUpdate (V c main_v117_1) (V c main_v142) (V c main_v149) (V c main_v151) (V c main_v158) (V c main_v155) (V c main_v159)) (V c main_v117_1) :=
  (dat8 V c).arrAt_eq_of_cover 8 _ (fun t _ => flushed_next V c t) cover_next

end Cert.KernelIdeal.Region8

end
-- ==== Proof.Region9.lean ====
/-
  Region 9 of the kernel's @main: the node update of step 3 over 20000 nodes in blocks of 2000, the old features added.

  The grid has 10 points; point t stages rows 2000·t … 2000·t + 1999 of the three row-tiled inputs, the whole weight and bias
  arrays, and writes back the same rows of the output. The body's stored block is, by the payload lemma, that
  block of rows of the whole-array function; the 10 blocks cover every row; so the output array after the region is
  the whole-array function of the arrays the region found.
-/
import proofs.«150645_j45672682226304_2_alg».proof.Proof.Gen.KernelIdeal.Frame
import proofs.«150645_j45672682226304_2_alg».proof.Proof.Payloads
import proofs.«150645_j45672682226304_2_alg».proof.Proof.LibRowRead

set_option maxRecDepth 16384

noncomputable section

namespace Cert.KernelIdeal.Region9

open Idealize.ShloMosaic Idealize.ShloMosaic.TcCoe Idealize.ShloMosaic.ValueIdx Idealize.SL.Sem
open Cert.KernelIdeal Cert.KernelIdeal.Gen Cert.Lib.DenseLayer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg9.N, win9_0.index t (0 : Fin 2) = t.val
    ∧ win9_0.index t (1 : Fin 2) = 0
    ∧ win9_1.index t (0 : Fin 2) = t.val
    ∧ win9_1.index t (1 : Fin 2) = 0
    ∧ win9_2.index t (0 : Fin 2) = t.val
    ∧ win9_2.index t (1 : Fin 2) = 0
    ∧ win9_3.index t (0 : Fin 2) = 0
    ∧ win9_3.index t (1 : Fin 2) = 0
    ∧ win9_4.index t (0 : Fin 2) = 0
    ∧ win9_4.index t (1 : Fin 2) = 0
    ∧ win9_5.index t (0 : Fin 2) = 0
    ∧ win9_5.index t (1 : Fin 2) = 0
    ∧ win9_6.index t (0 : Fin 2) = 0
    ∧ win9_6.index t (1 : Fin 2) = 0
    ∧ win9_7.index t (0 : Fin 2) = t.val
    ∧ win9_7.index t (1 : Fin 2) = 0 :=
  (by decide +kernel : ∀ t : Fin grid9.N, _)

/-- Window 0's block at point t is the block of rows of its array that starts at row 2000·t. -/
theorem blk0 (c : Dev nD) (t : Fin cfg9.N) : RowBlk (t.val * 2000) (iblk9 V c 0 t) (V c (Pipeline.arrRef spec9 0)) :=
  RowBlk.of_read (fun y => ((cfg9.win 0).blk t).view.emb y)
    (fun y => by show win9_0.index t (0 : Fin 2) * 2000 + 1 * (y 0).val = t.val * 2000 + (y 0).val; rw [(idx_facts t).1]; omega)
    (fun y => by show win9_0.index t (1 : Fin 2) * 128 + 1 * (y 1).val = (y 1).val; rw [(idx_facts t).2.1]; omega)
    (fun y => rfl)

/-- Window 1's block at point t is the block of rows of its array that starts at row 2000·t. -/
theorem blk1 (c : Dev nD) (t : Fin cfg9.N) : RowBlk (t.val * 2000) (iblk9 V c 1 t) (V c (Pipeline.arrRef spec9 1)) :=
  RowBlk.of_read (fun y => ((cfg9.win 1).blk t).view.emb y)
    (fun y => by show win9_1.index t (0 : Fin 2) * 2000 + 1 * (y 0).val = t.val * 2000 + (y 0).val; rw [(idx_facts t).2.2.1]; omega)
    (fun y => by show win9_1.index t (1 : Fin 2) * 128 + 1 * (y 1).val = (y 1).val; rw [(idx_facts t).2.2.2.1]; omega)
    (fun y => rfl)

/-- Window 2's block at point t is the block of rows of its array that starts at row 2000·t. -/
theorem blk2 (c : Dev nD) (t : Fin cfg9.N) : RowBlk (t.val * 2000) (iblk9 V c 2 t) (V c (Pipeline.arrRef spec9 2)) :=
  RowBlk.of_read (fun y => ((cfg9.win 2).blk t).view.emb y)
    (fun y => by show win9_2.index t (0 : Fin 2) * 2000 + 1 * (y 0).val = t.val * 2000 + (y 0).val; rw [(idx_facts t).2.2.2.2.1]; omega)
    (fun y => by show win9_2.index t (1 : Fin 2) * 128 + 1 * (y 1).val = (y 1).val; rw [(idx_facts t).2.2.2.2.2.1]; omega)
    (fun y => rfl)

/-- Window 3 stages its whole array at every point. -/
theorem blk3 (c : Dev nD) (t : Fin cfg9.N) : iblk9 V c 3 t = V c (Pipeline.arrRef spec9 3) :=
  funext fun y => congrArg (V c (Pipeline.arrRef spec9 3)) (funext fun a => Fin.ext (by
    match a with
    | ⟨0, _⟩ => show win9_3.index t (0 : Fin 2) * 384 + 1 * (y 0).val = (y 0).val; rw [(idx_facts t).2.2.2.2.2.2.1]; omega
    | ⟨1, _⟩ => show win9_3.index t (1 : Fin 2) * 128 + 1 * (y 1).val = (y 1).val; rw [(idx_facts t).2.2.2.2.2.2.2.1]; omega))

/-- Window 4 stages its whole array at every point. -/
theorem blk4 (c : Dev nD) (t : Fin cfg9.N) : iblk9 V c 4 t = V c (Pipeline.arrRef spec9 4) :=
  funext fun y => congrArg (V c (Pipeline.arrRef spec9 4)) (funext fun a => Fin.ext (by
    match a with
    | ⟨0, _⟩ => show win9_4.index t (0 : Fin 2) * 1 + 1 * (y 0).val = (y 0).val; rw [(idx_facts t).2.2.2.2.2.2.2.2.1]; omega
    | ⟨1, _⟩ => show win9_4.index t (1 : Fin 2) * 128 + 1 * (y 1).val = (y 1).val; rw [(idx_facts t).2.2.2.2.2.2.2.2.2.1]; omega))

/-- Window 5 stages its whole array at every point. -/
theorem blk5 (c : Dev nD) (t : Fin cfg9.N) : iblk9 V c 5 t = V c (Pipeline.arrRef spec9 5) :=
  funext fun y => congrArg (V c (Pipeline.arrRef spec9 5)) (funext fun a => Fin.ext (by
    match a with
    | ⟨0, _⟩ => show win9_5.index t (0 : Fin 2) * 128 + 1 * (y 0).val = (y 0).val; rw [(idx_facts t).2.2.2.2.2.2.2.2.2.2.1]; omega
    | ⟨1, _⟩ => show win9_5.index t (1 : Fin 2) * 128 + 1 * (y 1).val = (y 1).val; rw [(idx_facts t).2.2.2.2.2.2.2.2.2.2.2.1]; omega))

/-- Window 6 stages its whole array at every point. -/
theorem blk6 (c : Dev nD) (t : Fin cfg9.N) : iblk9 V c 6 t = V c (Pipeline.arrRef spec9 6) :=
  funext fun y => congrArg (V c (Pipeline.arrRef spec9 6)) (funext fun a => Fin.ext (by
    match a with
    | ⟨0, _⟩ => show win9_6.index t (0 : Fin 2) * 1 + 1 * (y 0).val = (y 0).val; rw [(idx_facts t).2.2.2.2.2.2.2.2.2.2.2.2.1]; omega
    | ⟨1, _⟩ => show win9_6.index t (1 : Fin 2) * 128 + 1 * (y 1).val = (y 1).val; rw [(idx_facts t).2.2.2.2.2.2.2.2.2.2.2.2.2.1]; omega))

/-- What point t writes back through output window 7 is block t of the whole-array function. -/
theorem flushed_next (c : Dev nD) (t : Fin cfg9.N) :
    (dat9 V c).flushed 7 t = ((cfg9.win 7).blk t).view.read (Elt Ideal) (addf (Cert.Spec.nodeUpdate (V c main_v134) (V c main_v163) (V c main_v166) (V c main_v168) (V c main_v175) (V c main_v172) (V c main_v176)) (V c main_v134)) := by
  show (cfg9.win 7).cut (grid9.coords t) ((dat9 V c).after 7 t) = _
  rw [after9_7]
  unfold out9_7
  rw [View.canon_unit_zero hz]
  simp only [View.ld_unit_zero (S := S2000x128) hz, View.ld_unit_zero (S := S384x128) hz, View.ld_unit_zero (S := S1x128) hz, View.ld_unit_zero (S := S128x128) hz]
  rw [blk3 V c t, blk4 V c t, blk5 V c t, blk6 V c t, Cert.Payloads.k9_pay1_eq]
  funext j
  exact (Cert.Payloads.node_next_blk (blk0 V c t) (blk1 V c t) (blk2 V c t) _ _ _ _).read j (((cfg9.win 7).blk t).view.emb j)
    (by show win9_7.index t (0 : Fin 2) * 2000 + 1 * (j 0).val = t.val * 2000 + (j 0).val; rw [(idx_facts t).2.2.2.2.2.2.2.2.2.2.2.2.2.2.1]; omega)
    (by show win9_7.index t (1 : Fin 2) * 128 + 1 * (j 1).val = (j 1).val; rw [(idx_facts t).2.2.2.2.2.2.2.2.2.2.2.2.2.2.2]; omega)

/-- An index of output array 7 is in point t's block iff each coordinate is in the block's range. -/
theorem mem_blk_next (t : Fin cfg9.N) (i : S20000x128.Idx) :
    i ∈ ((cfg9.win 7).blk t).view.set ↔ ∀ a : Fin 2, win9_7.index t a * S2000x128.size a ≤ (i a).val ∧ (i a).val < win9_7.index t a * S2000x128.size a + S2000x128.size a := by
  show i ∈ ((View.whole main_v177).slice (win9_7.rect t)).set ↔ _
  rw [View.set_slice_whole, Rect.mem_set_unit]
  exact Iff.rfl

/-- Every row of output array 7 is in the block of the point its row number divided by 2000 names. -/
theorem cover_next (i : S20000x128.Idx) : ∃ t : Fin cfg9.N, (cfg9.win 7).flush t = true ∧ i ∈ ((cfg9.win 7).blk t).view.set := by
  have hi0 : (i 0).val < 20000 := (i 0).isLt
  have hi1 : (i 1).val < 128 := (i 1).isLt
  have ht : (i 0).val / 2000 < 10 := by omega
  refine ⟨⟨(i 0).val / 2000, ht⟩, flush9_7 _, ?_⟩
  rw [mem_blk_next]
  have e0 := (idx_facts ⟨(i 0).val / 2000, ht⟩).2.2.2.2.2.2.2.2.2.2.2.2.2.2.1
  have e1 := (idx_facts ⟨(i 0).val / 2000, ht⟩).2.2.2.2.2.2.2.2.2.2.2.2.2.2.2
  intro a
  match a with
  | ⟨0, _⟩ =>
    show win9_7.index ⟨(i 0).val / 2000, ht⟩ (0 : Fin 2) * 2000 ≤ (i 0).val ∧ (i 0).val < win9_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win9_7.index ⟨(i 0).val / 2000, ht⟩ (1 : Fin 2) * 128 ≤ (i 1).val ∧ (i 1).val < win9_7.index ⟨(i 0).val / 2000, ht⟩ (1 : Fin 2) * 128 + 128
    rw [e1]; omega

/-- Output array 7 after the region. -/
theorem final_next (c : Dev nD) : (dat9 V c).arrAt 7 cfg9.N = addf (Cert.Spec.nodeUpdate (V c main_v134) (V c main_v163) (V c main_v166) (V c main_v168) (V c main_v175) (V c main_v172) (V c main_v176)) (V c main_v134) :=
  (dat9 V c).arrAt_eq_of_cover 7 _ (fun t _ => flushed_next V c t) cover_next

end Cert.KernelIdeal.Region9

end
-- ==== Proof.ChainStep3.lean ====
/-
  Message-passing step 3: regions 8 and 9 of the kernel's @main leave the new edge features, the next edge features and
  the next node features of step 3.

  The stretch of host operations before the edge region gathers the sender and receiver rows of the current node
  features and slices the step's weights; the stretch before the node region forms the two segment sums of the new
  edge features. Each region's output is the whole-array function of what it found (Region8, Region9).
-/
import proofs.«150645_j45672682226304_2_alg».proof.Proof.ChainStep2
import proofs.«150645_j45672682226304_2_alg».proof.Proof.Region8
import proofs.«150645_j45672682226304_2_alg».proof.Proof.Region9

set_option maxRecDepth 16384

noncomputable section

namespace Cert.Chain

open Idealize.ShloMosaic Idealize.ShloMosaic.TcCoe Idealize.ShloMosaic.StableHlo Idealize.SL.Sem
open Cert.KernelIdeal Cert.KernelIdeal.Gen Cert.KernelIdeal

variable {m : (ℓ : Loc nD τ sig) → Buf (Elt Ideal) ℓ} (ρ : Dev nD → PrngReg) {c : Dev nD}
variable {V' : Valuation Cert.ReferenceIdeal.τ Cert.ReferenceIdeal.sig (Elt Ideal)}

/-- What stretch 8 reads of the earlier regions' results. -/
theorem hn3_at16 (h : Agree m c V') : W16 m ρ c (Proc.devRef .tc main_v134) = (Terms.hn3 V') :=
  t_hn3 ρ h

theorem in8_0 (h : Agree m c V') : V17 m ρ c main_v117_1 = (Terms.he3 V') := ((Keep.keep_host8 m ρ c main_v117_1 (by decide)).trans ((W16_of_ne m ρ c main_v117_1 (by decide)).trans (Keep.keep_host7 m ρ c main_v117_1 (by decide)))).trans (t_he3 ρ h)
set_option maxHeartbeats 4000000 in
theorem in8_1 (h : Agree m c V') : V17 m ρ c main_v142 = (Terms.pick (Terms.hn3 V') (Terms.sIdx V')) := by
  show StableHlo.after hostOps8 (W16 m ρ c) (Proc.devRef .tc main_v142) = _
  after_results
  simp only [arg2_at16 ρ h, arg3_at16 ρ h, arg12_at16 ρ h, arg13_at16 ρ h, arg14_at16 ρ h, arg15_at16 ρ h, hn3_at16 ρ h]
  first | rfl | exact Cert.Lib.DenseLayer.addUnit_eq_bcast (by decide) _ _ _ | exact unit_row _ _ _
set_option maxHeartbeats 4000000 in
theorem in8_2 (h : Agree m c V') : V17 m ρ c main_v149 = (Terms.pick (Terms.hn3 V') (Terms.rIdx V')) := by
  show StableHlo.after hostOps8 (W16 m ρ c) (Proc.devRef .tc main_v149) = _
  after_results
  simp only [arg2_at16 ρ h, arg3_at16 ρ h, arg12_at16 ρ h, arg13_at16 ρ h, arg14_at16 ρ h, arg15_at16 ρ h, hn3_at16 ρ h]
  first | rfl | exact Cert.Lib.DenseLayer.addUnit_eq_bcast (by decide) _ _ _ | exact unit_row _ _ _
set_option maxHeartbeats 4000000 in
theorem in8_3 (h : Agree m c V') : V17 m ρ c main_v151 = (Terms.eW1_3 V') := by
  show StableHlo.after hostOps8 (W16 m ρ c) (Proc.devRef .tc main_v151) = _
  after_results
  simp only [arg2_at16 ρ h, arg3_at16 ρ h, arg12_at16 ρ h, arg13_at16 ρ h, arg14_at16 ρ h, arg15_at16 ρ h, hn3_at16 ρ h]
  first | rfl | exact Cert.Lib.DenseLayer.addUnit_eq_bcast (by decide) _ _ _ | exact unit_row _ _ _
set_option maxHeartbeats 4000000 in
theorem in8_4 (h : Agree m c V') : V17 m ρ c main_v158 = (Terms.eb1_3 V') := by
  show StableHlo.after hostOps8 (W16 m ρ c) (Proc.devRef .tc main_v158) = _
  after_results
  simp only [arg2_at16 ρ h, arg3_at16 ρ h, arg12_at16 ρ h, arg13_at16 ρ h, arg14_at16 ρ h, arg15_at16 ρ h, hn3_at16 ρ h]
  first | rfl | exact Cert.Lib.DenseLayer.addUnit_eq_bcast (by decide) _ _ _ | exact unit_row _ _ _
set_option maxHeartbeats 4000000 in
theorem in8_5 (h : Agree m c V') : V17 m ρ c main_v155 = (Terms.eW2_3 V') := by
  show StableHlo.after hostOps8 (W16 m ρ c) (Proc.devRef .tc main_v155) = _
  after_results
  simp only [arg2_at16 ρ h, arg3_at16 ρ h, arg12_at16 ρ h, arg13_at16 ρ h, arg14_at16 ρ h, arg15_at16 ρ h, hn3_at16 ρ h]
  first | rfl | exact Cert.Lib.DenseLayer.addUnit_eq_bcast (by decide) _ _ _ | exact unit_row _ _ _
set_option maxHeartbeats 4000000 in
theorem in8_6 (h : Agree m c V') : V17 m ρ c main_v159 = (Terms.eb2_3 V') := by
  show StableHlo.after hostOps8 (W16 m ρ c) (Proc.devRef .tc main_v159) = _
  after_results
  simp only [arg2_at16 ρ h, arg3_at16 ρ h, arg12_at16 ρ h, arg13_at16 ρ h, arg14_at16 ρ h, arg15_at16 ρ h, hn3_at16 ρ h]
  first | rfl | exact Cert.Lib.DenseLayer.addUnit_eq_bcast (by decide) _ _ _ | exact unit_row _ _ _

/-- Region 8's output main_v160_0 after the region. -/
theorem t_enew3 (h : Agree m c V') : W18 m ρ c (Proc.devRef .tc main_v160_0) = (Terms.enew3 V') := by
  refine (W18_arr m ρ c 7).trans ?_
  rw [Region8.final_new (V17 m ρ) c, in8_0 ρ h, in8_1 ρ h, in8_2 ρ h, in8_3 ρ h, in8_4 ρ h, in8_5 ρ h, in8_6 ρ h]
  rfl

/-- Region 8's output main_v160_1 after the region. -/
theorem t_he4 (h : Agree m c V') : W18 m ρ c (Proc.devRef .tc main_v160_1) = (Terms.he4 V') := by
  refine (W18_arr m ρ c 8).trans ?_
  rw [Region8.final_next (V17 m ρ) c, in8_0 ρ h, in8_1 ρ h, in8_2 ρ h, in8_3 ρ h, in8_4 ρ h, in8_5 ρ h, in8_6 ρ h]
  rfl

/-- What stretch 9 reads of the earlier regions' results. -/
theorem enew3_at18 (h : Agree m c V') : W18 m ρ c (Proc.devRef .tc main_v160_0) = (Terms.enew3 V') :=
  t_enew3 ρ h

theorem in9_0 (h : Agree m c V') : V19 m ρ c main_v134 = (Terms.hn3 V') := ((Keep.keep_host9 m ρ c main_v134 (by decide)).trans ((W18_of_ne m ρ c main_v134 (by decide)).trans (Keep.keep_host8 m ρ c main_v134 (by decide)))).trans (t_hn3 ρ h)
set_option maxHeartbeats 4000000 in
theorem in9_1 (h : Agree m c V') : V19 m ρ c main_v163 = (Terms.sumSent V' (Terms.enew3 V')) := by
  show StableHlo.after hostOps9 (W18 m ρ c) (Proc.devRef .tc main_v163) = _
  after_results
  simp only [arg2_at18 ρ h, arg3_at18 ρ h, arg16_at18 ρ h, arg17_at18 ρ h, arg18_at18 ρ h, arg19_at18 ρ h, enew3_at18 ρ h]
  first | rfl | exact Cert.Lib.DenseLayer.addUnit_eq_bcast (by decide) _ _ _ | exact unit_row _ _ _
set_option maxHeartbeats 4000000 in
theorem in9_2 (h : Agree m c V') : V19 m ρ c main_v166 = (Terms.sumRecv V' (Terms.enew3 V')) := by
  show StableHlo.after hostOps9 (W18 m ρ c) (Proc.devRef .tc main_v166) = _
  after_results
  simp only [arg2_at18 ρ h, arg3_at18 ρ h, arg16_at18 ρ h, arg17_at18 ρ h, arg18_at18 ρ h, arg19_at18 ρ h, enew3_at18 ρ h]
  first | rfl | exact Cert.Lib.DenseLayer.addUnit_eq_bcast (by decide) _ _ _ | exact unit_row _ _ _
set_option maxHeartbeats 4000000 in
theorem in9_3 (h : Agree m c V') : V19 m ρ c main_v168 = (Terms.nW1_3 V') := by
  show StableHlo.after hostOps9 (W18 m ρ c) (Proc.devRef .tc main_v168) = _
  after_results
  simp only [arg2_at18 ρ h, arg3_at18 ρ h, arg16_at18 ρ h, arg17_at18 ρ h, arg18_at18 ρ h, arg19_at18 ρ h, enew3_at18 ρ h]
  first | rfl | exact Cert.Lib.DenseLayer.addUnit_eq_bcast (by decide) _ _ _ | exact unit_row _ _ _
set_option maxHeartbeats 4000000 in
theorem in9_4 (h : Agree m c V') : V19 m ρ c main_v175 = (Terms.nb1_3 V') := by
  show StableHlo.after hostOps9 (W18 m ρ c) (Proc.devRef .tc main_v175) = _
  after_results
  simp only [arg2_at18 ρ h, arg3_at18 ρ h, arg16_at18 ρ h, arg17_at18 ρ h, arg18_at18 ρ h, arg19_at18 ρ h, enew3_at18 ρ h]
  first | rfl | exact Cert.Lib.DenseLayer.addUnit_eq_bcast (by decide) _ _ _ | exact unit_row _ _ _
set_option maxHeartbeats 4000000 in
theorem in9_5 (h : Agree m c V') : V19 m ρ c main_v172 = (Terms.nW2_3 V') := by
  show StableHlo.after hostOps9 (W18 m ρ c) (Proc.devRef .tc main_v172) = _
  after_results
  simp only [arg2_at18 ρ h, arg3_at18 ρ h, arg16_at18 ρ h, arg17_at18 ρ h, arg18_at18 ρ h, arg19_at18 ρ h, enew3_at18 ρ h]
  first | rfl | exact Cert.Lib.DenseLayer.addUnit_eq_bcast (by decide) _ _ _ | exact unit_row _ _ _
set_option maxHeartbeats 4000000 in
theorem in9_6 (h : Agree m c V') : V19 m ρ c main_v176 = (Terms.nb2_3 V') := by
  show StableHlo.after hostOps9 (W18 m ρ c) (Proc.devRef .tc main_v176) = _
  after_results
  simp only [arg2_at18 ρ h, arg3_at18 ρ h, arg16_at18 ρ h, arg17_at18 ρ h, arg18_at18 ρ h, arg19_at18 ρ h, enew3_at18 ρ h]
  first | rfl | exact Cert.Lib.DenseLayer.addUnit_eq_bcast (by decide) _ _ _ | exact unit_row _ _ _

/-- Region 9's output main_v177 after the region. -/
theorem t_hn4 (h : Agree m c V') : W20 m ρ c (Proc.devRef .tc main_v177) = (Terms.hn4 V') := by
  refine (W20_arr m ρ c 7).trans ?_
  rw [Region9.final_next (V19 m ρ) c, in9_0 ρ h, in9_1 ρ h, in9_2 ρ h, in9_3 ρ h, in9_4 ρ h, in9_5 ρ h, in9_6 ρ h]
  rfl

end Cert.Chain

end
-- ==== Proof.Region10.lean ====
/-
  Region 10 of the kernel's @main: the edge update of step 4 over 160000 edges in blocks of 4000, with the new and the next edge features as two outputs.

  The grid has 40 points; point t stages rows 4000·t … 4000·t + 3999 of the three row-tiled inputs, the whole weight and bias
  arrays, and writes back the same rows of each of the two outputs. The body's stored block is, by the payload lemma, that
  block of rows of the whole-array function; the 40 blocks cover every row; so each output array after the region is
  the whole-array function of the arrays the region found.
-/
import proofs.«150645_j45672682226304_2_alg».proof.Proof.Gen.KernelIdeal.Frame
import proofs.«150645_j45672682226304_2_alg».proof.Proof.Payloads
import proofs.«150645_j45672682226304_2_alg».proof.Proof.LibRowRead

set_option maxRecDepth 16384

noncomputable section

namespace Cert.KernelIdeal.Region10

open Idealize.ShloMosaic Idealize.ShloMosaic.TcCoe Idealize.ShloMosaic.ValueIdx Idealize.SL.Sem
open Cert.KernelIdeal Cert.KernelIdeal.Gen Cert.Lib.DenseLayer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg10.N, win10_0.index t (0 : Fin 2) = t.val
    ∧ win10_0.index t (1 : Fin 2) = 0
    ∧ win10_1.index t (0 : Fin 2) = t.val
    ∧ win10_1.index t (1 : Fin 2) = 0
    ∧ win10_2.index t (0 : Fin 2) = t.val
    ∧ win10_2.index t (1 : Fin 2) = 0
    ∧ win10_3.index t (0 : Fin 2) = 0
    ∧ win10_3.index t (1 : Fin 2) = 0
    ∧ win10_4.index t (0 : Fin 2) = 0
    ∧ win10_4.index t (1 : Fin 2) = 0
    ∧ win10_5.index t (0 : Fin 2) = 0
    ∧ win10_5.index t (1 : Fin 2) = 0
    ∧ win10_6.index t (0 : Fin 2) = 0
    ∧ win10_6.index t (1 : Fin 2) = 0
    ∧ win10_7.index t (0 : Fin 2) = t.val
    ∧ win10_7.index t (1 : Fin 2) = 0
    ∧ win10_8.index t (0 : Fin 2) = t.val
    ∧ win10_8.index t (1 : Fin 2) = 0 :=
  (by decide +kernel : ∀ t : Fin grid10.N, _)

/-- Window 0's block at point t is the block of rows of its array that starts at row 4000·t. -/
theorem blk0 (c : Dev nD) (t : Fin cfg10.N) : RowBlk (t.val * 4000) (iblk10 V c 0 t) (V c (Pipeline.arrRef spec10 0)) :=
  RowBlk.of_read (fun y => ((cfg10.win 0).blk t).view.emb y)
    (fun y => by show win10_0.index t (0 : Fin 2) * 4000 + 1 * (y 0).val = t.val * 4000 + (y 0).val; rw [(idx_facts t).1]; omega)
    (fun y => by show win10_0.index t (1 : Fin 2) * 128 + 1 * (y 1).val = (y 1).val; rw [(idx_facts t).2.1]; omega)
    (fun y => rfl)

/-- Window 1's block at point t is the block of rows of its array that starts at row 4000·t. -/
theorem blk1 (c : Dev nD) (t : Fin cfg10.N) : RowBlk (t.val * 4000) (iblk10 V c 1 t) (V c (Pipeline.arrRef spec10 1)) :=
  RowBlk.of_read (fun y => ((cfg10.win 1).blk t).view.emb y)
    (fun y => by show win10_1.index t (0 : Fin 2) * 4000 + 1 * (y 0).val = t.val * 4000 + (y 0).val; rw [(idx_facts t).2.2.1]; omega)
    (fun y => by show win10_1.index t (1 : Fin 2) * 128 + 1 * (y 1).val = (y 1).val; rw [(idx_facts t).2.2.2.1]; omega)
    (fun y => rfl)

/-- Window 2's block at point t is the block of rows of its array that starts at row 4000·t. -/
theorem blk2 (c : Dev nD) (t : Fin cfg10.N) : RowBlk (t.val * 4000) (iblk10 V c 2 t) (V c (Pipeline.arrRef spec10 2)) :=
  RowBlk.of_read (fun y => ((cfg10.win 2).blk t).view.emb y)
    (fun y => by show win10_2.index t (0 : Fin 2) * 4000 + 1 * (y 0).val = t.val * 4000 + (y 0).val; rw [(idx_facts t).2.2.2.2.1]; omega)
    (fun y => by show win10_2.index t (1 : Fin 2) * 128 + 1 * (y 1).val = (y 1).val; rw [(idx_facts t).2.2.2.2.2.1]; omega)
    (fun y => rfl)

/-- Window 3 stages its whole array at every point. -/
theorem blk3 (c : Dev nD) (t : Fin cfg10.N) : iblk10 V c 3 t = V c (Pipeline.arrRef spec10 3) :=
  funext fun y => congrArg (V c (Pipeline.arrRef spec10 3)) (funext fun a => Fin.ext (by
    match a with
    | ⟨0, _⟩ => show win10_3.index t (0 : Fin 2) * 384 + 1 * (y 0).val = (y 0).val; rw [(idx_facts t).2.2.2.2.2.2.1]; omega
    | ⟨1, _⟩ => show win10_3.index t (1 : Fin 2) * 128 + 1 * (y 1).val = (y 1).val; rw [(idx_facts t).2.2.2.2.2.2.2.1]; omega))

/-- Window 4 stages its whole array at every point. -/
theorem blk4 (c : Dev nD) (t : Fin cfg10.N) : iblk10 V c 4 t = V c (Pipeline.arrRef spec10 4) :=
  funext fun y => congrArg (V c (Pipeline.arrRef spec10 4)) (funext fun a => Fin.ext (by
    match a with
    | ⟨0, _⟩ => show win10_4.index t (0 : Fin 2) * 1 + 1 * (y 0).val = (y 0).val; rw [(idx_facts t).2.2.2.2.2.2.2.2.1]; omega
    | ⟨1, _⟩ => show win10_4.index t (1 : Fin 2) * 128 + 1 * (y 1).val = (y 1).val; rw [(idx_facts t).2.2.2.2.2.2.2.2.2.1]; omega))

/-- Window 5 stages its whole array at every point. -/
theorem blk5 (c : Dev nD) (t : Fin cfg10.N) : iblk10 V c 5 t = V c (Pipeline.arrRef spec10 5) :=
  funext fun y => congrArg (V c (Pipeline.arrRef spec10 5)) (funext fun a => Fin.ext (by
    match a with
    | ⟨0, _⟩ => show win10_5.index t (0 : Fin 2) * 128 + 1 * (y 0).val = (y 0).val; rw [(idx_facts t).2.2.2.2.2.2.2.2.2.2.1]; omega
    | ⟨1, _⟩ => show win10_5.index t (1 : Fin 2) * 128 + 1 * (y 1).val = (y 1).val; rw [(idx_facts t).2.2.2.2.2.2.2.2.2.2.2.1]; omega))

/-- Window 6 stages its whole array at every point. -/
theorem blk6 (c : Dev nD) (t : Fin cfg10.N) : iblk10 V c 6 t = V c (Pipeline.arrRef spec10 6) :=
  funext fun y => congrArg (V c (Pipeline.arrRef spec10 6)) (funext fun a => Fin.ext (by
    match a with
    | ⟨0, _⟩ => show win10_6.index t (0 : Fin 2) * 1 + 1 * (y 0).val = (y 0).val; rw [(idx_facts t).2.2.2.2.2.2.2.2.2.2.2.2.1]; omega
    | ⟨1, _⟩ => show win10_6.index t (1 : Fin 2) * 128 + 1 * (y 1).val = (y 1).val; rw [(idx_facts t).2.2.2.2.2.2.2.2.2.2.2.2.2.1]; omega))

/-- What point t writes back through output window 7 is block t of the whole-array function. -/
theorem flushed_new (c : Dev nD) (t : Fin cfg10.N) :
    (dat10 V c).flushed 7 t = ((cfg10.win 7).blk t).view.read (Elt Ideal) (Cert.Spec.edgeUpdate (V c main_v160_1) (V c main_v185) (V c main_v192) (V c main_v194) (V c main_v201) (V c main_v198) (V c main_v202)) := by
  show (cfg10.win 7).cut (grid10.coords t) ((dat10 V c).after 7 t) = _
  rw [after10_7]
  unfold out10_7
  rw [View.canon_unit_zero hz]
  simp only [View.ld_unit_zero (S := S4000x128) hz, View.ld_unit_zero (S := S384x128) hz, View.ld_unit_zero (S := S1x128) hz, View.ld_unit_zero (S := S128x128) hz]
  rw [blk3 V c t, blk4 V c t, blk5 V c t, blk6 V c t, Cert.Payloads.k10_pay2_eq]
  funext j
  exact (Cert.Payloads.edge_new_blk (blk0 V c t) (blk1 V c t) (blk2 V c t) _ _ _ _).read j (((cfg10.win 7).blk t).view.emb j)
    (by show win10_7.index t (0 : Fin 2) * 4000 + 1 * (j 0).val = t.val * 4000 + (j 0).val; rw [(idx_facts t).2.2.2.2.2.2.2.2.2.2.2.2.2.2.1]; omega)
    (by show win10_7.index t (1 : Fin 2) * 128 + 1 * (j 1).val = (j 1).val; rw [(idx_facts t).2.2.2.2.2.2.2.2.2.2.2.2.2.2.2.1]; omega)

/-- An index of output array 7 is in point t's block iff each coordinate is in the block's range. -/
theorem mem_blk_new (t : Fin cfg10.N) (i : S160000x128.Idx) :
    i ∈ ((cfg10.win 7).blk t).view.set ↔ ∀ a : Fin 2, win10_7.index t a * S4000x128.size a ≤ (i a).val ∧ (i a).val < win10_7.index t a * S4000x128.size a + S4000x128.size a := by
  show i ∈ ((View.whole main_v203_0).slice (win10_7.rect t)).set ↔ _
  rw [View.set_slice_whole, Rect.mem_set_unit]
  exact Iff.rfl

/-- Every row of output array 7 is in the block of the point its row number divided by 4000 names. -/
theorem cover_new (i : S160000x128.Idx) : ∃ t : Fin cfg10.N, (cfg10.win 7).flush t = true ∧ i ∈ ((cfg10.win 7).blk t).view.set := by
  have hi0 : (i 0).val < 160000 := (i 0).isLt
  have hi1 : (i 1).val < 128 := (i 1).isLt
  have ht : (i 0).val / 4000 < 40 := by omega
  refine ⟨⟨(i 0).val / 4000, ht⟩, flush10_7 _, ?_⟩
  rw [mem_blk_new]
  have e0 := (idx_facts ⟨(i 0).val / 4000, ht⟩).2.2.2.2.2.2.2.2.2.2.2.2.2.2.1
  have e1 := (idx_facts ⟨(i 0).val / 4000, ht⟩).2.2.2.2.2.2.2.2.2.2.2.2.2.2.2.1
  intro a
  match a with
  | ⟨0, _⟩ =>
    show win10_7.index ⟨(i 0).val / 4000, ht⟩ (0 : Fin 2) * 4000 ≤ (i 0).val ∧ (i 0).val < win10_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win10_7.index ⟨(i 0).val / 4000, ht⟩ (1 : Fin 2) * 128 ≤ (i 1).val ∧ (i 1).val < win10_7.index ⟨(i 0).val / 4000, ht⟩ (1 : Fin 2) * 128 + 128
    rw [e1]; omega

/-- Output array 7 after the region. -/
theorem final_new (c : Dev nD) : (dat10 V c).arrAt 7 cfg10.N = Cert.Spec.edgeUpdate (V c main_v160_1) (V c main_v185) (V c main_v192) (V c main_v194) (V c main_v201) (V c main_v198) (V c main_v202) :=
  (dat10 V c).arrAt_eq_of_cover 7 _ (fun t _ => flushed_new V c t) cover_new

/-- What point t writes back through output window 8 is block t of the whole-array function. -/
theorem flushed_next (c : Dev nD) (t : Fin cfg10.N) :
    (dat10 V c).flushed 8 t = ((cfg10.win 8).blk t).view.read (Elt Ideal) (addf (Cert.Spec.edgeUpdate (V c main_v160_1) (V c main_v185) (V c main_v192) (V c main_v194) (V c main_v201) (V c main_v198) (V c main_v202)) (V c main_v160_1)) := by
  show (cfg10.win 8).cut (grid10.coords t) ((dat10 V c).after 8 t) = _
  rw [after10_8]
  unfold out10_8
  rw [View.canon_unit_zero hz]
  simp only [View.ld_unit_zero (S := S4000x128) hz, View.ld_unit_zero (S := S384x128) hz, View.ld_unit_zero (S := S1x128) hz, View.ld_unit_zero (S := S128x128) hz]
  rw [blk3 V c t, blk4 V c t, blk5 V c t, blk6 V c t, Cert.Payloads.k10_pay3_eq]
  funext j
  exact (Cert.Payloads.edge_next_blk (blk0 V c t) (blk1 V c t) (blk2 V c t) _ _ _ _).read j (((cfg10.win 8).blk t).view.emb j)
    (by show win10_8.index t (0 : Fin 2) * 4000 + 1 * (j 0).val = t.val * 4000 + (j 0).val; rw [(idx_facts t).2.2.2.2.2.2.2.2.2.2.2.2.2.2.2.2.1]; omega)
    (by show win10_8.index t (1 : Fin 2) * 128 + 1 * (j 1).val = (j 1).val; rw [(idx_facts t).2.2.2.2.2.2.2.2.2.2.2.2.2.2.2.2.2]; omega)

/-- An index of output array 8 is in point t's block iff each coordinate is in the block's range. -/
theorem mem_blk_next (t : Fin cfg10.N) (i : S160000x128.Idx) :
    i ∈ ((cfg10.win 8).blk t).view.set ↔ ∀ a : Fin 2, win10_8.index t a * S4000x128.size a ≤ (i a).val ∧ (i a).val < win10_8.index t a * S4000x128.size a + S4000x128.size a := by
  show i ∈ ((View.whole main_v203_1).slice (win10_8.rect t)).set ↔ _
  rw [View.set_slice_whole, Rect.mem_set_unit]
  exact Iff.rfl

/-- Every row of output array 8 is in the block of the point its row number divided by 4000 names. -/
theorem cover_next (i : S160000x128.Idx) : ∃ t : Fin cfg10.N, (cfg10.win 8).flush t = true ∧ i ∈ ((cfg10.win 8).blk t).view.set := by
  have hi0 : (i 0).val < 160000 := (i 0).isLt
  have hi1 : (i 1).val < 128 := (i 1).isLt
  have ht : (i 0).val / 4000 < 40 := by omega
  refine ⟨⟨(i 0).val / 4000, ht⟩, flush10_8 _, ?_⟩
  rw [mem_blk_next]
  have e0 := (idx_facts ⟨(i 0).val / 4000, ht⟩).2.2.2.2.2.2.2.2.2.2.2.2.2.2.2.2.1
  have e1 := (idx_facts ⟨(i 0).val / 4000, ht⟩).2.2.2.2.2.2.2.2.2.2.2.2.2.2.2.2.2
  intro a
  match a with
  | ⟨0, _⟩ =>
    show win10_8.index ⟨(i 0).val / 4000, ht⟩ (0 : Fin 2) * 4000 ≤ (i 0).val ∧ (i 0).val < win10_8.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win10_8.index ⟨(i 0).val / 4000, ht⟩ (1 : Fin 2) * 128 ≤ (i 1).val ∧ (i 1).val < win10_8.index ⟨(i 0).val / 4000, ht⟩ (1 : Fin 2) * 128 + 128
    rw [e1]; omega

/-- Output array 8 after the region. -/
theorem final_next (c : Dev nD) : (dat10 V c).arrAt 8 cfg10.N = addf (Cert.Spec.edgeUpdate (V c main_v160_1) (V c main_v185) (V c main_v192) (V c main_v194) (V c main_v201) (V c main_v198) (V c main_v202)) (V c main_v160_1) :=
  (dat10 V c).arrAt_eq_of_cover 8 _ (fun t _ => flushed_next V c t) cover_next

end Cert.KernelIdeal.Region10

end
-- ==== Proof.Region11.lean ====
/-
  Region 11 of the kernel's @main: the node update of step 4 over 20000 nodes in blocks of 2000, the old features added.

  The grid has 10 points; point t stages rows 2000·t … 2000·t + 1999 of the three row-tiled inputs, the whole weight and bias
  arrays, and writes back the same rows of the output. The body's stored block is, by the payload lemma, that
  block of rows of the whole-array function; the 10 blocks cover every row; so the output array after the region is
  the whole-array function of the arrays the region found.
-/
import proofs.«150645_j45672682226304_2_alg».proof.Proof.Gen.KernelIdeal.Frame
import proofs.«150645_j45672682226304_2_alg».proof.Proof.Payloads
import proofs.«150645_j45672682226304_2_alg».proof.Proof.LibRowRead

set_option maxRecDepth 16384

noncomputable section

namespace Cert.KernelIdeal.Region11

open Idealize.ShloMosaic Idealize.ShloMosaic.TcCoe Idealize.ShloMosaic.ValueIdx Idealize.SL.Sem
open Cert.KernelIdeal Cert.KernelIdeal.Gen Cert.Lib.DenseLayer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg11.N, win11_0.index t (0 : Fin 2) = t.val
    ∧ win11_0.index t (1 : Fin 2) = 0
    ∧ win11_1.index t (0 : Fin 2) = t.val
    ∧ win11_1.index t (1 : Fin 2) = 0
    ∧ win11_2.index t (0 : Fin 2) = t.val
    ∧ win11_2.index t (1 : Fin 2) = 0
    ∧ win11_3.index t (0 : Fin 2) = 0
    ∧ win11_3.index t (1 : Fin 2) = 0
    ∧ win11_4.index t (0 : Fin 2) = 0
    ∧ win11_4.index t (1 : Fin 2) = 0
    ∧ win11_5.index t (0 : Fin 2) = 0
    ∧ win11_5.index t (1 : Fin 2) = 0
    ∧ win11_6.index t (0 : Fin 2) = 0
    ∧ win11_6.index t (1 : Fin 2) = 0
    ∧ win11_7.index t (0 : Fin 2) = t.val
    ∧ win11_7.index t (1 : Fin 2) = 0 :=
  (by decide +kernel : ∀ t : Fin grid11.N, _)

/-- Window 0's block at point t is the block of rows of its array that starts at row 2000·t. -/
theorem blk0 (c : Dev nD) (t : Fin cfg11.N) : RowBlk (t.val * 2000) (iblk11 V c 0 t) (V c (Pipeline.arrRef spec11 0)) :=
  RowBlk.of_read (fun y => ((cfg11.win 0).blk t).view.emb y)
    (fun y => by show win11_0.index t (0 : Fin 2) * 2000 + 1 * (y 0).val = t.val * 2000 + (y 0).val; rw [(idx_facts t).1]; omega)
    (fun y => by show win11_0.index t (1 : Fin 2) * 128 + 1 * (y 1).val = (y 1).val; rw [(idx_facts t).2.1]; omega)
    (fun y => rfl)

/-- Window 1's block at point t is the block of rows of its array that starts at row 2000·t. -/
theorem blk1 (c : Dev nD) (t : Fin cfg11.N) : RowBlk (t.val * 2000) (iblk11 V c 1 t) (V c (Pipeline.arrRef spec11 1)) :=
  RowBlk.of_read (fun y => ((cfg11.win 1).blk t).view.emb y)
    (fun y => by show win11_1.index t (0 : Fin 2) * 2000 + 1 * (y 0).val = t.val * 2000 + (y 0).val; rw [(idx_facts t).2.2.1]; omega)
    (fun y => by show win11_1.index t (1 : Fin 2) * 128 + 1 * (y 1).val = (y 1).val; rw [(idx_facts t).2.2.2.1]; omega)
    (fun y => rfl)

/-- Window 2's block at point t is the block of rows of its array that starts at row 2000·t. -/
theorem blk2 (c : Dev nD) (t : Fin cfg11.N) : RowBlk (t.val * 2000) (iblk11 V c 2 t) (V c (Pipeline.arrRef spec11 2)) :=
  RowBlk.of_read (fun y => ((cfg11.win 2).blk t).view.emb y)
    (fun y => by show win11_2.index t (0 : Fin 2) * 2000 + 1 * (y 0).val = t.val * 2000 + (y 0).val; rw [(idx_facts t).2.2.2.2.1]; omega)
    (fun y => by show win11_2.index t (1 : Fin 2) * 128 + 1 * (y 1).val = (y 1).val; rw [(idx_facts t).2.2.2.2.2.1]; omega)
    (fun y => rfl)

/-- Window 3 stages its whole array at every point. -/
theorem blk3 (c : Dev nD) (t : Fin cfg11.N) : iblk11 V c 3 t = V c (Pipeline.arrRef spec11 3) :=
  funext fun y => congrArg (V c (Pipeline.arrRef spec11 3)) (funext fun a => Fin.ext (by
    match a with
    | ⟨0, _⟩ => show win11_3.index t (0 : Fin 2) * 384 + 1 * (y 0).val = (y 0).val; rw [(idx_facts t).2.2.2.2.2.2.1]; omega
    | ⟨1, _⟩ => show win11_3.index t (1 : Fin 2) * 128 + 1 * (y 1).val = (y 1).val; rw [(idx_facts t).2.2.2.2.2.2.2.1]; omega))

/-- Window 4 stages its whole array at every point. -/
theorem blk4 (c : Dev nD) (t : Fin cfg11.N) : iblk11 V c 4 t = V c (Pipeline.arrRef spec11 4) :=
  funext fun y => congrArg (V c (Pipeline.arrRef spec11 4)) (funext fun a => Fin.ext (by
    match a with
    | ⟨0, _⟩ => show win11_4.index t (0 : Fin 2) * 1 + 1 * (y 0).val = (y 0).val; rw [(idx_facts t).2.2.2.2.2.2.2.2.1]; omega
    | ⟨1, _⟩ => show win11_4.index t (1 : Fin 2) * 128 + 1 * (y 1).val = (y 1).val; rw [(idx_facts t).2.2.2.2.2.2.2.2.2.1]; omega))

/-- Window 5 stages its whole array at every point. -/
theorem blk5 (c : Dev nD) (t : Fin cfg11.N) : iblk11 V c 5 t = V c (Pipeline.arrRef spec11 5) :=
  funext fun y => congrArg (V c (Pipeline.arrRef spec11 5)) (funext fun a => Fin.ext (by
    match a with
    | ⟨0, _⟩ => show win11_5.index t (0 : Fin 2) * 128 + 1 * (y 0).val = (y 0).val; rw [(idx_facts t).2.2.2.2.2.2.2.2.2.2.1]; omega
    | ⟨1, _⟩ => show win11_5.index t (1 : Fin 2) * 128 + 1 * (y 1).val = (y 1).val; rw [(idx_facts t).2.2.2.2.2.2.2.2.2.2.2.1]; omega))

/-- Window 6 stages its whole array at every point. -/
theorem blk6 (c : Dev nD) (t : Fin cfg11.N) : iblk11 V c 6 t = V c (Pipeline.arrRef spec11 6) :=
  funext fun y => congrArg (V c (Pipeline.arrRef spec11 6)) (funext fun a => Fin.ext (by
    match a with
    | ⟨0, _⟩ => show win11_6.index t (0 : Fin 2) * 1 + 1 * (y 0).val = (y 0).val; rw [(idx_facts t).2.2.2.2.2.2.2.2.2.2.2.2.1]; omega
    | ⟨1, _⟩ => show win11_6.index t (1 : Fin 2) * 128 + 1 * (y 1).val = (y 1).val; rw [(idx_facts t).2.2.2.2.2.2.2.2.2.2.2.2.2.1]; omega))

/-- What point t writes back through output window 7 is block t of the whole-array function. -/
theorem flushed_next (c : Dev nD) (t : Fin cfg11.N) :
    (dat11 V c).flushed 7 t = ((cfg11.win 7).blk t).view.read (Elt Ideal) (addf (Cert.Spec.nodeUpdate (V c main_v177) (V c main_v206) (V c main_v209) (V c main_v211) (V c main_v218) (V c main_v215) (V c main_v219)) (V c main_v177)) := by
  show (cfg11.win 7).cut (grid11.coords t) ((dat11 V c).after 7 t) = _
  rw [after11_7]
  unfold out11_7
  rw [View.canon_unit_zero hz]
  simp only [View.ld_unit_zero (S := S2000x128) hz, View.ld_unit_zero (S := S384x128) hz, View.ld_unit_zero (S := S1x128) hz, View.ld_unit_zero (S := S128x128) hz]
  rw [blk3 V c t, blk4 V c t, blk5 V c t, blk6 V c t, Cert.Payloads.k11_pay1_eq]
  funext j
  exact (Cert.Payloads.node_next_blk (blk0 V c t) (blk1 V c t) (blk2 V c t) _ _ _ _).read j (((cfg11.win 7).blk t).view.emb j)
    (by show win11_7.index t (0 : Fin 2) * 2000 + 1 * (j 0).val = t.val * 2000 + (j 0).val; rw [(idx_facts t).2.2.2.2.2.2.2.2.2.2.2.2.2.2.1]; omega)
    (by show win11_7.index t (1 : Fin 2) * 128 + 1 * (j 1).val = (j 1).val; rw [(idx_facts t).2.2.2.2.2.2.2.2.2.2.2.2.2.2.2]; omega)

/-- An index of output array 7 is in point t's block iff each coordinate is in the block's range. -/
theorem mem_blk_next (t : Fin cfg11.N) (i : S20000x128.Idx) :
    i ∈ ((cfg11.win 7).blk t).view.set ↔ ∀ a : Fin 2, win11_7.index t a * S2000x128.size a ≤ (i a).val ∧ (i a).val < win11_7.index t a * S2000x128.size a + S2000x128.size a := by
  show i ∈ ((View.whole main_v220).slice (win11_7.rect t)).set ↔ _
  rw [View.set_slice_whole, Rect.mem_set_unit]
  exact Iff.rfl

/-- Every row of output array 7 is in the block of the point its row number divided by 2000 names. -/
theorem cover_next (i : S20000x128.Idx) : ∃ t : Fin cfg11.N, (cfg11.win 7).flush t = true ∧ i ∈ ((cfg11.win 7).blk t).view.set := by
  have hi0 : (i 0).val < 20000 := (i 0).isLt
  have hi1 : (i 1).val < 128 := (i 1).isLt
  have ht : (i 0).val / 2000 < 10 := by omega
  refine ⟨⟨(i 0).val / 2000, ht⟩, flush11_7 _, ?_⟩
  rw [mem_blk_next]
  have e0 := (idx_facts ⟨(i 0).val / 2000, ht⟩).2.2.2.2.2.2.2.2.2.2.2.2.2.2.1
  have e1 := (idx_facts ⟨(i 0).val / 2000, ht⟩).2.2.2.2.2.2.2.2.2.2.2.2.2.2.2
  intro a
  match a with
  | ⟨0, _⟩ =>
    show win11_7.index ⟨(i 0).val / 2000, ht⟩ (0 : Fin 2) * 2000 ≤ (i 0).val ∧ (i 0).val < win11_7.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win11_7.index ⟨(i 0).val / 2000, ht⟩ (1 : Fin 2) * 128 ≤ (i 1).val ∧ (i 1).val < win11_7.index ⟨(i 0).val / 2000, ht⟩ (1 : Fin 2) * 128 + 128
    rw [e1]; omega

/-- Output array 7 after the region. -/
theorem final_next (c : Dev nD) : (dat11 V c).arrAt 7 cfg11.N = addf (Cert.Spec.nodeUpdate (V c main_v177) (V c main_v206) (V c main_v209) (V c main_v211) (V c main_v218) (V c main_v215) (V c main_v219)) (V c main_v177) :=
  (dat11 V c).arrAt_eq_of_cover 7 _ (fun t _ => flushed_next V c t) cover_next

end Cert.KernelIdeal.Region11

end
-- ==== Proof.ChainStep4.lean ====
/-
  Message-passing step 4: regions 10 and 11 of the kernel's @main leave the new edge features, the next edge features and
  the next node features of step 4.

  The stretch of host operations before the edge region gathers the sender and receiver rows of the current node
  features and slices the step's weights; the stretch before the node region forms the two segment sums of the new
  edge features. Each region's output is the whole-array function of what it found (Region10, Region11).
-/
import proofs.«150645_j45672682226304_2_alg».proof.Proof.ChainStep3
import proofs.«150645_j45672682226304_2_alg».proof.Proof.Region10
import proofs.«150645_j45672682226304_2_alg».proof.Proof.Region11

set_option maxRecDepth 16384

noncomputable section

namespace Cert.Chain

open Idealize.ShloMosaic Idealize.ShloMosaic.TcCoe Idealize.ShloMosaic.StableHlo Idealize.SL.Sem
open Cert.KernelIdeal Cert.KernelIdeal.Gen Cert.KernelIdeal

variable {m : (ℓ : Loc nD τ sig) → Buf (Elt Ideal) ℓ} (ρ : Dev nD → PrngReg) {c : Dev nD}
variable {V' : Valuation Cert.ReferenceIdeal.τ Cert.ReferenceIdeal.sig (Elt Ideal)}

/-- What stretch 10 reads of the earlier regions' results. -/
theorem hn4_at20 (h : Agree m c V') : W20 m ρ c (Proc.devRef .tc main_v177) = (Terms.hn4 V') :=
  t_hn4 ρ h

theorem in10_0 (h : Agree m c V') : V21 m ρ c main_v160_1 = (Terms.he4 V') := ((Keep.keep_host10 m ρ c main_v160_1 (by decide)).trans ((W20_of_ne m ρ c main_v160_1 (by decide)).trans (Keep.keep_host9 m ρ c main_v160_1 (by decide)))).trans (t_he4 ρ h)
set_option maxHeartbeats 4000000 in
theorem in10_1 (h : Agree m c V') : V21 m ρ c main_v185 = (Terms.pick (Terms.hn4 V') (Terms.sIdx V')) := by
  show StableHlo.after hostOps10 (W20 m ρ c) (Proc.devRef .tc main_v185) = _
  after_results
  simp only [arg2_at20 ρ h, arg3_at20 ρ h, arg12_at20 ρ h, arg13_at20 ρ h, arg14_at20 ρ h, arg15_at20 ρ h, hn4_at20 ρ h]
  first | rfl | exact Cert.Lib.DenseLayer.addUnit_eq_bcast (by decide) _ _ _ | exact unit_row _ _ _
set_option maxHeartbeats 4000000 in
theorem in10_2 (h : Agree m c V') : V21 m ρ c main_v192 = (Terms.pick (Terms.hn4 V') (Terms.rIdx V')) := by
  show StableHlo.after hostOps10 (W20 m ρ c) (Proc.devRef .tc main_v192) = _
  after_results
  simp only [arg2_at20 ρ h, arg3_at20 ρ h, arg12_at20 ρ h, arg13_at20 ρ h, arg14_at20 ρ h, arg15_at20 ρ h, hn4_at20 ρ h]
  first | rfl | exact Cert.Lib.DenseLayer.addUnit_eq_bcast (by decide) _ _ _ | exact unit_row _ _ _
set_option maxHeartbeats 4000000 in
theorem in10_3 (h : Agree m c V') : V21 m ρ c main_v194 = (Terms.eW1_4 V') := by
  show StableHlo.after hostOps10 (W20 m ρ c) (Proc.devRef .tc main_v194) = _
  after_results
  simp only [arg2_at20 ρ h, arg3_at20 ρ h, arg12_at20 ρ h, arg13_at20 ρ h, arg14_at20 ρ h, arg15_at20 ρ h, hn4_at20 ρ h]
  first | rfl | exact Cert.Lib.DenseLayer.addUnit_eq_bcast (by decide) _ _ _ | exact unit_row _ _ _
set_option maxHeartbeats 4000000 in
theorem in10_4 (h : Agree m c V') : V21 m ρ c main_v201 = (Terms.eb1_4 V') := by
  show StableHlo.after hostOps10 (W20 m ρ c) (Proc.devRef .tc main_v201) = _
  after_results
  simp only [arg2_at20 ρ h, arg3_at20 ρ h, arg12_at20 ρ h, arg13_at20 ρ h, arg14_at20 ρ h, arg15_at20 ρ h, hn4_at20 ρ h]
  first | rfl | exact Cert.Lib.DenseLayer.addUnit_eq_bcast (by decide) _ _ _ | exact unit_row _ _ _
set_option maxHeartbeats 4000000 in
theorem in10_5 (h : Agree m c V') : V21 m ρ c main_v198 = (Terms.eW2_4 V') := by
  show StableHlo.after hostOps10 (W20 m ρ c) (Proc.devRef .tc main_v198) = _
  after_results
  simp only [arg2_at20 ρ h, arg3_at20 ρ h, arg12_at20 ρ h, arg13_at20 ρ h, arg14_at20 ρ h, arg15_at20 ρ h, hn4_at20 ρ h]
  first | rfl | exact Cert.Lib.DenseLayer.addUnit_eq_bcast (by decide) _ _ _ | exact unit_row _ _ _
set_option maxHeartbeats 4000000 in
theorem in10_6 (h : Agree m c V') : V21 m ρ c main_v202 = (Terms.eb2_4 V') := by
  show StableHlo.after hostOps10 (W20 m ρ c) (Proc.devRef .tc main_v202) = _
  after_results
  simp only [arg2_at20 ρ h, arg3_at20 ρ h, arg12_at20 ρ h, arg13_at20 ρ h, arg14_at20 ρ h, arg15_at20 ρ h, hn4_at20 ρ h]
  first | rfl | exact Cert.Lib.DenseLayer.addUnit_eq_bcast (by decide) _ _ _ | exact unit_row _ _ _

/-- Region 10's output main_v203_0 after the region. -/
theorem t_enew4 (h : Agree m c V') : W22 m ρ c (Proc.devRef .tc main_v203_0) = (Terms.enew4 V') := by
  refine (W22_arr m ρ c 7).trans ?_
  rw [Region10.final_new (V21 m ρ) c, in10_0 ρ h, in10_1 ρ h, in10_2 ρ h, in10_3 ρ h, in10_4 ρ h, in10_5 ρ h, in10_6 ρ h]
  rfl

/-- Region 10's output main_v203_1 after the region. -/
theorem t_he5 (h : Agree m c V') : W22 m ρ c (Proc.devRef .tc main_v203_1) = (Terms.he5 V') := by
  refine (W22_arr m ρ c 8).trans ?_
  rw [Region10.final_next (V21 m ρ) c, in10_0 ρ h, in10_1 ρ h, in10_2 ρ h, in10_3 ρ h, in10_4 ρ h, in10_5 ρ h, in10_6 ρ h]
  rfl

/-- What stretch 11 reads of the earlier regions' results. -/
theorem enew4_at22 (h : Agree m c V') : W22 m ρ c (Proc.devRef .tc main_v203_0) = (Terms.enew4 V') :=
  t_enew4 ρ h

theorem in11_0 (h : Agree m c V') : V23 m ρ c main_v177 = (Terms.hn4 V') := ((Keep.keep_host11 m ρ c main_v177 (by decide)).trans ((W22_of_ne m ρ c main_v177 (by decide)).trans (Keep.keep_host10 m ρ c main_v177 (by decide)))).trans (t_hn4 ρ h)
set_option maxHeartbeats 4000000 in
theorem in11_1 (h : Agree m c V') : V23 m ρ c main_v206 = (Terms.sumSent V' (Terms.enew4 V')) := by
  show StableHlo.after hostOps11 (W22 m ρ c) (Proc.devRef .tc main_v206) = _
  after_results
  simp only [arg2_at22 ρ h, arg3_at22 ρ h, arg16_at22 ρ h, arg17_at22 ρ h, arg18_at22 ρ h, arg19_at22 ρ h, enew4_at22 ρ h]
  first | rfl | exact Cert.Lib.DenseLayer.addUnit_eq_bcast (by decide) _ _ _ | exact unit_row _ _ _
set_option maxHeartbeats 4000000 in
theorem in11_2 (h : Agree m c V') : V23 m ρ c main_v209 = (Terms.sumRecv V' (Terms.enew4 V')) := by
  show StableHlo.after hostOps11 (W22 m ρ c) (Proc.devRef .tc main_v209) = _
  after_results
  simp only [arg2_at22 ρ h, arg3_at22 ρ h, arg16_at22 ρ h, arg17_at22 ρ h, arg18_at22 ρ h, arg19_at22 ρ h, enew4_at22 ρ h]
  first | rfl | exact Cert.Lib.DenseLayer.addUnit_eq_bcast (by decide) _ _ _ | exact unit_row _ _ _
set_option maxHeartbeats 4000000 in
theorem in11_3 (h : Agree m c V') : V23 m ρ c main_v211 = (Terms.nW1_4 V') := by
  show StableHlo.after hostOps11 (W22 m ρ c) (Proc.devRef .tc main_v211) = _
  after_results
  simp only [arg2_at22 ρ h, arg3_at22 ρ h, arg16_at22 ρ h, arg17_at22 ρ h, arg18_at22 ρ h, arg19_at22 ρ h, enew4_at22 ρ h]
  first | rfl | exact Cert.Lib.DenseLayer.addUnit_eq_bcast (by decide) _ _ _ | exact unit_row _ _ _
set_option maxHeartbeats 4000000 in
theorem in11_4 (h : Agree m c V') : V23 m ρ c main_v218 = (Terms.nb1_4 V') := by
  show StableHlo.after hostOps11 (W22 m ρ c) (Proc.devRef .tc main_v218) = _
  after_results
  simp only [arg2_at22 ρ h, arg3_at22 ρ h, arg16_at22 ρ h, arg17_at22 ρ h, arg18_at22 ρ h, arg19_at22 ρ h, enew4_at22 ρ h]
  first | rfl | exact Cert.Lib.DenseLayer.addUnit_eq_bcast (by decide) _ _ _ | exact unit_row _ _ _
set_option maxHeartbeats 4000000 in
theorem in11_5 (h : Agree m c V') : V23 m ρ c main_v215 = (Terms.nW2_4 V') := by
  show StableHlo.after hostOps11 (W22 m ρ c) (Proc.devRef .tc main_v215) = _
  after_results
  simp only [arg2_at22 ρ h, arg3_at22 ρ h, arg16_at22 ρ h, arg17_at22 ρ h, arg18_at22 ρ h, arg19_at22 ρ h, enew4_at22 ρ h]
  first | rfl | exact Cert.Lib.DenseLayer.addUnit_eq_bcast (by decide) _ _ _ | exact unit_row _ _ _
set_option maxHeartbeats 4000000 in
theorem in11_6 (h : Agree m c V') : V23 m ρ c main_v219 = (Terms.nb2_4 V') := by
  show StableHlo.after hostOps11 (W22 m ρ c) (Proc.devRef .tc main_v219) = _
  after_results
  simp only [arg2_at22 ρ h, arg3_at22 ρ h, arg16_at22 ρ h, arg17_at22 ρ h, arg18_at22 ρ h, arg19_at22 ρ h, enew4_at22 ρ h]
  first | rfl | exact Cert.Lib.DenseLayer.addUnit_eq_bcast (by decide) _ _ _ | exact unit_row _ _ _

/-- Region 11's output main_v220 after the region. -/
theorem t_hn5 (h : Agree m c V') : W24 m ρ c (Proc.devRef .tc main_v220) = (Terms.hn5 V') := by
  refine (W24_arr m ρ c 7).trans ?_
  rw [Region11.final_next (V23 m ρ) c, in11_0 ρ h, in11_1 ρ h, in11_2 ρ h, in11_3 ρ h, in11_4 ρ h, in11_5 ρ h, in11_6 ρ h]
  rfl

end Cert.Chain

end
-- ==== Proof.ChainArgsE1.lean ====
/-
  The argument arrays at the boundaries where they are read.

  No host operation and no region writes an argument, so at every boundary an argument's buffer holds its launch
  contents — which, under the claim's hypothesis that the two programs start from memories agreeing on the arguments,
  is the reference's argument. Each fact is the walk back to the launch through the segments in between.
-/
import proofs.«150645_j45672682226304_2_alg».proof.Proof.Keep
import proofs.«150645_j45672682226304_2_alg».proof.Proof.ChainAgree

set_option maxRecDepth 16384

noncomputable section

namespace Cert.Chain

open Idealize.ShloMosaic Idealize.ShloMosaic.TcCoe Idealize.ShloMosaic.StableHlo Idealize.SL.Sem
open Cert.KernelIdeal Cert.KernelIdeal.Gen Cert.KernelIdeal

variable {m : (ℓ : Loc nD τ sig) → Buf (Elt Ideal) ℓ} (ρ : Dev nD → PrngReg) {c : Dev nD}
variable {V' : Valuation Cert.ReferenceIdeal.τ Cert.ReferenceIdeal.sig (Elt Ideal)}

theorem arg20_at25 (h : Agree m c V') : W25 m ρ c (Proc.devRef .tc main_arg20) = V' (Proc.devRef .tc Cert.ReferenceIdeal.main_arg20) :=
  ((Keep.keep_host12 m ρ c main_arg20 (by decide)).trans ((W24_of_ne m ρ c main_arg20 (by decide)).trans ((Keep.keep_host11 m ρ c main_arg20 (by decide)).trans ((W22_of_ne m ρ c main_arg20 (by decide)).trans ((Keep.keep_host10 m ρ c main_arg20 (by decide)).trans ((W20_of_ne m ρ c main_arg20 (by decide)).trans ((Keep.keep_host9 m ρ c main_arg20 (by decide)).trans ((W18_of_ne m ρ c main_arg20 (by decide)).trans ((Keep.keep_host8 m ρ c main_arg20 (by decide)).trans ((W16_of_ne m ρ c main_arg20 (by decide)).trans ((Keep.keep_host7 m ρ c main_arg20 (by decide)).trans ((W14_of_ne m ρ c main_arg20 (by decide)).trans ((Keep.keep_host6 m ρ c main_arg20 (by decide)).trans ((W12_of_ne m ρ c main_arg20 (by decide)).trans ((Keep.keep_host5 m ρ c main_arg20 (by decide)).trans ((W10_of_ne m ρ c main_arg20 (by decide)).trans ((Keep.keep_host4 m ρ c main_arg20 (by decide)).trans ((W8_of_ne m ρ c main_arg20 (by decide)).trans ((Keep.keep_host3 m ρ c main_arg20 (by decide)).trans ((W6_of_ne m ρ c main_arg20 (by decide)).trans ((Keep.keep_host2 m ρ c main_arg20 (by decide)).trans ((W4_of_ne m ρ c main_arg20 (by decide)).trans ((Keep.keep_host1 m ρ c main_arg20 (by decide)).trans ((W2_of_ne m ρ c main_arg20 (by decide)).trans (Keep.keep_host0 m ρ c main_arg20 (by decide)))))))))))))))))))))))))).trans h.a20.symm
theorem arg21_at24 (h : Agree m c V') : W24 m ρ c (Proc.devRef .tc main_arg21) = V' (Proc.devRef .tc Cert.ReferenceIdeal.main_arg21) :=
  ((W24_of_ne m ρ c main_arg21 (by decide)).trans ((Keep.keep_host11 m ρ c main_arg21 (by decide)).trans ((W22_of_ne m ρ c main_arg21 (by decide)).trans ((Keep.keep_host10 m ρ c main_arg21 (by decide)).trans ((W20_of_ne m ρ c main_arg21 (by decide)).trans ((Keep.keep_host9 m ρ c main_arg21 (by decide)).trans ((W18_of_ne m ρ c main_arg21 (by decide)).trans ((Keep.keep_host8 m ρ c main_arg21 (by decide)).trans ((W16_of_ne m ρ c main_arg21 (by decide)).trans ((Keep.keep_host7 m ρ c main_arg21 (by decide)).trans ((W14_of_ne m ρ c main_arg21 (by decide)).trans ((Keep.keep_host6 m ρ c main_arg21 (by decide)).trans ((W12_of_ne m ρ c main_arg21 (by decide)).trans ((Keep.keep_host5 m ρ c main_arg21 (by decide)).trans ((W10_of_ne m ρ c main_arg21 (by decide)).trans ((Keep.keep_host4 m ρ c main_arg21 (by decide)).trans ((W8_of_ne m ρ c main_arg21 (by decide)).trans ((Keep.keep_host3 m ρ c main_arg21 (by decide)).trans ((W6_of_ne m ρ c main_arg21 (by decide)).trans ((Keep.keep_host2 m ρ c main_arg21 (by decide)).trans ((W4_of_ne m ρ c main_arg21 (by decide)).trans ((Keep.keep_host1 m ρ c main_arg21 (by decide)).trans ((W2_of_ne m ρ c main_arg21 (by decide)).trans (Keep.keep_host0 m ρ c main_arg21 (by decide))))))))))))))))))))))))).trans h.a21.symm
theorem arg22_at25 (h : Agree m c V') : W25 m ρ c (Proc.devRef .tc main_arg22) = V' (Proc.devRef .tc Cert.ReferenceIdeal.main_arg22) :=
  ((Keep.keep_host12 m ρ c main_arg22 (by decide)).trans ((W24_of_ne m ρ c main_arg22 (by decide)).trans ((Keep.keep_host11 m ρ c main_arg22 (by decide)).trans ((W22_of_ne m ρ c main_arg22 (by decide)).trans ((Keep.keep_host10 m ρ c main_arg22 (by decide)).trans ((W20_of_ne m ρ c main_arg22 (by decide)).trans ((Keep.keep_host9 m ρ c main_arg22 (by decide)).trans ((W18_of_ne m ρ c main_arg22 (by decide)).trans ((Keep.keep_host8 m ρ c main_arg22 (by decide)).trans ((W16_of_ne m ρ c main_arg22 (by decide)).trans ((Keep.keep_host7 m ρ c main_arg22 (by decide)).trans ((W14_of_ne m ρ c main_arg22 (by decide)).trans ((Keep.keep_host6 m ρ c main_arg22 (by decide)).trans ((W12_of_ne m ρ c main_arg22 (by decide)).trans ((Keep.keep_host5 m ρ c main_arg22 (by decide)).trans ((W10_of_ne m ρ c main_arg22 (by decide)).trans ((Keep.keep_host4 m ρ c main_arg22 (by decide)).trans ((W8_of_ne m ρ c main_arg22 (by decide)).trans ((Keep.keep_host3 m ρ c main_arg22 (by decide)).trans ((W6_of_ne m ρ c main_arg22 (by decide)).trans ((Keep.keep_host2 m ρ c main_arg22 (by decide)).trans ((W4_of_ne m ρ c main_arg22 (by decide)).trans ((Keep.keep_host1 m ρ c main_arg22 (by decide)).trans ((W2_of_ne m ρ c main_arg22 (by decide)).trans (Keep.keep_host0 m ρ c main_arg22 (by decide)))))))))))))))))))))))))).trans h.a22.symm
theorem arg23_at24 (h : Agree m c V') : W24 m ρ c (Proc.devRef .tc main_arg23) = V' (Proc.devRef .tc Cert.ReferenceIdeal.main_arg23) :=
  ((W24_of_ne m ρ c main_arg23 (by decide)).trans ((Keep.keep_host11 m ρ c main_arg23 (by decide)).trans ((W22_of_ne m ρ c main_arg23 (by decide)).trans ((Keep.keep_host10 m ρ c main_arg23 (by decide)).trans ((W20_of_ne m ρ c main_arg23 (by decide)).trans ((Keep.keep_host9 m ρ c main_arg23 (by decide)).trans ((W18_of_ne m ρ c main_arg23 (by decide)).trans ((Keep.keep_host8 m ρ c main_arg23 (by decide)).trans ((W16_of_ne m ρ c main_arg23 (by decide)).trans ((Keep.keep_host7 m ρ c main_arg23 (by decide)).trans ((W14_of_ne m ρ c main_arg23 (by decide)).trans ((Keep.keep_host6 m ρ c main_arg23 (by decide)).trans ((W12_of_ne m ρ c main_arg23 (by decide)).trans ((Keep.keep_host5 m ρ c main_arg23 (by decide)).trans ((W10_of_ne m ρ c main_arg23 (by decide)).trans ((Keep.keep_host4 m ρ c main_arg23 (by decide)).trans ((W8_of_ne m ρ c main_arg23 (by decide)).trans ((Keep.keep_host3 m ρ c main_arg23 (by decide)).trans ((W6_of_ne m ρ c main_arg23 (by decide)).trans ((Keep.keep_host2 m ρ c main_arg23 (by decide)).trans ((W4_of_ne m ρ c main_arg23 (by decide)).trans ((Keep.keep_host1 m ρ c main_arg23 (by decide)).trans ((W2_of_ne m ρ c main_arg23 (by decide)).trans (Keep.keep_host0 m ρ c main_arg23 (by decide))))))))))))))))))))))))).trans h.a23.symm

end Cert.Chain

end
-- ==== Proof.ChainArgsE2.lean ====
/-
  The argument arrays at the boundaries where they are read.

  No host operation and no region writes an argument, so at every boundary an argument's buffer holds its launch
  contents — which, under the claim's hypothesis that the two programs start from memories agreeing on the arguments,
  is the reference's argument. Each fact is the walk back to the launch through the segments in between.
-/
import proofs.«150645_j45672682226304_2_alg».proof.Proof.Keep
import proofs.«150645_j45672682226304_2_alg».proof.Proof.ChainAgree

set_option maxRecDepth 16384

noncomputable section

namespace Cert.Chain

open Idealize.ShloMosaic Idealize.ShloMosaic.TcCoe Idealize.ShloMosaic.StableHlo Idealize.SL.Sem
open Cert.KernelIdeal Cert.KernelIdeal.Gen Cert.KernelIdeal

variable {m : (ℓ : Loc nD τ sig) → Buf (Elt Ideal) ℓ} (ρ : Dev nD → PrngReg) {c : Dev nD}
variable {V' : Valuation Cert.ReferenceIdeal.τ Cert.ReferenceIdeal.sig (Elt Ideal)}

theorem arg24_at27 (h : Agree m c V') : W27 m ρ c (Proc.devRef .tc main_arg24) = V' (Proc.devRef .tc Cert.ReferenceIdeal.main_arg24) :=
  ((Keep.keep_host13 m ρ c main_arg24 (by decide)).trans ((W26_of_ne m ρ c main_arg24 (by decide)).trans ((Keep.keep_host12 m ρ c main_arg24 (by decide)).trans ((W24_of_ne m ρ c main_arg24 (by decide)).trans ((Keep.keep_host11 m ρ c main_arg24 (by decide)).trans ((W22_of_ne m ρ c main_arg24 (by decide)).trans ((Keep.keep_host10 m ρ c main_arg24 (by decide)).trans ((W20_of_ne m ρ c main_arg24 (by decide)).trans ((Keep.keep_host9 m ρ c main_arg24 (by decide)).trans ((W18_of_ne m ρ c main_arg24 (by decide)).trans ((Keep.keep_host8 m ρ c main_arg24 (by decide)).trans ((W16_of_ne m ρ c main_arg24 (by decide)).trans ((Keep.keep_host7 m ρ c main_arg24 (by decide)).trans ((W14_of_ne m ρ c main_arg24 (by decide)).trans ((Keep.keep_host6 m ρ c main_arg24 (by decide)).trans ((W12_of_ne m ρ c main_arg24 (by decide)).trans ((Keep.keep_host5 m ρ c main_arg24 (by decide)).trans ((W10_of_ne m ρ c main_arg24 (by decide)).trans ((Keep.keep_host4 m ρ c main_arg24 (by decide)).trans ((W8_of_ne m ρ c main_arg24 (by decide)).trans ((Keep.keep_host3 m ρ c main_arg24 (by decide)).trans ((W6_of_ne m ρ c main_arg24 (by decide)).trans ((Keep.keep_host2 m ρ c main_arg24 (by decide)).trans ((W4_of_ne m ρ c main_arg24 (by decide)).trans ((Keep.keep_host1 m ρ c main_arg24 (by decide)).trans ((W2_of_ne m ρ c main_arg24 (by decide)).trans (Keep.keep_host0 m ρ c main_arg24 (by decide)))))))))))))))))))))))))))).trans h.a24.symm
theorem arg25_at26 (h : Agree m c V') : W26 m ρ c (Proc.devRef .tc main_arg25) = V' (Proc.devRef .tc Cert.ReferenceIdeal.main_arg25) :=
  ((W26_of_ne m ρ c main_arg25 (by decide)).trans ((Keep.keep_host12 m ρ c main_arg25 (by decide)).trans ((W24_of_ne m ρ c main_arg25 (by decide)).trans ((Keep.keep_host11 m ρ c main_arg25 (by decide)).trans ((W22_of_ne m ρ c main_arg25 (by decide)).trans ((Keep.keep_host10 m ρ c main_arg25 (by decide)).trans ((W20_of_ne m ρ c main_arg25 (by decide)).trans ((Keep.keep_host9 m ρ c main_arg25 (by decide)).trans ((W18_of_ne m ρ c main_arg25 (by decide)).trans ((Keep.keep_host8 m ρ c main_arg25 (by decide)).trans ((W16_of_ne m ρ c main_arg25 (by decide)).trans ((Keep.keep_host7 m ρ c main_arg25 (by decide)).trans ((W14_of_ne m ρ c main_arg25 (by decide)).trans ((Keep.keep_host6 m ρ c main_arg25 (by decide)).trans ((W12_of_ne m ρ c main_arg25 (by decide)).trans ((Keep.keep_host5 m ρ c main_arg25 (by decide)).trans ((W10_of_ne m ρ c main_arg25 (by decide)).trans ((Keep.keep_host4 m ρ c main_arg25 (by decide)).trans ((W8_of_ne m ρ c main_arg25 (by decide)).trans ((Keep.keep_host3 m ρ c main_arg25 (by decide)).trans ((W6_of_ne m ρ c main_arg25 (by decide)).trans ((Keep.keep_host2 m ρ c main_arg25 (by decide)).trans ((W4_of_ne m ρ c main_arg25 (by decide)).trans ((Keep.keep_host1 m ρ c main_arg25 (by decide)).trans ((W2_of_ne m ρ c main_arg25 (by decide)).trans (Keep.keep_host0 m ρ c main_arg25 (by decide))))))))))))))))))))))))))).trans h.a25.symm
theorem arg26_at27 (h : Agree m c V') : W27 m ρ c (Proc.devRef .tc main_arg26) = V' (Proc.devRef .tc Cert.ReferenceIdeal.main_arg26) :=
  ((Keep.keep_host13 m ρ c main_arg26 (by decide)).trans ((W26_of_ne m ρ c main_arg26 (by decide)).trans ((Keep.keep_host12 m ρ c main_arg26 (by decide)).trans ((W24_of_ne m ρ c main_arg26 (by decide)).trans ((Keep.keep_host11 m ρ c main_arg26 (by decide)).trans ((W22_of_ne m ρ c main_arg26 (by decide)).trans ((Keep.keep_host10 m ρ c main_arg26 (by decide)).trans ((W20_of_ne m ρ c main_arg26 (by decide)).trans ((Keep.keep_host9 m ρ c main_arg26 (by decide)).trans ((W18_of_ne m ρ c main_arg26 (by decide)).trans ((Keep.keep_host8 m ρ c main_arg26 (by decide)).trans ((W16_of_ne m ρ c main_arg26 (by decide)).trans ((Keep.keep_host7 m ρ c main_arg26 (by decide)).trans ((W14_of_ne m ρ c main_arg26 (by decide)).trans ((Keep.keep_host6 m ρ c main_arg26 (by decide)).trans ((W12_of_ne m ρ c main_arg26 (by decide)).trans ((Keep.keep_host5 m ρ c main_arg26 (by decide)).trans ((W10_of_ne m ρ c main_arg26 (by decide)).trans ((Keep.keep_host4 m ρ c main_arg26 (by decide)).trans ((W8_of_ne m ρ c main_arg26 (by decide)).trans ((Keep.keep_host3 m ρ c main_arg26 (by decide)).trans ((W6_of_ne m ρ c main_arg26 (by decide)).trans ((Keep.keep_host2 m ρ c main_arg26 (by decide)).trans ((W4_of_ne m ρ c main_arg26 (by decide)).trans ((Keep.keep_host1 m ρ c main_arg26 (by decide)).trans ((W2_of_ne m ρ c main_arg26 (by decide)).trans (Keep.keep_host0 m ρ c main_arg26 (by decide)))))))))))))))))))))))))))).trans h.a26.symm
theorem arg27_at26 (h : Agree m c V') : W26 m ρ c (Proc.devRef .tc main_arg27) = V' (Proc.devRef .tc Cert.ReferenceIdeal.main_arg27) :=
  ((W26_of_ne m ρ c main_arg27 (by decide)).trans ((Keep.keep_host12 m ρ c main_arg27 (by decide)).trans ((W24_of_ne m ρ c main_arg27 (by decide)).trans ((Keep.keep_host11 m ρ c main_arg27 (by decide)).trans ((W22_of_ne m ρ c main_arg27 (by decide)).trans ((Keep.keep_host10 m ρ c main_arg27 (by decide)).trans ((W20_of_ne m ρ c main_arg27 (by decide)).trans ((Keep.keep_host9 m ρ c main_arg27 (by decide)).trans ((W18_of_ne m ρ c main_arg27 (by decide)).trans ((Keep.keep_host8 m ρ c main_arg27 (by decide)).trans ((W16_of_ne m ρ c main_arg27 (by decide)).trans ((Keep.keep_host7 m ρ c main_arg27 (by decide)).trans ((W14_of_ne m ρ c main_arg27 (by decide)).trans ((Keep.keep_host6 m ρ c main_arg27 (by decide)).trans ((W12_of_ne m ρ c main_arg27 (by decide)).trans ((Keep.keep_host5 m ρ c main_arg27 (by decide)).trans ((W10_of_ne m ρ c main_arg27 (by decide)).trans ((Keep.keep_host4 m ρ c main_arg27 (by decide)).trans ((W8_of_ne m ρ c main_arg27 (by decide)).trans ((Keep.keep_host3 m ρ c main_arg27 (by decide)).trans ((W6_of_ne m ρ c main_arg27 (by decide)).trans ((Keep.keep_host2 m ρ c main_arg27 (by decide)).trans ((W4_of_ne m ρ c main_arg27 (by decide)).trans ((Keep.keep_host1 m ρ c main_arg27 (by decide)).trans ((W2_of_ne m ρ c main_arg27 (by decide)).trans (Keep.keep_host0 m ρ c main_arg27 (by decide))))))))))))))))))))))))))).trans h.a27.symm

end Cert.Chain

end
-- ==== Proof.Region12.lean ====
/-
  Region 12 of the kernel's @main: the node decoder, 128 features to 3, over 20000 nodes in blocks of 2000.

  The grid has 10 points; point t stages rows 2000·t … 2000·t + 1999 of the input, the whole weight and bias arrays,
  and writes back rows 2000·t … of the output. The body's stored block is, by the payload lemma, that block of rows of
  the whole-array function; the blocks of the 10 points cover every row; so the output array after the region is the
  whole-array function of the arrays the region found.
-/
import proofs.«150645_j45672682226304_2_alg».proof.Proof.Gen.KernelIdeal.Frame
import proofs.«150645_j45672682226304_2_alg».proof.Proof.Payloads
import proofs.«150645_j45672682226304_2_alg».proof.Proof.LibRowRead

set_option maxRecDepth 16384

noncomputable section

namespace Cert.KernelIdeal.Region12

open Idealize.ShloMosaic Idealize.ShloMosaic.TcCoe Idealize.ShloMosaic.ValueIdx Idealize.SL.Sem
open Cert.KernelIdeal Cert.KernelIdeal.Gen Cert.Lib.DenseLayer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg12.N, win12_0.index t (0 : Fin 2) = t.val
    ∧ win12_0.index t (1 : Fin 2) = 0
    ∧ win12_1.index t (0 : Fin 2) = 0
    ∧ win12_1.index t (1 : Fin 2) = 0
    ∧ win12_2.index t (0 : Fin 2) = 0
    ∧ win12_2.index t (1 : Fin 2) = 0
    ∧ win12_3.index t (0 : Fin 2) = 0
    ∧ win12_3.index t (1 : Fin 2) = 0
    ∧ win12_4.index t (0 : Fin 2) = 0
    ∧ win12_4.index t (1 : Fin 2) = 0
    ∧ win12_5.index t (0 : Fin 2) = t.val
    ∧ win12_5.index t (1 : Fin 2) = 0 :=
  (by decide +kernel : ∀ t : Fin grid12.N, _)

/-- The input block at point t is the block of rows of the input array that starts at row 2000·t. -/
theorem blk0 (c : Dev nD) (t : Fin cfg12.N) : RowBlk (t.val * 2000) (iblk12 V c 0 t) (V c (Pipeline.arrRef spec12 0)) :=
  RowBlk.of_read (fun y => ((cfg12.win 0).blk t).view.emb y)
    (fun y => by show win12_0.index t (0 : Fin 2) * 2000 + 1 * (y 0).val = t.val * 2000 + (y 0).val; rw [(idx_facts t).1]; omega)
    (fun y => by show win12_0.index t (1 : Fin 2) * 128 + 1 * (y 1).val = (y 1).val; rw [(idx_facts t).2.1]; omega)
    (fun y => rfl)

/-- Window 1 stages its whole array at every point. -/
theorem blk1 (c : Dev nD) (t : Fin cfg12.N) : iblk12 V c 1 t = V c (Pipeline.arrRef spec12 1) :=
  funext fun y => congrArg (V c (Pipeline.arrRef spec12 1)) (funext fun a => Fin.ext (by
    match a with
    | ⟨0, _⟩ => show win12_1.index t (0 : Fin 2) * 128 + 1 * (y 0).val = (y 0).val; rw [(idx_facts t).2.2.1]; omega
    | ⟨1, _⟩ => show win12_1.index t (1 : Fin 2) * 128 + 1 * (y 1).val = (y 1).val; rw [(idx_facts t).2.2.2.1]; omega))

/-- Window 2 stages its whole array at every point. -/
theorem blk2 (c : Dev nD) (t : Fin cfg12.N) : iblk12 V c 2 t = V c (Pipeline.arrRef spec12 2) :=
  funext fun y => congrArg (V c (Pipeline.arrRef spec12 2)) (funext fun a => Fin.ext (by
    match a with
    | ⟨0, _⟩ => show win12_2.index t (0 : Fin 2) * 1 + 1 * (y 0).val = (y 0).val; rw [(idx_facts t).2.2.2.2.1]; omega
    | ⟨1, _⟩ => show win12_2.index t (1 : Fin 2) * 128 + 1 * (y 1).val = (y 1).val; rw [(idx_facts t).2.2.2.2.2.1]; omega))

/-- Window 3 stages its whole array at every point. -/
theorem blk3 (c : Dev nD) (t : Fin cfg12.N) : iblk12 V c 3 t = V c (Pipeline.arrRef spec12 3) :=
  funext fun y => congrArg (V c (Pipeline.arrRef spec12 3)) (funext fun a => Fin.ext (by
    match a with
    | ⟨0, _⟩ => show win12_3.index t (0 : Fin 2) * 128 + 1 * (y 0).val = (y 0).val; rw [(idx_facts t).2.2.2.2.2.2.1]; omega
    | ⟨1, _⟩ => show win12_3.index t (1 : Fin 2) * 3 + 1 * (y 1).val = (y 1).val; rw [(idx_facts t).2.2.2.2.2.2.2.1]; omega))

/-- Window 4 stages its whole array at every point. -/
theorem blk4 (c : Dev nD) (t : Fin cfg12.N) : iblk12 V c 4 t = V c (Pipeline.arrRef spec12 4) :=
  funext fun y => congrArg (V c (Pipeline.arrRef spec12 4)) (funext fun a => Fin.ext (by
    match a with
    | ⟨0, _⟩ => show win12_4.index t (0 : Fin 2) * 1 + 1 * (y 0).val = (y 0).val; rw [(idx_facts t).2.2.2.2.2.2.2.2.1]; omega
    | ⟨1, _⟩ => show win12_4.index t (1 : Fin 2) * 3 + 1 * (y 1).val = (y 1).val; rw [(idx_facts t).2.2.2.2.2.2.2.2.2.1]; omega))

/-- What point t writes back is block t of the whole-array function of the arrays the region found. -/
theorem flushed (c : Dev nD) (t : Fin cfg12.N) :
    (dat12 V c).flushed 5 t = ((cfg12.win 5).blk t).view.read (Elt Ideal)
      (Cert.Spec.decodeNodes (V c main_v220) (V c main_arg20) (V c main_v221)
        (V c main_arg22) (V c main_v222)) := by
  show (cfg12.win 5).cut (grid12.coords t) ((dat12 V c).after 5 t) = _
  rw [after12_5]
  unfold out12_5
  rw [View.canon_unit_zero hz]
  simp only [View.ld_unit_zero (S := S2000x128) hz, View.ld_unit_zero (S := S128x128) hz, View.ld_unit_zero (S := S1x128) hz,
    View.ld_unit_zero (S := S128x3) hz, View.ld_unit_zero (S := S1x3) hz]
  rw [blk1 V c t, blk2 V c t, blk3 V c t, blk4 V c t]
  funext j
  exact (Cert.Payloads.k12_pay1_blk (blk0 V c t) _ _ _ _).read j (((cfg12.win 5).blk t).view.emb j)
    (by show win12_5.index t (0 : Fin 2) * 2000 + 1 * (j 0).val = t.val * 2000 + (j 0).val; rw [(idx_facts t).2.2.2.2.2.2.2.2.2.2.1]; omega)
    (by show win12_5.index t (1 : Fin 2) * 3 + 1 * (j 1).val = (j 1).val; rw [(idx_facts t).2.2.2.2.2.2.2.2.2.2.2]; omega)

/-- An index of the output array is in point t's block iff each coordinate is in the block's range. -/
theorem mem_blk (t : Fin cfg12.N) (i : S20000x3.Idx) :
    i ∈ ((cfg12.win 5).blk t).view.set ↔ ∀ a : Fin 2, win12_5.index t a * S2000x3.size a ≤ (i a).val ∧ (i a).val < win12_5.index t a * S2000x3.size a + S2000x3.size a := by
  show i ∈ ((View.whole main_v223).slice (win12_5.rect t)).set ↔ _
  rw [View.set_slice_whole, Rect.mem_set_unit]
  exact Iff.rfl

/-- Every row of the output is in the block of the point its row number divided by 2000 names. -/
theorem cover (i : S20000x3.Idx) : ∃ t : Fin cfg12.N, (cfg12.win 5).flush t = true ∧ i ∈ ((cfg12.win 5).blk t).view.set := by
  have hi0 : (i 0).val < 20000 := (i 0).isLt
  have hi1 : (i 1).val < 3 := (i 1).isLt
  have ht : (i 0).val / 2000 < 10 := by omega
  refine ⟨⟨(i 0).val / 2000, ht⟩, flush12_5 _, ?_⟩
  rw [mem_blk]
  have e0 := (idx_facts ⟨(i 0).val / 2000, ht⟩).2.2.2.2.2.2.2.2.2.2.1
  have e1 := (idx_facts ⟨(i 0).val / 2000, ht⟩).2.2.2.2.2.2.2.2.2.2.2
  intro a
  match a with
  | ⟨0, _⟩ =>
    show win12_5.index ⟨(i 0).val / 2000, ht⟩ (0 : Fin 2) * 2000 ≤ (i 0).val ∧ (i 0).val < win12_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win12_5.index ⟨(i 0).val / 2000, ht⟩ (1 : Fin 2) * 3 ≤ (i 1).val ∧ (i 1).val < win12_5.index ⟨(i 0).val / 2000, ht⟩ (1 : Fin 2) * 3 + 3
    rw [e1]; omega

/-- The output array after the region. -/
theorem final (c : Dev nD) :
    (dat12 V c).arrAt 5 cfg12.N = Cert.Spec.decodeNodes (V c main_v220) (V c main_arg20)
      (V c main_v221) (V c main_arg22) (V c main_v222) :=
  (dat12 V c).arrAt_eq_of_cover 5 _ (fun t _ => flushed V c t) cover

end Cert.KernelIdeal.Region12

end
-- ==== Proof.Region13.lean ====
/-
  Region 13 of the kernel's @main: the edge decoder, 128 features to 1, over 160000 edges in blocks of 4000.

  The grid has 40 points; point t stages rows 4000·t … 4000·t + 3999 of the input, the whole weight and bias arrays,
  and writes back rows 4000·t … of the output. The body's stored block is, by the payload lemma, that block of rows of
  the whole-array function; the blocks of the 40 points cover every row; so the output array after the region is the
  whole-array function of the arrays the region found.
-/
import proofs.«150645_j45672682226304_2_alg».proof.Proof.Gen.KernelIdeal.Frame
import proofs.«150645_j45672682226304_2_alg».proof.Proof.Payloads
import proofs.«150645_j45672682226304_2_alg».proof.Proof.LibRowRead

set_option maxRecDepth 16384

noncomputable section

namespace Cert.KernelIdeal.Region13

open Idealize.ShloMosaic Idealize.ShloMosaic.TcCoe Idealize.ShloMosaic.ValueIdx Idealize.SL.Sem
open Cert.KernelIdeal Cert.KernelIdeal.Gen Cert.Lib.DenseLayer
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows are at block (t, 0), the others at block (0, 0). -/
theorem idx_facts : ∀ t : Fin cfg13.N, win13_0.index t (0 : Fin 2) = t.val
    ∧ win13_0.index t (1 : Fin 2) = 0
    ∧ win13_1.index t (0 : Fin 2) = 0
    ∧ win13_1.index t (1 : Fin 2) = 0
    ∧ win13_2.index t (0 : Fin 2) = 0
    ∧ win13_2.index t (1 : Fin 2) = 0
    ∧ win13_3.index t (0 : Fin 2) = 0
    ∧ win13_3.index t (1 : Fin 2) = 0
    ∧ win13_4.index t (0 : Fin 2) = 0
    ∧ win13_4.index t (1 : Fin 2) = 0
    ∧ win13_5.index t (0 : Fin 2) = t.val
    ∧ win13_5.index t (1 : Fin 2) = 0 :=
  (by decide +kernel : ∀ t : Fin grid13.N, _)

/-- The input block at point t is the block of rows of the input array that starts at row 4000·t. -/
theorem blk0 (c : Dev nD) (t : Fin cfg13.N) : RowBlk (t.val * 4000) (iblk13 V c 0 t) (V c (Pipeline.arrRef spec13 0)) :=
  RowBlk.of_read (fun y => ((cfg13.win 0).blk t).view.emb y)
    (fun y => by show win13_0.index t (0 : Fin 2) * 4000 + 1 * (y 0).val = t.val * 4000 + (y 0).val; rw [(idx_facts t).1]; omega)
    (fun y => by show win13_0.index t (1 : Fin 2) * 128 + 1 * (y 1).val = (y 1).val; rw [(idx_facts t).2.1]; omega)
    (fun y => rfl)

/-- Window 1 stages its whole array at every point. -/
theorem blk1 (c : Dev nD) (t : Fin cfg13.N) : iblk13 V c 1 t = V c (Pipeline.arrRef spec13 1) :=
  funext fun y => congrArg (V c (Pipeline.arrRef spec13 1)) (funext fun a => Fin.ext (by
    match a with
    | ⟨0, _⟩ => show win13_1.index t (0 : Fin 2) * 128 + 1 * (y 0).val = (y 0).val; rw [(idx_facts t).2.2.1]; omega
    | ⟨1, _⟩ => show win13_1.index t (1 : Fin 2) * 128 + 1 * (y 1).val = (y 1).val; rw [(idx_facts t).2.2.2.1]; omega))

/-- Window 2 stages its whole array at every point. -/
theorem blk2 (c : Dev nD) (t : Fin cfg13.N) : iblk13 V c 2 t = V c (Pipeline.arrRef spec13 2) :=
  funext fun y => congrArg (V c (Pipeline.arrRef spec13 2)) (funext fun a => Fin.ext (by
    match a with
    | ⟨0, _⟩ => show win13_2.index t (0 : Fin 2) * 1 + 1 * (y 0).val = (y 0).val; rw [(idx_facts t).2.2.2.2.1]; omega
    | ⟨1, _⟩ => show win13_2.index t (1 : Fin 2) * 128 + 1 * (y 1).val = (y 1).val; rw [(idx_facts t).2.2.2.2.2.1]; omega))

/-- Window 3 stages its whole array at every point. -/
theorem blk3 (c : Dev nD) (t : Fin cfg13.N) : iblk13 V c 3 t = V c (Pipeline.arrRef spec13 3) :=
  funext fun y => congrArg (V c (Pipeline.arrRef spec13 3)) (funext fun a => Fin.ext (by
    match a with
    | ⟨0, _⟩ => show win13_3.index t (0 : Fin 2) * 128 + 1 * (y 0).val = (y 0).val; rw [(idx_facts t).2.2.2.2.2.2.1]; omega
    | ⟨1, _⟩ => show win13_3.index t (1 : Fin 2) * 1 + 1 * (y 1).val = (y 1).val; rw [(idx_facts t).2.2.2.2.2.2.2.1]; omega))

/-- Window 4 stages its whole array at every point. -/
theorem blk4 (c : Dev nD) (t : Fin cfg13.N) : iblk13 V c 4 t = V c (Pipeline.arrRef spec13 4) :=
  funext fun y => congrArg (V c (Pipeline.arrRef spec13 4)) (funext fun a => Fin.ext (by
    match a with
    | ⟨0, _⟩ => show win13_4.index t (0 : Fin 2) * 1 + 1 * (y 0).val = (y 0).val; rw [(idx_facts t).2.2.2.2.2.2.2.2.1]; omega
    | ⟨1, _⟩ => show win13_4.index t (1 : Fin 2) * 1 + 1 * (y 1).val = (y 1).val; rw [(idx_facts t).2.2.2.2.2.2.2.2.2.1]; omega))

/-- What point t writes back is block t of the whole-array function of the arrays the region found. -/
theorem flushed (c : Dev nD) (t : Fin cfg13.N) :
    (dat13 V c).flushed 5 t = ((cfg13.win 5).blk t).view.read (Elt Ideal)
      (Cert.Spec.decodeEdges (V c main_v203_1) (V c main_arg24) (V c main_v224)
        (V c main_arg26) (V c main_v225)) := by
  show (cfg13.win 5).cut (grid13.coords t) ((dat13 V c).after 5 t) = _
  rw [after13_5]
  unfold out13_5
  rw [View.canon_unit_zero hz]
  simp only [View.ld_unit_zero (S := S4000x128) hz, View.ld_unit_zero (S := S128x128) hz, View.ld_unit_zero (S := S1x128) hz,
    View.ld_unit_zero (S := S128x1) hz, View.ld_unit_zero (S := S1x1) hz]
  rw [blk1 V c t, blk2 V c t, blk3 V c t, blk4 V c t]
  funext j
  exact (Cert.Payloads.k13_pay1_blk (blk0 V c t) _ _ _ _).read j (((cfg13.win 5).blk t).view.emb j)
    (by show win13_5.index t (0 : Fin 2) * 4000 + 1 * (j 0).val = t.val * 4000 + (j 0).val; rw [(idx_facts t).2.2.2.2.2.2.2.2.2.2.1]; omega)
    (by show win13_5.index t (1 : Fin 2) * 1 + 1 * (j 1).val = (j 1).val; rw [(idx_facts t).2.2.2.2.2.2.2.2.2.2.2]; omega)

/-- An index of the output array is in point t's block iff each coordinate is in the block's range. -/
theorem mem_blk (t : Fin cfg13.N) (i : S160000x1.Idx) :
    i ∈ ((cfg13.win 5).blk t).view.set ↔ ∀ a : Fin 2, win13_5.index t a * S4000x1.size a ≤ (i a).val ∧ (i a).val < win13_5.index t a * S4000x1.size a + S4000x1.size a := by
  show i ∈ ((View.whole main_v226).slice (win13_5.rect t)).set ↔ _
  rw [View.set_slice_whole, Rect.mem_set_unit]
  exact Iff.rfl

/-- Every row of the output is in the block of the point its row number divided by 4000 names. -/
theorem cover (i : S160000x1.Idx) : ∃ t : Fin cfg13.N, (cfg13.win 5).flush t = true ∧ i ∈ ((cfg13.win 5).blk t).view.set := by
  have hi0 : (i 0).val < 160000 := (i 0).isLt
  have hi1 : (i 1).val < 1 := (i 1).isLt
  have ht : (i 0).val / 4000 < 40 := by omega
  refine ⟨⟨(i 0).val / 4000, ht⟩, flush13_5 _, ?_⟩
  rw [mem_blk]
  have e0 := (idx_facts ⟨(i 0).val / 4000, ht⟩).2.2.2.2.2.2.2.2.2.2.1
  have e1 := (idx_facts ⟨(i 0).val / 4000, ht⟩).2.2.2.2.2.2.2.2.2.2.2
  intro a
  match a with
  | ⟨0, _⟩ =>
    show win13_5.index ⟨(i 0).val / 4000, ht⟩ (0 : Fin 2) * 4000 ≤ (i 0).val ∧ (i 0).val < win13_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win13_5.index ⟨(i 0).val / 4000, ht⟩ (1 : Fin 2) * 1 ≤ (i 1).val ∧ (i 1).val < win13_5.index ⟨(i 0).val / 4000, ht⟩ (1 : Fin 2) * 1 + 1
    rw [e1]; omega

/-- The output array after the region. -/
theorem final (c : Dev nD) :
    (dat13 V c).arrAt 5 cfg13.N = Cert.Spec.decodeEdges (V c main_v203_1) (V c main_arg24)
      (V c main_v224) (V c main_arg26) (V c main_v225) :=
  (dat13 V c).arrAt_eq_of_cover 5 _ (fun t _ => flushed V c t) cover

end Cert.KernelIdeal.Region13

end
-- ==== Proof.ChainEnd.lean ====
/-
  The decoders: regions 12 and 13 of the kernel's @main leave the two results.

  The node decoder reads the node features after the fifth step, the edge decoder the edge features after it; their
  bias vectors are reshaped into rows by the stretches of host operations before them.
-/
import proofs.«150645_j45672682226304_2_alg».proof.Proof.ChainStep4
import proofs.«150645_j45672682226304_2_alg».proof.Proof.ChainArgsE1
import proofs.«150645_j45672682226304_2_alg».proof.Proof.ChainArgsE2
import proofs.«150645_j45672682226304_2_alg».proof.Proof.Region12
import proofs.«150645_j45672682226304_2_alg».proof.Proof.Region13

set_option maxRecDepth 16384

noncomputable section

namespace Cert.Chain

open Idealize.ShloMosaic Idealize.ShloMosaic.TcCoe Idealize.ShloMosaic.StableHlo Idealize.SL.Sem
open Cert.KernelIdeal Cert.KernelIdeal.Gen Cert.KernelIdeal

variable {m : (ℓ : Loc nD τ sig) → Buf (Elt Ideal) ℓ} (ρ : Dev nD → PrngReg) {c : Dev nD}
variable {V' : Valuation Cert.ReferenceIdeal.τ Cert.ReferenceIdeal.sig (Elt Ideal)}

theorem in12_0 (h : Agree m c V') : V25 m ρ c main_v220 = (Terms.hn5 V') := (Keep.keep_host12 m ρ c main_v220 (by decide)).trans (t_hn5 ρ h)
theorem in12_1 (h : Agree m c V') : V25 m ρ c main_arg20 = (V' (Proc.devRef .tc Cert.ReferenceIdeal.main_arg20)) := arg20_at25 ρ h
set_option maxHeartbeats 4000000 in
theorem in12_2 (h : Agree m c V') : V25 m ρ c main_v221 = (Terms.row128 (V' (Proc.devRef .tc Cert.ReferenceIdeal.main_arg21))) := by
  show StableHlo.after hostOps12 (W24 m ρ c) (Proc.devRef .tc main_v221) = _
  after_results
  simp only [arg21_at24 ρ h, arg23_at24 ρ h]
  first | rfl | exact Cert.Lib.DenseLayer.addUnit_eq_bcast (by decide) _ _ _ | exact unit_row _ _ _
theorem in12_3 (h : Agree m c V') : V25 m ρ c main_arg22 = (V' (Proc.devRef .tc Cert.ReferenceIdeal.main_arg22)) := arg22_at25 ρ h
set_option maxHeartbeats 4000000 in
theorem in12_4 (h : Agree m c V') : V25 m ρ c main_v222 = (broadcastInDim Cert.ReferenceIdeal.S1x3 ![1] Cert.ReferenceIdeal.Facts₀.bcast_S3_S1x3_1 (V' (Proc.devRef .tc Cert.ReferenceIdeal.main_arg23))) := by
  show StableHlo.after hostOps12 (W24 m ρ c) (Proc.devRef .tc main_v222) = _
  after_results
  simp only [arg21_at24 ρ h, arg23_at24 ρ h]
  first | rfl | exact Cert.Lib.DenseLayer.addUnit_eq_bcast (by decide) _ _ _ | exact unit_row _ _ _

/-- Region 12's output main_v223 after the region. -/
theorem t_outN (h : Agree m c V') : W26 m ρ c (Proc.devRef .tc main_v223) = (Terms.outN V') := by
  refine (W26_arr m ρ c 5).trans ?_
  rw [Region12.final (V25 m ρ) c, in12_0 ρ h, in12_1 ρ h, in12_2 ρ h, in12_3 ρ h, in12_4 ρ h]
  rfl

theorem in13_0 (h : Agree m c V') : V27 m ρ c main_v203_1 = (Terms.he5 V') := ((Keep.keep_host13 m ρ c main_v203_1 (by decide)).trans ((W26_of_ne m ρ c main_v203_1 (by decide)).trans ((Keep.keep_host12 m ρ c main_v203_1 (by decide)).trans ((W24_of_ne m ρ c main_v203_1 (by decide)).trans (Keep.keep_host11 m ρ c main_v203_1 (by decide)))))).trans (t_he5 ρ h)
theorem in13_1 (h : Agree m c V') : V27 m ρ c main_arg24 = (V' (Proc.devRef .tc Cert.ReferenceIdeal.main_arg24)) := arg24_at27 ρ h
set_option maxHeartbeats 4000000 in
theorem in13_2 (h : Agree m c V') : V27 m ρ c main_v224 = (Terms.row128 (V' (Proc.devRef .tc Cert.ReferenceIdeal.main_arg25))) := by
  show StableHlo.after hostOps13 (W26 m ρ c) (Proc.devRef .tc main_v224) = _
  after_results
  simp only [arg25_at26 ρ h, arg27_at26 ρ h]
  first | rfl | exact Cert.Lib.DenseLayer.addUnit_eq_bcast (by decide) _ _ _ | exact unit_row _ _ _
theorem in13_3 (h : Agree m c V') : V27 m ρ c main_arg26 = (V' (Proc.devRef .tc Cert.ReferenceIdeal.main_arg26)) := arg26_at27 ρ h
set_option maxHeartbeats 4000000 in
theorem in13_4 (h : Agree m c V') : V27 m ρ c main_v225 = (broadcastInDim Cert.ReferenceIdeal.S1x1 ![1] Cert.ReferenceIdeal.Facts₀.bcast_S1_S1x1_1 (V' (Proc.devRef .tc Cert.ReferenceIdeal.main_arg27))) := by
  show StableHlo.after hostOps13 (W26 m ρ c) (Proc.devRef .tc main_v225) = _
  after_results
  simp only [arg25_at26 ρ h, arg27_at26 ρ h]
  first | rfl | exact Cert.Lib.DenseLayer.addUnit_eq_bcast (by decide) _ _ _ | exact unit_row _ _ _

/-- Region 13's output main_v226 after the region. -/
theorem t_outE (h : Agree m c V') : W28 m ρ c (Proc.devRef .tc main_v226) = (Terms.outE V') := by
  refine (W28_arr m ρ c 5).trans ?_
  rw [Region13.final (V27 m ρ) c, in13_0 ρ h, in13_1 ρ h, in13_2 ρ h, in13_3 ρ h, in13_4 ρ h]
  rfl

end Cert.Chain

end
-- ==== Proof.RefMatch.lean ====
/-
  The reference program's results are the terms of Terms.lean.

  The reference's run ends each result at the composition of its host operations applied to the launch contents of
  the arguments. Operation by operation that composition is the network as Terms.lean spells it, so the two are equal
  by unfolding the names on both sides.
-/
import proofs.«150645_j45672682226304_2_alg».proof.Proof.Terms
import proofs.«150645_j45672682226304_2_alg».proof.Proof.Gen.ReferenceIdeal.Run

set_option maxRecDepth 16384

noncomputable section

namespace Cert.RefMatch

open Idealize.ShloMosaic Idealize.ShloMosaic.StableHlo Cert.ReferenceIdeal Cert.ReferenceIdeal.Facts₀ Cert.ReferenceIdeal.Value Cert.Terms

variable (V : Valuation τ sig (Elt Ideal))

theorem r_hn0 : res_main_v9 V = hn0 V := rfl
theorem r_he0 : res_main_v19 V = he0 V := rfl
theorem r_enew0 : res_main_v52 V = enew0 V := by unfold res_main_v52 enew0; rw [r_hn0, r_he0]
theorem r_he1 : res_main_v79 V = he1 V := by unfold res_main_v79 he1; rw [r_enew0, r_he0]
theorem r_hn1 : res_main_v78 V = hn1 V := by unfold res_main_v78 hn1; rw [r_enew0, r_hn0]
theorem r_enew1 : res_main_v112 V = enew1 V := by unfold res_main_v112 enew1; rw [r_hn1, r_he1]
theorem r_he2 : res_main_v139 V = he2 V := by unfold res_main_v139 he2; rw [r_enew1, r_he1]
theorem r_hn2 : res_main_v138 V = hn2 V := by unfold res_main_v138 hn2; rw [r_enew1, r_hn1]
theorem r_enew2 : res_main_v172 V = enew2 V := by unfold res_main_v172 enew2; rw [r_hn2, r_he2]
theorem r_he3 : res_main_v199 V = he3 V := by unfold res_main_v199 he3; rw [r_enew2, r_he2]
theorem r_hn3 : res_main_v198 V = hn3 V := by unfold res_main_v198 hn3; rw [r_enew2, r_hn2]
theorem r_enew3 : res_main_v232 V = enew3 V := by unfold res_main_v232 enew3; rw [r_hn3, r_he3]
theorem r_he4 : res_main_v259 V = he4 V := by unfold res_main_v259 he4; rw [r_enew3, r_he3]
theorem r_hn4 : res_main_v258 V = hn4 V := by unfold res_main_v258 hn4; rw [r_enew3, r_hn3]
theorem r_enew4 : res_main_v292 V = enew4 V := by unfold res_main_v292 enew4; rw [r_hn4, r_he4]

/-- The first result: the decoded nodes. -/
theorem outN_eq : val7 V (Proc.devRef .tc main_v329) = outN V := by
  rw [val7_main_v329]; unfold outN hn5; rw [r_enew4, r_hn4]
/-- The second result: the decoded edges. -/
theorem outE_eq : val7 V (Proc.devRef .tc main_v339) = outE V := by
  rw [val7_main_v339]; unfold outE he5; rw [r_enew4, r_he4]

end Cert.RefMatch

end
-- ==== Proof.lean ====
/-
  The certificate of an encode–process–decode graph network: a Pallas kernel program of fourteen kernel regions
  against its plain jnp reference, at the extended reals.

  Both programs encode node and edge features by two-layer perceptrons, run five message-passing steps — each an
  edge update on (edge, sender node, receiver node) features, two segment sums of the new edge features, and a node
  update on (node, sent sum, received sum), with residual sums — and decode. The kernel program runs every
  perceptron as a row-tiled kernel (bf16 operands, which at the extended reals are the operands themselves), splits
  the 384-column first product of each update into three 128-column products summed, and fuses the residual sums; it
  gathers and scatters on the host with the same operations as the reference. The claim's algebraic part follows
  from: each region's output array is the perceptron of the arrays it found (Region*.lean over Payloads.lean, whose
  one law is Bands.lean's), the boundaries between segments keep what no one writes (Keep.lean), so the two results
  are the terms of Terms.lean (Chain*.lean), which the reference's run computes as well (RefMatch.lean). No
  finiteness of the inputs is used: the one law is a regrouping of a finite sum.
  The three frames are the generated ones; the ideal pass rewrote nothing, so the preservation part is trivial.
-/
import proofs.«150645_j45672682226304_2_alg».proof.Defs
import proofs.«150645_j45672682226304_2_alg».proof.Proof.Gen.Kernel
import proofs.«150645_j45672682226304_2_alg».proof.Proof.Gen.Kernel.Frame
import proofs.«150645_j45672682226304_2_alg».proof.Proof.Gen.KernelIdeal
import proofs.«150645_j45672682226304_2_alg».proof.Proof.Gen.KernelIdeal.Frame
import proofs.«150645_j45672682226304_2_alg».proof.Proof.Gen.ReferenceIdeal
import proofs.«150645_j45672682226304_2_alg».proof.Proof.Gen.ReferenceIdeal.Run
import proofs.«150645_j45672682226304_2_alg».proof.Proof.Gen.Pre_finite_inputs
import proofs.«150645_j45672682226304_2_alg».proof.Proof.KernelRun
import proofs.«150645_j45672682226304_2_alg».proof.Proof.ChainEnd
import proofs.«150645_j45672682226304_2_alg».proof.Proof.RefMatch
import Idealize.ShloMosaic.Adequacy
import Idealize.ShloMosaic.Init

set_option maxRecDepth 16384

noncomputable section

namespace Cert.Proof

open Idealize.ShloMosaic Idealize.ShloMosaic.StableHlo Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the decoded nodes and the decoded edges of
    Terms.lean, read at the reference's launch contents. -/
theorem algebraic : Cert.algebraic_KernelIdeal_ReferenceIdeal := by
  intro m ρ m' ρ' _ hagree
  have hA : ∀ c, Cert.Chain.Agree m c (launchContents m' c) := fun c => by
    obtain ⟨h0, h1, h2, h3, h4, h5, h6, h7, h8, h9, h10, h11, h12, h13, h14, h15, h16, h17, h18, h19, h20, h21, h22, h23, h24, h25, h26, h27⟩ := hagree c
    exact ⟨h0, h1, h2, h3, h4, h5, h6, h7, h8, h9, h10, h11, h12, h13, h14, h15, h16, h17, h18, h19, h20, h21, h22, h23, h24, h25, h26, h27⟩
  refine ⟨fun c => Cert.Terms.outN (launchContents m' c), fun c => Cert.Terms.outE (launchContents m' c), ?_, ?_⟩
  · refine (θ_run Cert.KernelIdeal.defs _ _).mono (fun r h c => ?_) (Cert.KernelIdeal.ValueRun.run m ρ)
    obtain ⟨⟨hN, hE⟩, hall⟩ := h c
    exact ⟨hN.trans (Cert.Chain.t_outN ρ (hA c)), hE.trans (Cert.Chain.t_outE ρ (hA c)),
      (hall Cert.KernelIdeal.main_arg0 (by decide)).trans (Cert.KernelIdeal.Gen.W28_main_arg0 m ρ c),
      (hall Cert.KernelIdeal.main_arg1 (by decide)).trans (Cert.KernelIdeal.Gen.W28_main_arg1 m ρ c),
      (hall Cert.KernelIdeal.main_arg2 (by decide)).trans (Cert.KernelIdeal.Gen.W28_main_arg2 m ρ c),
      (hall Cert.KernelIdeal.main_arg3 (by decide)).trans (Cert.KernelIdeal.Gen.W28_main_arg3 m ρ c),
      (hall Cert.KernelIdeal.main_arg4 (by decide)).trans (Cert.KernelIdeal.Gen.W28_main_arg4 m ρ c),
      (hall Cert.KernelIdeal.main_arg5 (by decide)).trans (Cert.KernelIdeal.Gen.W28_main_arg5 m ρ c),
      (hall Cert.KernelIdeal.main_arg6 (by decide)).trans (Cert.KernelIdeal.Gen.W28_main_arg6 m ρ c),
      (hall Cert.KernelIdeal.main_arg7 (by decide)).trans (Cert.KernelIdeal.Gen.W28_main_arg7 m ρ c),
      (hall Cert.KernelIdeal.main_arg8 (by decide)).trans (Cert.KernelIdeal.Gen.W28_main_arg8 m ρ c),
      (hall Cert.KernelIdeal.main_arg9 (by decide)).trans (Cert.KernelIdeal.Gen.W28_main_arg9 m ρ c),
      (hall Cert.KernelIdeal.main_arg10 (by decide)).trans (Cert.KernelIdeal.Gen.W28_main_arg10 m ρ c),
      (hall Cert.KernelIdeal.main_arg11 (by decide)).trans (Cert.KernelIdeal.Gen.W28_main_arg11 m ρ c),
      (hall Cert.KernelIdeal.main_arg12 (by decide)).trans (Cert.KernelIdeal.Gen.W28_main_arg12 m ρ c),
      (hall Cert.KernelIdeal.main_arg13 (by decide)).trans (Cert.KernelIdeal.Gen.W28_main_arg13 m ρ c),
      (hall Cert.KernelIdeal.main_arg14 (by decide)).trans (Cert.KernelIdeal.Gen.W28_main_arg14 m ρ c),
      (hall Cert.KernelIdeal.main_arg15 (by decide)).trans (Cert.KernelIdeal.Gen.W28_main_arg15 m ρ c),
      (hall Cert.KernelIdeal.main_arg16 (by decide)).trans (Cert.KernelIdeal.Gen.W28_main_arg16 m ρ c),
      (hall Cert.KernelIdeal.main_arg17 (by decide)).trans (Cert.KernelIdeal.Gen.W28_main_arg17 m ρ c),
      (hall Cert.KernelIdeal.main_arg18 (by decide)).trans (Cert.KernelIdeal.Gen.W28_main_arg18 m ρ c),
      (hall Cert.KernelIdeal.main_arg19 (by decide)).trans (Cert.KernelIdeal.Gen.W28_main_arg19 m ρ c),
      (hall Cert.KernelIdeal.main_arg20 (by decide)).trans (Cert.KernelIdeal.Gen.W28_main_arg20 m ρ c),
      (hall Cert.KernelIdeal.main_arg21 (by decide)).trans (Cert.KernelIdeal.Gen.W28_main_arg21 m ρ c),
      (hall Cert.KernelIdeal.main_arg22 (by decide)).trans (Cert.KernelIdeal.Gen.W28_main_arg22 m ρ c),
      (hall Cert.KernelIdeal.main_arg23 (by decide)).trans (Cert.KernelIdeal.Gen.W28_main_arg23 m ρ c),
      (hall Cert.KernelIdeal.main_arg24 (by decide)).trans (Cert.KernelIdeal.Gen.W28_main_arg24 m ρ c),
      (hall Cert.KernelIdeal.main_arg25 (by decide)).trans (Cert.KernelIdeal.Gen.W28_main_arg25 m ρ c),
      (hall Cert.KernelIdeal.main_arg26 (by decide)).trans (Cert.KernelIdeal.Gen.W28_main_arg26 m ρ c),
      (hall Cert.KernelIdeal.main_arg27 (by decide)).trans (Cert.KernelIdeal.Gen.W28_main_arg27 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · exact (Cert.ReferenceIdeal.Value.val7_main_v329 _).symm.trans (Cert.RefMatch.outN_eq _)
    · exact (Cert.ReferenceIdeal.Value.val7_main_v339 _).symm.trans (Cert.RefMatch.outE_eq _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
